-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S1024x256 .f32) (main_arg5 : FVec F S1024 .f32) (main_arg6 : FVec F S256x1024 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x256 .f32) (main_arg1 : FVec F S8x4096x256 .f32) (main_arg2 : FVec F S256x256 .f32) (main_arg3 : FVec F S256 .f32) (main_arg4 : FVec F S1024x256 .f32) (main_arg5 : FVec F S1024 .f32) (main_arg6 : FVec F S256x1024 .f32) (main_arg7 : FVec F S256 .f32) (main_arg8 : FVec F S256 .f32) (main_arg9 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8x4096x256 : Shape := ⟨3, ![8, 4096, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S1x512x256 : Shape := ⟨3, ![1, 512, 256]⟩
abbrev S512x256 : Shape := ⟨2, ![512, 256]⟩
abbrev S1x256 : Shape := ⟨2, ![1, 256]⟩
abbrev S8x4096x4096 : Shape := ⟨3, ![8, 4096, 4096]⟩
abbrev S1x512x512 : Shape := ⟨3, ![1, 512, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S512x1024 : Shape := ⟨2, ![512, 1024]⟩
abbrev S1x1024 : Shape := ⟨2, ![1, 1024]⟩

abbrev nBuf : Space → Nat
  | .hbm => 14
  | .vmem => 34
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S256x256, .f32⟩
  | .hbm, ⟨3, _⟩ => ⟨S256, .f32⟩
  | .hbm, ⟨4, _⟩ => ⟨S1024x256, .f32⟩
  | .hbm, ⟨5, _⟩ => ⟨S1024, .f32⟩
  | .hbm, ⟨6, _⟩ => ⟨S256x1024, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S8x4096x256, .f32⟩
  | .hbm, ⟨11, _⟩ => ⟨S8x4096x256, .f32⟩
  | .hbm, ⟨12, _⟩ => ⟨S8x4096x4096, .bf16⟩
  | .hbm, ⟨13, _⟩ => ⟨S8x4096x256, .f32⟩
  | .local _ .vmem, ⟨0, _⟩ => ⟨S1x512x256, .f32⟩
  | .local _ .vmem, ⟨1, _⟩ => ⟨S1x512x256, .f32⟩
  | .local _ .vmem, ⟨2, _⟩ => ⟨S256x256, .f32⟩
  | .local _ .vmem, ⟨3, _⟩ => ⟨S256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x512, .bf16⟩
  | .local _ .vmem, ⟨15, _⟩ => ⟨S1x512x512, .bf16⟩
  | .local _ .vmem, ⟨16, _⟩ => ⟨S512x256, .f32⟩
  | .local _ .vmem, ⟨17, _⟩ => ⟨S1x512, .f32⟩
  | .local _ .vmem, ⟨18, _⟩ => ⟨S1x512x256, .f32⟩
  | .local _ .vmem, ⟨19, _⟩ => ⟨S1x512x256, .f32⟩
  | .local _ .vmem, ⟨20, _⟩ => ⟨S1x512x512, .bf16⟩
  | .local _ .vmem, ⟨21, _⟩ => ⟨S1x512x512, .bf16⟩
  | .local _ .vmem, ⟨22, _⟩ => ⟨S1x512x256, .f32⟩
  | .local _ .vmem, ⟨23, _⟩ => ⟨S1x512x256, .f32⟩
  | .local _ .vmem, ⟨24, _⟩ => ⟨S1024x256, .f32⟩
  | .local _ .vmem, ⟨25, _⟩ => ⟨S1024, .f32⟩
  | .local _ .vmem, ⟨26, _⟩ => ⟨S256x1024, .f32⟩
  | .local _ .vmem, ⟨27, _⟩ => ⟨S256, .f32⟩
  | .local _ .vmem, ⟨28, _⟩ => ⟨S256, .f32⟩
  | .local _ .vmem, ⟨29, _⟩ => ⟨S256, .f32⟩
  | .local _ .vmem, ⟨30, _⟩ => ⟨S1x512x256, .f32⟩
  | .local _ .vmem, ⟨31, _⟩ => ⟨S1x512x256, .f32⟩
  | .local _ .vmem, ⟨32, _⟩ => ⟨S512x256, .f32⟩
  | .local _ .vmem, ⟨33, _⟩ => ⟨S512x1, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc2_scratch0 : Ref sig .tc := ⟨.vmem, 32, rfl⟩
abbrev cc2_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v46 : BitVec 1 := Scalar.cmpi .eq arg2 c7_i32
  let v47 : BitVec 32 := Scalar.extui v46
  let c0_i32_26 : BitVec 32 := 0#32
  let v48 : BitVec 1 := Scalar.cmpi .ne v47 c0_i32_26
  v48

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨3, ![8, 8, 8], ![false, false, false]⟩

def k2_cond2 (i : grid2.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_18 : BitVec 32 := 0#32
  let v26 : BitVec 1 := Scalar.cmpi .ne v25 c0_i32_18
  v26

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_9 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 1 → Memref sig .tc .vmem S1024x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false, false]

abbrev stage2_8 : Fin 1 → Memref sig .tc .vmem S256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false, false]

abbrev stage2_9 : Fin 2 → Memref sig .tc .vmem S1x512x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true, false]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  shapeCasts_S512x256_S1x512x256 : S512x256.ShapeCasts S1x512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  natLt_1_32 : 1 < 32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  reduces_S512x512_S512 : S512x512.Reduces [0] S512
  shapeCasts_S512_S1x512 : S512.ShapeCasts S1x512
  transposes_S1x512_p1_0_S512x1 : S1x512.Transposes [1, 0] S512x1
  broadcasts_S512x1_S512x256 : S512x1.Broadcasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512_2 : S512x512.Reduces [1] S512
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S256x1024_S256x1024_0_0 : ∀ a, (![0, 0] : Fin 2 → Nat) a + S256x1024.size a ≤ S256x1024.size a
  h_S256x1024 : 0 < S256x1024.numel
  dot_S512x256_S256x256_S512x256_1_1_0_0_n_n_wf : DotDims.WF S512x256 S256x256 S512x256 [1] [1] [0] [0] [] []
  dot_S512x256_S512x256_S512x512_1_1_0_0_n_n_wf : DotDims.WF S512x256 S512x256 S512x512 [1] [1] [0] [0] [] []
  dot_S512x512_S512x256_S512x256_0_0_1_1_n_n_wf : DotDims.WF S512x512 S512x256 S512x256 [0] [0] [1] [1] [] []
  dot_S512x512_S512x256_S512x256_1_0_0_1_n_n_wf : DotDims.WF S512x512 S512x256 S512x256 [1] [0] [0] [1] [] []
  dot_S512x256_S1024x256_S512x1024_1_1_0_0_n_n_wf : DotDims.WF S512x256 S1024x256 S512x1024 [1] [1] [0] [0] [] []
  dot_S512x1024_S256x1024_S512x256_1_1_0_0_n_n_wf : DotDims.WF S512x1024 S256x1024 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x4096x256.size a
  hwx0_0 : ∀ i : grid0.Coords, EltTy.bits .f32 = 32 ∨ (Rect.block (s := S8x4096x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x4096x256.size a
  hwx0_3 : ∀ i : grid0.Coords, EltTy.bits .f32 = 32 ∨ (Rect.block (s := S8x4096x256) S1x512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x4096x256.size a
  hwx1_0 : ∀ i : grid1.Coords, EltTy.bits .f32 = 32 ∨ (Rect.block (s := S8x4096x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S8x4096x256.size a
  hwx1_1 : ∀ i : grid1.Coords, EltTy.bits .f32 = 32 ∨ (Rect.block (s := S8x4096x256) S1x512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S8x4096x256.size a
  hwx1_2 : ∀ i : grid1.Coords, EltTy.bits .f32 = 32 ∨ (Rect.block (s := S8x4096x256) S1x512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S8x4096x256.size a
  hwx1_3 : ∀ i : grid1.Coords, EltTy.bits .f32 = 32 ∨ (Rect.block (s := S8x4096x256) S1x512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S8x4096x4096.size a
  hwx1_4 : ∀ i : grid1.Coords, EltTy.bits .bf16 = 32 ∨ (Rect.block (s := S8x4096x4096) S1x512x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x256.size a ≤ S8x4096x256.size a
  hwx2_0 : ∀ i : grid2.Coords, EltTy.bits .f32 = 32 ∨ (Rect.block (s := S8x4096x256) S1x512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x512.size a ≤ S8x4096x4096.size a
  hwx2_1 : ∀ i : grid2.Coords, EltTy.bits .bf16 = 32 ∨ (Rect.block (s := S8x4096x4096) S1x512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x256.size a ≤ S8x4096x256.size a
  hwx2_2 : ∀ i : grid2.Coords, EltTy.bits .f32 = 32 ∨ (Rect.block (s := S8x4096x256) S1x512x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S1024x256.size a
  hwx2_3 : ∀ i : grid2.Coords, EltTy.bits .f32 = 32 ∨ (Rect.block (s := S1024x256) S1024x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S256x1024.size a
  hwx2_5 : ∀ i : grid2.Coords, EltTy.bits .f32 = 32 ∨ (Rect.block (s := S256x1024) S256x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256.size a ≤ S256.size a
  hwx2_8 : ∀ i : grid2.Coords, EltTy.bits .f32 = 32 ∨ (Rect.block (s := S256) S256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x512x256.size a ≤ S8x4096x256.size a
  hwx2_9 : ∀ i : grid2.Coords, EltTy.bits .f32 = 32 ∨ (Rect.block (s := S8x4096x256) S1x512x256.size (cc2_transform_9 i) (hinb2_9 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf

abbrev win0_0 : Pipeline.Window sig grid0 :=
  Pipeline.Window.ofSpec (Memref.whole main_arg1) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x512x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun _ => false | ⟨_ + 5, h⟩ => absurd h (Nat.not_lt.2 (Nat.le_add_left _ _))

abbrev win2_0 : Pipeline.Window sig grid2 :=
  Pipeline.Window.ofSpec (Memref.whole main_arg1) S1x512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S1x512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S1x512x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S1024x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S256x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg9) S256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v2) S1x512x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S1x1x256 : Shape := ⟨3, ![1, 1, 256]⟩
abbrev S8x4096x1024 : Shape := ⟨3, ![8, 4096, 1024]⟩
abbrev S1x1x1024 : Shape := ⟨3, ![1, 1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S256x256, .f32⟩
  | .hbm, ⟨3, _⟩ => ⟨S256, .f32⟩
  | .hbm, ⟨4, _⟩ => ⟨S1024x256, .f32⟩
  | .hbm, ⟨5, _⟩ => ⟨S1024, .f32⟩
  | .hbm, ⟨6, _⟩ => ⟨S256x1024, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S8x4096x256, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S8x4096x256, .f32⟩
  | .hbm, ⟨15, _⟩ => ⟨S_, .f32⟩
  | .hbm, ⟨16, _⟩ => ⟨S8x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S8x4096x256, .f32⟩
  | .hbm, ⟨35, _⟩ => ⟨S1x1x256, .f32⟩
  | .hbm, ⟨36, _⟩ => ⟨S8x4096x256, .f32⟩
  | .hbm, ⟨37, _⟩ => ⟨S8x4096x256, .f32⟩
  | .hbm, ⟨38, _⟩ => ⟨S8x4096x4096, .f32⟩
  | .hbm, ⟨39, _⟩ => ⟨S8x4096x256, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .i1⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x256, .f32⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .i1⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x256, .f32⟩
  | .hbm, ⟨71, _⟩ => ⟨S8x4096x256, .f32⟩
  | .hbm, ⟨72, _⟩ => ⟨S8x4096x256, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096x1024, .f32⟩
  | .hbm, ⟨79, _⟩ => ⟨S8x4096x1024, .f32⟩
  | .hbm, ⟨80, _⟩ => ⟨S8x4096x256, .f32⟩
  | .hbm, ⟨81, _⟩ => ⟨S1x1x256, .f32⟩
  | .hbm, ⟨82, _⟩ => ⟨S8x4096x256, .f32⟩
  | .hbm, ⟨83, _⟩ => ⟨S8x4096x256, .f32⟩
  | .hbm, ⟨84, _⟩ => ⟨S8x4096x256, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S8x4096x256, .f32⟩
  | .hbm, ⟨92, _⟩ => ⟨S8x4096x256, .f32⟩
  | .hbm, ⟨93, _⟩ => ⟨S8x4096x256, .f32⟩
  | .hbm, ⟨94, _⟩ => ⟨S_, .f32⟩
  | .hbm, ⟨95, _⟩ => ⟨S8x4096, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S8x4096x256, .f32⟩
  | .hbm, ⟨101, _⟩ => ⟨S8x4096x256, .f32⟩
  | .hbm, ⟨102, _⟩ => ⟨S_, .f32⟩
  | .hbm, ⟨103, _⟩ => ⟨S8x4096x1, .f32⟩
  | .hbm, ⟨104, _⟩ => ⟨S8x4096x1, .f32⟩
  | .hbm, ⟨105, _⟩ => ⟨S8x4096x1, .f32⟩
  | .hbm, ⟨106, _⟩ => ⟨S8x4096x256, .f32⟩
  | .hbm, ⟨107, _⟩ => ⟨S8x4096x256, .f32⟩
  | .hbm, ⟨108, _⟩ => ⟨S1x1x256, .f32⟩
  | .hbm, ⟨109, _⟩ => ⟨S8x4096x256, .f32⟩
  | .hbm, ⟨110, _⟩ => ⟨S8x4096x256, .f32⟩
  | .hbm, ⟨111, _⟩ => ⟨S1x1x256, .f32⟩
  | .hbm, ⟨112, _⟩ => ⟨S8x4096x256, .f32⟩
  | .hbm, ⟨113, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_call0_v0 : Ref sig .tc := ⟨.hbm, 50, rfl⟩
abbrev main_call0_v1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_call1_v0 : Ref sig .tc := ⟨.hbm, 67, rfl⟩
abbrev main_call1_v1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call2_cst : Ref sig .tc := ⟨.hbm, 77, rfl⟩
abbrev main_call2_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  transposes_S8x4096x4096_S8x4096x4096_0_2_1 : S8x4096x4096.Transposes [0, 2, 1] S8x4096x4096
  reducesTo_S8x4096x4096_S8x4096_d2 : S8x4096x4096.ReducesTo [2] S8x4096
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x256_S8x4096x256_S8x4096x4096_2_2_1_1_0_0_wf : DotDims.WF S8x4096x256 S8x4096x256 S8x4096x4096 [2] [2] [1] [1] [0] [0]
  dot_S8x4096x256_S256x256_S8x4096x256_2_1_01_0_n_n_wf : DotDims.WF S8x4096x256 S256x256 S8x4096x256 [2] [1] [0, 1] [0] [] []
  dot_S8x4096x4096_S8x4096x256_S8x4096x256_2_1_1_2_0_0_wf : DotDims.WF S8x4096x4096 S8x4096x256 S8x4096x256 [2] [1] [1] [2] [0] [0]
  dot_S8x4096x256_S1024x256_S8x4096x1024_2_1_01_0_n_n_wf : DotDims.WF S8x4096x256 S1024x256 S8x4096x1024 [2] [1] [0, 1] [0] [] []
  dot_S8x4096x1024_S256x1024_S8x4096x256_2_1_01_0_n_n_wf : DotDims.WF S8x4096x1024 S256x1024 S8x4096x256 [2] [1] [0, 1] [0] [] []

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf
def dot_S8x4096x256_S1024x256_S8x4096x1024_2_1_01_0_n_n : DotDims S8x4096x256 S1024x256 S8x4096x1024 where
  lhsContracting := [2]
  rhsContracting := [1]
  lhsNonContracting := [0, 1]
  rhsNonContracting := [0]
  lhsBatch := []
  rhsBatch := []
  wf := dot_S8x4096x256_S1024x256_S8x4096x1024_2_1_01_0_n_n_wf
def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf

class Facts : Prop extends Facts₀ where

variable [Facts]
-- ==== Proof.K.Reg0.lean ====
/-
  The first region: the projection of the node features, X = f · W_fcᵀ + b_fc, one (batch, 512-row tile) block per grid
  point. The body reads the tile of f, the whole weight matrix and the whole bias, and stores ONE whole block: what it
  leaves in the output's staging buffer is the single store's value of the three input blocks. Stated at a parameter
  `V`, the contents of every buffer when the region is entered, and at any float instance.
-/
import proofs.«155549_j32615981646424_2_alg».proof.Proof.Gen.Kernel.Launch
import proofs.«155549_j32615981646424_2_alg».proof.Proof.Gen.Kernel.Skeleton
import proofs.«155549_j32615981646424_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, its block
    index has not moved), for any proof data over `V`'s arrays whose body leaves the block in place. -/
theorem before_in_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, its block
    index has not moved), for any proof data over `V`'s arrays whose body leaves the block in place. -/
theorem before_in_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, its block
    index has not moved), for any proof data over `V`'s arrays whose body leaves the block in place. -/
theorem before_in_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each load and the one store take the whole buffer -/

abbrev rBlk : Rect S1x512x256 := Rect.unit (s := S1x512x256) ![0, 0, 0] S1x512x256.size inb_S1x512x256_S1x512x256_0_0_0
abbrev rW : Rect S256x256 := Rect.unit (s := S256x256) ![0, 0] S256x256.size inb_S256x256_S256x256_0_0
abbrev rB : Rect S256 := Rect.unit (s := S256) ![0] S256.size inb_S256_S256_0

/-- What the body leaves in the output's staging buffer, from the three input blocks: its one store. -/
def outX (x0 : Vec F S1x512x256 .f32) (x1 : Vec F S256x256 .f32) (x2 : Vec F S256 .f32) : Vec F S1x512x256 .f32 :=
  View.canon [⟨rBlk, k0_pay1 (View.ld x0 rBlk) (View.ld x1 rW) (View.ld x2 rB)⟩]

/-- The one store takes the whole buffer, so it covers it. -/
theorem coverX (p0 : Vec F S1x512x256 .f32) (y : S1x512x256.Idx) :
    ∃ pc ∈ ([⟨rBlk, p0⟩] : List (View.Piece (Elt F) S1x512x256 .f32)), y ∈ pc.1.set :=
  View.cover_of_tiled [⟨rBlk, p0⟩] S1x512x256.size (by rfl) y

/-! ## The body's triple -/

set_option maxHeartbeats 1000000 in
/-- On whole staging memrefs, the inputs' at read contents and the output's at anything, the body runs to the
    continuation with the inputs as they were and the output at `outX` of them. -/
theorem sound_kernel (c : Dev nD) (E : Set ℕ) (i : grid0.Coords)
    (arg2 : Memref sig .tc .vmem S1x512x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S1x512x256 .f32) (harg5 : arg5.IsWhole)
    (x0 : Vec F S1x512x256 .f32) (x1 : Vec F S256x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outX x0 x1 x2)) -∗ K ⟨⟩))
      ⊢ wp frame (wpE (defs₀ (F := F)) Variants.none c none) E (cc0__kx_body i arg2 harg2 arg3 harg3 arg4 harg4 arg5 harg5) K := by
  simp only [cc0__kx_body_eq_skeleton]; unfold cc0__kx_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

/-! ## The proof data -/

/-- The proof data of the region on core `c`: the arrays as the region finds them; after the body at point `t` each
    input's buffer at its block and the output's at `outX` of the input blocks; the invariant is the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outX (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outX (iblk V c 0 t) (iblk V c 1 t) (iblk V c 2 t) := by dsimp only [dat]

theorem before_0 (c : Dev nD) (t : Fin cfg0.N) (d) : (dat V c).before 0 t d = iblk V c 0 t :=
  before_in_0_of V (dat V c) (A_eq V c 0) (after_0 V c) t d
theorem before_1 (c : Dev nD) (t : Fin cfg0.N) (d) : (dat V c).before 1 t d = iblk V c 1 t :=
  before_in_1_of V (dat V c) (A_eq V c 1) (after_1 V c) t d
theorem before_2 (c : Dev nD) (t : Fin cfg0.N) (d) : (dat V c).before 2 t d = iblk V c 2 t :=
  before_in_2_of V (dat V c) (A_eq V c 2) (after_2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-- The invariant is the launch's own at every point. -/
theorem hin (c : Dev nD) : (Pipeline.ΦA spec0 c : sProp 𝕄) ⊢ (dat V c).Φ 0 := Idealize.SL.BI.Entails.refl _
theorem hout (c : Dev nD) : (dat V c).Φ (Fin.last cfg0.N) ⊢ (Pipeline.ΦA spec0 c : sProp 𝕄) := Idealize.SL.BI.Entails.refl _

end Cert.Kernel.Reg0

end
-- ==== Proof.K.Reg1Cond.lean ====
/-
  What the hyperedge-aggregation kernel's frame proof shares: the two conditions its body branches on, as propositions
  over the grid coordinates — the node tile is the first of its sweep (the running sums restart), the node tile is the
  last of its sweep (the hyperedge features are stored) —; the values its stores write, named after what they are; and
  the fact that reading a buffer back after a store through its whole shape gives the stored value.
-/
import proofs.«155549_j32615981646424_2_alg».proof.Proof.Gen.Kernel.Launch
import proofs.«155549_j32615981646424_2_alg».proof.Proof.Gen.Kernel.Skeleton
import proofs.«155549_j32615981646424_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition (the node tile is the first of its sweep), from the grid coordinates. -/
abbrev cond0 (i : grid1.Coords) : Prop := (Scalar.cmpi .ne (Scalar.extui (Scalar.cmpi .eq (BitVec.ofNat 32 (i 2).val) 0#32)) 0#32) = 1#1

/-- The second conditional's condition (the node tile is the last of its sweep). -/
abbrev cond1 (i : grid1.Coords) : Prop := k1_cond2 i = 1#1

/-! ## The stored values -/

/-- The incidence block of a node tile `x0` against a hyperedge tile `x1`, as stored. -/
def hgPay (x0 x1 : Vec F S1x512x256 .f32) : Vec F S1x512x512 .bf16 := k1_pay8 x0 x1

/-- The weighted feature sum after a point: the block's contribution (incidence transposed times the node features
    `x2`) added to what the sum held. -/
def accStep (x0 x1 x2 : Vec F S1x512x256 .f32) (a : Vec F S512x256 .f32) : Vec F S512x256 .f32 :=
  k1_pay1 (k1_pay9 x0 x1 x2) a

/-- The column counts after a point: the block's column sums added to what the counts held. -/
def degStep (x0 x1 : Vec F S1x512x256 .f32) (d : Vec F S1x512 .f32) : Vec F S1x512 .f32 :=
  k1_pay2 (k1_pay7 x0 x1) d

/-- The hyperedge features' tile from the hyperedge queries' tile `x1`, the finished counts `d` and the finished
    weighted sum `a`. -/
def edgeOut (x1 : Vec F S1x512x256 .f32) (d : Vec F S1x512 .f32) (a : Vec F S512x256 .f32) : Vec F S1x512x256 .f32 :=
  k1_pay3 (k1_pay6 x1) d a

/-! ## Reading back a store through the whole shape -/

theorem hz3 : (![0, 0, 0] : Fin 3 → Nat) = fun _ => 0 := funext fun a => by fin_cases a <;> rfl
theorem hz2 : (![0, 0] : Fin 2 → Nat) = fun _ => 0 := funext fun a => by fin_cases a <;> rfl

/-- After writes whose last is a store through the whole shape, the buffer reads that store's value, whatever it held
    and whatever the earlier writes were. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

end Cert.Kernel.Reg1

end
-- ==== Proof.K.Reg1Defs.lean ====
/-
  The hyperedge-aggregation region (the second of the three kernels), point by point.

  The grid is (batch b, hyperedge tile e, node tile v), 8 x 8 x 8 points, the node tile moving fastest; point t has
  v = t mod 8. At every point the body computes, from the node queries' tile (window 0), the hyperedge queries' tile
  (window 1) and the projected node features' tile (window 2), the 512 x 512 incidence block, stores it (window 4),
  and adds the block's contribution to two running sums kept in scratch between points: the incidence-weighted sum
  of node features (512 x 256) and the column counts (1 x 512). The sums restart from zero where v = 0, and where
  v = 7 the hyperedge features' tile (window 3) is stored from them. Window 3 is stored, and written back, only there.

  This module fixes what every buffer holds after each point as explicit terms over the body's named pure values,
  the region invariant that carries the two running sums from one point to the next, and the proof data.
-/
import proofs.«155549_j32615981646424_2_alg».proof.Proof.K.Reg1Cond

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not
    (not fetched means the block index has not moved since the fetch), for any proof data over the arrays `V` whose
    body leaves the input in place. Window 0: the node queries' tile. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1: the hyperedge queries' tile (fetched only where the node tile restarts). -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2: the projected node features' tile. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form -/

/-- The first condition holds at the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)

/-- The second condition holds at the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live4 : ∀ t : Fin cfg1.N, cfg1.idle 4 (grid1.coords t) = false := fun _ => rfl
/-- Away from the last node tile the hyperedge features' window is idle: nothing is stored into it, -/
theorem idle3 : ∀ t : Fin cfg1.N, ¬cond1 (grid1.coords t) → cfg1.idle 3 (grid1.coords t) = true := by decide +kernel
/-- and its block is not written back there; -/
theorem noFlush3 (t : Fin cfg1.N) (h : ¬cond1 (grid1.coords t)) : (cfg1.win 3).flush t = false :=
  Bool.eq_false_iff.mpr fun hf => h ((hcond1 t).mpr ((flush1_3 t).mp hf))
/-- at the last node tile it is live. -/
theorem live3 : ∀ t : Fin cfg1.N, cond1 (grid1.coords t) → cfg1.idle 3 (grid1.coords t) = false := by decide +kernel

/-! ## The memrefs the body is called on -/

abbrev ms0 (t : Fin cfg1.N) : Memref sig .tc .vmem S1x512x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512x512 .bf16 := win1_4.stage (cfg1.slots t 4)
abbrev hs4 (t : Fin cfg1.N) : (ms4 t).IsWhole := hstage1_4 ((cfg1.slots t 4).cast nbuf1_4)
/-- The two running sums' scratch buffers: the weighted feature sum and the column counts. -/
abbrev scM0 : Memref sig .tc .vmem S512x256 .f32 := Memref.whole cc1_scratch0
abbrev scM1 : Memref sig .tc .vmem S1x512 .f32 := Memref.whole cc1_scratch1

/-! ## What the two running sums hold after each point -/

/-- The two running sums after the body at position `n`, by recursion on the position: where the node tile is the
    first of its sweep they restart from the zero fills, elsewhere they continue from what position `n - 1` left. -/
def scrAt (c : Dev nD) : (n : ℕ) → n < cfg1.N → Vec F S512x256 .f32 × Vec F S1x512 .f32
  | 0, hn => (accStep (iblk V c 0 ⟨0, hn⟩) (iblk V c 1 ⟨0, hn⟩) (iblk V c 2 ⟨0, hn⟩) (k1_pay4 (F := F)),
      degStep (iblk V c 0 ⟨0, hn⟩) (iblk V c 1 ⟨0, hn⟩) (k1_pay5 (F := F)))
  | n + 1, hn =>
    if (n + 1) % 8 = 0 then
      (accStep (iblk V c 0 ⟨n + 1, hn⟩) (iblk V c 1 ⟨n + 1, hn⟩) (iblk V c 2 ⟨n + 1, hn⟩) (k1_pay4 (F := F)),
        degStep (iblk V c 0 ⟨n + 1, hn⟩) (iblk V c 1 ⟨n + 1, hn⟩) (k1_pay5 (F := F)))
    else
      (accStep (iblk V c 0 ⟨n + 1, hn⟩) (iblk V c 1 ⟨n + 1, hn⟩) (iblk V c 2 ⟨n + 1, hn⟩) (scrAt c n (Nat.lt_of_succ_lt hn)).1,
        degStep (iblk V c 0 ⟨n + 1, hn⟩) (iblk V c 1 ⟨n + 1, hn⟩) (scrAt c n (Nat.lt_of_succ_lt hn)).2)

/-- At the first node tile of a sweep: from the zero fills. -/
theorem scrAt_first (c : Dev nD) (t : Fin cfg1.N) (h0 : t.val % 8 = 0) :
    scrAt V c t.val t.isLt = (accStep (iblk V c 0 t) (iblk V c 1 t) (iblk V c 2 t) (k1_pay4 (F := F)),
      degStep (iblk V c 0 t) (iblk V c 1 t) (k1_pay5 (F := F))) := by
  obtain ⟨n, hn⟩ := t
  cases n with
  | zero => rfl
  | succ n => exact (if_pos h0).trans rfl

/-- At a later node tile: from what the point before left. -/
theorem scrAt_next (c : Dev nD) (t : Fin cfg1.N) (h0 : ¬t.val % 8 = 0) :
    scrAt V c t.val t.isLt = (accStep (iblk V c 0 t) (iblk V c 1 t) (iblk V c 2 t) (scrAt V c (t.val - 1) (Nat.lt_of_le_of_lt (Nat.sub_le _ _) t.isLt)).1,
      degStep (iblk V c 0 t) (iblk V c 1 t) (scrAt V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The region invariant -/

/-- The kernel's own scratch among the core's scoped buffers. -/
abbrev scL : List (Ref sig .tc) := [cc1_scratch0, cc1_scratch1]

/-- The core's other scoped buffers (no staging buffer of this region, not its scratch), each at some contents. -/
abbrev restBut (c : Dev nD) : sProp 𝕄 :=
  Pipeline.scopedRestBut (Ix := Unit) (Name := ℕ) (U := UR sig nD τ) (Lvl := ℕ) (Val := Elt F) spec1 c scL

/-- What the launch hands the region, with the two scratch buffers split off as memrefs owned at some contents. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d)) ∗ restBut c) ∗ (∃ r, prngReg c r)) := by
  unfold Pipeline.ΦA restBut
  rw [Pipeline.scopedRest_split_of_list spec1 c scL (by decide) (by decide)]
  simp only [scM0, scM1, owns_whole, bigSepL_cons_cons, bigSepL_singleton]; try rfl

/-- The invariant before position `n`: before the first point what the launch hands over (the scratch at anything);
    afterwards the two scratch buffers at the running sums the point before left, the rest as it was. -/
def PhiS (c : Dev nD) : (n : ℕ) → n ≤ cfg1.N → sProp 𝕄
  | 0, _ => Pipeline.ΦA spec1 c
  | n + 1, hn => iprop(iprop(iprop(owns (c : Thread nD τ) scM0 fullShare (scrAt V c n hn).1 ∗ owns (c : Thread nD τ) scM1 fullShare (scrAt V c n hn).2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (scrAt V c n hn).1 ∗ owns (c : Thread nD τ) scM1 fullShare (scrAt V c n hn).2) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (scrAt V c (n - 1) (by omega)).1 ∗ owns (c : Thread nD τ) scM1 fullShare (scrAt V c (n - 1) (by omega)).2) ∗ restBut c) ∗ (∃ r, prngReg c r)) := by
  cases n with
  | zero => exact absurd rfl hz
  | succ n => rfl

/-! ## The proof data -/

/-- The region's proof data on core `c`: the arrays as the region finds them; after the body at point `t` each
    input's buffer at its block, the incidence window at the block the point computes, the hyperedge features' window
    at the value the last node tile stores from the running sums (consulted only there: elsewhere the window is idle);
    the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => edgeOut (iblk V c 1 t) (scrAt V c t.val t.isLt).2 (scrAt V c t.val t.isLt).1
    | ⟨4, _⟩ => hgPay (iblk V c 0 t) (iblk V c 1 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) :
    (dat V c).after 3 t = edgeOut (iblk V c 1 t) (scrAt V c t.val t.isLt).2 (scrAt V c t.val t.isLt).1 := by dsimp only [dat]
theorem after4 (c : Dev nD) (t : Fin cfg1.N) : (dat V c).after 4 t = hgPay (iblk V c 0 t) (iblk V c 1 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-! ## The invariant's entry and exit -/

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: the running sums' values are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

/-- The same after the last point. -/
theorem hout (c : Dev nD) : (dat V c).Φ (Fin.last cfg1.N) ⊢ (Pipeline.ΦA spec1 c : sProp 𝕄) :=
  Phi_out V c _ (by rw [Fin.val_last]; have : cfg1.N = 512 := N_1; omega)

end Cert.Kernel.Reg1

end
-- ==== Proof.K.Reg1RunA.lean ====
/-
  The hyperedge-aggregation kernel's body, run once from start to end in control case A: the first node tile of a sweep (the first conditional taken, the second not).
  The running sums are first overwritten with zero fills, then read back and stored increased; the incidence block is
  stored; the hyperedge features' buffer is not touched.
  The statement: on whole memrefs, the three inputs at given contents, the body runs to any continuation that accepts
  the inputs back unchanged and each buffer the case stores into with those stores written — the stores, as lists of
  (rectangle, value) pieces, last first, are found by the run itself and returned with the proof.
-/
import proofs.«155549_j32615981646424_2_alg».proof.Proof.K.Reg1Cond

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the first conditional taken, the second not. -/
noncomputable def runA (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : cond0 i) (hc1 : ¬cond1 i)
    (x0 x1 x2 : Vec F S1x512x256 .f32) :
    Σ' (L4 : List (View.Piece (Elt F) S1x512x512 .bf16)) (LS0 : List (View.Piece (Elt F) S512x256 .f32)), { LS1 : List (View.Piece (Elt F) S1x512 .f32) //
      ∀ (xi3 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__k1_body i arg3 harg3 arg4 harg4 arg5 harg5 arg6 harg6 arg7 harg7 arg8 harg8 arg9 harg9) K } := by
  refine ⟨?_, ?_, ?_, fun xi3 E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

/-! ## What the case's stores leave, read back -/

/-- The incidence window's buffer after the case: the block of the two tiles. -/
theorem readA4 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : cond0 i) (hc1 : ¬cond1 i)
    (x0 x1 x2 : Vec F S1x512x256 .f32)
    (v : View sig .tc .vmem S1x512x512 .bf16) (f : v.ty.Contents (Elt F)) :
    v.read (Elt F) (v.writes (Elt F) f (runA c i arg3 harg3 arg4 harg4 arg5 harg5 arg6 harg6 arg7 harg7 arg8 harg8 arg9 harg9 hc0 hc1 x0 x1 x2).1) = hgPay x0 x1 := by
  unfold runA; dsimp only; sl_unfold_words
  refine (read_writes_whole v f hz3 _ _ _).trans ?_
  simp only [View.readAt_eq_ld, harg3.read_unread, harg4.read_unread, harg5.read_unread, View.ld_unit_zero (S := S1x512x256) hz3]
  rfl

/-- The weighted feature sum's scratch after the case: one step from the zero fill. -/
theorem readAS0 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : cond0 i) (hc1 : ¬cond1 i)
    (x0 x1 x2 : Vec F S1x512x256 .f32)
    (v : View sig .tc .vmem S512x256 .f32) (f : v.ty.Contents (Elt F)) :
    v.read (Elt F) (v.writes (Elt F) f (runA c i arg3 harg3 arg4 harg4 arg5 harg5 arg6 harg6 arg7 harg7 arg8 harg8 arg9 harg9 hc0 hc1 x0 x1 x2).2.1) = accStep x0 x1 x2 (k1_pay4 (F := F)) := by
  unfold runA; dsimp only; sl_unfold_words
  refine (read_writes_whole v f hz2 _ _ _).trans ?_
  simp only [View.readAt_eq_ld, harg3.read_unread, harg4.read_unread, harg5.read_unread, View.ld_unit_zero (S := S1x512x256) hz3, View.readCov_cons_toLoadRect]
  rfl

/-- The column counts' scratch after the case: one step from the zero fill. -/
theorem readAS1 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : cond0 i) (hc1 : ¬cond1 i)
    (x0 x1 x2 : Vec F S1x512x256 .f32)
    (v : View sig .tc .vmem S1x512 .f32) (f : v.ty.Contents (Elt F)) :
    v.read (Elt F) (v.writes (Elt F) f (runA c i arg3 harg3 arg4 harg4 arg5 harg5 arg6 harg6 arg7 harg7 arg8 harg8 arg9 harg9 hc0 hc1 x0 x1 x2).2.2.1) = degStep x0 x1 (k1_pay5 (F := F)) := by
  unfold runA; dsimp only; sl_unfold_words
  refine (read_writes_whole v f hz2 _ _ _).trans ?_
  simp only [View.readAt_eq_ld, harg3.read_unread, harg4.read_unread, harg5.read_unread, View.ld_unit_zero (S := S1x512x256) hz3, View.readCov_cons_toLoadRect]
  rfl

end Cert.Kernel.Reg1

end
-- ==== Proof.K.Reg1RunB.lean ====
/-
  The hyperedge-aggregation kernel's body, run once from start to end in control case B: a node tile strictly inside its sweep (neither conditional taken).
  The running sums are read at what the point before left and stored back increased; the incidence block is stored;
  the hyperedge features' buffer is not touched.
  The statement: on whole memrefs, the three inputs at given contents, the body runs to any continuation that accepts
  the inputs back unchanged and each buffer the case stores into with those stores written — the stores, as lists of
  (rectangle, value) pieces, last first, are found by the run itself and returned with the proof.
-/
import proofs.«155549_j32615981646424_2_alg».proof.Proof.K.Reg1Cond

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: neither conditional taken. -/
noncomputable def runB (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : ¬cond1 i)
    (x0 x1 x2 : Vec F S1x512x256 .f32) (xs0 : Vec F S512x256 .f32) (xs1 : Vec F S1x512 .f32) :
    Σ' (L4 : List (View.Piece (Elt F) S1x512x512 .bf16)) (LS0 : List (View.Piece (Elt F) S512x256 .f32)), { LS1 : List (View.Piece (Elt F) S1x512 .f32) //
      ∀ (xi3 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__k1_body i arg3 harg3 arg4 harg4 arg5 harg5 arg6 harg6 arg7 harg7 arg8 harg8 arg9 harg9) K } := by
  refine ⟨?_, ?_, ?_, fun xi3 E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

/-! ## What the case's stores leave, read back -/

/-- The incidence window's buffer after the case: the block of the two tiles. -/
theorem readB4 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : ¬cond1 i)
    (x0 x1 x2 : Vec F S1x512x256 .f32) (xs0 : Vec F S512x256 .f32) (xs1 : Vec F S1x512 .f32)
    (v : View sig .tc .vmem S1x512x512 .bf16) (f : v.ty.Contents (Elt F)) :
    v.read (Elt F) (v.writes (Elt F) f (runB c i arg3 harg3 arg4 harg4 arg5 harg5 arg6 harg6 arg7 harg7 arg8 harg8 arg9 harg9 hc0 hc1 x0 x1 x2 xs0 xs1).1) = hgPay x0 x1 := by
  unfold runB; dsimp only; sl_unfold_words
  refine (read_writes_whole v f hz3 _ _ _).trans ?_
  simp only [View.readAt_eq_ld, harg3.read_unread, harg4.read_unread, harg5.read_unread, View.ld_unit_zero (S := S1x512x256) hz3]
  rfl

/-- The weighted feature sum's scratch after the case: one step from what it held. -/
theorem readBS0 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : ¬cond1 i)
    (x0 x1 x2 : Vec F S1x512x256 .f32) (xs0 : Vec F S512x256 .f32) (xs1 : Vec F S1x512 .f32)
    (v : View sig .tc .vmem S512x256 .f32) (f : v.ty.Contents (Elt F)) :
    v.read (Elt F) (v.writes (Elt F) f (runB c i arg3 harg3 arg4 harg4 arg5 harg5 arg6 harg6 arg7 harg7 arg8 harg8 arg9 harg9 hc0 hc1 x0 x1 x2 xs0 xs1).2.1) = accStep x0 x1 x2 xs0 := by
  unfold runB; dsimp only; sl_unfold_words
  refine (read_writes_whole v f hz2 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2]
  rfl

/-- The column counts' scratch after the case: one step from what it held. -/
theorem readBS1 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : ¬cond1 i)
    (x0 x1 x2 : Vec F S1x512x256 .f32) (xs0 : Vec F S512x256 .f32) (xs1 : Vec F S1x512 .f32)
    (v : View sig .tc .vmem S1x512 .f32) (f : v.ty.Contents (Elt F)) :
    v.read (Elt F) (v.writes (Elt F) f (runB c i arg3 harg3 arg4 harg4 arg5 harg5 arg6 harg6 arg7 harg7 arg8 harg8 arg9 harg9 hc0 hc1 x0 x1 x2 xs0 xs1).2.2.1) = degStep x0 x1 xs1 := by
  unfold runB; dsimp only; sl_unfold_words
  refine (read_writes_whole v f hz2 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2]
  rfl

end Cert.Kernel.Reg1

end
-- ==== Proof.K.Reg1RunC.lean ====
/-
  The hyperedge-aggregation kernel's body, run once from start to end in control case C: the last node tile of a sweep (the first conditional not taken, the second taken).
  The running sums are read at what the point before left and stored back increased; the incidence block is stored;
  then the hyperedge features' tile is stored from the finished sums.
  The statement: on whole memrefs, the three inputs at given contents, the body runs to any continuation that accepts
  the inputs back unchanged and each buffer the case stores into with those stores written — the stores, as lists of
  (rectangle, value) pieces, last first, are found by the run itself and returned with the proof.
-/
import proofs.«155549_j32615981646424_2_alg».proof.Proof.K.Reg1Cond

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the first conditional not taken, the second taken. -/
noncomputable def runC (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32) :
    Σ' (L3 : List (View.Piece (Elt F) S1x512x256 .f32)) (L4 : List (View.Piece (Elt F) S1x512x512 .bf16)) (LS0 : List (View.Piece (Elt F) S512x256 .f32)), { LS1 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__k1_body i arg3 harg3 arg4 harg4 arg5 harg5 arg6 harg6 arg7 harg7 arg8 harg8 arg9 harg9) K } := by
  refine ⟨?_, ?_, ?_, ?_, fun E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HS0]; · iexists _; iexact HS0
    iexists _; iexact HS1

/-! ## What the case's stores leave, read back -/

/-- The hyperedge features' window after the case: the tile from the finished sums. -/
theorem readC3 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32)
    (v : View sig .tc .vmem S1x512x256 .f32) (f : v.ty.Contents (Elt F)) :
    v.read (Elt F) (v.writes (Elt F) f (runC c i arg3 harg3 arg4 harg4 arg5 harg5 arg6 harg6 arg7 harg7 arg8 harg8 arg9 harg9 hc0 hc1 x0 x1 x2 xs0 xs1).1)
      = edgeOut x1 (degStep x0 x1 xs1) (accStep x0 x1 x2 xs0) := by
  unfold runC; dsimp only; sl_unfold_words
  refine (read_writes_whole v f hz3 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2, View.readCov_cons_toLoadRect]
  rfl

/-- The incidence window's buffer after the case: the block of the two tiles. -/
theorem readC4 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32)
    (v : View sig .tc .vmem S1x512x512 .bf16) (f : v.ty.Contents (Elt F)) :
    v.read (Elt F) (v.writes (Elt F) f (runC c i arg3 harg3 arg4 harg4 arg5 harg5 arg6 harg6 arg7 harg7 arg8 harg8 arg9 harg9 hc0 hc1 x0 x1 x2 xs0 xs1).2.1) = hgPay x0 x1 := by
  unfold runC; dsimp only; sl_unfold_words
  refine (read_writes_whole v f hz3 _ _ _).trans ?_
  simp only [View.readAt_eq_ld, harg3.read_unread, harg4.read_unread, harg5.read_unread, View.ld_unit_zero (S := S1x512x256) hz3]
  rfl

/-- The weighted feature sum's scratch after the case: one step from what it held. -/
theorem readCS0 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32)
    (v : View sig .tc .vmem S512x256 .f32) (f : v.ty.Contents (Elt F)) :
    v.read (Elt F) (v.writes (Elt F) f (runC c i arg3 harg3 arg4 harg4 arg5 harg5 arg6 harg6 arg7 harg7 arg8 harg8 arg9 harg9 hc0 hc1 x0 x1 x2 xs0 xs1).2.2.1) = accStep x0 x1 x2 xs0 := by
  unfold runC; dsimp only; sl_unfold_words
  refine (read_writes_whole v f hz2 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2]
  rfl

/-- The column counts' scratch after the case: one step from what it held. -/
theorem readCS1 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32)
    (v : View sig .tc .vmem S1x512 .f32) (f : v.ty.Contents (Elt F)) :
    v.read (Elt F) (v.writes (Elt F) f (runC c i arg3 harg3 arg4 harg4 arg5 harg5 arg6 harg6 arg7 harg7 arg8 harg8 arg9 harg9 hc0 hc1 x0 x1 x2 xs0 xs1).2.2.2.1) = degStep x0 x1 xs1 := by
  unfold runC; dsimp only; sl_unfold_words
  refine (read_writes_whole v f hz2 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2]
  rfl

end Cert.Kernel.Reg1

end
-- ==== Proof.K.Reg1.lean ====
/-
  The hyperedge-aggregation region's body obligation: at every grid point, from the invariant and the windows' staging
  buffers at what they hold, the body runs to the invariant of the next point and the buffers at what the proof data says
  it leaves. By cases on the node tile's position in its sweep — first (the running sums restart from the zero fills),
  inside, last (the hyperedge features' tile is stored from the finished sums) —, each case the body's whole run, whose
  stores read back as the proof data's terms.
-/
import proofs.«155549_j32615981646424_2_alg».proof.Proof.K.Reg1Defs
import proofs.«155549_j32615981646424_2_alg».proof.Proof.K.Reg1RunA
import proofs.«155549_j32615981646424_2_alg».proof.Proof.K.Reg1RunB
import proofs.«155549_j32615981646424_2_alg».proof.Proof.K.Reg1RunC

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' buffers hold their blocks; the position of the node tile in its sweep says
    which case the point is in; the invariant hands the body the two scratch buffers at the running sums the point
    before left (at anything where the sums restart) and takes them back at this point's sums. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 4 t = owns (c : Thread nD τ) (ms4 t) fullShare ((dat V c).after 4 t) from by
    unfold Dat.leavesExact; rw [live4 t], after4]
  have hN : t.val < 512 := lt_of_lt_of_eq t.isLt (show cfg1.N = 512 from N_1)
  by_cases h0 : t.val % 8 = 0
  · have h1 : ¬t.val % 8 = 7 := by omega
    rw [Dat.leavesExact_idle (dat V c) 3 t (idle3 t (fun h => h1 ((hcond1 t).mp h))) (noFlush3 t (fun h => h1 ((hcond1 t).mp h)))]
    rw [scrAt_first V c t h0]
    (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runA c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact readAS0 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) scM0.view es0
            · unfold owns; iexists _; isplitr
              swap; · iexact HS1
              ipureintro; exact readAS1 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) scM1.view es1
          · iexact HR
        · iexact Hg
      isplitl [Ho]; · iexact Ho
      isplitl [H0]; · iexact H0
      isplitl [H1]; · iexact H1
      isplitl [H2]; · iexact H2
      isplitl [H3]
      · iexists _; iexact H3
      unfold owns; iexists _; isplitr
      swap; · iexact H4
      ipureintro; exact readA4 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) (ms4 t).view e4
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runA c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact readAS0 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) scM0.view es0
            · unfold owns; iexists _; isplitr
              swap; · iexact HS1
              ipureintro; exact readAS1 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) scM1.view es1
          · iexact HR
        · iexact Hg
      isplitl [Ho]; · iexact Ho
      isplitl [H0]; · iexact H0
      isplitl [H1]; · iexact H1
      isplitl [H2]; · iexact H2
      isplitl [H3]
      · iexists _; iexact H3
      unfold owns; iexists _; isplitr
      swap; · iexact H4
      ipureintro; exact readA4 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) (ms4 t).view e4
  · have hz : t.val ≠ 0 := by omega
    by_cases h1 : t.val % 8 = 7
    · rw [show (dat V c).leavesExact 3 t = owns (c : Thread nD τ) (ms3 t) fullShare ((dat V c).after 3 t) from by
        unfold Dat.leavesExact; rw [live3 t ((hcond1 t).mpr h1)], after3]
      rw [scrAt_next V c t h0]
      (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runC c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact readCS0 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 scM0.view es0
            · unfold owns; iexists _; isplitr
              swap; · iexact HS1
              ipureintro; exact readCS1 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 scM1.view es1
          · iexact HR
        · iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact readC3 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 (ms3 t).view e3
      unfold owns; iexists _; isplitr
      swap; · iexact H4
      ipureintro; exact readC4 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 (ms4 t).view e4
    · rw [Dat.leavesExact_idle (dat V c) 3 t (idle3 t (fun h => h1 ((hcond1 t).mp h))) (noFlush3 t (fun h => h1 ((hcond1 t).mp h)))]
      rw [scrAt_next V c t h0]
      (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runB c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact readBS0 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 scM0.view es0
            · unfold owns; iexists _; isplitr
              swap; · iexact HS1
              ipureintro; exact readBS1 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 scM1.view es1
          · iexact HR
        · iexact Hg
      isplitl [Ho]; · iexact Ho
      isplitl [H0]; · iexact H0
      isplitl [H1]; · iexact H1
      isplitl [H2]; · iexact H2
      isplitl [H3]
      · iexists _; iexact H3
      unfold owns; iexists _; isplitr
      swap; · iexact H4
      ipureintro; exact readB4 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 (ms4 t).view e4

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.K.Reg2Base.lean ====
/-
  The third stage's kernel (the node aggregation fused with the feed-forward block and the layer
  normalisation), on its grid (batch, node tile, hyperedge tile) of 512 points with the hyperedge tile
  the fastest axis: what its two branch conditions are in closed form. The first holds where the
  hyperedge tile is 0 (the point resets the two accumulators), the second where it is 7 (the point
  finishes the row block and stores the result). Also the spellings of "offset zero" the body's whole-buffer
  loads and stores carry.
-/
import proofs.«155549_j32615981646424_2_alg».proof.Proof.Gen.Kernel.Launch
import proofs.«155549_j32615981646424_2_alg».proof.Proof.Gen.Kernel.Skeleton
import proofs.«155549_j32615981646424_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition (reset the accumulators), from the grid coordinates. -/
abbrev condA (i : grid2.Coords) : Prop :=
  (Scalar.cmpi .ne (Scalar.extui (Scalar.cmpi .eq (BitVec.ofNat 32 (i 2).val) 0#32)) 0#32) = 1#1

/-- It holds exactly at the points whose hyperedge tile is 0. -/
theorem hcondA : ∀ t : Fin cfg2.N, condA (grid2.coords t) ↔ t.val % 8 = 0 :=
  (by decide +kernel : ∀ t : Fin grid2.N, condA (grid2.coords t) ↔ t.val % 8 = 0)

/-- The body's second condition (finish the row block), from the grid coordinates. -/
abbrev condC (i : grid2.Coords) : Prop := k2_cond2 i = 1#1

/-- It holds exactly at the points whose hyperedge tile is 7. -/
theorem hcondC : ∀ t : Fin cfg2.N, condC (grid2.coords t) ↔ t.val % 8 = 7 :=
  (by decide +kernel : ∀ t : Fin grid2.N, condC (grid2.coords t) ↔ t.val % 8 = 7)

/-- Offset zero on one, two and three axes is the constant-zero offset. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

end Cert.Kernel.Reg2

end
-- ==== Proof.K.Reg2Defs.lean ====
/-
  The third stage's region as the pipeline runs it, at the contents `V` the TensorCore's buffers hold when
  the region is entered: each window's block at a grid point; what the two accumulators hold after each
  point — the running sum over the hyperedge tiles swept so far of incidence · hyperedge features, and the
  running row counts, both restarted where the hyperedge tile is 0 —; what the body stores in the result's
  block where the hyperedge tile is 7; the invariant that carries the accumulators from a point to the
  next; and the pipeline's proof data built from these.
-/
import proofs.«155549_j32615981646424_2_alg».proof.Proof.K.Reg2Base

set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input windows' blocks at their literal shapes: the node queries' tile, the incidence's (node tile,
    hyperedge tile) block, the hyperedge features' tile, then the six whole parameter arrays. -/
def b0 (c : Dev nD) (t : Fin cfg2.N) : Vec F S1x512x256 .f32 := iblk V c 0 t
def b1 (c : Dev nD) (t : Fin cfg2.N) : Vec F S1x512x512 .bf16 := iblk V c 1 t
def b2 (c : Dev nD) (t : Fin cfg2.N) : Vec F S1x512x256 .f32 := iblk V c 2 t
def b3 (c : Dev nD) (t : Fin cfg2.N) : Vec F S1024x256 .f32 := iblk V c 3 t
def b4 (c : Dev nD) (t : Fin cfg2.N) : Vec F S1024 .f32 := iblk V c 4 t
def b5 (c : Dev nD) (t : Fin cfg2.N) : Vec F S256x1024 .f32 := iblk V c 5 t
def b6 (c : Dev nD) (t : Fin cfg2.N) : Vec F S256 .f32 := iblk V c 6 t
def b7 (c : Dev nD) (t : Fin cfg2.N) : Vec F S256 .f32 := iblk V c 7 t
def b8 (c : Dev nD) (t : Fin cfg2.N) : Vec F S256 .f32 := iblk V c 8 t

/-! ## The staging memrefs the body is called with, and the two accumulators -/

abbrev ms0 (t : Fin cfg2.N) : Memref sig .tc .vmem S1x512x256 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x512x512 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x512x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x256 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1024 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S256x1024 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S256 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S256 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S256 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S1x512x256 .f32 := win2_9.stage (cfg2.slots t 9)
abbrev hs9 (t : Fin cfg2.N) : (ms9 t).IsWhole := hstage2_9 ((cfg2.slots t 9).cast nbuf2_9)
/-- The sum accumulator and the count accumulator: whole scoped buffers of the kernel's own. -/
abbrev scM0 : Memref sig .tc .vmem S512x256 .f32 := Memref.whole cc2_scratch0
abbrev scM1 : Memref sig .tc .vmem S512x1 .f32 := Memref.whole cc2_scratch1

/-! ## Where the windows are idle -/

/-- The result's window is idle (nothing stored, nothing written back) off the points that finish a row block, -/
theorem idleAt9 : ∀ t : Fin cfg2.N, ¬ t.val % 8 = 7 → cfg2.idle 9 (grid2.coords t) = true := by decide +kernel
theorem noFlush9 (t : Fin cfg2.N) (h : ¬ t.val % 8 = 7) : (cfg2.win 9).flush t = false :=
  Bool.eq_false_iff.mpr fun hf => h ((flush2_9 t).mp hf)
/-- and live at them. -/
theorem liveAt9 : ∀ t : Fin cfg2.N, t.val % 8 = 7 → cfg2.idle 9 (grid2.coords t) = false := by decide +kernel

/-! ## What the accumulators hold after each point -/

/-- After the body at position `n`: (the sum accumulator, the count accumulator). Where the hyperedge tile
    is 0 the body first resets both, so the point's contribution is added to the reset values; elsewhere
    to what the point before left. -/
def accAt (c : Dev nD) : (n : ℕ) → n < cfg2.N → Vec F S512x256 .f32 × Vec F S512x1 .f32
  | 0, hn => (k2_pay5 (b1 V c ⟨0, hn⟩) (b2 V c ⟨0, hn⟩) k2_pay1, k2_pay6 (b1 V c ⟨0, hn⟩) k2_pay2)
  | n + 1, hn =>
    if (n + 1) % 8 = 0 then
      (k2_pay5 (b1 V c ⟨n + 1, hn⟩) (b2 V c ⟨n + 1, hn⟩) k2_pay1, k2_pay6 (b1 V c ⟨n + 1, hn⟩) k2_pay2)
    else
      (k2_pay5 (b1 V c ⟨n + 1, hn⟩) (b2 V c ⟨n + 1, hn⟩) (accAt c n (Nat.lt_of_succ_lt hn)).1,
        k2_pay6 (b1 V c ⟨n + 1, hn⟩) (accAt c n (Nat.lt_of_succ_lt hn)).2)

/-- At a point whose hyperedge tile is 0: over the reset values. -/
theorem accAt_reset (c : Dev nD) (t : Fin cfg2.N) (h : t.val % 8 = 0) :
    accAt V c t.val t.isLt = (k2_pay5 (b1 V c t) (b2 V c t) k2_pay1, k2_pay6 (b1 V c t) k2_pay2) := by
  obtain ⟨n, hn⟩ := t
  cases n with
  | zero => rfl
  | succ n => exact (if_pos h).trans rfl

/-- At any other point: over what the point before left. -/
theorem accAt_step (c : Dev nD) (t : Fin cfg2.N) (h : ¬ t.val % 8 = 0) :
    accAt V c t.val t.isLt
      = (k2_pay5 (b1 V c t) (b2 V c t) (accAt V c (t.val - 1) (Nat.lt_of_le_of_lt (Nat.sub_le _ _) t.isLt)).1,
          k2_pay6 (b1 V c t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the body stores in the result's block at a point that finishes a row block: the epilogue over the two
    accumulators as this point leaves them, the node queries' tile and the six parameter arrays. (At the other
    points nothing reads this.) -/
def outAt (c : Dev nD) (t : Fin cfg2.N) : Vec F S1x512x256 .f32 :=
  k2_pay7 (k2_pay8 (k2_pay3 (b0 V c t)) (accAt V c t.val t.isLt).2 (accAt V c t.val t.isLt).2 (accAt V c t.val t.isLt).1 (b3 V c t) (b4 V c t) (b5 V c t) (b6 V c t))
    (k2_pay9 (k2_pay3 (b0 V c t)) (accAt V c t.val t.isLt).2 (accAt V c t.val t.isLt).2 (accAt V c t.val t.isLt).1 (b3 V c t) (b4 V c t) (b5 V c t) (b6 V c t))
    (k2_pay10 (k2_pay3 (b0 V c t)) (accAt V c t.val t.isLt).2 (accAt V c t.val t.isLt).2 (accAt V c t.val t.isLt).1 (b3 V c t) (b4 V c t) (b5 V c t) (b6 V c t))
    (b7 V c t) (b8 V c t)

/-! ## The invariant -/

/-- The core's scoped buffers that are no staging buffer of this region, each at some contents, but for the two
    accumulators, which are held as `P0` and `P1` say. -/
def restWith (c : Dev nD) (P0 P1 : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ P0 ∗ P1)

/-- What the launch hands the region is this with both accumulators at anything, and the generator register. -/
theorem PhiA_eq (c : Dev nD) :
    (Pipeline.ΦA spec2 c : sProp 𝕄)
      = iprop(restWith c iprop(∃ d, owns (c : Thread nD τ) scM0 fullShare d) iprop(∃ d, owns (c : Thread nD τ) scM1 fullShare d) ∗ (∃ r, prngReg c r)) := by
  unfold Pipeline.ΦA restWith; rw [scopedRest2_eq]; simp only [scM0, scM1, owns_whole]; try rfl

/-- The region invariant before position `n`: before the first point what the launch hands over; afterwards the
    two accumulators at what the point before left in them. -/
def PhiS (c : Dev nD) : (n : ℕ) → n ≤ cfg2.N → sProp 𝕄
  | 0, _ => Pipeline.ΦA spec2 c
  | n + 1, hn => iprop(restWith c (owns (c : Thread nD τ) scM0 fullShare (accAt V c n hn).1) (owns (c : Thread nD τ) scM1 fullShare (accAt V c n hn).2) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(restWith c (owns (c : Thread nD τ) scM0 fullShare (accAt V c n hn).1) (owns (c : Thread nD τ) scM1 fullShare (accAt V c n hn).2) ∗ (∃ r, prngReg c r)) := rfl

theorem PhiS_pos (c : Dev nD) (n : ℕ) (h : n ≤ cfg2.N) (hz : n ≠ 0) :
    PhiS V c n h = iprop(restWith c (owns (c : Thread nD τ) scM0 fullShare (accAt V c (n - 1) (by omega)).1) (owns (c : Thread nD τ) scM1 fullShare (accAt V c (n - 1) (by omega)).2) ∗ (∃ r, prngReg c r)) := by
  cases n with
  | zero => exact absurd rfl hz
  | succ n => rfl

/-! ## The pipeline's proof data -/

/-- The proof data of this region on core `c`: the arrays as the region finds them; after the body at point `t`
    each input's buffer at its block and the result's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => b0 V c t
    | ⟨1, _⟩ => b1 V c t
    | ⟨2, _⟩ => b2 V c t
    | ⟨3, _⟩ => b3 V c t
    | ⟨4, _⟩ => b4 V c t
    | ⟨5, _⟩ => b5 V c t
    | ⟨6, _⟩ => b6 V c t
    | ⟨7, _⟩ => b7 V c t
    | ⟨8, _⟩ => b8 V c t
    | ⟨9, _⟩ => outAt V c t
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = b0 V c t := by dsimp only [dat]
theorem after_1 (c : Dev nD) (t : Fin cfg2.N) : (dat V c).after 1 t = b1 V c t := by dsimp only [dat]
theorem after_2 (c : Dev nD) (t : Fin cfg2.N) : (dat V c).after 2 t = b2 V c t := by dsimp only [dat]
theorem after_3 (c : Dev nD) (t : Fin cfg2.N) : (dat V c).after 3 t = b3 V c t := by dsimp only [dat]
theorem after_4 (c : Dev nD) (t : Fin cfg2.N) : (dat V c).after 4 t = b4 V c t := by dsimp only [dat]
theorem after_5 (c : Dev nD) (t : Fin cfg2.N) : (dat V c).after 5 t = b5 V c t := by dsimp only [dat]
theorem after_6 (c : Dev nD) (t : Fin cfg2.N) : (dat V c).after 6 t = b6 V c t := by dsimp only [dat]
theorem after_7 (c : Dev nD) (t : Fin cfg2.N) : (dat V c).after 7 t = b7 V c t := by dsimp only [dat]
theorem after_8 (c : Dev nD) (t : Fin cfg2.N) : (dat V c).after 8 t = b8 V c t := by dsimp only [dat]
theorem after_9 (c : Dev nD) (t : Fin cfg2.N) : (dat V c).after 9 t = outAt V c t := by dsimp only [dat]

/-- Each input's current staging buffer holds its block at every point, fetched there or not: where it is not
    fetched its block index has not moved since the point before. -/
theorem before_0 (c : Dev nD) (t : Fin cfg2.N) (d) : (dat V c).before 0 t d = b0 V c t :=
  ((dat V c).before_in_eq_fetched 0 rfl (fun _ => rfl) (fun _ _ _ => rfl)
    (fun t => by rw [after_0]; unfold Dat.blockOf b0 iblk; rw [A_eq]; try rfl) t d).trans
    (by unfold Dat.fetched Dat.blockOf b0 iblk; rw [A_eq]; try rfl)
theorem before_1 (c : Dev nD) (t : Fin cfg2.N) (d) : (dat V c).before 1 t d = b1 V c t :=
  ((dat V c).before_in_eq_fetched 1 rfl (fun _ => rfl) (fun _ _ _ => rfl)
    (fun t => by rw [after_1]; unfold Dat.blockOf b1 iblk; rw [A_eq]; try rfl) t d).trans
    (by unfold Dat.fetched Dat.blockOf b1 iblk; rw [A_eq]; try rfl)
theorem before_2 (c : Dev nD) (t : Fin cfg2.N) (d) : (dat V c).before 2 t d = b2 V c t :=
  ((dat V c).before_in_eq_fetched 2 rfl (fun _ => rfl) (fun _ _ _ => rfl)
    (fun t => by rw [after_2]; unfold Dat.blockOf b2 iblk; rw [A_eq]; try rfl) t d).trans
    (by unfold Dat.fetched Dat.blockOf b2 iblk; rw [A_eq]; try rfl)
theorem before_3 (c : Dev nD) (t : Fin cfg2.N) (d) : (dat V c).before 3 t d = b3 V c t :=
  ((dat V c).before_in_eq_fetched 3 rfl (fun _ => rfl) (fun _ _ _ => rfl)
    (fun t => by rw [after_3]; unfold Dat.blockOf b3 iblk; rw [A_eq]; try rfl) t d).trans
    (by unfold Dat.fetched Dat.blockOf b3 iblk; rw [A_eq]; try rfl)
theorem before_4 (c : Dev nD) (t : Fin cfg2.N) (d) : (dat V c).before 4 t d = b4 V c t :=
  ((dat V c).before_in_eq_fetched 4 rfl (fun _ => rfl) (fun _ _ _ => rfl)
    (fun t => by rw [after_4]; unfold Dat.blockOf b4 iblk; rw [A_eq]; try rfl) t d).trans
    (by unfold Dat.fetched Dat.blockOf b4 iblk; rw [A_eq]; try rfl)
theorem before_5 (c : Dev nD) (t : Fin cfg2.N) (d) : (dat V c).before 5 t d = b5 V c t :=
  ((dat V c).before_in_eq_fetched 5 rfl (fun _ => rfl) (fun _ _ _ => rfl)
    (fun t => by rw [after_5]; unfold Dat.blockOf b5 iblk; rw [A_eq]; try rfl) t d).trans
    (by unfold Dat.fetched Dat.blockOf b5 iblk; rw [A_eq]; try rfl)
theorem before_6 (c : Dev nD) (t : Fin cfg2.N) (d) : (dat V c).before 6 t d = b6 V c t :=
  ((dat V c).before_in_eq_fetched 6 rfl (fun _ => rfl) (fun _ _ _ => rfl)
    (fun t => by rw [after_6]; unfold Dat.blockOf b6 iblk; rw [A_eq]; try rfl) t d).trans
    (by unfold Dat.fetched Dat.blockOf b6 iblk; rw [A_eq]; try rfl)
theorem before_7 (c : Dev nD) (t : Fin cfg2.N) (d) : (dat V c).before 7 t d = b7 V c t :=
  ((dat V c).before_in_eq_fetched 7 rfl (fun _ => rfl) (fun _ _ _ => rfl)
    (fun t => by rw [after_7]; unfold Dat.blockOf b7 iblk; rw [A_eq]; try rfl) t d).trans
    (by unfold Dat.fetched Dat.blockOf b7 iblk; rw [A_eq]; try rfl)
theorem before_8 (c : Dev nD) (t : Fin cfg2.N) (d) : (dat V c).before 8 t d = b8 V c t :=
  ((dat V c).before_in_eq_fetched 8 rfl (fun _ => rfl) (fun _ _ _ => rfl)
    (fun t => by rw [after_8]; unfold Dat.blockOf b8 iblk; rw [A_eq]; try rfl) t d).trans
    (by unfold Dat.fetched Dat.blockOf b8 iblk; rw [A_eq]; try rfl)

/-! ## The body obligation's two sides, the windows one by one -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

end Cert.Kernel.Reg2

end
-- ==== Proof.K.Reg2RunA.lean ====
/-
  The third stage's body run at a grid point whose hyperedge tile is the first: the reset branch is taken, the
  finishing branch is not; the two accumulators are reset and the point's contribution added into them, and
  nothing else changes.
-/
import proofs.«155549_j32615981646424_2_alg».proof.Proof.K.Reg2Base

set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that resets and does not finish: on whole staging memrefs, the inputs' at contents `x·`, the
    result's at `xi9`, the two accumulators at anything, it runs to the continuation holding every buffer as it was
    but the accumulators, which hold this point's contribution added to the reset values. -/
theorem run_A (c : Dev nD) (i : grid2.Coords) (arg3 : Memref sig .tc .vmem S1x512x256 .f32) (harg3 : arg3.IsWhole) (arg4 : Memref sig .tc .vmem S1x512x512 .bf16) (harg4 : arg4.IsWhole) (arg5 : Memref sig .tc .vmem S1x512x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S256x1024 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x1 .f32) (harg14 : arg14.IsWhole) (hcA : condA i) (hcC : ¬condC i)
    (x0 : Vec F S1x512x256 .f32) (x1 : Vec F S1x512x512 .bf16) (x2 : Vec F S1x512x256 .f32) (x3 : Vec F S1024x256 .f32) (x4 : Vec F S1024 .f32) (x5 : Vec F S256x1024 .f32) (x6 : Vec F S256 .f32) (x7 : Vec F S256 .f32) (x8 : Vec F S256 .f32) (xi9 : Vec F S1x512x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare (k2_pay5 x1 x2 k2_pay1) ∗ owns (c : Thread nD τ) arg14 fullShare (k2_pay6 x1 k2_pay2)) -∗ K ⟨⟩))
      ⊢ wp frame (wpE (defs₀ (F := F)) Variants.none c none) E (cc2__k2_body i arg3 harg3 arg4 harg4 arg5 harg5 arg6 harg6 arg7 harg7 arg8 harg8 arg9 harg9 arg10 harg10 arg11 harg11 arg12 harg12 arg13 harg13 arg14 harg14) K := by
  simp only [cc2__k2_body_eq_skeleton]; unfold cc2__k2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (fun y => ⟨_, List.mem_cons_self, View.mem_set_unit_zero hz2 inb_S512x256_S512x256_0_0 y⟩)).trans
      ((View.canon_cons_unit_zero hz2 _ _ _).trans (by
        sl_unfold_words
        rw [View.readCov_unit_zero (S := S512x256) _ hz2]
        simp only [View.readAt_eq_ld, View.ld_unit_zero (S := S1x512x512) hz3, View.ld_unit_zero (S := S1x512x256) hz3]))
  iexists _; isplitr
  swap; · iexact H11
  ipureintro
  exact (View.read_writes_eq_canon _ _ _ (fun y => ⟨_, List.mem_cons_self, View.mem_set_unit_zero hz2 inb_S512x1_S512x1_0_0 y⟩)).trans
      ((View.canon_cons_unit_zero hz2 _ _ _).trans (by
        sl_unfold_words
        rw [View.readCov_unit_zero (S := S512x1) _ hz2]
        simp only [View.readAt_eq_ld, View.ld_unit_zero (S := S1x512x512) hz3]))

end Cert.Kernel.Reg2

end
-- ==== Proof.K.Reg2RunB.lean ====
/-
  The third stage's body run at a grid point whose hyperedge tile is neither the first nor the last: no
  branch is taken; the point's contribution is added into the two accumulators and nothing else changes.
-/
import proofs.«155549_j32615981646424_2_alg».proof.Proof.K.Reg2Base

set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that neither resets nor finishes: on whole staging memrefs, the inputs' at contents `x·`,
    the result's at `xi9`, the two accumulators at `xs0` and `xs1`, it runs to the continuation holding every buffer
    as it was but the accumulators, which hold this point's contribution added to what they held. -/
theorem run_B (c : Dev nD) (i : grid2.Coords) (arg3 : Memref sig .tc .vmem S1x512x256 .f32) (harg3 : arg3.IsWhole) (arg4 : Memref sig .tc .vmem S1x512x512 .bf16) (harg4 : arg4.IsWhole) (arg5 : Memref sig .tc .vmem S1x512x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S256x1024 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x1 .f32) (harg14 : arg14.IsWhole) (hcA : ¬condA i) (hcC : ¬condC i)
    (x0 : Vec F S1x512x256 .f32) (x1 : Vec F S1x512x512 .bf16) (x2 : Vec F S1x512x256 .f32) (x3 : Vec F S1024x256 .f32) (x4 : Vec F S1024 .f32) (x5 : Vec F S256x1024 .f32) (x6 : Vec F S256 .f32) (x7 : Vec F S256 .f32) (x8 : Vec F S256 .f32) (xi9 : Vec F S1x512x256 .f32) (xs0 : Vec F S512x256 .f32) (xs1 : Vec F S512x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare (k2_pay5 x1 x2 xs0) ∗ owns (c : Thread nD τ) arg14 fullShare (k2_pay6 x1 xs1)) -∗ K ⟨⟩))
      ⊢ wp frame (wpE (defs₀ (F := F)) Variants.none c none) E (cc2__k2_body i arg3 harg3 arg4 harg4 arg5 harg5 arg6 harg6 arg7 harg7 arg8 harg8 arg9 harg9 arg10 harg10 arg11 harg11 arg12 harg12 arg13 harg13 arg14 harg14) K := by
  simp only [cc2__k2_body_eq_skeleton]; unfold cc2__k2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0; subst hf1; subst hf2; subst hf3; subst hf4; subst hf5; subst hf6; subst hf7; subst hf8; subst hf9; subst hf10; subst hf11
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (fun y => ⟨_, List.mem_singleton_self _, View.mem_set_unit_zero hz2 inb_S512x256_S512x256_0_0 y⟩)).trans
      ((View.canon_unit_zero hz2 _ _).trans (by simp only [View.readAt_eq_ld, View.ld_unit_zero (S := S512x256) hz2, View.ld_unit_zero (S := S1x512x512) hz3, View.ld_unit_zero (S := S1x512x256) hz3]))
  iexists _; isplitr
  swap; · iexact H11
  ipureintro
  exact (View.read_writes_eq_canon _ _ _ (fun y => ⟨_, List.mem_singleton_self _, View.mem_set_unit_zero hz2 inb_S512x1_S512x1_0_0 y⟩)).trans
      ((View.canon_unit_zero hz2 _ _).trans (by simp only [View.readAt_eq_ld, View.ld_unit_zero (S := S512x1) hz2, View.ld_unit_zero (S := S1x512x512) hz3]))

end Cert.Kernel.Reg2

end
-- ==== Proof.K.Reg2RunC.lean ====
/-
  The third stage's body run at a grid point whose hyperedge tile is the last: the reset branch is not taken, the
  finishing branch is; the point's contribution is added into the two accumulators, and the epilogue — the guarded
  mean, the feed-forward block with its residual, the layer normalisation — of the accumulators as they then
  stand is stored into the result's block.
-/
import proofs.«155549_j32615981646424_2_alg».proof.Proof.K.Reg2Base

set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs, the inputs' at contents `x·`, the result's at anything, the two accumulators at `xs0` and
    `xs1`: the body runs to the continuation holding the inputs' as they were, the accumulators with the point's
    contribution added, and the result's block at the epilogue's value over those. -/
theorem run_C (c : Dev nD) (i : grid2.Coords) (arg3 : Memref sig .tc .vmem S1x512x256 .f32) (harg3 : arg3.IsWhole) (arg4 : Memref sig .tc .vmem S1x512x512 .bf16) (harg4 : arg4.IsWhole) (arg5 : Memref sig .tc .vmem S1x512x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S256x1024 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x1 .f32) (harg14 : arg14.IsWhole) (hcA : ¬condA i) (hcC : condC i)
    (x0 : Vec F S1x512x256 .f32) (x1 : Vec F S1x512x512 .bf16) (x2 : Vec F S1x512x256 .f32) (x3 : Vec F S1024x256 .f32) (x4 : Vec F S1024 .f32) (x5 : Vec F S256x1024 .f32) (x6 : Vec F S256 .f32) (x7 : Vec F S256 .f32) (x8 : Vec F S256 .f32) (xs0 : Vec F S512x256 .f32) (xs1 : Vec F S512x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k2_pay7 (k2_pay8 (k2_pay3 x0) (k2_pay6 x1 xs1) (k2_pay6 x1 xs1) (k2_pay5 x1 x2 xs0) x3 x4 x5 x6) (k2_pay9 (k2_pay3 x0) (k2_pay6 x1 xs1) (k2_pay6 x1 xs1) (k2_pay5 x1 x2 xs0) x3 x4 x5 x6) (k2_pay10 (k2_pay3 x0) (k2_pay6 x1 xs1) (k2_pay6 x1 xs1) (k2_pay5 x1 x2 xs0) x3 x4 x5 x6) x7 x8)
            ∗ owns (c : Thread nD τ) arg13 fullShare (k2_pay5 x1 x2 xs0) ∗ owns (c : Thread nD τ) arg14 fullShare (k2_pay6 x1 xs1)) -∗ K ⟨⟩))
      ⊢ wp frame (wpE (defs₀ (F := F)) Variants.none c none) E (cc2__k2_body i arg3 harg3 arg4 harg4 arg5 harg5 arg6 harg6 arg7 harg7 arg8 harg8 arg9 harg9 arg10 harg10 arg11 harg11 arg12 harg12 arg13 harg13 arg14 harg14) K := by
  simp only [cc2__k2_body_eq_skeleton]; unfold cc2__k2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf0; subst hf1; subst hf2; subst hf3; subst hf4; subst hf5; subst hf6; subst hf7; subst hf8; subst hf10; subst hf11
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    exact (View.read_writes_eq_canon _ _ _ (fun y => ⟨_, List.mem_singleton_self _, View.mem_set_unit_zero hz3 inb_S1x512x256_S1x512x256_0_0_0 y⟩)).trans
      ((View.canon_unit_zero hz3 _ _).trans (by
        simp only [View.readCov_unit_zero (S := S512x256) _ hz2, View.readCov_unit_zero (S := S512x1) _ hz2, View.readAt_eq_ld, View.ld_unit_zero (S := S512x256) hz2, View.ld_unit_zero (S := S512x1) hz2, View.ld_unit_zero (S := S1024x256) hz2, View.ld_unit_zero (S := S256x1024) hz2, View.ld_unit_zero (S := S1x512x512) hz3, View.ld_unit_zero (S := S1x512x256) hz3, View.ld_unit_zero (S := S1024) hz1, View.ld_unit_zero (S := S256) hz1]))
  isplitl [H10]
  · iexists _; isplitr
    swap; · iexact H10
    ipureintro
    sl_unfold_words
    exact (View.read_writes_eq_canon _ _ _ (fun y => ⟨_, List.mem_singleton_self _, View.mem_set_unit_zero hz2 inb_S512x256_S512x256_0_0 y⟩)).trans
      ((View.canon_unit_zero hz2 _ _).trans (by simp only [View.readAt_eq_ld, View.ld_unit_zero (S := S512x256) hz2, View.ld_unit_zero (S := S512x1) hz2, View.ld_unit_zero (S := S1024x256) hz2, View.ld_unit_zero (S := S256x1024) hz2, View.ld_unit_zero (S := S1x512x512) hz3, View.ld_unit_zero (S := S1x512x256) hz3, View.ld_unit_zero (S := S1024) hz1, View.ld_unit_zero (S := S256) hz1]))
  iexists _; isplitr
  swap; · iexact H11
  ipureintro
  sl_unfold_words
  exact (View.read_writes_eq_canon _ _ _ (fun y => ⟨_, List.mem_singleton_self _, View.mem_set_unit_zero hz2 inb_S512x1_S512x1_0_0 y⟩)).trans
    ((View.canon_unit_zero hz2 _ _).trans (by simp only [View.readAt_eq_ld, View.ld_unit_zero (S := S512x256) hz2, View.ld_unit_zero (S := S512x1) hz2, View.ld_unit_zero (S := S1024x256) hz2, View.ld_unit_zero (S := S256x1024) hz2, View.ld_unit_zero (S := S1x512x512) hz3, View.ld_unit_zero (S := S1x512x256) hz3, View.ld_unit_zero (S := S1024) hz1, View.ld_unit_zero (S := S256) hz1]))

end Cert.Kernel.Reg2

end
-- ==== Proof.K.Reg2.lean ====
/-
  The third stage's region: its proof data, the body obligation at every grid point, and the invariant's entry
  and exit.
-/
import proofs.«155549_j32615981646424_2_alg».proof.Proof.K.Reg2Defs
import proofs.«155549_j32615981646424_2_alg».proof.Proof.K.Reg2RunA
import proofs.«155549_j32615981646424_2_alg».proof.Proof.K.Reg2RunB
import proofs.«155549_j32615981646424_2_alg».proof.Proof.K.Reg2RunC

set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input windows are never idle. -/
theorem liveAt_0 : ∀ t : Fin cfg2.N, cfg2.idle 0 (grid2.coords t) = false := fun _ => rfl
theorem liveAt_1 : ∀ t : Fin cfg2.N, cfg2.idle 1 (grid2.coords t) = false := fun _ => rfl
theorem liveAt_2 : ∀ t : Fin cfg2.N, cfg2.idle 2 (grid2.coords t) = false := fun _ => rfl
theorem liveAt_3 : ∀ t : Fin cfg2.N, cfg2.idle 3 (grid2.coords t) = false := fun _ => rfl
theorem liveAt_4 : ∀ t : Fin cfg2.N, cfg2.idle 4 (grid2.coords t) = false := fun _ => rfl
theorem liveAt_5 : ∀ t : Fin cfg2.N, cfg2.idle 5 (grid2.coords t) = false := fun _ => rfl
theorem liveAt_6 : ∀ t : Fin cfg2.N, cfg2.idle 6 (grid2.coords t) = false := fun _ => rfl
theorem liveAt_7 : ∀ t : Fin cfg2.N, cfg2.idle 7 (grid2.coords t) = false := fun _ => rfl
theorem liveAt_8 : ∀ t : Fin cfg2.N, cfg2.idle 8 (grid2.coords t) = false := fun _ => rfl

set_option maxHeartbeats 8000000 in
/-- The body at any point. The inputs' memrefs hold their blocks; the closed forms of the two conditions say which
    of the three cases the point is in; the invariant hands the body the two accumulators — at anything where they are
    about to be reset, else at what the point before left — and takes them back at what this point leaves; the
    result's buffer is handed back untouched where the point does not finish a row block, and holds the epilogue's
    value where it does. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8]
  rw [show (dat V c).owesAt () t.succ = (dat V c).owesAt () t.castSucc from rfl]
  rw [show (dat V c).Φ t.succ = PhiS V c (t.val + 1) t.isLt from rfl, PhiS_succ]
  have hN : t.val < 512 := lt_of_lt_of_eq t.isLt (show cfg2.N = 512 from N_2)
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  rw [show (dat V c).leavesExact 3 t = owns (c : Thread nD τ) (ms3 t) fullShare ((dat V c).after 3 t) from by
    unfold Dat.leavesExact; rw [liveAt_3 t], after_3]
  rw [show (dat V c).leavesExact 4 t = owns (c : Thread nD τ) (ms4 t) fullShare ((dat V c).after 4 t) from by
    unfold Dat.leavesExact; rw [liveAt_4 t], after_4]
  rw [show (dat V c).leavesExact 5 t = owns (c : Thread nD τ) (ms5 t) fullShare ((dat V c).after 5 t) from by
    unfold Dat.leavesExact; rw [liveAt_5 t], after_5]
  rw [show (dat V c).leavesExact 6 t = owns (c : Thread nD τ) (ms6 t) fullShare ((dat V c).after 6 t) from by
    unfold Dat.leavesExact; rw [liveAt_6 t], after_6]
  rw [show (dat V c).leavesExact 7 t = owns (c : Thread nD τ) (ms7 t) fullShare ((dat V c).after 7 t) from by
    unfold Dat.leavesExact; rw [liveAt_7 t], after_7]
  rw [show (dat V c).leavesExact 8 t = owns (c : Thread nD τ) (ms8 t) fullShare ((dat V c).after 8 t) from by
    unfold Dat.leavesExact; rw [liveAt_8 t], after_8]
  by_cases h0 : t.val % 8 = 0
  · have h7 : ¬ t.val % 8 = 7 := by omega
    rw [Dat.leavesExact_idle (dat V c) 9 t (idleAt9 t h7) (noFlush9 t h7)]
    rw [accAt_reset V c t h0]
    by_cases hz : t.val = 0
    ·
      rw [PhiS_castSucc V c t, PhiS_zero V c _ _ hz, PhiA_eq]
      unfold restWith
      iintro ⟨⟨⟨R0, R1, R2, R3, R4, R5, R6, R7, R8, R9, R10, R11, R12, R13, R14, R15, R16, R17, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcondA t).mpr h0) (fun h => h7 ((hcondC t).mp h))
        (b0 V c t) (b1 V c t) (b2 V c t) (b3 V c t) (b4 V c t) (b5 V c t) (b6 V c t) (b7 V c t) (b8 V c t) ((dat V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [R0 R1 R2 R3 R4 R5 R6 R7 R8 R9 R10 R11 R12 R13 R14 R15 R16 R17 HS0 HS1 Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    ·
      rw [PhiS_castSucc V c t, PhiS_pos V c _ _ hz]
      unfold restWith
      iintro ⟨⟨⟨R0, R1, R2, R3, R4, R5, R6, R7, R8, R9, R10, R11, R12, R13, R14, R15, R16, R17, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcondA t).mpr h0) (fun h => h7 ((hcondC t).mp h))
        (b0 V c t) (b1 V c t) (b2 V c t) (b3 V c t) (b4 V c t) (b5 V c t) (b6 V c t) (b7 V c t) (b8 V c t) ((dat V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      iintro ⟨H0, H1, H2, H3, H4, H5, H6, H7, H8, H9, HS0, HS1⟩
      isplitl [R0 R1 R2 R3 R4 R5 R6 R7 R8 R9 R10 R11 R12 R13 R14 R15 R16 R17 HS0 HS1 Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun e => h0 (by rw [e])
    by_cases h7 : t.val % 8 = 7
    · rw [show (dat V c).leavesExact 9 t = owns (c : Thread nD τ) (ms9 t) fullShare ((dat V c).after 9 t) from by
        unfold Dat.leavesExact; rw [liveAt9 t h7], after_9]
      unfold outAt
      rw [accAt_step V c t h0]
      rw [PhiS_castSucc V c t, PhiS_pos V c _ _ hz]
      unfold restWith
      iintro ⟨⟨⟨R0, R1, R2, R3, R4, R5, R6, R7, R8, R9, R10, R11, R12, R13, R14, R15, R16, R17, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_C c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => h0 ((hcondA t).mp h)) ((hcondC t).mpr h7)
        (b0 V c t) (b1 V c t) (b2 V c t) (b3 V c t) (b4 V c t) (b5 V c t) (b6 V c t) (b7 V c t) (b8 V c t) (accAt V c (t.val - 1) (Nat.lt_of_le_of_lt (Nat.sub_le _ _) t.isLt)).1 (accAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [R0 R1 R2 R3 R4 R5 R6 R7 R8 R9 R10 R11 R12 R13 R14 R15 R16 R17 HS0 HS1 Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dat V c) 9 t (idleAt9 t h7) (noFlush9 t h7)]
      rw [accAt_step V c t h0]
      rw [PhiS_castSucc V c t, PhiS_pos V c _ _ hz]
      unfold restWith
      iintro ⟨⟨⟨R0, R1, R2, R3, R4, R5, R6, R7, R8, R9, R10, R11, R12, R13, R14, R15, R16, R17, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => h0 ((hcondA t).mp h)) (fun h => h7 ((hcondC t).mp h))
        (b0 V c t) (b1 V c t) (b2 V c t) (b3 V c t) (b4 V c t) (b5 V c t) (b6 V c t) (b7 V c t) (b8 V c t) ((dat V c).before 9 t d9) (accAt V c (t.val - 1) (Nat.lt_of_le_of_lt (Nat.sub_le _ _) t.isLt)).1 (accAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [R0 R1 R2 R3 R4 R5 R6 R7 R8 R9 R10 R11 R12 R13 R14 R15 R16 R17 HS0 HS1 Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: what the accumulators hold is forgotten. -/
theorem Phi_out (c : Dev nD) (t : Fin (cfg2.N + 1)) (ht : t.val ≠ 0) : (dat V c).Φ t ⊢ (Pipeline.ΦA spec2 c : sProp 𝕄) := by
  rw [show (dat V c).Φ t = PhiS V c t.val (Nat.le_of_lt_succ t.isLt) from rfl, PhiS_pos V c _ _ ht, PhiA_eq]
  unfold restWith
  iintro ⟨⟨R0, R1, R2, R3, R4, R5, R6, R7, R8, R9, R10, R11, R12, R13, R14, R15, R16, R17, HS0, HS1⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [HS0]
  · iexists _; iexact HS0
  iexists _; iexact HS1

theorem hout (c : Dev nD) : (dat V c).Φ (Fin.last cfg2.N) ⊢ (Pipeline.ΦA spec2 c : sProp 𝕄) :=
  Phi_out V c _ (by rw [Fin.val_last]; have : cfg2.N = 512 := N_2; omega)

end Cert.Kernel.Reg2

end
-- ==== Proof.K.Run.lean ====
/-
  The run of the whole program: @main is three kernel regions in a row and nothing else. Between two regions a core
  holds every unscoped buffer whole: at launch the memory's contents; after a region, that region's arrays at what its
  write-backs leave and every other buffer as it was. Each region is entered from the boundary before it and left at the
  boundary after it, and at the end every unscoped buffer is read off the last boundary. Stated at any float instance.
-/
import proofs.«155549_j32615981646424_2_alg».proof.Proof.K.Reg0
import proofs.«155549_j32615981646424_2_alg».proof.Proof.K.Reg1
import proofs.«155549_j32615981646424_2_alg».proof.Proof.K.Reg2
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wa : Dev nD → Valuation τ sig (Elt F) := fun c b => (s₀ m ρ).mem ((c : Dev nD), b)
/-- The same read at the TensorCore's references: what the first region finds. -/
abbrev Va : (c : Dev nD) → (b : Ref sig .tc) → Buf (Elt F) ((c : Thread nD τ).loc b) := fun c b => Wa m ρ c b

/-- After region 0: its arrays at what its write-backs leave (an input as entered), every other buffer as entered. -/
def Wb (c : Dev nD) : Valuation τ sig (Elt F) :=
  Pipeline.withArrays spec0 c (Wa m ρ c) fun w => (Reg0.dat (Va m ρ) c).arrAt w cfg0.N
theorem Wb_arr (c : Dev nD) (w : Fin cfg0.W) :
    Wb m ρ c (Proc.devRef .tc (Pipeline.arrRef spec0 w)) = (Reg0.dat (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m ρ c b
theorem hF0 (c : Dev nD) (w : Fin cfg0.W) : (Reg0.dat (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After region 1: its arrays at what its write-backs leave (an input as entered), every other buffer as entered. -/
def Wc (c : Dev nD) : Valuation τ sig (Elt F) :=
  Pipeline.withArrays spec1 c (Wb m ρ c) fun w => (Reg1.dat (Vb m ρ) c).arrAt w cfg1.N
theorem Wc_arr (c : Dev nD) (w : Fin cfg1.W) :
    Wc m ρ c (Proc.devRef .tc (Pipeline.arrRef spec1 w)) = (Reg1.dat (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
/-- The same read at the TensorCore's references. -/
abbrev Vc : (c : Dev nD) → (b : Ref sig .tc) → Buf (Elt F) ((c : Thread nD τ).loc b) := fun c b => Wc m ρ c b
theorem hF1 (c : Dev nD) (w : Fin cfg1.W) : (Reg1.dat (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-- After region 2: its arrays at what its write-backs leave (an input as entered), every other buffer as entered. -/
def Wd (c : Dev nD) : Valuation τ sig (Elt F) :=
  Pipeline.withArrays spec2 c (Wc m ρ c) fun w => (Reg2.dat (Vc m ρ) c).arrAt w cfg2.N
theorem Wd_arr (c : Dev nD) (w : Fin cfg2.W) :
    Wd m ρ c (Proc.devRef .tc (Pipeline.arrRef spec2 w)) = (Reg2.dat (Vc m ρ) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m ρ c (Proc.devRef .tc b) = Wc m ρ c (Proc.devRef .tc b) := by
  unfold Wd; exact Pipeline.withArrays_of_ne spec2 c _ _ b hb
/-- The same read at the TensorCore's references. -/
abbrev Vd : (c : Dev nD) → (b : Ref sig .tc) → Buf (Elt F) ((c : Thread nD τ).loc b) := fun c b => Wd m ρ c b
theorem hF2 (c : Dev nD) (w : Fin cfg2.W) : (Reg2.dat (Vc m ρ) c).arrAt w cfg2.N = Vd m ρ c (Pipeline.arrRef spec2 w) :=
  (Wd_arr m ρ c w).symm
theorem hrest2 (c : Dev nD) : ∀ b, b ∉ Finset.univ.image (Pipeline.arrRef spec2) → Vd m ρ c b = Vc m ρ c b :=
  fun b hb => Wd_of_ne m ρ c b fun w e => hb (Finset.mem_image.mpr ⟨w, Finset.mem_univ _, e⟩)

/-! ## The proof data family and what rides beside the buffers -/

/-- No region has a prefetched table. -/
abbrev adm : (p : Fin 3) → (pcfgs (F := F) p).Adm := fun p => (cfgs p).toPCfg_adm
/-- Every region's proof data, each at its entry contents: a literal match on the region's number. -/
def pdats : (p : Fin 3) → (c : Dev nD) → Dat τ (Elt F) Unit ℕ (UR sig nD τ) ℕ (Pipeline.pin (pcfgs (F := F)) adm p) c
  | ⟨0, _⟩ => fun c => Reg0.dat (Va m ρ) c
  | ⟨1, _⟩ => fun c => Reg1.dat (Vb m ρ) c
  | ⟨2, _⟩ => fun c => Reg2.dat (Vc m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its dues, none. -/
abbrev R (c : Dev nD) : sProp 𝕄 := iprop((∃ r, prngReg c r) ∗ ∃ W, owes (c : Thread nD τ) (0 : CellTallies nD τ sig Unit) W)
/-- The last boundary without the dues: every unscoped buffer at the last contents, the generator register at some state. -/
abbrev Tₙ (c : Dev nD) : sProp 𝕄 := iprop(StableHlo.held (c : Thread nD τ) (Pipeline.ucRefs τ sig) (Wd m ρ c) ∗ ∃ r, prngReg c r)

/-! ## The regions as segments -/

-- a library lemma stated over the pinned configuration unifies with the printed one only when unification may unfold plain
-- definitions in a metavariable's type
set_option backward.isDefEq.respectTransparency.types false in
/-- Region 0 between its two boundaries: its arrays are split out of the unscoped buffers at the entry contents and put
    back at what its write-backs leave; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg0.hin (Va m ρ) c)
    unfold Pipeline.ΦA
    iintro ⟨Hp, -, Hr⟩
    isplitl [Hr]; · iexact Hr
    iexact Hp
  hout c := by
    rw [Pipeline.ownSems0_none]
    refine (Reg0.hout (Va m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 between its two boundaries: its arrays are split out of the unscoped buffers at the entry contents and put
    back at what its write-backs leave; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg1.hin (Vb m ρ) c)
    unfold Pipeline.ΦA
    iintro ⟨Hp, -, Hr⟩
    isplitl [Hr]; · iexact Hr
    iexact Hp
  hout c := by
    rw [Pipeline.ownSems0_none]
    refine (Reg1.hout (Vb m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 between its two boundaries: its arrays are split out of the unscoped buffers at the entry contents and put
    back at what its write-backs leave; the generator register goes into the region's invariant and comes back; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (Vc m ρ) c).loose
  hwaits := Pipeline.hwaits_of_owed_zero _ _ _ _ L lv 2 fun _ _ => rfl
  pre c := iprop(StableHlo.held (c : Thread nD τ) (Pipeline.ucRefs τ sig) (Wc m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vc m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg2.hin (Vc m ρ) c)
    unfold Pipeline.ΦA
    iintro ⟨Hp, -, Hr⟩
    isplitl [Hr]; · iexact Hr
    iexact Hp
  hout c := by
    rw [Pipeline.ownSems0_none]
    refine (Reg2.hout (Vc m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vc m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the run -/

abbrev segs : List (Pipeline.Seg (pcfgs (F := F)) adm (pdats m ρ) () defs₀ 𝒱₀ L lv) :=
  [ .region (reg0 m ρ), .region (reg1 m ρ), .region (reg2 m ρ) ]

/-- @main is the run of the three regions in order. -/
theorem main_run (c : Dev nD) : main (F := F) c = Pipeline.Seg.run (segs m ρ) :=
  main_segs adm (pdats m ρ) () 𝒱₀ L lv (reg0 m ρ) (reg1 m ρ) (reg2 m ρ) c

-- the launch theorem's implicit arguments are found by unifying its conclusion with this one, which takes unfolding plain
-- definitions in a metavariable's type
set_option backward.isDefEq.respectTransparency.types false in
/-- From any memory with zero counters every weakly fair execution of @main terminates, nothing faulting, and every final
    memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Run

end
-- ==== Proof.K.Walk.lean ====
/-
  Reading the boundaries back. No region writes an argument array: a region either stages it through an input window,
  whose array ends as it was entered, or does not touch it; so each argument, read off any boundary, is its launch
  contents. An intermediate array (the projected features, the incidence, the hyperedge features) read off a later
  boundary is what the region that produced it left.
-/
import proofs.«155549_j32615981646424_2_alg».proof.Proof.K.Run

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

theorem Wb_main_arg0 (c : Dev nD) : Wb m ρ c (Proc.devRef .tc main_arg0) = m ((c : Thread nD τ).loc main_arg0) :=
  (Wb_of_ne m ρ c main_arg0 (by decide)).trans rfl
theorem Wc_main_arg0 (c : Dev nD) : Wc m ρ c (Proc.devRef .tc main_arg0) = m ((c : Thread nD τ).loc main_arg0) :=
  ((Wc_arr m ρ c 1).trans (((Reg1.dat (Vb m ρ) c).arrAt_in 1 rfl _).trans (Reg1.A_eq (Vb m ρ) c 1))).trans (Wb_main_arg0 m ρ c)
theorem Wd_main_arg0 (c : Dev nD) : Wd m ρ c (Proc.devRef .tc main_arg0) = m ((c : Thread nD τ).loc main_arg0) :=
  (Wd_of_ne m ρ c main_arg0 (by decide)).trans (Wc_main_arg0 m ρ c)
theorem Wb_main_arg1 (c : Dev nD) : Wb m ρ c (Proc.devRef .tc main_arg1) = m ((c : Thread nD τ).loc main_arg1) :=
  ((Wb_arr m ρ c 0).trans (((Reg0.dat (Va m ρ) c).arrAt_in 0 rfl _).trans (Reg0.A_eq (Va m ρ) c 0))).trans rfl
theorem Wc_main_arg1 (c : Dev nD) : Wc m ρ c (Proc.devRef .tc main_arg1) = m ((c : Thread nD τ).loc main_arg1) :=
  ((Wc_arr m ρ c 0).trans (((Reg1.dat (Vb m ρ) c).arrAt_in 0 rfl _).trans (Reg1.A_eq (Vb m ρ) c 0))).trans (Wb_main_arg1 m ρ c)
theorem Wd_main_arg1 (c : Dev nD) : Wd m ρ c (Proc.devRef .tc main_arg1) = m ((c : Thread nD τ).loc main_arg1) :=
  ((Wd_arr m ρ c 0).trans (((Reg2.dat (Vc m ρ) c).arrAt_in 0 rfl _).trans (Reg2.A_eq (Vc m ρ) c 0))).trans (Wc_main_arg1 m ρ c)
theorem Wb_main_arg2 (c : Dev nD) : Wb m ρ c (Proc.devRef .tc main_arg2) = m ((c : Thread nD τ).loc main_arg2) :=
  ((Wb_arr m ρ c 1).trans (((Reg0.dat (Va m ρ) c).arrAt_in 1 rfl _).trans (Reg0.A_eq (Va m ρ) c 1))).trans rfl
theorem Wc_main_arg2 (c : Dev nD) : Wc m ρ c (Proc.devRef .tc main_arg2) = m ((c : Thread nD τ).loc main_arg2) :=
  (Wc_of_ne m ρ c main_arg2 (by decide)).trans (Wb_main_arg2 m ρ c)
theorem Wd_main_arg2 (c : Dev nD) : Wd m ρ c (Proc.devRef .tc main_arg2) = m ((c : Thread nD τ).loc main_arg2) :=
  (Wd_of_ne m ρ c main_arg2 (by decide)).trans (Wc_main_arg2 m ρ c)
theorem Wb_main_arg3 (c : Dev nD) : Wb m ρ c (Proc.devRef .tc main_arg3) = m ((c : Thread nD τ).loc main_arg3) :=
  ((Wb_arr m ρ c 2).trans (((Reg0.dat (Va m ρ) c).arrAt_in 2 rfl _).trans (Reg0.A_eq (Va m ρ) c 2))).trans rfl
theorem Wc_main_arg3 (c : Dev nD) : Wc m ρ c (Proc.devRef .tc main_arg3) = m ((c : Thread nD τ).loc main_arg3) :=
  (Wc_of_ne m ρ c main_arg3 (by decide)).trans (Wb_main_arg3 m ρ c)
theorem Wd_main_arg3 (c : Dev nD) : Wd m ρ c (Proc.devRef .tc main_arg3) = m ((c : Thread nD τ).loc main_arg3) :=
  (Wd_of_ne m ρ c main_arg3 (by decide)).trans (Wc_main_arg3 m ρ c)
theorem Wb_main_arg4 (c : Dev nD) : Wb m ρ c (Proc.devRef .tc main_arg4) = m ((c : Thread nD τ).loc main_arg4) :=
  (Wb_of_ne m ρ c main_arg4 (by decide)).trans rfl
theorem Wc_main_arg4 (c : Dev nD) : Wc m ρ c (Proc.devRef .tc main_arg4) = m ((c : Thread nD τ).loc main_arg4) :=
  (Wc_of_ne m ρ c main_arg4 (by decide)).trans (Wb_main_arg4 m ρ c)
theorem Wd_main_arg4 (c : Dev nD) : Wd m ρ c (Proc.devRef .tc main_arg4) = m ((c : Thread nD τ).loc main_arg4) :=
  ((Wd_arr m ρ c 3).trans (((Reg2.dat (Vc m ρ) c).arrAt_in 3 rfl _).trans (Reg2.A_eq (Vc m ρ) c 3))).trans (Wc_main_arg4 m ρ c)
theorem Wb_main_arg5 (c : Dev nD) : Wb m ρ c (Proc.devRef .tc main_arg5) = m ((c : Thread nD τ).loc main_arg5) :=
  (Wb_of_ne m ρ c main_arg5 (by decide)).trans rfl
theorem Wc_main_arg5 (c : Dev nD) : Wc m ρ c (Proc.devRef .tc main_arg5) = m ((c : Thread nD τ).loc main_arg5) :=
  (Wc_of_ne m ρ c main_arg5 (by decide)).trans (Wb_main_arg5 m ρ c)
theorem Wd_main_arg5 (c : Dev nD) : Wd m ρ c (Proc.devRef .tc main_arg5) = m ((c : Thread nD τ).loc main_arg5) :=
  ((Wd_arr m ρ c 4).trans (((Reg2.dat (Vc m ρ) c).arrAt_in 4 rfl _).trans (Reg2.A_eq (Vc m ρ) c 4))).trans (Wc_main_arg5 m ρ c)
theorem Wb_main_arg6 (c : Dev nD) : Wb m ρ c (Proc.devRef .tc main_arg6) = m ((c : Thread nD τ).loc main_arg6) :=
  (Wb_of_ne m ρ c main_arg6 (by decide)).trans rfl
theorem Wc_main_arg6 (c : Dev nD) : Wc m ρ c (Proc.devRef .tc main_arg6) = m ((c : Thread nD τ).loc main_arg6) :=
  (Wc_of_ne m ρ c main_arg6 (by decide)).trans (Wb_main_arg6 m ρ c)
theorem Wd_main_arg6 (c : Dev nD) : Wd m ρ c (Proc.devRef .tc main_arg6) = m ((c : Thread nD τ).loc main_arg6) :=
  ((Wd_arr m ρ c 5).trans (((Reg2.dat (Vc m ρ) c).arrAt_in 5 rfl _).trans (Reg2.A_eq (Vc m ρ) c 5))).trans (Wc_main_arg6 m ρ c)
theorem Wb_main_arg7 (c : Dev nD) : Wb m ρ c (Proc.devRef .tc main_arg7) = m ((c : Thread nD τ).loc main_arg7) :=
  (Wb_of_ne m ρ c main_arg7 (by decide)).trans rfl
theorem Wc_main_arg7 (c : Dev nD) : Wc m ρ c (Proc.devRef .tc main_arg7) = m ((c : Thread nD τ).loc main_arg7) :=
  (Wc_of_ne m ρ c main_arg7 (by decide)).trans (Wb_main_arg7 m ρ c)
theorem Wd_main_arg7 (c : Dev nD) : Wd m ρ c (Proc.devRef .tc main_arg7) = m ((c : Thread nD τ).loc main_arg7) :=
  ((Wd_arr m ρ c 6).trans (((Reg2.dat (Vc m ρ) c).arrAt_in 6 rfl _).trans (Reg2.A_eq (Vc m ρ) c 6))).trans (Wc_main_arg7 m ρ c)
theorem Wb_main_arg8 (c : Dev nD) : Wb m ρ c (Proc.devRef .tc main_arg8) = m ((c : Thread nD τ).loc main_arg8) :=
  (Wb_of_ne m ρ c main_arg8 (by decide)).trans rfl
theorem Wc_main_arg8 (c : Dev nD) : Wc m ρ c (Proc.devRef .tc main_arg8) = m ((c : Thread nD τ).loc main_arg8) :=
  (Wc_of_ne m ρ c main_arg8 (by decide)).trans (Wb_main_arg8 m ρ c)
theorem Wd_main_arg8 (c : Dev nD) : Wd m ρ c (Proc.devRef .tc main_arg8) = m ((c : Thread nD τ).loc main_arg8) :=
  ((Wd_arr m ρ c 7).trans (((Reg2.dat (Vc m ρ) c).arrAt_in 7 rfl _).trans (Reg2.A_eq (Vc m ρ) c 7))).trans (Wc_main_arg8 m ρ c)
theorem Wb_main_arg9 (c : Dev nD) : Wb m ρ c (Proc.devRef .tc main_arg9) = m ((c : Thread nD τ).loc main_arg9) :=
  (Wb_of_ne m ρ c main_arg9 (by decide)).trans rfl
theorem Wc_main_arg9 (c : Dev nD) : Wc m ρ c (Proc.devRef .tc main_arg9) = m ((c : Thread nD τ).loc main_arg9) :=
  (Wc_of_ne m ρ c main_arg9 (by decide)).trans (Wb_main_arg9 m ρ c)
theorem Wd_main_arg9 (c : Dev nD) : Wd m ρ c (Proc.devRef .tc main_arg9) = m ((c : Thread nD τ).loc main_arg9) :=
  ((Wd_arr m ρ c 8).trans (((Reg2.dat (Vc m ρ) c).arrAt_in 8 rfl _).trans (Reg2.A_eq (Vc m ρ) c 8))).trans (Wc_main_arg9 m ρ c)

/-- The projected features, as the second region finds them, are what the first region left. -/
theorem Wb_main_v0 (c : Dev nD) : Wb m ρ c (Proc.devRef .tc main_v0) = (Reg0.dat (Va m ρ) c).arrAt 3 cfg0.N := Wb_arr m ρ c 3
/-- The hyperedge features and the incidence, as the third region finds them, are what the second region left. -/
theorem Wc_main_v1_0 (c : Dev nD) : Wc m ρ c (Proc.devRef .tc main_v1_0) = (Reg1.dat (Vb m ρ) c).arrAt 3 cfg1.N := Wc_arr m ρ c 3
theorem Wc_main_v1_1 (c : Dev nD) : Wc m ρ c (Proc.devRef .tc main_v1_1) = (Reg1.dat (Vb m ρ) c).arrAt 4 cfg1.N := Wc_arr m ρ c 4
/-- The result, at the end, is what the third region left. -/
theorem Wd_main_v2 (c : Dev nD) : Wd m ρ c (Proc.devRef .tc main_v2) = (Reg2.dat (Vc m ρ) c).arrAt 9 cfg2.N := Wd_arr m ρ c 9

/-- The frame: every execution terminates without a fault and ends with the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (Wd_main_arg0 m ρ c),
    (h c _ (mem_uc main_arg1 (by decide))).trans (Wd_main_arg1 m ρ c),
    (h c _ (mem_uc main_arg2 (by decide))).trans (Wd_main_arg2 m ρ c),
    (h c _ (mem_uc main_arg3 (by decide))).trans (Wd_main_arg3 m ρ c),
    (h c _ (mem_uc main_arg4 (by decide))).trans (Wd_main_arg4 m ρ c),
    (h c _ (mem_uc main_arg5 (by decide))).trans (Wd_main_arg5 m ρ c),
    (h c _ (mem_uc main_arg6 (by decide))).trans (Wd_main_arg6 m ρ c),
    (h c _ (mem_uc main_arg7 (by decide))).trans (Wd_main_arg7 m ρ c),
    (h c _ (mem_uc main_arg8 (by decide))).trans (Wd_main_arg8 m ρ c),
    (h c _ (mem_uc main_arg9 (by decide))).trans (Wd_main_arg9 m ρ c)⟩) (run_all m ρ)

end Cert.Kernel.Run

end
-- ==== Proof.KI.Reg0.lean ====
/-
  The first region: the projection of the node features, X = f · W_fcᵀ + b_fc, one (batch, 512-row tile) block per grid
  point. The body reads the tile of f, the whole weight matrix and the whole bias, and stores ONE whole block: what it
  leaves in the output's staging buffer is the single store's value of the three input blocks. Stated at a parameter
  `V`, the contents of every buffer when the region is entered, and at any float instance.
-/
import proofs.«155549_j32615981646424_2_alg».proof.Proof.Gen.KernelIdeal.Launch
import proofs.«155549_j32615981646424_2_alg».proof.Proof.Gen.KernelIdeal.Skeleton
import proofs.«155549_j32615981646424_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, its block
    index has not moved), for any proof data over `V`'s arrays whose body leaves the block in place. -/
theorem before_in_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, its block
    index has not moved), for any proof data over `V`'s arrays whose body leaves the block in place. -/
theorem before_in_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, its block
    index has not moved), for any proof data over `V`'s arrays whose body leaves the block in place. -/
theorem before_in_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each load and the one store take the whole buffer -/

abbrev rBlk : Rect S1x512x256 := Rect.unit (s := S1x512x256) ![0, 0, 0] S1x512x256.size inb_S1x512x256_S1x512x256_0_0_0
abbrev rW : Rect S256x256 := Rect.unit (s := S256x256) ![0, 0] S256x256.size inb_S256x256_S256x256_0_0
abbrev rB : Rect S256 := Rect.unit (s := S256) ![0] S256.size inb_S256_S256_0

/-- What the body leaves in the output's staging buffer, from the three input blocks: its one store. -/
def outX (x0 : Vec F S1x512x256 .f32) (x1 : Vec F S256x256 .f32) (x2 : Vec F S256 .f32) : Vec F S1x512x256 .f32 :=
  View.canon [⟨rBlk, k0_pay1 (View.ld x0 rBlk) (View.ld x1 rW) (View.ld x2 rB)⟩]

/-- The one store takes the whole buffer, so it covers it. -/
theorem coverX (p0 : Vec F S1x512x256 .f32) (y : S1x512x256.Idx) :
    ∃ pc ∈ ([⟨rBlk, p0⟩] : List (View.Piece (Elt F) S1x512x256 .f32)), y ∈ pc.1.set :=
  View.cover_of_tiled [⟨rBlk, p0⟩] S1x512x256.size (by rfl) y

/-! ## The body's triple -/

set_option maxHeartbeats 1000000 in
/-- On whole staging memrefs, the inputs' at read contents and the output's at anything, the body runs to the
    continuation with the inputs as they were and the output at `outX` of them. -/
theorem sound_kernel (c : Dev nD) (E : Set ℕ) (i : grid0.Coords)
    (arg2 : Memref sig .tc .vmem S1x512x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S1x512x256 .f32) (harg5 : arg5.IsWhole)
    (x0 : Vec F S1x512x256 .f32) (x1 : Vec F S256x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outX x0 x1 x2)) -∗ K ⟨⟩))
      ⊢ wp frame (wpE (defs₀ (F := F)) Variants.none c none) E (cc0__kx_body i arg2 harg2 arg3 harg3 arg4 harg4 arg5 harg5) K := by
  simp only [cc0__kx_body_eq_skeleton]; unfold cc0__kx_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

/-! ## The proof data -/

/-- The proof data of the region on core `c`: the arrays as the region finds them; after the body at point `t` each
    input's buffer at its block and the output's at `outX` of the input blocks; the invariant is the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outX (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outX (iblk V c 0 t) (iblk V c 1 t) (iblk V c 2 t) := by dsimp only [dat]

theorem before_0 (c : Dev nD) (t : Fin cfg0.N) (d) : (dat V c).before 0 t d = iblk V c 0 t :=
  before_in_0_of V (dat V c) (A_eq V c 0) (after_0 V c) t d
theorem before_1 (c : Dev nD) (t : Fin cfg0.N) (d) : (dat V c).before 1 t d = iblk V c 1 t :=
  before_in_1_of V (dat V c) (A_eq V c 1) (after_1 V c) t d
theorem before_2 (c : Dev nD) (t : Fin cfg0.N) (d) : (dat V c).before 2 t d = iblk V c 2 t :=
  before_in_2_of V (dat V c) (A_eq V c 2) (after_2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-- The invariant is the launch's own at every point. -/
theorem hin (c : Dev nD) : (Pipeline.ΦA spec0 c : sProp 𝕄) ⊢ (dat V c).Φ 0 := Idealize.SL.BI.Entails.refl _
theorem hout (c : Dev nD) : (dat V c).Φ (Fin.last cfg0.N) ⊢ (Pipeline.ΦA spec0 c : sProp 𝕄) := Idealize.SL.BI.Entails.refl _

end Cert.KernelIdeal.Reg0

end
-- ==== Proof.KI.Reg1Cond.lean ====
/-
  What the hyperedge-aggregation kernel's frame proof shares: the two conditions its body branches on, as propositions
  over the grid coordinates — the node tile is the first of its sweep (the running sums restart), the node tile is the
  last of its sweep (the hyperedge features are stored) —; the values its stores write, named after what they are; and
  the fact that reading a buffer back after a store through its whole shape gives the stored value.
-/
import proofs.«155549_j32615981646424_2_alg».proof.Proof.Gen.KernelIdeal.Launch
import proofs.«155549_j32615981646424_2_alg».proof.Proof.Gen.KernelIdeal.Skeleton
import proofs.«155549_j32615981646424_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition (the node tile is the first of its sweep), from the grid coordinates. -/
abbrev cond0 (i : grid1.Coords) : Prop := (Scalar.cmpi .ne (Scalar.extui (Scalar.cmpi .eq (BitVec.ofNat 32 (i 2).val) 0#32)) 0#32) = 1#1

/-- The second conditional's condition (the node tile is the last of its sweep). -/
abbrev cond1 (i : grid1.Coords) : Prop := k1_cond2 i = 1#1

/-! ## The stored values -/

/-- The incidence block of a node tile `x0` against a hyperedge tile `x1`, as stored. -/
def hgPay (x0 x1 : Vec F S1x512x256 .f32) : Vec F S1x512x512 .bf16 := k1_pay9 x0 x1

/-- The weighted feature sum after a point: the block's contribution (incidence transposed times the node features
    `x2`) added to what the sum held. -/
def accStep (x0 x1 x2 : Vec F S1x512x256 .f32) (a : Vec F S512x256 .f32) : Vec F S512x256 .f32 :=
  k1_pay1 (k1_pay10 x0 x1 x2) a

/-- The column counts after a point: the block's column sums added to what the counts held. -/
def degStep (x0 x1 : Vec F S1x512x256 .f32) (d : Vec F S1x512 .f32) : Vec F S1x512 .f32 :=
  k1_pay2 (k1_pay7 x0 x1) d

/-- The hyperedge features' tile from the hyperedge queries' tile `x1`, the finished counts `d` and the finished
    weighted sum `a`. -/
def edgeOut (x1 : Vec F S1x512x256 .f32) (d : Vec F S1x512 .f32) (a : Vec F S512x256 .f32) : Vec F S1x512x256 .f32 :=
  k1_pay3 (k1_pay6 x1) d a

/-! ## Reading back a store through the whole shape -/

theorem hz3 : (![0, 0, 0] : Fin 3 → Nat) = fun _ => 0 := funext fun a => by fin_cases a <;> rfl
theorem hz2 : (![0, 0] : Fin 2 → Nat) = fun _ => 0 := funext fun a => by fin_cases a <;> rfl

/-- After writes whose last is a store through the whole shape, the buffer reads that store's value, whatever it held
    and whatever the earlier writes were. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

end Cert.KernelIdeal.Reg1

end
-- ==== Proof.KI.Reg1Defs.lean ====
/-
  The hyperedge-aggregation region (the second of the three kernels), point by point.

  The grid is (batch b, hyperedge tile e, node tile v), 8 x 8 x 8 points, the node tile moving fastest; point t has
  v = t mod 8. At every point the body computes, from the node queries' tile (window 0), the hyperedge queries' tile
  (window 1) and the projected node features' tile (window 2), the 512 x 512 incidence block, stores it (window 4),
  and adds the block's contribution to two running sums kept in scratch between points: the incidence-weighted sum
  of node features (512 x 256) and the column counts (1 x 512). The sums restart from zero where v = 0, and where
  v = 7 the hyperedge features' tile (window 3) is stored from them. Window 3 is stored, and written back, only there.

  This module fixes what every buffer holds after each point as explicit terms over the body's named pure values,
  the region invariant that carries the two running sums from one point to the next, and the proof data.
-/
import proofs.«155549_j32615981646424_2_alg».proof.Proof.KI.Reg1Cond

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not
    (not fetched means the block index has not moved since the fetch), for any proof data over the arrays `V` whose
    body leaves the input in place. Window 0: the node queries' tile. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1: the hyperedge queries' tile (fetched only where the node tile restarts). -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2: the projected node features' tile. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form -/

/-- The first condition holds at the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)

/-- The second condition holds at the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live4 : ∀ t : Fin cfg1.N, cfg1.idle 4 (grid1.coords t) = false := fun _ => rfl
/-- Away from the last node tile the hyperedge features' window is idle: nothing is stored into it, -/
theorem idle3 : ∀ t : Fin cfg1.N, ¬cond1 (grid1.coords t) → cfg1.idle 3 (grid1.coords t) = true := by decide +kernel
/-- and its block is not written back there; -/
theorem noFlush3 (t : Fin cfg1.N) (h : ¬cond1 (grid1.coords t)) : (cfg1.win 3).flush t = false :=
  Bool.eq_false_iff.mpr fun hf => h ((hcond1 t).mpr ((flush1_3 t).mp hf))
/-- at the last node tile it is live. -/
theorem live3 : ∀ t : Fin cfg1.N, cond1 (grid1.coords t) → cfg1.idle 3 (grid1.coords t) = false := by decide +kernel

/-! ## The memrefs the body is called on -/

abbrev ms0 (t : Fin cfg1.N) : Memref sig .tc .vmem S1x512x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512x512 .bf16 := win1_4.stage (cfg1.slots t 4)
abbrev hs4 (t : Fin cfg1.N) : (ms4 t).IsWhole := hstage1_4 ((cfg1.slots t 4).cast nbuf1_4)
/-- The two running sums' scratch buffers: the weighted feature sum and the column counts. -/
abbrev scM0 : Memref sig .tc .vmem S512x256 .f32 := Memref.whole cc1_scratch0
abbrev scM1 : Memref sig .tc .vmem S1x512 .f32 := Memref.whole cc1_scratch1

/-! ## What the two running sums hold after each point -/

/-- The two running sums after the body at position `n`, by recursion on the position: where the node tile is the
    first of its sweep they restart from the zero fills, elsewhere they continue from what position `n - 1` left. -/
def scrAt (c : Dev nD) : (n : ℕ) → n < cfg1.N → Vec F S512x256 .f32 × Vec F S1x512 .f32
  | 0, hn => (accStep (iblk V c 0 ⟨0, hn⟩) (iblk V c 1 ⟨0, hn⟩) (iblk V c 2 ⟨0, hn⟩) (k1_pay4 (F := F)),
      degStep (iblk V c 0 ⟨0, hn⟩) (iblk V c 1 ⟨0, hn⟩) (k1_pay5 (F := F)))
  | n + 1, hn =>
    if (n + 1) % 8 = 0 then
      (accStep (iblk V c 0 ⟨n + 1, hn⟩) (iblk V c 1 ⟨n + 1, hn⟩) (iblk V c 2 ⟨n + 1, hn⟩) (k1_pay4 (F := F)),
        degStep (iblk V c 0 ⟨n + 1, hn⟩) (iblk V c 1 ⟨n + 1, hn⟩) (k1_pay5 (F := F)))
    else
      (accStep (iblk V c 0 ⟨n + 1, hn⟩) (iblk V c 1 ⟨n + 1, hn⟩) (iblk V c 2 ⟨n + 1, hn⟩) (scrAt c n (Nat.lt_of_succ_lt hn)).1,
        degStep (iblk V c 0 ⟨n + 1, hn⟩) (iblk V c 1 ⟨n + 1, hn⟩) (scrAt c n (Nat.lt_of_succ_lt hn)).2)

/-- At the first node tile of a sweep: from the zero fills. -/
theorem scrAt_first (c : Dev nD) (t : Fin cfg1.N) (h0 : t.val % 8 = 0) :
    scrAt V c t.val t.isLt = (accStep (iblk V c 0 t) (iblk V c 1 t) (iblk V c 2 t) (k1_pay4 (F := F)),
      degStep (iblk V c 0 t) (iblk V c 1 t) (k1_pay5 (F := F))) := by
  obtain ⟨n, hn⟩ := t
  cases n with
  | zero => rfl
  | succ n => exact (if_pos h0).trans rfl

/-- At a later node tile: from what the point before left. -/
theorem scrAt_next (c : Dev nD) (t : Fin cfg1.N) (h0 : ¬t.val % 8 = 0) :
    scrAt V c t.val t.isLt = (accStep (iblk V c 0 t) (iblk V c 1 t) (iblk V c 2 t) (scrAt V c (t.val - 1) (Nat.lt_of_le_of_lt (Nat.sub_le _ _) t.isLt)).1,
      degStep (iblk V c 0 t) (iblk V c 1 t) (scrAt V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The region invariant -/

/-- The kernel's own scratch among the core's scoped buffers. -/
abbrev scL : List (Ref sig .tc) := [cc1_scratch0, cc1_scratch1]

/-- The core's other scoped buffers (no staging buffer of this region, not its scratch), each at some contents. -/
abbrev restBut (c : Dev nD) : sProp 𝕄 :=
  Pipeline.scopedRestBut (Ix := Unit) (Name := ℕ) (U := UR sig nD τ) (Lvl := ℕ) (Val := Elt F) spec1 c scL

/-- What the launch hands the region, with the two scratch buffers split off as memrefs owned at some contents. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d)) ∗ restBut c) ∗ (∃ r, prngReg c r)) := by
  unfold Pipeline.ΦA restBut
  rw [Pipeline.scopedRest_split_of_list spec1 c scL (by decide) (by decide)]
  simp only [scM0, scM1, owns_whole, bigSepL_cons_cons, bigSepL_singleton]; try rfl

/-- The invariant before position `n`: before the first point what the launch hands over (the scratch at anything);
    afterwards the two scratch buffers at the running sums the point before left, the rest as it was. -/
def PhiS (c : Dev nD) : (n : ℕ) → n ≤ cfg1.N → sProp 𝕄
  | 0, _ => Pipeline.ΦA spec1 c
  | n + 1, hn => iprop(iprop(iprop(owns (c : Thread nD τ) scM0 fullShare (scrAt V c n hn).1 ∗ owns (c : Thread nD τ) scM1 fullShare (scrAt V c n hn).2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (scrAt V c n hn).1 ∗ owns (c : Thread nD τ) scM1 fullShare (scrAt V c n hn).2) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (scrAt V c (n - 1) (by omega)).1 ∗ owns (c : Thread nD τ) scM1 fullShare (scrAt V c (n - 1) (by omega)).2) ∗ restBut c) ∗ (∃ r, prngReg c r)) := by
  cases n with
  | zero => exact absurd rfl hz
  | succ n => rfl

/-! ## The proof data -/

/-- The region's proof data on core `c`: the arrays as the region finds them; after the body at point `t` each
    input's buffer at its block, the incidence window at the block the point computes, the hyperedge features' window
    at the value the last node tile stores from the running sums (consulted only there: elsewhere the window is idle);
    the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => edgeOut (iblk V c 1 t) (scrAt V c t.val t.isLt).2 (scrAt V c t.val t.isLt).1
    | ⟨4, _⟩ => hgPay (iblk V c 0 t) (iblk V c 1 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) :
    (dat V c).after 3 t = edgeOut (iblk V c 1 t) (scrAt V c t.val t.isLt).2 (scrAt V c t.val t.isLt).1 := by dsimp only [dat]
theorem after4 (c : Dev nD) (t : Fin cfg1.N) : (dat V c).after 4 t = hgPay (iblk V c 0 t) (iblk V c 1 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-! ## The invariant's entry and exit -/

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: the running sums' values are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

/-- The same after the last point. -/
theorem hout (c : Dev nD) : (dat V c).Φ (Fin.last cfg1.N) ⊢ (Pipeline.ΦA spec1 c : sProp 𝕄) :=
  Phi_out V c _ (by rw [Fin.val_last]; have : cfg1.N = 512 := N_1; omega)

end Cert.KernelIdeal.Reg1

end
-- ==== Proof.KI.Reg1RunA.lean ====
/-
  The hyperedge-aggregation kernel's body, run once from start to end in control case A: the first node tile of a sweep (the first conditional taken, the second not).
  The running sums are first overwritten with zero fills, then read back and stored increased; the incidence block is
  stored; the hyperedge features' buffer is not touched.
  The statement: on whole memrefs, the three inputs at given contents, the body runs to any continuation that accepts
  the inputs back unchanged and each buffer the case stores into with those stores written — the stores, as lists of
  (rectangle, value) pieces, last first, are found by the run itself and returned with the proof.
-/
import proofs.«155549_j32615981646424_2_alg».proof.Proof.KI.Reg1Cond

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the first conditional taken, the second not. -/
noncomputable def runA (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : cond0 i) (hc1 : ¬cond1 i)
    (x0 x1 x2 : Vec F S1x512x256 .f32) :
    Σ' (L4 : List (View.Piece (Elt F) S1x512x512 .bf16)) (LS0 : List (View.Piece (Elt F) S512x256 .f32)), { LS1 : List (View.Piece (Elt F) S1x512 .f32) //
      ∀ (xi3 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__k1_body i arg3 harg3 arg4 harg4 arg5 harg5 arg6 harg6 arg7 harg7 arg8 harg8 arg9 harg9) K } := by
  refine ⟨?_, ?_, ?_, fun xi3 E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

/-! ## What the case's stores leave, read back -/

/-- The incidence window's buffer after the case: the block of the two tiles. -/
theorem readA4 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : cond0 i) (hc1 : ¬cond1 i)
    (x0 x1 x2 : Vec F S1x512x256 .f32)
    (v : View sig .tc .vmem S1x512x512 .bf16) (f : v.ty.Contents (Elt F)) :
    v.read (Elt F) (v.writes (Elt F) f (runA c i arg3 harg3 arg4 harg4 arg5 harg5 arg6 harg6 arg7 harg7 arg8 harg8 arg9 harg9 hc0 hc1 x0 x1 x2).1) = hgPay x0 x1 := by
  unfold runA; dsimp only; sl_unfold_words
  refine (read_writes_whole v f hz3 _ _ _).trans ?_
  simp only [View.readAt_eq_ld, harg3.read_unread, harg4.read_unread, harg5.read_unread, View.ld_unit_zero (S := S1x512x256) hz3]
  rfl

/-- The weighted feature sum's scratch after the case: one step from the zero fill. -/
theorem readAS0 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : cond0 i) (hc1 : ¬cond1 i)
    (x0 x1 x2 : Vec F S1x512x256 .f32)
    (v : View sig .tc .vmem S512x256 .f32) (f : v.ty.Contents (Elt F)) :
    v.read (Elt F) (v.writes (Elt F) f (runA c i arg3 harg3 arg4 harg4 arg5 harg5 arg6 harg6 arg7 harg7 arg8 harg8 arg9 harg9 hc0 hc1 x0 x1 x2).2.1) = accStep x0 x1 x2 (k1_pay4 (F := F)) := by
  unfold runA; dsimp only; sl_unfold_words
  refine (read_writes_whole v f hz2 _ _ _).trans ?_
  simp only [View.readAt_eq_ld, harg3.read_unread, harg4.read_unread, harg5.read_unread, View.ld_unit_zero (S := S1x512x256) hz3, View.readCov_cons_toLoadRect]
  rfl

/-- The column counts' scratch after the case: one step from the zero fill. -/
theorem readAS1 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : cond0 i) (hc1 : ¬cond1 i)
    (x0 x1 x2 : Vec F S1x512x256 .f32)
    (v : View sig .tc .vmem S1x512 .f32) (f : v.ty.Contents (Elt F)) :
    v.read (Elt F) (v.writes (Elt F) f (runA c i arg3 harg3 arg4 harg4 arg5 harg5 arg6 harg6 arg7 harg7 arg8 harg8 arg9 harg9 hc0 hc1 x0 x1 x2).2.2.1) = degStep x0 x1 (k1_pay5 (F := F)) := by
  unfold runA; dsimp only; sl_unfold_words
  refine (read_writes_whole v f hz2 _ _ _).trans ?_
  simp only [View.readAt_eq_ld, harg3.read_unread, harg4.read_unread, harg5.read_unread, View.ld_unit_zero (S := S1x512x256) hz3, View.readCov_cons_toLoadRect]
  rfl

end Cert.KernelIdeal.Reg1

end
-- ==== Proof.KI.Reg1RunB.lean ====
/-
  The hyperedge-aggregation kernel's body, run once from start to end in control case B: a node tile strictly inside its sweep (neither conditional taken).
  The running sums are read at what the point before left and stored back increased; the incidence block is stored;
  the hyperedge features' buffer is not touched.
  The statement: on whole memrefs, the three inputs at given contents, the body runs to any continuation that accepts
  the inputs back unchanged and each buffer the case stores into with those stores written — the stores, as lists of
  (rectangle, value) pieces, last first, are found by the run itself and returned with the proof.
-/
import proofs.«155549_j32615981646424_2_alg».proof.Proof.KI.Reg1Cond

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: neither conditional taken. -/
noncomputable def runB (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : ¬cond1 i)
    (x0 x1 x2 : Vec F S1x512x256 .f32) (xs0 : Vec F S512x256 .f32) (xs1 : Vec F S1x512 .f32) :
    Σ' (L4 : List (View.Piece (Elt F) S1x512x512 .bf16)) (LS0 : List (View.Piece (Elt F) S512x256 .f32)), { LS1 : List (View.Piece (Elt F) S1x512 .f32) //
      ∀ (xi3 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__k1_body i arg3 harg3 arg4 harg4 arg5 harg5 arg6 harg6 arg7 harg7 arg8 harg8 arg9 harg9) K } := by
  refine ⟨?_, ?_, ?_, fun xi3 E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

/-! ## What the case's stores leave, read back -/

/-- The incidence window's buffer after the case: the block of the two tiles. -/
theorem readB4 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : ¬cond1 i)
    (x0 x1 x2 : Vec F S1x512x256 .f32) (xs0 : Vec F S512x256 .f32) (xs1 : Vec F S1x512 .f32)
    (v : View sig .tc .vmem S1x512x512 .bf16) (f : v.ty.Contents (Elt F)) :
    v.read (Elt F) (v.writes (Elt F) f (runB c i arg3 harg3 arg4 harg4 arg5 harg5 arg6 harg6 arg7 harg7 arg8 harg8 arg9 harg9 hc0 hc1 x0 x1 x2 xs0 xs1).1) = hgPay x0 x1 := by
  unfold runB; dsimp only; sl_unfold_words
  refine (read_writes_whole v f hz3 _ _ _).trans ?_
  simp only [View.readAt_eq_ld, harg3.read_unread, harg4.read_unread, harg5.read_unread, View.ld_unit_zero (S := S1x512x256) hz3]
  rfl

/-- The weighted feature sum's scratch after the case: one step from what it held. -/
theorem readBS0 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : ¬cond1 i)
    (x0 x1 x2 : Vec F S1x512x256 .f32) (xs0 : Vec F S512x256 .f32) (xs1 : Vec F S1x512 .f32)
    (v : View sig .tc .vmem S512x256 .f32) (f : v.ty.Contents (Elt F)) :
    v.read (Elt F) (v.writes (Elt F) f (runB c i arg3 harg3 arg4 harg4 arg5 harg5 arg6 harg6 arg7 harg7 arg8 harg8 arg9 harg9 hc0 hc1 x0 x1 x2 xs0 xs1).2.1) = accStep x0 x1 x2 xs0 := by
  unfold runB; dsimp only; sl_unfold_words
  refine (read_writes_whole v f hz2 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2]
  rfl

/-- The column counts' scratch after the case: one step from what it held. -/
theorem readBS1 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : ¬cond1 i)
    (x0 x1 x2 : Vec F S1x512x256 .f32) (xs0 : Vec F S512x256 .f32) (xs1 : Vec F S1x512 .f32)
    (v : View sig .tc .vmem S1x512 .f32) (f : v.ty.Contents (Elt F)) :
    v.read (Elt F) (v.writes (Elt F) f (runB c i arg3 harg3 arg4 harg4 arg5 harg5 arg6 harg6 arg7 harg7 arg8 harg8 arg9 harg9 hc0 hc1 x0 x1 x2 xs0 xs1).2.2.1) = degStep x0 x1 xs1 := by
  unfold runB; dsimp only; sl_unfold_words
  refine (read_writes_whole v f hz2 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2]
  rfl

end Cert.KernelIdeal.Reg1

end
-- ==== Proof.KI.Reg1RunC.lean ====
/-
  The hyperedge-aggregation kernel's body, run once from start to end in control case C: the last node tile of a sweep (the first conditional not taken, the second taken).
  The running sums are read at what the point before left and stored back increased; the incidence block is stored;
  then the hyperedge features' tile is stored from the finished sums.
  The statement: on whole memrefs, the three inputs at given contents, the body runs to any continuation that accepts
  the inputs back unchanged and each buffer the case stores into with those stores written — the stores, as lists of
  (rectangle, value) pieces, last first, are found by the run itself and returned with the proof.
-/
import proofs.«155549_j32615981646424_2_alg».proof.Proof.KI.Reg1Cond

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the first conditional not taken, the second taken. -/
noncomputable def runC (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32) :
    Σ' (L3 : List (View.Piece (Elt F) S1x512x256 .f32)) (L4 : List (View.Piece (Elt F) S1x512x512 .bf16)) (LS0 : List (View.Piece (Elt F) S512x256 .f32)), { LS1 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__k1_body i arg3 harg3 arg4 harg4 arg5 harg5 arg6 harg6 arg7 harg7 arg8 harg8 arg9 harg9) K } := by
  refine ⟨?_, ?_, ?_, ?_, fun E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HS0]; · iexists _; iexact HS0
    iexists _; iexact HS1

/-! ## What the case's stores leave, read back -/

/-- The hyperedge features' window after the case: the tile from the finished sums. -/
theorem readC3 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32)
    (v : View sig .tc .vmem S1x512x256 .f32) (f : v.ty.Contents (Elt F)) :
    v.read (Elt F) (v.writes (Elt F) f (runC c i arg3 harg3 arg4 harg4 arg5 harg5 arg6 harg6 arg7 harg7 arg8 harg8 arg9 harg9 hc0 hc1 x0 x1 x2 xs0 xs1).1)
      = edgeOut x1 (degStep x0 x1 xs1) (accStep x0 x1 x2 xs0) := by
  unfold runC; dsimp only; sl_unfold_words
  refine (read_writes_whole v f hz3 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2, View.readCov_cons_toLoadRect]
  rfl

/-- The incidence window's buffer after the case: the block of the two tiles. -/
theorem readC4 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32)
    (v : View sig .tc .vmem S1x512x512 .bf16) (f : v.ty.Contents (Elt F)) :
    v.read (Elt F) (v.writes (Elt F) f (runC c i arg3 harg3 arg4 harg4 arg5 harg5 arg6 harg6 arg7 harg7 arg8 harg8 arg9 harg9 hc0 hc1 x0 x1 x2 xs0 xs1).2.1) = hgPay x0 x1 := by
  unfold runC; dsimp only; sl_unfold_words
  refine (read_writes_whole v f hz3 _ _ _).trans ?_
  simp only [View.readAt_eq_ld, harg3.read_unread, harg4.read_unread, harg5.read_unread, View.ld_unit_zero (S := S1x512x256) hz3]
  rfl

/-- The weighted feature sum's scratch after the case: one step from what it held. -/
theorem readCS0 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32)
    (v : View sig .tc .vmem S512x256 .f32) (f : v.ty.Contents (Elt F)) :
    v.read (Elt F) (v.writes (Elt F) f (runC c i arg3 harg3 arg4 harg4 arg5 harg5 arg6 harg6 arg7 harg7 arg8 harg8 arg9 harg9 hc0 hc1 x0 x1 x2 xs0 xs1).2.2.1) = accStep x0 x1 x2 xs0 := by
  unfold runC; dsimp only; sl_unfold_words
  refine (read_writes_whole v f hz2 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2]
  rfl

/-- The column counts' scratch after the case: one step from what it held. -/
theorem readCS1 (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S512x256 .f32) (harg8 : arg8.IsWhole) (arg9 : Memref sig .tc .vmem S1x512 .f32) (harg9 : arg9.IsWhole) (hc0 : ¬cond0 i) (hc1 : cond1 i)
    (x0 x1 x2 : Vec F S1x512x256 .f32) (xs0 : Vec F S512x256 .f32) (xs1 : Vec F S1x512 .f32)
    (v : View sig .tc .vmem S1x512 .f32) (f : v.ty.Contents (Elt F)) :
    v.read (Elt F) (v.writes (Elt F) f (runC c i arg3 harg3 arg4 harg4 arg5 harg5 arg6 harg6 arg7 harg7 arg8 harg8 arg9 harg9 hc0 hc1 x0 x1 x2 xs0 xs1).2.2.2.1) = degStep x0 x1 xs1 := by
  unfold runC; dsimp only; sl_unfold_words
  refine (read_writes_whole v f hz2 _ _ _).trans ?_
  simp only [View.readAt_eq_ld, harg3.read_unread, harg4.read_unread, harg5.read_unread, View.ld_unit_zero (S := S1x512x256) hz3, harg8.read_unread, harg9.read_unread, View.ld_unit_zero (S := S512x256) hz2, View.ld_unit_zero (S := S1x512) hz2]
  rfl

end Cert.KernelIdeal.Reg1

end
-- ==== Proof.KI.Reg1.lean ====
/-
  The hyperedge-aggregation region's body obligation: at every grid point, from the invariant and the windows' staging
  buffers at what they hold, the body runs to the invariant of the next point and the buffers at what the proof data says
  it leaves. By cases on the node tile's position in its sweep — first (the running sums restart from the zero fills),
  inside, last (the hyperedge features' tile is stored from the finished sums) —, each case the body's whole run, whose
  stores read back as the proof data's terms.
-/
import proofs.«155549_j32615981646424_2_alg».proof.Proof.KI.Reg1Defs
import proofs.«155549_j32615981646424_2_alg».proof.Proof.KI.Reg1RunA
import proofs.«155549_j32615981646424_2_alg».proof.Proof.KI.Reg1RunB
import proofs.«155549_j32615981646424_2_alg».proof.Proof.KI.Reg1RunC

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' buffers hold their blocks; the position of the node tile in its sweep says
    which case the point is in; the invariant hands the body the two scratch buffers at the running sums the point
    before left (at anything where the sums restart) and takes them back at this point's sums. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 4 t = owns (c : Thread nD τ) (ms4 t) fullShare ((dat V c).after 4 t) from by
    unfold Dat.leavesExact; rw [live4 t], after4]
  have hN : t.val < 512 := lt_of_lt_of_eq t.isLt (show cfg1.N = 512 from N_1)
  by_cases h0 : t.val % 8 = 0
  · have h1 : ¬t.val % 8 = 7 := by omega
    rw [Dat.leavesExact_idle (dat V c) 3 t (idle3 t (fun h => h1 ((hcond1 t).mp h))) (noFlush3 t (fun h => h1 ((hcond1 t).mp h)))]
    rw [scrAt_first V c t h0]
    (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runA c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact readAS0 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) scM0.view es0
            · unfold owns; iexists _; isplitr
              swap; · iexact HS1
              ipureintro; exact readAS1 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) scM1.view es1
          · iexact HR
        · iexact Hg
      isplitl [Ho]; · iexact Ho
      isplitl [H0]; · iexact H0
      isplitl [H1]; · iexact H1
      isplitl [H2]; · iexact H2
      isplitl [H3]
      · iexists _; iexact H3
      unfold owns; iexists _; isplitr
      swap; · iexact H4
      ipureintro; exact readA4 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) (ms4 t).view e4
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runA c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact readAS0 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) scM0.view es0
            · unfold owns; iexists _; isplitr
              swap; · iexact HS1
              ipureintro; exact readAS1 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) scM1.view es1
          · iexact HR
        · iexact Hg
      isplitl [Ho]; · iexact Ho
      isplitl [H0]; · iexact H0
      isplitl [H1]; · iexact H1
      isplitl [H2]; · iexact H2
      isplitl [H3]
      · iexists _; iexact H3
      unfold owns; iexists _; isplitr
      swap; · iexact H4
      ipureintro; exact readA4 c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t) (ms4 t).view e4
  · have hz : t.val ≠ 0 := by omega
    by_cases h1 : t.val % 8 = 7
    · rw [show (dat V c).leavesExact 3 t = owns (c : Thread nD τ) (ms3 t) fullShare ((dat V c).after 3 t) from by
        unfold Dat.leavesExact; rw [live3 t ((hcond1 t).mpr h1)], after3]
      rw [scrAt_next V c t h0]
      (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runC c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact readCS0 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 scM0.view es0
            · unfold owns; iexists _; isplitr
              swap; · iexact HS1
              ipureintro; exact readCS1 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 scM1.view es1
          · iexact HR
        · iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact readC3 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 (ms3 t).view e3
      unfold owns; iexists _; isplitr
      swap; · iexact H4
      ipureintro; exact readC4 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 (ms4 t).view e4
    · rw [Dat.leavesExact_idle (dat V c) 3 t (idle3 t (fun h => h1 ((hcond1 t).mp h))) (noFlush3 t (fun h => h1 ((hcond1 t).mp h)))]
      rw [scrAt_next V c t h0]
      (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runB c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact readBS0 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 scM0.view es0
            · unfold owns; iexists _; isplitr
              swap; · iexact HS1
              ipureintro; exact readBS1 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 scM1.view es1
          · iexact HR
        · iexact Hg
      isplitl [Ho]; · iexact Ho
      isplitl [H0]; · iexact H0
      isplitl [H1]; · iexact H1
      isplitl [H2]; · iexact H2
      isplitl [H3]
      · iexists _; iexact H3
      unfold owns; iexists _; isplitr
      swap; · iexact H4
      ipureintro; exact readB4 c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (scrAt V c (t.val - 1) (Nat.lt_of_le_of_lt (Nat.sub_le _ _) t.isLt)).1 (scrAt V c (t.val - 1) (Nat.lt_of_le_of_lt (Nat.sub_le _ _) t.isLt)).2 (ms4 t).view e4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KI.Reg2Base.lean ====
/-
  The third stage's kernel (the node aggregation fused with the feed-forward block and the layer
  normalisation), on its grid (batch, node tile, hyperedge tile) of 512 points with the hyperedge tile
  the fastest axis: what its two branch conditions are in closed form. The first holds where the
  hyperedge tile is 0 (the point resets the two accumulators), the second where it is 7 (the point
  finishes the row block and stores the result). Also the spellings of "offset zero" the body's whole-buffer
  loads and stores carry.
-/
import proofs.«155549_j32615981646424_2_alg».proof.Proof.Gen.KernelIdeal.Launch
import proofs.«155549_j32615981646424_2_alg».proof.Proof.Gen.KernelIdeal.Skeleton
import proofs.«155549_j32615981646424_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition (reset the accumulators), from the grid coordinates. -/
abbrev condA (i : grid2.Coords) : Prop :=
  (Scalar.cmpi .ne (Scalar.extui (Scalar.cmpi .eq (BitVec.ofNat 32 (i 2).val) 0#32)) 0#32) = 1#1

/-- It holds exactly at the points whose hyperedge tile is 0. -/
theorem hcondA : ∀ t : Fin cfg2.N, condA (grid2.coords t) ↔ t.val % 8 = 0 :=
  (by decide +kernel : ∀ t : Fin grid2.N, condA (grid2.coords t) ↔ t.val % 8 = 0)

/-- The body's second condition (finish the row block), from the grid coordinates. -/
abbrev condC (i : grid2.Coords) : Prop := k2_cond2 i = 1#1

/-- It holds exactly at the points whose hyperedge tile is 7. -/
theorem hcondC : ∀ t : Fin cfg2.N, condC (grid2.coords t) ↔ t.val % 8 = 7 :=
  (by decide +kernel : ∀ t : Fin grid2.N, condC (grid2.coords t) ↔ t.val % 8 = 7)

/-- Offset zero on one, two and three axes is the constant-zero offset. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

end Cert.KernelIdeal.Reg2

end
-- ==== Proof.KI.Reg2Defs.lean ====
/-
  The third stage's region as the pipeline runs it, at the contents `V` the TensorCore's buffers hold when
  the region is entered: each window's block at a grid point; what the two accumulators hold after each
  point — the running sum over the hyperedge tiles swept so far of incidence · hyperedge features, and the
  running row counts, both restarted where the hyperedge tile is 0 —; what the body stores in the result's
  block where the hyperedge tile is 7; the invariant that carries the accumulators from a point to the
  next; and the pipeline's proof data built from these.
-/
import proofs.«155549_j32615981646424_2_alg».proof.Proof.KI.Reg2Base

set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input windows' blocks at their literal shapes: the node queries' tile, the incidence's (node tile,
    hyperedge tile) block, the hyperedge features' tile, then the six whole parameter arrays. -/
def b0 (c : Dev nD) (t : Fin cfg2.N) : Vec F S1x512x256 .f32 := iblk V c 0 t
def b1 (c : Dev nD) (t : Fin cfg2.N) : Vec F S1x512x512 .bf16 := iblk V c 1 t
def b2 (c : Dev nD) (t : Fin cfg2.N) : Vec F S1x512x256 .f32 := iblk V c 2 t
def b3 (c : Dev nD) (t : Fin cfg2.N) : Vec F S1024x256 .f32 := iblk V c 3 t
def b4 (c : Dev nD) (t : Fin cfg2.N) : Vec F S1024 .f32 := iblk V c 4 t
def b5 (c : Dev nD) (t : Fin cfg2.N) : Vec F S256x1024 .f32 := iblk V c 5 t
def b6 (c : Dev nD) (t : Fin cfg2.N) : Vec F S256 .f32 := iblk V c 6 t
def b7 (c : Dev nD) (t : Fin cfg2.N) : Vec F S256 .f32 := iblk V c 7 t
def b8 (c : Dev nD) (t : Fin cfg2.N) : Vec F S256 .f32 := iblk V c 8 t

/-! ## The staging memrefs the body is called with, and the two accumulators -/

abbrev ms0 (t : Fin cfg2.N) : Memref sig .tc .vmem S1x512x256 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x512x512 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x512x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x256 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1024 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S256x1024 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S256 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S256 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S256 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S1x512x256 .f32 := win2_9.stage (cfg2.slots t 9)
abbrev hs9 (t : Fin cfg2.N) : (ms9 t).IsWhole := hstage2_9 ((cfg2.slots t 9).cast nbuf2_9)
/-- The sum accumulator and the count accumulator: whole scoped buffers of the kernel's own. -/
abbrev scM0 : Memref sig .tc .vmem S512x256 .f32 := Memref.whole cc2_scratch0
abbrev scM1 : Memref sig .tc .vmem S512x1 .f32 := Memref.whole cc2_scratch1

/-! ## Where the windows are idle -/

/-- The result's window is idle (nothing stored, nothing written back) off the points that finish a row block, -/
theorem idleAt9 : ∀ t : Fin cfg2.N, ¬ t.val % 8 = 7 → cfg2.idle 9 (grid2.coords t) = true := by decide +kernel
theorem noFlush9 (t : Fin cfg2.N) (h : ¬ t.val % 8 = 7) : (cfg2.win 9).flush t = false :=
  Bool.eq_false_iff.mpr fun hf => h ((flush2_9 t).mp hf)
/-- and live at them. -/
theorem liveAt9 : ∀ t : Fin cfg2.N, t.val % 8 = 7 → cfg2.idle 9 (grid2.coords t) = false := by decide +kernel

/-! ## What the accumulators hold after each point -/

/-- After the body at position `n`: (the sum accumulator, the count accumulator). Where the hyperedge tile
    is 0 the body first resets both, so the point's contribution is added to the reset values; elsewhere
    to what the point before left. -/
def accAt (c : Dev nD) : (n : ℕ) → n < cfg2.N → Vec F S512x256 .f32 × Vec F S512x1 .f32
  | 0, hn => (k2_pay5 (b1 V c ⟨0, hn⟩) (b2 V c ⟨0, hn⟩) k2_pay1, k2_pay6 (b1 V c ⟨0, hn⟩) k2_pay2)
  | n + 1, hn =>
    if (n + 1) % 8 = 0 then
      (k2_pay5 (b1 V c ⟨n + 1, hn⟩) (b2 V c ⟨n + 1, hn⟩) k2_pay1, k2_pay6 (b1 V c ⟨n + 1, hn⟩) k2_pay2)
    else
      (k2_pay5 (b1 V c ⟨n + 1, hn⟩) (b2 V c ⟨n + 1, hn⟩) (accAt c n (Nat.lt_of_succ_lt hn)).1,
        k2_pay6 (b1 V c ⟨n + 1, hn⟩) (accAt c n (Nat.lt_of_succ_lt hn)).2)

/-- At a point whose hyperedge tile is 0: over the reset values. -/
theorem accAt_reset (c : Dev nD) (t : Fin cfg2.N) (h : t.val % 8 = 0) :
    accAt V c t.val t.isLt = (k2_pay5 (b1 V c t) (b2 V c t) k2_pay1, k2_pay6 (b1 V c t) k2_pay2) := by
  obtain ⟨n, hn⟩ := t
  cases n with
  | zero => rfl
  | succ n => exact (if_pos h).trans rfl

/-- At any other point: over what the point before left. -/
theorem accAt_step (c : Dev nD) (t : Fin cfg2.N) (h : ¬ t.val % 8 = 0) :
    accAt V c t.val t.isLt
      = (k2_pay5 (b1 V c t) (b2 V c t) (accAt V c (t.val - 1) (Nat.lt_of_le_of_lt (Nat.sub_le _ _) t.isLt)).1,
          k2_pay6 (b1 V c t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the body stores in the result's block at a point that finishes a row block: the epilogue over the two
    accumulators as this point leaves them, the node queries' tile and the six parameter arrays. (At the other
    points nothing reads this.) -/
def outAt (c : Dev nD) (t : Fin cfg2.N) : Vec F S1x512x256 .f32 :=
  k2_pay7 (k2_pay8 (k2_pay3 (b0 V c t)) (accAt V c t.val t.isLt).2 (accAt V c t.val t.isLt).2 (accAt V c t.val t.isLt).1 (b3 V c t) (b4 V c t) (b5 V c t) (b6 V c t))
    (k2_pay9 (k2_pay3 (b0 V c t)) (accAt V c t.val t.isLt).2 (accAt V c t.val t.isLt).2 (accAt V c t.val t.isLt).1 (b3 V c t) (b4 V c t) (b5 V c t) (b6 V c t))
    (k2_pay10 (k2_pay3 (b0 V c t)) (accAt V c t.val t.isLt).2 (accAt V c t.val t.isLt).2 (accAt V c t.val t.isLt).1 (b3 V c t) (b4 V c t) (b5 V c t) (b6 V c t))
    (b7 V c t) (b8 V c t)

/-! ## The invariant -/

/-- The core's scoped buffers that are no staging buffer of this region, each at some contents, but for the two
    accumulators, which are held as `P0` and `P1` say. -/
def restWith (c : Dev nD) (P0 P1 : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ P0 ∗ P1)

/-- What the launch hands the region is this with both accumulators at anything, and the generator register. -/
theorem PhiA_eq (c : Dev nD) :
    (Pipeline.ΦA spec2 c : sProp 𝕄)
      = iprop(restWith c iprop(∃ d, owns (c : Thread nD τ) scM0 fullShare d) iprop(∃ d, owns (c : Thread nD τ) scM1 fullShare d) ∗ (∃ r, prngReg c r)) := by
  unfold Pipeline.ΦA restWith; rw [scopedRest2_eq]; simp only [scM0, scM1, owns_whole]; try rfl

/-- The region invariant before position `n`: before the first point what the launch hands over; afterwards the
    two accumulators at what the point before left in them. -/
def PhiS (c : Dev nD) : (n : ℕ) → n ≤ cfg2.N → sProp 𝕄
  | 0, _ => Pipeline.ΦA spec2 c
  | n + 1, hn => iprop(restWith c (owns (c : Thread nD τ) scM0 fullShare (accAt V c n hn).1) (owns (c : Thread nD τ) scM1 fullShare (accAt V c n hn).2) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(restWith c (owns (c : Thread nD τ) scM0 fullShare (accAt V c n hn).1) (owns (c : Thread nD τ) scM1 fullShare (accAt V c n hn).2) ∗ (∃ r, prngReg c r)) := rfl

theorem PhiS_pos (c : Dev nD) (n : ℕ) (h : n ≤ cfg2.N) (hz : n ≠ 0) :
    PhiS V c n h = iprop(restWith c (owns (c : Thread nD τ) scM0 fullShare (accAt V c (n - 1) (by omega)).1) (owns (c : Thread nD τ) scM1 fullShare (accAt V c (n - 1) (by omega)).2) ∗ (∃ r, prngReg c r)) := by
  cases n with
  | zero => exact absurd rfl hz
  | succ n => rfl

/-! ## The pipeline's proof data -/

/-- The proof data of this region on core `c`: the arrays as the region finds them; after the body at point `t`
    each input's buffer at its block and the result's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => b0 V c t
    | ⟨1, _⟩ => b1 V c t
    | ⟨2, _⟩ => b2 V c t
    | ⟨3, _⟩ => b3 V c t
    | ⟨4, _⟩ => b4 V c t
    | ⟨5, _⟩ => b5 V c t
    | ⟨6, _⟩ => b6 V c t
    | ⟨7, _⟩ => b7 V c t
    | ⟨8, _⟩ => b8 V c t
    | ⟨9, _⟩ => outAt V c t
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = b0 V c t := by dsimp only [dat]
theorem after_1 (c : Dev nD) (t : Fin cfg2.N) : (dat V c).after 1 t = b1 V c t := by dsimp only [dat]
theorem after_2 (c : Dev nD) (t : Fin cfg2.N) : (dat V c).after 2 t = b2 V c t := by dsimp only [dat]
theorem after_3 (c : Dev nD) (t : Fin cfg2.N) : (dat V c).after 3 t = b3 V c t := by dsimp only [dat]
theorem after_4 (c : Dev nD) (t : Fin cfg2.N) : (dat V c).after 4 t = b4 V c t := by dsimp only [dat]
theorem after_5 (c : Dev nD) (t : Fin cfg2.N) : (dat V c).after 5 t = b5 V c t := by dsimp only [dat]
theorem after_6 (c : Dev nD) (t : Fin cfg2.N) : (dat V c).after 6 t = b6 V c t := by dsimp only [dat]
theorem after_7 (c : Dev nD) (t : Fin cfg2.N) : (dat V c).after 7 t = b7 V c t := by dsimp only [dat]
theorem after_8 (c : Dev nD) (t : Fin cfg2.N) : (dat V c).after 8 t = b8 V c t := by dsimp only [dat]
theorem after_9 (c : Dev nD) (t : Fin cfg2.N) : (dat V c).after 9 t = outAt V c t := by dsimp only [dat]

/-- Each input's current staging buffer holds its block at every point, fetched there or not: where it is not
    fetched its block index has not moved since the point before. -/
theorem before_0 (c : Dev nD) (t : Fin cfg2.N) (d) : (dat V c).before 0 t d = b0 V c t :=
  ((dat V c).before_in_eq_fetched 0 rfl (fun _ => rfl) (fun _ _ _ => rfl)
    (fun t => by rw [after_0]; unfold Dat.blockOf b0 iblk; rw [A_eq]; try rfl) t d).trans
    (by unfold Dat.fetched Dat.blockOf b0 iblk; rw [A_eq]; try rfl)
theorem before_1 (c : Dev nD) (t : Fin cfg2.N) (d) : (dat V c).before 1 t d = b1 V c t :=
  ((dat V c).before_in_eq_fetched 1 rfl (fun _ => rfl) (fun _ _ _ => rfl)
    (fun t => by rw [after_1]; unfold Dat.blockOf b1 iblk; rw [A_eq]; try rfl) t d).trans
    (by unfold Dat.fetched Dat.blockOf b1 iblk; rw [A_eq]; try rfl)
theorem before_2 (c : Dev nD) (t : Fin cfg2.N) (d) : (dat V c).before 2 t d = b2 V c t :=
  ((dat V c).before_in_eq_fetched 2 rfl (fun _ => rfl) (fun _ _ _ => rfl)
    (fun t => by rw [after_2]; unfold Dat.blockOf b2 iblk; rw [A_eq]; try rfl) t d).trans
    (by unfold Dat.fetched Dat.blockOf b2 iblk; rw [A_eq]; try rfl)
theorem before_3 (c : Dev nD) (t : Fin cfg2.N) (d) : (dat V c).before 3 t d = b3 V c t :=
  ((dat V c).before_in_eq_fetched 3 rfl (fun _ => rfl) (fun _ _ _ => rfl)
    (fun t => by rw [after_3]; unfold Dat.blockOf b3 iblk; rw [A_eq]; try rfl) t d).trans
    (by unfold Dat.fetched Dat.blockOf b3 iblk; rw [A_eq]; try rfl)
theorem before_4 (c : Dev nD) (t : Fin cfg2.N) (d) : (dat V c).before 4 t d = b4 V c t :=
  ((dat V c).before_in_eq_fetched 4 rfl (fun _ => rfl) (fun _ _ _ => rfl)
    (fun t => by rw [after_4]; unfold Dat.blockOf b4 iblk; rw [A_eq]; try rfl) t d).trans
    (by unfold Dat.fetched Dat.blockOf b4 iblk; rw [A_eq]; try rfl)
theorem before_5 (c : Dev nD) (t : Fin cfg2.N) (d) : (dat V c).before 5 t d = b5 V c t :=
  ((dat V c).before_in_eq_fetched 5 rfl (fun _ => rfl) (fun _ _ _ => rfl)
    (fun t => by rw [after_5]; unfold Dat.blockOf b5 iblk; rw [A_eq]; try rfl) t d).trans
    (by unfold Dat.fetched Dat.blockOf b5 iblk; rw [A_eq]; try rfl)
theorem before_6 (c : Dev nD) (t : Fin cfg2.N) (d) : (dat V c).before 6 t d = b6 V c t :=
  ((dat V c).before_in_eq_fetched 6 rfl (fun _ => rfl) (fun _ _ _ => rfl)
    (fun t => by rw [after_6]; unfold Dat.blockOf b6 iblk; rw [A_eq]; try rfl) t d).trans
    (by unfold Dat.fetched Dat.blockOf b6 iblk; rw [A_eq]; try rfl)
theorem before_7 (c : Dev nD) (t : Fin cfg2.N) (d) : (dat V c).before 7 t d = b7 V c t :=
  ((dat V c).before_in_eq_fetched 7 rfl (fun _ => rfl) (fun _ _ _ => rfl)
    (fun t => by rw [after_7]; unfold Dat.blockOf b7 iblk; rw [A_eq]; try rfl) t d).trans
    (by unfold Dat.fetched Dat.blockOf b7 iblk; rw [A_eq]; try rfl)
theorem before_8 (c : Dev nD) (t : Fin cfg2.N) (d) : (dat V c).before 8 t d = b8 V c t :=
  ((dat V c).before_in_eq_fetched 8 rfl (fun _ => rfl) (fun _ _ _ => rfl)
    (fun t => by rw [after_8]; unfold Dat.blockOf b8 iblk; rw [A_eq]; try rfl) t d).trans
    (by unfold Dat.fetched Dat.blockOf b8 iblk; rw [A_eq]; try rfl)

/-! ## The body obligation's two sides, the windows one by one -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

end Cert.KernelIdeal.Reg2

end
-- ==== Proof.KI.Reg2RunA.lean ====
/-
  The third stage's body run at a grid point whose hyperedge tile is the first: the reset branch is taken, the
  finishing branch is not; the two accumulators are reset and the point's contribution added into them, and
  nothing else changes.
-/
import proofs.«155549_j32615981646424_2_alg».proof.Proof.KI.Reg2Base

set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that resets and does not finish: on whole staging memrefs, the inputs' at contents `x·`, the
    result's at `xi9`, the two accumulators at anything, it runs to the continuation holding every buffer as it was
    but the accumulators, which hold this point's contribution added to the reset values. -/
theorem run_A (c : Dev nD) (i : grid2.Coords) (arg3 : Memref sig .tc .vmem S1x512x256 .f32) (harg3 : arg3.IsWhole) (arg4 : Memref sig .tc .vmem S1x512x512 .bf16) (harg4 : arg4.IsWhole) (arg5 : Memref sig .tc .vmem S1x512x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S256x1024 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x1 .f32) (harg14 : arg14.IsWhole) (hcA : condA i) (hcC : ¬condC i)
    (x0 : Vec F S1x512x256 .f32) (x1 : Vec F S1x512x512 .bf16) (x2 : Vec F S1x512x256 .f32) (x3 : Vec F S1024x256 .f32) (x4 : Vec F S1024 .f32) (x5 : Vec F S256x1024 .f32) (x6 : Vec F S256 .f32) (x7 : Vec F S256 .f32) (x8 : Vec F S256 .f32) (xi9 : Vec F S1x512x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare (k2_pay5 x1 x2 k2_pay1) ∗ owns (c : Thread nD τ) arg14 fullShare (k2_pay6 x1 k2_pay2)) -∗ K ⟨⟩))
      ⊢ wp frame (wpE (defs₀ (F := F)) Variants.none c none) E (cc2__k2_body i arg3 harg3 arg4 harg4 arg5 harg5 arg6 harg6 arg7 harg7 arg8 harg8 arg9 harg9 arg10 harg10 arg11 harg11 arg12 harg12 arg13 harg13 arg14 harg14) K := by
  simp only [cc2__k2_body_eq_skeleton]; unfold cc2__k2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (fun y => ⟨_, List.mem_cons_self, View.mem_set_unit_zero hz2 inb_S512x256_S512x256_0_0 y⟩)).trans
      ((View.canon_cons_unit_zero hz2 _ _ _).trans (by
        sl_unfold_words
        rw [View.readCov_unit_zero (S := S512x256) _ hz2]
        simp only [View.readAt_eq_ld, View.ld_unit_zero (S := S1x512x512) hz3, View.ld_unit_zero (S := S1x512x256) hz3]))
  iexists _; isplitr
  swap; · iexact H11
  ipureintro
  exact (View.read_writes_eq_canon _ _ _ (fun y => ⟨_, List.mem_cons_self, View.mem_set_unit_zero hz2 inb_S512x1_S512x1_0_0 y⟩)).trans
      ((View.canon_cons_unit_zero hz2 _ _ _).trans (by
        sl_unfold_words
        rw [View.readCov_unit_zero (S := S512x1) _ hz2]
        simp only [View.readAt_eq_ld, View.ld_unit_zero (S := S1x512x512) hz3]))

end Cert.KernelIdeal.Reg2

end
-- ==== Proof.KI.Reg2RunB.lean ====
/-
  The third stage's body run at a grid point whose hyperedge tile is neither the first nor the last: no
  branch is taken; the point's contribution is added into the two accumulators and nothing else changes.
-/
import proofs.«155549_j32615981646424_2_alg».proof.Proof.KI.Reg2Base

set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that neither resets nor finishes: on whole staging memrefs, the inputs' at contents `x·`,
    the result's at `xi9`, the two accumulators at `xs0` and `xs1`, it runs to the continuation holding every buffer
    as it was but the accumulators, which hold this point's contribution added to what they held. -/
theorem run_B (c : Dev nD) (i : grid2.Coords) (arg3 : Memref sig .tc .vmem S1x512x256 .f32) (harg3 : arg3.IsWhole) (arg4 : Memref sig .tc .vmem S1x512x512 .bf16) (harg4 : arg4.IsWhole) (arg5 : Memref sig .tc .vmem S1x512x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S256x1024 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x1 .f32) (harg14 : arg14.IsWhole) (hcA : ¬condA i) (hcC : ¬condC i)
    (x0 : Vec F S1x512x256 .f32) (x1 : Vec F S1x512x512 .bf16) (x2 : Vec F S1x512x256 .f32) (x3 : Vec F S1024x256 .f32) (x4 : Vec F S1024 .f32) (x5 : Vec F S256x1024 .f32) (x6 : Vec F S256 .f32) (x7 : Vec F S256 .f32) (x8 : Vec F S256 .f32) (xi9 : Vec F S1x512x256 .f32) (xs0 : Vec F S512x256 .f32) (xs1 : Vec F S512x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi9 ∗ owns (c : Thread nD τ) arg13 fullShare (k2_pay5 x1 x2 xs0) ∗ owns (c : Thread nD τ) arg14 fullShare (k2_pay6 x1 xs1)) -∗ K ⟨⟩))
      ⊢ wp frame (wpE (defs₀ (F := F)) Variants.none c none) E (cc2__k2_body i arg3 harg3 arg4 harg4 arg5 harg5 arg6 harg6 arg7 harg7 arg8 harg8 arg9 harg9 arg10 harg10 arg11 harg11 arg12 harg12 arg13 harg13 arg14 harg14) K := by
  simp only [cc2__k2_body_eq_skeleton]; unfold cc2__k2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0; subst hf1; subst hf2; subst hf3; subst hf4; subst hf5; subst hf6; subst hf7; subst hf8; subst hf9; subst hf10; subst hf11
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (fun y => ⟨_, List.mem_singleton_self _, View.mem_set_unit_zero hz2 inb_S512x256_S512x256_0_0 y⟩)).trans
      ((View.canon_unit_zero hz2 _ _).trans (by simp only [View.readAt_eq_ld, View.ld_unit_zero (S := S512x256) hz2, View.ld_unit_zero (S := S1x512x512) hz3, View.ld_unit_zero (S := S1x512x256) hz3]))
  iexists _; isplitr
  swap; · iexact H11
  ipureintro
  exact (View.read_writes_eq_canon _ _ _ (fun y => ⟨_, List.mem_singleton_self _, View.mem_set_unit_zero hz2 inb_S512x1_S512x1_0_0 y⟩)).trans
      ((View.canon_unit_zero hz2 _ _).trans (by simp only [View.readAt_eq_ld, View.ld_unit_zero (S := S512x1) hz2, View.ld_unit_zero (S := S1x512x512) hz3]))

end Cert.KernelIdeal.Reg2

end
-- ==== Proof.KI.Reg2RunC.lean ====
/-
  The third stage's body run at a grid point whose hyperedge tile is the last: the reset branch is not taken, the
  finishing branch is; the point's contribution is added into the two accumulators, and the epilogue — the guarded
  mean, the feed-forward block with its residual, the layer normalisation — of the accumulators as they then
  stand is stored into the result's block.
-/
import proofs.«155549_j32615981646424_2_alg».proof.Proof.KI.Reg2Base

set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs, the inputs' at contents `x·`, the result's at anything, the two accumulators at `xs0` and
    `xs1`: the body runs to the continuation holding the inputs' as they were, the accumulators with the point's
    contribution added, and the result's block at the epilogue's value over those. -/
theorem run_C (c : Dev nD) (i : grid2.Coords) (arg3 : Memref sig .tc .vmem S1x512x256 .f32) (harg3 : arg3.IsWhole) (arg4 : Memref sig .tc .vmem S1x512x512 .bf16) (harg4 : arg4.IsWhole) (arg5 : Memref sig .tc .vmem S1x512x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S256x1024 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S512x256 .f32) (harg13 : arg13.IsWhole) (arg14 : Memref sig .tc .vmem S512x1 .f32) (harg14 : arg14.IsWhole) (hcA : ¬condA i) (hcC : condC i)
    (x0 : Vec F S1x512x256 .f32) (x1 : Vec F S1x512x512 .bf16) (x2 : Vec F S1x512x256 .f32) (x3 : Vec F S1024x256 .f32) (x4 : Vec F S1024 .f32) (x5 : Vec F S256x1024 .f32) (x6 : Vec F S256 .f32) (x7 : Vec F S256 .f32) (x8 : Vec F S256 .f32) (xs0 : Vec F S512x256 .f32) (xs1 : Vec F S512x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k2_pay7 (k2_pay8 (k2_pay3 x0) (k2_pay6 x1 xs1) (k2_pay6 x1 xs1) (k2_pay5 x1 x2 xs0) x3 x4 x5 x6) (k2_pay9 (k2_pay3 x0) (k2_pay6 x1 xs1) (k2_pay6 x1 xs1) (k2_pay5 x1 x2 xs0) x3 x4 x5 x6) (k2_pay10 (k2_pay3 x0) (k2_pay6 x1 xs1) (k2_pay6 x1 xs1) (k2_pay5 x1 x2 xs0) x3 x4 x5 x6) x7 x8)
            ∗ owns (c : Thread nD τ) arg13 fullShare (k2_pay5 x1 x2 xs0) ∗ owns (c : Thread nD τ) arg14 fullShare (k2_pay6 x1 xs1)) -∗ K ⟨⟩))
      ⊢ wp frame (wpE (defs₀ (F := F)) Variants.none c none) E (cc2__k2_body i arg3 harg3 arg4 harg4 arg5 harg5 arg6 harg6 arg7 harg7 arg8 harg8 arg9 harg9 arg10 harg10 arg11 harg11 arg12 harg12 arg13 harg13 arg14 harg14) K := by
  simp only [cc2__k2_body_eq_skeleton]; unfold cc2__k2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf0; subst hf1; subst hf2; subst hf3; subst hf4; subst hf5; subst hf6; subst hf7; subst hf8; subst hf10; subst hf11
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    exact (View.read_writes_eq_canon _ _ _ (fun y => ⟨_, List.mem_singleton_self _, View.mem_set_unit_zero hz3 inb_S1x512x256_S1x512x256_0_0_0 y⟩)).trans
      ((View.canon_unit_zero hz3 _ _).trans (by
        simp only [View.readCov_unit_zero (S := S512x256) _ hz2, View.readCov_unit_zero (S := S512x1) _ hz2, View.readAt_eq_ld, View.ld_unit_zero (S := S512x256) hz2, View.ld_unit_zero (S := S512x1) hz2, View.ld_unit_zero (S := S1024x256) hz2, View.ld_unit_zero (S := S256x1024) hz2, View.ld_unit_zero (S := S1x512x512) hz3, View.ld_unit_zero (S := S1x512x256) hz3, View.ld_unit_zero (S := S1024) hz1, View.ld_unit_zero (S := S256) hz1]))
  isplitl [H10]
  · iexists _; isplitr
    swap; · iexact H10
    ipureintro
    sl_unfold_words
    exact (View.read_writes_eq_canon _ _ _ (fun y => ⟨_, List.mem_singleton_self _, View.mem_set_unit_zero hz2 inb_S512x256_S512x256_0_0 y⟩)).trans
      ((View.canon_unit_zero hz2 _ _).trans (by simp only [View.readAt_eq_ld, View.ld_unit_zero (S := S512x256) hz2, View.ld_unit_zero (S := S512x1) hz2, View.ld_unit_zero (S := S1024x256) hz2, View.ld_unit_zero (S := S256x1024) hz2, View.ld_unit_zero (S := S1x512x512) hz3, View.ld_unit_zero (S := S1x512x256) hz3, View.ld_unit_zero (S := S1024) hz1, View.ld_unit_zero (S := S256) hz1]))
  iexists _; isplitr
  swap; · iexact H11
  ipureintro
  sl_unfold_words
  exact (View.read_writes_eq_canon _ _ _ (fun y => ⟨_, List.mem_singleton_self _, View.mem_set_unit_zero hz2 inb_S512x1_S512x1_0_0 y⟩)).trans
    ((View.canon_unit_zero hz2 _ _).trans (by simp only [View.readAt_eq_ld, View.ld_unit_zero (S := S512x256) hz2, View.ld_unit_zero (S := S512x1) hz2, View.ld_unit_zero (S := S1024x256) hz2, View.ld_unit_zero (S := S256x1024) hz2, View.ld_unit_zero (S := S1x512x512) hz3, View.ld_unit_zero (S := S1x512x256) hz3, View.ld_unit_zero (S := S1024) hz1, View.ld_unit_zero (S := S256) hz1]))

end Cert.KernelIdeal.Reg2

end
-- ==== Proof.KI.Reg2.lean ====
/-
  The third stage's region: its proof data, the body obligation at every grid point, and the invariant's entry
  and exit.
-/
import proofs.«155549_j32615981646424_2_alg».proof.Proof.KI.Reg2Defs
import proofs.«155549_j32615981646424_2_alg».proof.Proof.KI.Reg2RunA
import proofs.«155549_j32615981646424_2_alg».proof.Proof.KI.Reg2RunB
import proofs.«155549_j32615981646424_2_alg».proof.Proof.KI.Reg2RunC

set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input windows are never idle. -/
theorem liveAt_0 : ∀ t : Fin cfg2.N, cfg2.idle 0 (grid2.coords t) = false := fun _ => rfl
theorem liveAt_1 : ∀ t : Fin cfg2.N, cfg2.idle 1 (grid2.coords t) = false := fun _ => rfl
theorem liveAt_2 : ∀ t : Fin cfg2.N, cfg2.idle 2 (grid2.coords t) = false := fun _ => rfl
theorem liveAt_3 : ∀ t : Fin cfg2.N, cfg2.idle 3 (grid2.coords t) = false := fun _ => rfl
theorem liveAt_4 : ∀ t : Fin cfg2.N, cfg2.idle 4 (grid2.coords t) = false := fun _ => rfl
theorem liveAt_5 : ∀ t : Fin cfg2.N, cfg2.idle 5 (grid2.coords t) = false := fun _ => rfl
theorem liveAt_6 : ∀ t : Fin cfg2.N, cfg2.idle 6 (grid2.coords t) = false := fun _ => rfl
theorem liveAt_7 : ∀ t : Fin cfg2.N, cfg2.idle 7 (grid2.coords t) = false := fun _ => rfl
theorem liveAt_8 : ∀ t : Fin cfg2.N, cfg2.idle 8 (grid2.coords t) = false := fun _ => rfl

set_option maxHeartbeats 8000000 in
/-- The body at any point. The inputs' memrefs hold their blocks; the closed forms of the two conditions say which
    of the three cases the point is in; the invariant hands the body the two accumulators — at anything where they are
    about to be reset, else at what the point before left — and takes them back at what this point leaves; the
    result's buffer is handed back untouched where the point does not finish a row block, and holds the epilogue's
    value where it does. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8]
  rw [show (dat V c).owesAt () t.succ = (dat V c).owesAt () t.castSucc from rfl]
  rw [show (dat V c).Φ t.succ = PhiS V c (t.val + 1) t.isLt from rfl, PhiS_succ]
  have hN : t.val < 512 := lt_of_lt_of_eq t.isLt (show cfg2.N = 512 from N_2)
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  rw [show (dat V c).leavesExact 3 t = owns (c : Thread nD τ) (ms3 t) fullShare ((dat V c).after 3 t) from by
    unfold Dat.leavesExact; rw [liveAt_3 t], after_3]
  rw [show (dat V c).leavesExact 4 t = owns (c : Thread nD τ) (ms4 t) fullShare ((dat V c).after 4 t) from by
    unfold Dat.leavesExact; rw [liveAt_4 t], after_4]
  rw [show (dat V c).leavesExact 5 t = owns (c : Thread nD τ) (ms5 t) fullShare ((dat V c).after 5 t) from by
    unfold Dat.leavesExact; rw [liveAt_5 t], after_5]
  rw [show (dat V c).leavesExact 6 t = owns (c : Thread nD τ) (ms6 t) fullShare ((dat V c).after 6 t) from by
    unfold Dat.leavesExact; rw [liveAt_6 t], after_6]
  rw [show (dat V c).leavesExact 7 t = owns (c : Thread nD τ) (ms7 t) fullShare ((dat V c).after 7 t) from by
    unfold Dat.leavesExact; rw [liveAt_7 t], after_7]
  rw [show (dat V c).leavesExact 8 t = owns (c : Thread nD τ) (ms8 t) fullShare ((dat V c).after 8 t) from by
    unfold Dat.leavesExact; rw [liveAt_8 t], after_8]
  by_cases h0 : t.val % 8 = 0
  · have h7 : ¬ t.val % 8 = 7 := by omega
    rw [Dat.leavesExact_idle (dat V c) 9 t (idleAt9 t h7) (noFlush9 t h7)]
    rw [accAt_reset V c t h0]
    by_cases hz : t.val = 0
    ·
      rw [PhiS_castSucc V c t, PhiS_zero V c _ _ hz, PhiA_eq]
      unfold restWith
      iintro ⟨⟨⟨R0, R1, R2, R3, R4, R5, R6, R7, R8, R9, R10, R11, R12, R13, R14, R15, R16, R17, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcondA t).mpr h0) (fun h => h7 ((hcondC t).mp h))
        (b0 V c t) (b1 V c t) (b2 V c t) (b3 V c t) (b4 V c t) (b5 V c t) (b6 V c t) (b7 V c t) (b8 V c t) ((dat V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [R0 R1 R2 R3 R4 R5 R6 R7 R8 R9 R10 R11 R12 R13 R14 R15 R16 R17 HS0 HS1 Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    ·
      rw [PhiS_castSucc V c t, PhiS_pos V c _ _ hz]
      unfold restWith
      iintro ⟨⟨⟨R0, R1, R2, R3, R4, R5, R6, R7, R8, R9, R10, R11, R12, R13, R14, R15, R16, R17, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcondA t).mpr h0) (fun h => h7 ((hcondC t).mp h))
        (b0 V c t) (b1 V c t) (b2 V c t) (b3 V c t) (b4 V c t) (b5 V c t) (b6 V c t) (b7 V c t) (b8 V c t) ((dat V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      iintro ⟨H0, H1, H2, H3, H4, H5, H6, H7, H8, H9, HS0, HS1⟩
      isplitl [R0 R1 R2 R3 R4 R5 R6 R7 R8 R9 R10 R11 R12 R13 R14 R15 R16 R17 HS0 HS1 Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun e => h0 (by rw [e])
    by_cases h7 : t.val % 8 = 7
    · rw [show (dat V c).leavesExact 9 t = owns (c : Thread nD τ) (ms9 t) fullShare ((dat V c).after 9 t) from by
        unfold Dat.leavesExact; rw [liveAt9 t h7], after_9]
      unfold outAt
      rw [accAt_step V c t h0]
      rw [PhiS_castSucc V c t, PhiS_pos V c _ _ hz]
      unfold restWith
      iintro ⟨⟨⟨R0, R1, R2, R3, R4, R5, R6, R7, R8, R9, R10, R11, R12, R13, R14, R15, R16, R17, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_C c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => h0 ((hcondA t).mp h)) ((hcondC t).mpr h7)
        (b0 V c t) (b1 V c t) (b2 V c t) (b3 V c t) (b4 V c t) (b5 V c t) (b6 V c t) (b7 V c t) (b8 V c t) (accAt V c (t.val - 1) (Nat.lt_of_le_of_lt (Nat.sub_le _ _) t.isLt)).1 (accAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [R0 R1 R2 R3 R4 R5 R6 R7 R8 R9 R10 R11 R12 R13 R14 R15 R16 R17 HS0 HS1 Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dat V c) 9 t (idleAt9 t h7) (noFlush9 t h7)]
      rw [accAt_step V c t h0]
      rw [PhiS_castSucc V c t, PhiS_pos V c _ _ hz]
      unfold restWith
      iintro ⟨⟨⟨R0, R1, R2, R3, R4, R5, R6, R7, R8, R9, R10, R11, R12, R13, R14, R15, R16, R17, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => h0 ((hcondA t).mp h)) (fun h => h7 ((hcondC t).mp h))
        (b0 V c t) (b1 V c t) (b2 V c t) (b3 V c t) (b4 V c t) (b5 V c t) (b6 V c t) (b7 V c t) (b8 V c t) ((dat V c).before 9 t d9) (accAt V c (t.val - 1) (Nat.lt_of_le_of_lt (Nat.sub_le _ _) t.isLt)).1 (accAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [R0 R1 R2 R3 R4 R5 R6 R7 R8 R9 R10 R11 R12 R13 R14 R15 R16 R17 HS0 HS1 Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: what the accumulators hold is forgotten. -/
theorem Phi_out (c : Dev nD) (t : Fin (cfg2.N + 1)) (ht : t.val ≠ 0) : (dat V c).Φ t ⊢ (Pipeline.ΦA spec2 c : sProp 𝕄) := by
  rw [show (dat V c).Φ t = PhiS V c t.val (Nat.le_of_lt_succ t.isLt) from rfl, PhiS_pos V c _ _ ht, PhiA_eq]
  unfold restWith
  iintro ⟨⟨R0, R1, R2, R3, R4, R5, R6, R7, R8, R9, R10, R11, R12, R13, R14, R15, R16, R17, HS0, HS1⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [HS0]
  · iexists _; iexact HS0
  iexists _; iexact HS1

theorem hout (c : Dev nD) : (dat V c).Φ (Fin.last cfg2.N) ⊢ (Pipeline.ΦA spec2 c : sProp 𝕄) :=
  Phi_out V c _ (by rw [Fin.val_last]; have : cfg2.N = 512 := N_2; omega)

end Cert.KernelIdeal.Reg2

end
-- ==== Proof.KI.Run.lean ====
/-
  The run of the whole program: @main is three kernel regions in a row and nothing else. Between two regions a core
  holds every unscoped buffer whole: at launch the memory's contents; after a region, that region's arrays at what its
  write-backs leave and every other buffer as it was. Each region is entered from the boundary before it and left at the
  boundary after it, and at the end every unscoped buffer is read off the last boundary. Stated at any float instance.
-/
import proofs.«155549_j32615981646424_2_alg».proof.Proof.KI.Reg0
import proofs.«155549_j32615981646424_2_alg».proof.Proof.KI.Reg1
import proofs.«155549_j32615981646424_2_alg».proof.Proof.KI.Reg2
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wa : Dev nD → Valuation τ sig (Elt F) := fun c b => (s₀ m ρ).mem ((c : Dev nD), b)
/-- The same read at the TensorCore's references: what the first region finds. -/
abbrev Va : (c : Dev nD) → (b : Ref sig .tc) → Buf (Elt F) ((c : Thread nD τ).loc b) := fun c b => Wa m ρ c b

/-- After region 0: its arrays at what its write-backs leave (an input as entered), every other buffer as entered. -/
def Wb (c : Dev nD) : Valuation τ sig (Elt F) :=
  Pipeline.withArrays spec0 c (Wa m ρ c) fun w => (Reg0.dat (Va m ρ) c).arrAt w cfg0.N
theorem Wb_arr (c : Dev nD) (w : Fin cfg0.W) :
    Wb m ρ c (Proc.devRef .tc (Pipeline.arrRef spec0 w)) = (Reg0.dat (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m ρ c b
theorem hF0 (c : Dev nD) (w : Fin cfg0.W) : (Reg0.dat (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After region 1: its arrays at what its write-backs leave (an input as entered), every other buffer as entered. -/
def Wc (c : Dev nD) : Valuation τ sig (Elt F) :=
  Pipeline.withArrays spec1 c (Wb m ρ c) fun w => (Reg1.dat (Vb m ρ) c).arrAt w cfg1.N
theorem Wc_arr (c : Dev nD) (w : Fin cfg1.W) :
    Wc m ρ c (Proc.devRef .tc (Pipeline.arrRef spec1 w)) = (Reg1.dat (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
/-- The same read at the TensorCore's references. -/
abbrev Vc : (c : Dev nD) → (b : Ref sig .tc) → Buf (Elt F) ((c : Thread nD τ).loc b) := fun c b => Wc m ρ c b
theorem hF1 (c : Dev nD) (w : Fin cfg1.W) : (Reg1.dat (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-- After region 2: its arrays at what its write-backs leave (an input as entered), every other buffer as entered. -/
def Wd (c : Dev nD) : Valuation τ sig (Elt F) :=
  Pipeline.withArrays spec2 c (Wc m ρ c) fun w => (Reg2.dat (Vc m ρ) c).arrAt w cfg2.N
theorem Wd_arr (c : Dev nD) (w : Fin cfg2.W) :
    Wd m ρ c (Proc.devRef .tc (Pipeline.arrRef spec2 w)) = (Reg2.dat (Vc m ρ) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m ρ c (Proc.devRef .tc b) = Wc m ρ c (Proc.devRef .tc b) := by
  unfold Wd; exact Pipeline.withArrays_of_ne spec2 c _ _ b hb
/-- The same read at the TensorCore's references. -/
abbrev Vd : (c : Dev nD) → (b : Ref sig .tc) → Buf (Elt F) ((c : Thread nD τ).loc b) := fun c b => Wd m ρ c b
theorem hF2 (c : Dev nD) (w : Fin cfg2.W) : (Reg2.dat (Vc m ρ) c).arrAt w cfg2.N = Vd m ρ c (Pipeline.arrRef spec2 w) :=
  (Wd_arr m ρ c w).symm
theorem hrest2 (c : Dev nD) : ∀ b, b ∉ Finset.univ.image (Pipeline.arrRef spec2) → Vd m ρ c b = Vc m ρ c b :=
  fun b hb => Wd_of_ne m ρ c b fun w e => hb (Finset.mem_image.mpr ⟨w, Finset.mem_univ _, e⟩)

/-! ## The proof data family and what rides beside the buffers -/

/-- No region has a prefetched table. -/
abbrev adm : (p : Fin 3) → (pcfgs (F := F) p).Adm := fun p => (cfgs p).toPCfg_adm
/-- Every region's proof data, each at its entry contents: a literal match on the region's number. -/
def pdats : (p : Fin 3) → (c : Dev nD) → Dat τ (Elt F) Unit ℕ (UR sig nD τ) ℕ (Pipeline.pin (pcfgs (F := F)) adm p) c
  | ⟨0, _⟩ => fun c => Reg0.dat (Va m ρ) c
  | ⟨1, _⟩ => fun c => Reg1.dat (Vb m ρ) c
  | ⟨2, _⟩ => fun c => Reg2.dat (Vc m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its dues, none. -/
abbrev R (c : Dev nD) : sProp 𝕄 := iprop((∃ r, prngReg c r) ∗ ∃ W, owes (c : Thread nD τ) (0 : CellTallies nD τ sig Unit) W)
/-- The last boundary without the dues: every unscoped buffer at the last contents, the generator register at some state. -/
abbrev Tₙ (c : Dev nD) : sProp 𝕄 := iprop(StableHlo.held (c : Thread nD τ) (Pipeline.ucRefs τ sig) (Wd m ρ c) ∗ ∃ r, prngReg c r)

/-! ## The regions as segments -/

-- a library lemma stated over the pinned configuration unifies with the printed one only when unification may unfold plain
-- definitions in a metavariable's type
set_option backward.isDefEq.respectTransparency.types false in
/-- Region 0 between its two boundaries: its arrays are split out of the unscoped buffers at the entry contents and put
    back at what its write-backs leave; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg0.hin (Va m ρ) c)
    unfold Pipeline.ΦA
    iintro ⟨Hp, -, Hr⟩
    isplitl [Hr]; · iexact Hr
    iexact Hp
  hout c := by
    rw [Pipeline.ownSems0_none]
    refine (Reg0.hout (Va m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 between its two boundaries: its arrays are split out of the unscoped buffers at the entry contents and put
    back at what its write-backs leave; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg1.hin (Vb m ρ) c)
    unfold Pipeline.ΦA
    iintro ⟨Hp, -, Hr⟩
    isplitl [Hr]; · iexact Hr
    iexact Hp
  hout c := by
    rw [Pipeline.ownSems0_none]
    refine (Reg1.hout (Vb m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 between its two boundaries: its arrays are split out of the unscoped buffers at the entry contents and put
    back at what its write-backs leave; the generator register goes into the region's invariant and comes back; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (Vc m ρ) c).loose
  hwaits := Pipeline.hwaits_of_owed_zero _ _ _ _ L lv 2 fun _ _ => rfl
  pre c := iprop(StableHlo.held (c : Thread nD τ) (Pipeline.ucRefs τ sig) (Wc m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vc m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg2.hin (Vc m ρ) c)
    unfold Pipeline.ΦA
    iintro ⟨Hp, -, Hr⟩
    isplitl [Hr]; · iexact Hr
    iexact Hp
  hout c := by
    rw [Pipeline.ownSems0_none]
    refine (Reg2.hout (Vc m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vc m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the run -/

abbrev segs : List (Pipeline.Seg (pcfgs (F := F)) adm (pdats m ρ) () defs₀ 𝒱₀ L lv) :=
  [ .region (reg0 m ρ), .region (reg1 m ρ), .region (reg2 m ρ) ]

/-- @main is the run of the three regions in order. -/
theorem main_run (c : Dev nD) : main (F := F) c = Pipeline.Seg.run (segs m ρ) :=
  main_segs adm (pdats m ρ) () 𝒱₀ L lv (reg0 m ρ) (reg1 m ρ) (reg2 m ρ) c

-- the launch theorem's implicit arguments are found by unifying its conclusion with this one, which takes unfolding plain
-- definitions in a metavariable's type
set_option backward.isDefEq.respectTransparency.types false in
/-- From any memory with zero counters every weakly fair execution of @main terminates, nothing faulting, and every final
    memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Run

end
-- ==== Proof.KI.Walk.lean ====
/-
  Reading the boundaries back. No region writes an argument array: a region either stages it through an input window,
  whose array ends as it was entered, or does not touch it; so each argument, read off any boundary, is its launch
  contents. An intermediate array (the projected features, the incidence, the hyperedge features) read off a later
  boundary is what the region that produced it left.
-/
import proofs.«155549_j32615981646424_2_alg».proof.Proof.KI.Run

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

theorem Wb_main_arg0 (c : Dev nD) : Wb m ρ c (Proc.devRef .tc main_arg0) = m ((c : Thread nD τ).loc main_arg0) :=
  (Wb_of_ne m ρ c main_arg0 (by decide)).trans rfl
theorem Wc_main_arg0 (c : Dev nD) : Wc m ρ c (Proc.devRef .tc main_arg0) = m ((c : Thread nD τ).loc main_arg0) :=
  ((Wc_arr m ρ c 1).trans (((Reg1.dat (Vb m ρ) c).arrAt_in 1 rfl _).trans (Reg1.A_eq (Vb m ρ) c 1))).trans (Wb_main_arg0 m ρ c)
theorem Wd_main_arg0 (c : Dev nD) : Wd m ρ c (Proc.devRef .tc main_arg0) = m ((c : Thread nD τ).loc main_arg0) :=
  (Wd_of_ne m ρ c main_arg0 (by decide)).trans (Wc_main_arg0 m ρ c)
theorem Wb_main_arg1 (c : Dev nD) : Wb m ρ c (Proc.devRef .tc main_arg1) = m ((c : Thread nD τ).loc main_arg1) :=
  ((Wb_arr m ρ c 0).trans (((Reg0.dat (Va m ρ) c).arrAt_in 0 rfl _).trans (Reg0.A_eq (Va m ρ) c 0))).trans rfl
theorem Wc_main_arg1 (c : Dev nD) : Wc m ρ c (Proc.devRef .tc main_arg1) = m ((c : Thread nD τ).loc main_arg1) :=
  ((Wc_arr m ρ c 0).trans (((Reg1.dat (Vb m ρ) c).arrAt_in 0 rfl _).trans (Reg1.A_eq (Vb m ρ) c 0))).trans (Wb_main_arg1 m ρ c)
theorem Wd_main_arg1 (c : Dev nD) : Wd m ρ c (Proc.devRef .tc main_arg1) = m ((c : Thread nD τ).loc main_arg1) :=
  ((Wd_arr m ρ c 0).trans (((Reg2.dat (Vc m ρ) c).arrAt_in 0 rfl _).trans (Reg2.A_eq (Vc m ρ) c 0))).trans (Wc_main_arg1 m ρ c)
theorem Wb_main_arg2 (c : Dev nD) : Wb m ρ c (Proc.devRef .tc main_arg2) = m ((c : Thread nD τ).loc main_arg2) :=
  ((Wb_arr m ρ c 1).trans (((Reg0.dat (Va m ρ) c).arrAt_in 1 rfl _).trans (Reg0.A_eq (Va m ρ) c 1))).trans rfl
theorem Wc_main_arg2 (c : Dev nD) : Wc m ρ c (Proc.devRef .tc main_arg2) = m ((c : Thread nD τ).loc main_arg2) :=
  (Wc_of_ne m ρ c main_arg2 (by decide)).trans (Wb_main_arg2 m ρ c)
theorem Wd_main_arg2 (c : Dev nD) : Wd m ρ c (Proc.devRef .tc main_arg2) = m ((c : Thread nD τ).loc main_arg2) :=
  (Wd_of_ne m ρ c main_arg2 (by decide)).trans (Wc_main_arg2 m ρ c)
theorem Wb_main_arg3 (c : Dev nD) : Wb m ρ c (Proc.devRef .tc main_arg3) = m ((c : Thread nD τ).loc main_arg3) :=
  ((Wb_arr m ρ c 2).trans (((Reg0.dat (Va m ρ) c).arrAt_in 2 rfl _).trans (Reg0.A_eq (Va m ρ) c 2))).trans rfl
theorem Wc_main_arg3 (c : Dev nD) : Wc m ρ c (Proc.devRef .tc main_arg3) = m ((c : Thread nD τ).loc main_arg3) :=
  (Wc_of_ne m ρ c main_arg3 (by decide)).trans (Wb_main_arg3 m ρ c)
theorem Wd_main_arg3 (c : Dev nD) : Wd m ρ c (Proc.devRef .tc main_arg3) = m ((c : Thread nD τ).loc main_arg3) :=
  (Wd_of_ne m ρ c main_arg3 (by decide)).trans (Wc_main_arg3 m ρ c)
theorem Wb_main_arg4 (c : Dev nD) : Wb m ρ c (Proc.devRef .tc main_arg4) = m ((c : Thread nD τ).loc main_arg4) :=
  (Wb_of_ne m ρ c main_arg4 (by decide)).trans rfl
theorem Wc_main_arg4 (c : Dev nD) : Wc m ρ c (Proc.devRef .tc main_arg4) = m ((c : Thread nD τ).loc main_arg4) :=
  (Wc_of_ne m ρ c main_arg4 (by decide)).trans (Wb_main_arg4 m ρ c)
theorem Wd_main_arg4 (c : Dev nD) : Wd m ρ c (Proc.devRef .tc main_arg4) = m ((c : Thread nD τ).loc main_arg4) :=
  ((Wd_arr m ρ c 3).trans (((Reg2.dat (Vc m ρ) c).arrAt_in 3 rfl _).trans (Reg2.A_eq (Vc m ρ) c 3))).trans (Wc_main_arg4 m ρ c)
theorem Wb_main_arg5 (c : Dev nD) : Wb m ρ c (Proc.devRef .tc main_arg5) = m ((c : Thread nD τ).loc main_arg5) :=
  (Wb_of_ne m ρ c main_arg5 (by decide)).trans rfl
theorem Wc_main_arg5 (c : Dev nD) : Wc m ρ c (Proc.devRef .tc main_arg5) = m ((c : Thread nD τ).loc main_arg5) :=
  (Wc_of_ne m ρ c main_arg5 (by decide)).trans (Wb_main_arg5 m ρ c)
theorem Wd_main_arg5 (c : Dev nD) : Wd m ρ c (Proc.devRef .tc main_arg5) = m ((c : Thread nD τ).loc main_arg5) :=
  ((Wd_arr m ρ c 4).trans (((Reg2.dat (Vc m ρ) c).arrAt_in 4 rfl _).trans (Reg2.A_eq (Vc m ρ) c 4))).trans (Wc_main_arg5 m ρ c)
theorem Wb_main_arg6 (c : Dev nD) : Wb m ρ c (Proc.devRef .tc main_arg6) = m ((c : Thread nD τ).loc main_arg6) :=
  (Wb_of_ne m ρ c main_arg6 (by decide)).trans rfl
theorem Wc_main_arg6 (c : Dev nD) : Wc m ρ c (Proc.devRef .tc main_arg6) = m ((c : Thread nD τ).loc main_arg6) :=
  (Wc_of_ne m ρ c main_arg6 (by decide)).trans (Wb_main_arg6 m ρ c)
theorem Wd_main_arg6 (c : Dev nD) : Wd m ρ c (Proc.devRef .tc main_arg6) = m ((c : Thread nD τ).loc main_arg6) :=
  ((Wd_arr m ρ c 5).trans (((Reg2.dat (Vc m ρ) c).arrAt_in 5 rfl _).trans (Reg2.A_eq (Vc m ρ) c 5))).trans (Wc_main_arg6 m ρ c)
theorem Wb_main_arg7 (c : Dev nD) : Wb m ρ c (Proc.devRef .tc main_arg7) = m ((c : Thread nD τ).loc main_arg7) :=
  (Wb_of_ne m ρ c main_arg7 (by decide)).trans rfl
theorem Wc_main_arg7 (c : Dev nD) : Wc m ρ c (Proc.devRef .tc main_arg7) = m ((c : Thread nD τ).loc main_arg7) :=
  (Wc_of_ne m ρ c main_arg7 (by decide)).trans (Wb_main_arg7 m ρ c)
theorem Wd_main_arg7 (c : Dev nD) : Wd m ρ c (Proc.devRef .tc main_arg7) = m ((c : Thread nD τ).loc main_arg7) :=
  ((Wd_arr m ρ c 6).trans (((Reg2.dat (Vc m ρ) c).arrAt_in 6 rfl _).trans (Reg2.A_eq (Vc m ρ) c 6))).trans (Wc_main_arg7 m ρ c)
theorem Wb_main_arg8 (c : Dev nD) : Wb m ρ c (Proc.devRef .tc main_arg8) = m ((c : Thread nD τ).loc main_arg8) :=
  (Wb_of_ne m ρ c main_arg8 (by decide)).trans rfl
theorem Wc_main_arg8 (c : Dev nD) : Wc m ρ c (Proc.devRef .tc main_arg8) = m ((c : Thread nD τ).loc main_arg8) :=
  (Wc_of_ne m ρ c main_arg8 (by decide)).trans (Wb_main_arg8 m ρ c)
theorem Wd_main_arg8 (c : Dev nD) : Wd m ρ c (Proc.devRef .tc main_arg8) = m ((c : Thread nD τ).loc main_arg8) :=
  ((Wd_arr m ρ c 7).trans (((Reg2.dat (Vc m ρ) c).arrAt_in 7 rfl _).trans (Reg2.A_eq (Vc m ρ) c 7))).trans (Wc_main_arg8 m ρ c)
theorem Wb_main_arg9 (c : Dev nD) : Wb m ρ c (Proc.devRef .tc main_arg9) = m ((c : Thread nD τ).loc main_arg9) :=
  (Wb_of_ne m ρ c main_arg9 (by decide)).trans rfl
theorem Wc_main_arg9 (c : Dev nD) : Wc m ρ c (Proc.devRef .tc main_arg9) = m ((c : Thread nD τ).loc main_arg9) :=
  (Wc_of_ne m ρ c main_arg9 (by decide)).trans (Wb_main_arg9 m ρ c)
theorem Wd_main_arg9 (c : Dev nD) : Wd m ρ c (Proc.devRef .tc main_arg9) = m ((c : Thread nD τ).loc main_arg9) :=
  ((Wd_arr m ρ c 8).trans (((Reg2.dat (Vc m ρ) c).arrAt_in 8 rfl _).trans (Reg2.A_eq (Vc m ρ) c 8))).trans (Wc_main_arg9 m ρ c)

/-- The projected features, as the second region finds them, are what the first region left. -/
theorem Wb_main_v0 (c : Dev nD) : Wb m ρ c (Proc.devRef .tc main_v0) = (Reg0.dat (Va m ρ) c).arrAt 3 cfg0.N := Wb_arr m ρ c 3
/-- The hyperedge features and the incidence, as the third region finds them, are what the second region left. -/
theorem Wc_main_v1_0 (c : Dev nD) : Wc m ρ c (Proc.devRef .tc main_v1_0) = (Reg1.dat (Vb m ρ) c).arrAt 3 cfg1.N := Wc_arr m ρ c 3
theorem Wc_main_v1_1 (c : Dev nD) : Wc m ρ c (Proc.devRef .tc main_v1_1) = (Reg1.dat (Vb m ρ) c).arrAt 4 cfg1.N := Wc_arr m ρ c 4
/-- The result, at the end, is what the third region left. -/
theorem Wd_main_v2 (c : Dev nD) : Wd m ρ c (Proc.devRef .tc main_v2) = (Reg2.dat (Vc m ρ) c).arrAt 9 cfg2.N := Wd_arr m ρ c 9

/-- The frame: every execution terminates without a fault and ends with the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (Wd_main_arg0 m ρ c),
    (h c _ (mem_uc main_arg1 (by decide))).trans (Wd_main_arg1 m ρ c),
    (h c _ (mem_uc main_arg2 (by decide))).trans (Wd_main_arg2 m ρ c),
    (h c _ (mem_uc main_arg3 (by decide))).trans (Wd_main_arg3 m ρ c),
    (h c _ (mem_uc main_arg4 (by decide))).trans (Wd_main_arg4 m ρ c),
    (h c _ (mem_uc main_arg5 (by decide))).trans (Wd_main_arg5 m ρ c),
    (h c _ (mem_uc main_arg6 (by decide))).trans (Wd_main_arg6 m ρ c),
    (h c _ (mem_uc main_arg7 (by decide))).trans (Wd_main_arg7 m ρ c),
    (h c _ (mem_uc main_arg8 (by decide))).trans (Wd_main_arg8 m ρ c),
    (h c _ (mem_uc main_arg9 (by decide))).trans (Wd_main_arg9 m ρ c)⟩) (run_all m ρ)

end Cert.KernelIdeal.Run

end
-- ==== Proof.Spec.lean ====
/-
  The hypergraph message-passing layer as ONE function of the argument arrays, over the extended reals, index by index.

  Nodes and hyperedges are both indexed by `Fin 4096`, features by `Fin 256`, the hidden width by `Fin 1024`,
  the batch by `Fin 8`. With `f` the node queries and `g` the hyperedge queries:
    * the incidence `mask b v e` is 1 when the squared distance (‖f v‖² + ‖g e‖²) − 2⟨f v, g e⟩ is below 529, else 0;
    * `norm d` is 1 / max d 1 when 0 < d, else 0 (the mean's reciprocal count, guarded);
    * a hyperedge's feature is the normalised sum over its incident nodes of the projected node features, plus its query;
    * a node's enhanced feature is the normalised sum over its incident hyperedges of their features, plus its query;
    * then a two-layer feed-forward block with a residual, and a layer normalisation over the feature axis.
  Every array is taken curried (`Fin 8 → Fin 4096 → Fin 256 → EReal`); float literals stay the binary words they are
  printed as, so that the same word on two sides is never evaluated.
-/
import Idealize.ShloMosaic.PureOps.Ideal
import Idealize.ShloMosaic.Lib.ValueIdx

noncomputable section

open scoped BigOperators

namespace Cert.Hyper

open Idealize.ShloMosaic

/-- A rank-3 array over the batch, 4096 rows and `n` columns, curried. -/
abbrev A3 (n : Nat) : Type := Fin 8 → Fin 4096 → Fin n → EReal

/-- The literals, as printed. -/
abbrev c2 : EReal := Ideal.ofBits .f32 0x40000000#32
abbrev c529 : EReal := Ideal.ofBits .f32 0x44044000#32
abbrev c1 : EReal := Ideal.ofBits .f32 0x3F800000#32
abbrev c256 : EReal := Ideal.ofBits .f32 0x43800000#32
abbrev ceps : EReal := Ideal.ofBits .f32 0x3727C5AC#32

/-- The projected node features: `f · W_fcᵀ + b_fc`. -/
def xlin (f : A3 256) (wfc : Fin 256 → Fin 256 → EReal) (bfc : Fin 256 → EReal) : A3 256 :=
  fun b n e => (∑ k : Fin 256, f b n k * wfc e k) + bfc e

/-- The squared distance between node `v` and hyperedge `e`, by the norm expansion, grouped (‖f‖² + ‖g‖²) − 2⟨f, g⟩. -/
def sqd (f g : A3 256) (b : Fin 8) (v e : Fin 4096) : EReal :=
  ((∑ k : Fin 256, f b v k * f b v k) + (∑ k : Fin 256, g b e k * g b e k)) - c2 * (∑ k : Fin 256, f b v k * g b e k)

/-- The incidence of node `v` in hyperedge `e`: 1 below the squared threshold, else 0. -/
def mask (f g : A3 256) : A3 4096 :=
  fun b v e => if sqd f g b v e < c529 then 1 else 0

/-- The guarded reciprocal of a count. -/
def norm (d : EReal) : EReal := if 0 < d then Ideal.div c1 (max d c1) else 0

/-- A hyperedge's feature from an incidence `h` (node, hyperedge) and node features `x`: the normalised sum over its
    nodes, plus its own query `g`. -/
def edgeAgg (h : A3 4096) (x g : A3 256) : A3 256 :=
  fun b e d => (∑ v : Fin 4096, h b v e * x b v d) * norm (∑ v : Fin 4096, h b v e) + g b e d

/-- A node's enhanced feature from the incidence and the hyperedge features `E`: the normalised sum over its
    hyperedges, plus its own query `f`. -/
def nodeAgg (h : A3 4096) (E f : A3 256) : A3 256 :=
  fun b v d => (∑ e : Fin 4096, h b v e * E b e d) * norm (∑ e : Fin 4096, h b v e) + f b v d

/-- The feed-forward block with its residual: `y + (relu (y W1ᵀ + b1) W2ᵀ + b2)`. -/
def ffn (y : A3 256) (w1 : Fin 1024 → Fin 256 → EReal) (b1 : Fin 1024 → EReal) (w2 : Fin 256 → Fin 1024 → EReal)
    (b2 : Fin 256 → EReal) : A3 256 :=
  fun b v d => y b v d
    + ((∑ j : Fin 1024, max ((∑ k : Fin 256, y b v k * w1 j k) + b1 j) 0 * w2 d j) + b2 d)

/-- The mean of a row over the feature axis. -/
def rowMean (q : A3 256) (b : Fin 8) (v : Fin 4096) : EReal := Ideal.div (∑ k : Fin 256, q b v k) c256

/-- Layer normalisation over the feature axis, with gain and bias. -/
def layerNorm (q : A3 256) (gain bias : Fin 256 → EReal) : A3 256 :=
  fun b v d =>
    (q b v d - rowMean q b v)
      * Ideal.rsqrt (Ideal.div (∑ k : Fin 256, (q b v k - rowMean q b v) * (q b v k - rowMean q b v)) c256 + ceps)
      * gain d + bias d

/-- The third stage from its own operands: the incidence, the hyperedge features, the node queries, the block's weights. -/
def stage3 (h : A3 4096) (E f : A3 256) (w1 : Fin 1024 → Fin 256 → EReal) (b1 : Fin 1024 → EReal)
    (w2 : Fin 256 → Fin 1024 → EReal) (b2 : Fin 256 → EReal) (gain bias : Fin 256 → EReal) : A3 256 :=
  layerNorm (ffn (nodeAgg h E f) w1 b1 w2 b2) gain bias

/-- The whole layer, from the ten arguments (`g` the hyperedge queries, `f` the node queries). -/
def layer (g f : A3 256) (wfc : Fin 256 → Fin 256 → EReal) (bfc : Fin 256 → EReal)
    (w1 : Fin 1024 → Fin 256 → EReal) (b1 : Fin 1024 → EReal) (w2 : Fin 256 → Fin 1024 → EReal) (b2 : Fin 256 → EReal)
    (gain bias : Fin 256 → EReal) : A3 256 :=
  stage3 (mask f g) (edgeAgg (mask f g) (xlin f wfc bfc) g) f w1 b1 w2 b2 gain bias

end Cert.Hyper

end
-- ==== Proof.KI.Val0.lean ====
/-
  The first region's value over the extended reals: the array it leaves is the projected node features,
  X b n e = (∑ₖ f b n k · W_fc e k) + b_fc e. A grid point (batch b, row tile v) writes back rows 512·v … 512·v + 511 of
  batch b, each entry the store's value of the point's three input blocks; the 64 points' blocks tile the array.
-/
import proofs.«155549_j32615981646424_2_alg».proof.Proof.KI.Reg0
import proofs.«155549_j32615981646424_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The matrix product of a row tile with the weight matrix, both contracted along their second axis -/

/-- The product's dimension record: rows × features times outputs × features, contracted on the feature axis. -/
abbrev D0 : DotDims S512x256 S256x256 S512x256 := dot_S512x256_S256x256_S512x256_1_1_0_0_n_n

theorem lhs_row (j : S512x256.Idx) (q : D0.contr.Idx) : (D0.lhsIdx j q 0).val = (j 0).val := by
  unfold DotDims.lhsIdx
  rw [dif_neg (show ¬(0 : Fin S512x256.rank) ∈ D0.lhsBatch by decide), dif_pos (show (0 : Fin S512x256.rank) ∈ D0.lhsNonContracting by decide)]
  rfl
theorem lhs_k (j : S512x256.Idx) (q : D0.contr.Idx) : (D0.lhsIdx j q 1).val = (q ⟨0, by decide⟩).val :=
  D0.lhsIdx_val_of_single rfl j q
theorem rhs_row (j : S512x256.Idx) (q : D0.contr.Idx) : (D0.rhsIdx j q 0).val = (j 1).val := by
  unfold DotDims.rhsIdx
  rw [dif_neg (show ¬(0 : Fin S256x256.rank) ∈ D0.rhsBatch by decide), dif_pos (show (0 : Fin S256x256.rank) ∈ D0.rhsNonContracting by decide)]
  rfl
theorem rhs_k (j : S512x256.Idx) (q : D0.contr.Idx) : (D0.rhsIdx j q 1).val = (q ⟨0, by decide⟩).val :=
  D0.rhsIdx_val_of_single rfl j q

/-- Into a zero accumulator the product at (p, e) is the plain sum over the feature index. -/
theorem matmul_at {φ₁ φ₂ : FTy} (l : FVec Ideal S512x256 φ₁) (r : FVec Ideal S256x256 φ₂) (p : Fin 512) (e : Fin 256) :
    FloatOps.matmul D0 none l r (constant S512x256 .f32 0x00000000#32) (ix2 p e) = ∑ k : Fin 256, l (ix2 p k) * r (ix2 e k) := by
  rw [Ideal.matmul_constant_zero_apply, ← Equiv.sum_comp (contrEquiv1 D0 256 rfl rfl).symm]
  refine Finset.sum_congr rfl fun k _ => ?_
  have hk := contrEquiv1_symm_val D0 256 rfl rfl k
  have el : D0.lhsIdx (ix2 p e) ((contrEquiv1 D0 256 rfl rfl).symm k) = ix2 p k := funext fun a => Fin.ext (by
    match a with
    | ⟨0, _⟩ => exact lhs_row _ _
    | ⟨1, _⟩ => exact (lhs_k _ _).trans hk)
  have er : D0.rhsIdx (ix2 p e) ((contrEquiv1 D0 256 rfl rfl).symm k) = ix2 e k := funext fun a => Fin.ext (by
    match a with
    | ⟨0, _⟩ => exact rhs_row _ _
    | ⟨1, _⟩ => exact (rhs_k _ _).trans hk)
  rw [el, er]

/-! ## The store's value at an index -/

/-- The stored block at (·, p, e): the row's inner product with weight row e, plus the bias at e. -/
theorem pay_apply (x0 : Vec Ideal S1x512x256 .f32) (x1 : Vec Ideal S256x256 .f32) (x2 : Vec Ideal S256 .f32)
    (z : Fin 1) (p : Fin 512) (e : Fin 256) :
    k0_pay1 (F := Ideal) x0 x1 x2 (ix3 z p e)
      = (∑ k : Fin 256, x0 (ix3 (0 : Fin 1) p k) * x1 (ix2 e k)) + x2 (ix1 e) := by
  unfold k0_pay1
  refine (shapeCast_ab_1ab_apply _ _ z p e).trans ?_
  refine congrArg₂ (· + ·) ?_ ?_
  · refine (matmul_at _ _ p e).trans (Finset.sum_congr rfl fun k _ => ?_)
    exact congrArg (· * x1 (ix2 e k)) (shapeCast_1ab_ab_apply x0 _ p k)
  · exact (broadcastTo_1b_ab_apply _ _ p e).trans (shapeCast_a_1a_apply x2 _ (0 : Fin 1) e)

/-! ## From the blocks to the array -/

variable (V : (c : Dev nD) → (b : Ref sig .tc) → Buf (Elt Ideal) ((c : Thread nD τ).loc b))

/-- The projected node features as one function of the arrays the region finds. -/
def G (c : Dev nD) : S8x4096x256.Idx → Ideal .f32 := fun i =>
  Cert.Hyper.xlin (fun b n k => V c main_arg1 (ix3 b n k)) (fun e k => V c main_arg2 (ix2 e k)) (fun e => V c main_arg3 (ix1 e))
    (i 0) (i 1) (i 2)

/-- The printed index maps over the grid: point t is (batch t / 8, row tile t % 8); the tile of f moves with the output
    block; the weight matrix and the bias stay at block 0. -/
theorem idx_facts : ∀ t : Fin cfg0.N,
    win0_3.index t (0 : Fin 3) = t.val / 8 ∧ win0_3.index t (1 : Fin 3) = t.val % 8 ∧ win0_3.index t (2 : Fin 3) = 0
    ∧ win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0 ∧ win0_2.index t (0 : Fin 1) = 0 :=
  (by decide +kernel : ∀ t : Fin grid0.N, _)

/-- What point t writes back is block t of G. -/
theorem flushed_eq (c : Dev nD) (t : Fin cfg0.N) :
    (Reg0.dat V c).flushed 3 t = ((cfg0.win 3).blk t).view.read (Elt Ideal) (G V c) := by
  show (cfg0.win 3).cut (grid0.coords t) ((Reg0.dat V c).after 3 t) = _
  rw [Reg0.after_3]
  unfold Reg0.outX
  rw [View.canon_unit_zero hz3]
  simp only [View.ld_unit_zero (S := S1x512x256) hz3, View.ld_unit_zero (S := S256x256) hz2, View.ld_unit_zero (S := S256) hz1]
  obtain ⟨f0, f1, f2, g0, g1, g2, w0, w1, b0⟩ := idx_facts t
  funext j
  obtain ⟨z, p, e, rfl⟩ : ∃ (z : Fin 1) (p : Fin 512) (e : Fin 256), j = ix3 z p e := ⟨j 0, j 1, j 2, eq_ix3 j⟩
  refine (pay_apply _ _ _ z p e).trans ?_
  have hz0 : z.val = 0 := by omega
  have hp : p.val < 512 := p.isLt
  have he : e.val < 256 := e.isLt
  have eb : ((cfg0.win 2).blk t).view.emb (ix1 e) = ix1 ((((cfg0.win 3).blk t).view.emb (ix3 z p e)) 2) := by
    funext a; apply Fin.ext
    match a with
    | ⟨0, _⟩ => show win0_2.index t (0 : Fin 1) * 256 + 1 * e.val = win0_3.index t (2 : Fin 3) * 256 + 1 * e.val; omega
  have ew : ∀ k : Fin 256, ((cfg0.win 1).blk t).view.emb (ix2 e k) = ix2 ((((cfg0.win 3).blk t).view.emb (ix3 z p e)) 2) k := fun k => by
    funext a; apply Fin.ext
    match a with
    | ⟨0, _⟩ => show win0_1.index t (0 : Fin 2) * 256 + 1 * e.val = win0_3.index t (2 : Fin 3) * 256 + 1 * e.val; omega
    | ⟨1, _⟩ => show win0_1.index t (1 : Fin 2) * 256 + 1 * k.val = k.val; omega
  have ef : ∀ k : Fin 256, ((cfg0.win 0).blk t).view.emb (ix3 (0 : Fin 1) p k)
      = ix3 ((((cfg0.win 3).blk t).view.emb (ix3 z p e)) 0) ((((cfg0.win 3).blk t).view.emb (ix3 z p e)) 1) k := fun k => by
    funext a; apply Fin.ext
    match a with
    | ⟨0, _⟩ => show win0_0.index t (0 : Fin 3) * 1 + 1 * 0 = win0_3.index t (0 : Fin 3) * 1 + 1 * z.val; omega
    | ⟨1, _⟩ => show win0_0.index t (1 : Fin 3) * 512 + 1 * p.val = win0_3.index t (1 : Fin 3) * 512 + 1 * p.val; omega
    | ⟨2, _⟩ => show win0_0.index t (2 : Fin 3) * 256 + 1 * k.val = k.val; omega
  unfold G Cert.Hyper.xlin
  refine congrArg₂ (fun x y : EReal => x + y) (Finset.sum_congr rfl fun k _ => congrArg₂ (fun x y : EReal => x * y) ?_ ?_) ?_
  · show V c main_arg1 (((cfg0.win 0).blk t).view.emb (ix3 (0 : Fin 1) p k)) = V c main_arg1 (ix3 _ _ k)
    exact congrArg (V c main_arg1) (ef k)
  · show V c main_arg2 (((cfg0.win 1).blk t).view.emb (ix2 e k)) = V c main_arg2 (ix2 _ k)
    exact congrArg (V c main_arg2) (ew k)
  · show V c main_arg3 (((cfg0.win 2).blk t).view.emb (ix1 e)) = V c main_arg3 (ix1 _)
    exact congrArg (V c main_arg3) eb

/-- An index of the array is in point t's block iff each coordinate is in the block's range on its axis. -/
theorem mem_blk (t : Fin cfg0.N) (i : S8x4096x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v0).slice (win0_3.rect t)).set ↔ _
  rw [View.set_slice_whole, Rect.mem_set_unit]
  exact Iff.rfl

/-- Every index is in the block of the point (its batch, its row tile), which writes back. -/
theorem cover (i : S8x4096x256.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 256 := (i 2).isLt
  have hN : cfg0.N = 64 := N_0
  refine ⟨⟨(i 0).val * 8 + (i 1).val / 512, by rw [hN]; omega⟩, flush0_3 _, ?_⟩
  rw [mem_blk]
  obtain ⟨g0, g1, g2, -⟩ := idx_facts ⟨(i 0).val * 8 + (i 1).val / 512, by rw [hN]; omega⟩
  intro a
  match a with
  | ⟨0, _⟩ => show win0_3.index _ (0 : Fin 3) * 1 ≤ (i 0).val ∧ (i 0).val < win0_3.index _ (0 : Fin 3) * 1 + 1; rw [g0]; dsimp only; omega
  | ⟨1, _⟩ => show win0_3.index _ (1 : Fin 3) * 512 ≤ (i 1).val ∧ (i 1).val < win0_3.index _ (1 : Fin 3) * 512 + 512; rw [g1]; dsimp only; omega
  | ⟨2, _⟩ => show win0_3.index _ (2 : Fin 3) * 256 ≤ (i 2).val ∧ (i 2).val < win0_3.index _ (2 : Fin 3) * 256 + 256; rw [g2]; omega

/-- The array after the region: G. -/
theorem final (c : Dev nD) : (Reg0.dat V c).arrAt 3 cfg0.N = G V c :=
  (Reg0.dat V c).arrAt_eq_of_cover 3 (G V c) (fun t _ => flushed_eq V c t) (cover)

/-- The same, read at an index. -/
theorem final_X (c : Dev nD) (b : Fin 8) (n : Fin 4096) (e : Fin 256) :
    (Reg0.dat V c).arrAt 3 cfg0.N (ix3 b n e)
      = Cert.Hyper.xlin (fun b n k => V c main_arg1 (ix3 b n k)) (fun e k => V c main_arg2 (ix2 e k)) (fun e => V c main_arg3 (ix1 e)) b n e := by
  rw [final]; rfl

end Cert.KernelIdeal.Val0

end
-- ==== Proof.KI.Sched1.lean ====
/-
  The schedule of the second region, read arithmetically. Its grid has 512 points; point t is (batch t / 64, middle tile
  (t / 8) % 8, inner tile t % 8). Each window's block index at a point is a closed form of t; an index of an output array is in
  a point's block iff each coordinate is in the block's range; and every index of each output array lies in the block of a
  point that writes it back.
-/
import proofs.«155549_j32615981646424_2_alg».proof.Proof.Gen.KernelIdeal.Launch
import proofs.«155549_j32615981646424_2_alg».proof.Proof.Gen.KernelIdeal.Points
import Idealize.ShloMosaic.Lib.Pipeline.Value

set_option maxRecDepth 16384

noncomputable section

namespace Cert.KernelIdeal.Sched1

open Cert.KernelIdeal Cert.KernelIdeal.Gen
open Idealize.ShloMosaic Idealize.ShloMosaic.TcCoe Idealize.SL.Sem

/-- The index maps over the grid (point t = (b·8 + e)·8 + v): the row tile of f and of X is (b, v); the row tile of g and of
    the hyperedge features is (b, e); the incidence block is (b, v, e). -/
theorem idx_facts : ∀ t : Fin cfg1.N,
    win1_0.index t (0 : Fin 3) = t.val / 64 ∧ win1_0.index t (1 : Fin 3) = t.val % 8 ∧ win1_0.index t (2 : Fin 3) = 0
    ∧ win1_1.index t (0 : Fin 3) = t.val / 64 ∧ win1_1.index t (1 : Fin 3) = (t.val / 8) % 8 ∧ win1_1.index t (2 : Fin 3) = 0
    ∧ win1_2.index t (0 : Fin 3) = t.val / 64 ∧ win1_2.index t (1 : Fin 3) = t.val % 8 ∧ win1_2.index t (2 : Fin 3) = 0
    ∧ win1_3.index t (0 : Fin 3) = t.val / 64 ∧ win1_3.index t (1 : Fin 3) = (t.val / 8) % 8 ∧ win1_3.index t (2 : Fin 3) = 0
    ∧ win1_4.index t (0 : Fin 3) = t.val / 64 ∧ win1_4.index t (1 : Fin 3) = t.val % 8 ∧ win1_4.index t (2 : Fin 3) = (t.val / 8) % 8 :=
  (by decide +kernel : ∀ t : Fin grid1.N, _)

/-- Membership in a block of the hyperedge-feature array (window 3). -/
theorem mem_blk3 (t : Fin cfg1.N) (i : S8x4096x256.Idx) :
    i ∈ ((cfg1.win 3).blk t).view.set ↔ ∀ a : Fin 3, win1_3.index t a * S1x512x256.size a ≤ (i a).val ∧ (i a).val < win1_3.index t a * S1x512x256.size a + S1x512x256.size a := by
  show i ∈ ((View.whole main_v1_0).slice (win1_3.rect t)).set ↔ _
  rw [View.set_slice_whole, Rect.mem_set_unit]
  exact Iff.rfl

/-- Membership in a block of the incidence array (window 4). -/
theorem mem_blk4 (t : Fin cfg1.N) (i : S8x4096x4096.Idx) :
    i ∈ ((cfg1.win 4).blk t).view.set ↔ ∀ a : Fin 3, win1_4.index t a * S1x512x512.size a ≤ (i a).val ∧ (i a).val < win1_4.index t a * S1x512x512.size a + S1x512x512.size a := by
  show i ∈ ((View.whole main_v1_1).slice (win1_4.rect t)).set ↔ _
  rw [View.set_slice_whole, Rect.mem_set_unit]
  exact Iff.rfl

/-- The point that writes back the block of the hyperedge-feature array holding index i: the last row tile (v = 7) of its
    (batch, hyperedge tile). -/
def pt3 (i : S8x4096x256.Idx) : Fin cfg1.N :=
  ⟨((i 0).val * 8 + (i 1).val / 512) * 8 + 7, by
    have h0 : (i 0).val < 8 := (i 0).isLt
    have h1 : (i 1).val < 4096 := (i 1).isLt
    rw [show cfg1.N = 512 from N_1]; omega⟩

theorem cover3 (i : S8x4096x256.Idx) : ∃ t : Fin cfg1.N, (cfg1.win 3).flush t = true ∧ i ∈ ((cfg1.win 3).blk t).view.set := by
  have h0 : (i 0).val < 8 := (i 0).isLt
  have h1 : (i 1).val < 4096 := (i 1).isLt
  have h2 : (i 2).val < 256 := (i 2).isLt
  refine ⟨pt3 i, (flush1_3 _).mpr (by show (((i 0).val * 8 + (i 1).val / 512) * 8 + 7) % 8 = 7; omega), ?_⟩
  rw [mem_blk3]
  obtain ⟨-, -, -, -, -, -, -, -, -, g0, g1, g2, -⟩ := idx_facts (pt3 i)
  have hv : (pt3 i).val = ((i 0).val * 8 + (i 1).val / 512) * 8 + 7 := rfl
  intro a
  match a with
  | ⟨0, _⟩ => show win1_3.index _ (0 : Fin 3) * 1 ≤ (i 0).val ∧ (i 0).val < win1_3.index _ (0 : Fin 3) * 1 + 1; rw [g0, hv]; omega
  | ⟨1, _⟩ => show win1_3.index _ (1 : Fin 3) * 512 ≤ (i 1).val ∧ (i 1).val < win1_3.index _ (1 : Fin 3) * 512 + 512; rw [g1, hv]; omega
  | ⟨2, _⟩ => show win1_3.index _ (2 : Fin 3) * 256 ≤ (i 2).val ∧ (i 2).val < win1_3.index _ (2 : Fin 3) * 256 + 256; rw [g2]; omega

/-- The point whose incidence block holds index i = (b, v, e): (b, e / 512, v / 512). -/
def pt4 (i : S8x4096x4096.Idx) : Fin cfg1.N :=
  ⟨((i 0).val * 8 + (i 2).val / 512) * 8 + (i 1).val / 512, by
    have h0 : (i 0).val < 8 := (i 0).isLt
    have h1 : (i 1).val < 4096 := (i 1).isLt
    have h2 : (i 2).val < 4096 := (i 2).isLt
    rw [show cfg1.N = 512 from N_1]; omega⟩

theorem cover4 (i : S8x4096x4096.Idx) : ∃ t : Fin cfg1.N, (cfg1.win 4).flush t = true ∧ i ∈ ((cfg1.win 4).blk t).view.set := by
  have h0 : (i 0).val < 8 := (i 0).isLt
  have h1 : (i 1).val < 4096 := (i 1).isLt
  have h2 : (i 2).val < 4096 := (i 2).isLt
  refine ⟨pt4 i, flush1_4 _, ?_⟩
  rw [mem_blk4]
  obtain ⟨-, -, -, -, -, -, -, -, -, -, -, -, g0, g1, g2⟩ := idx_facts (pt4 i)
  have hv : (pt4 i).val = ((i 0).val * 8 + (i 2).val / 512) * 8 + (i 1).val / 512 := rfl
  intro a
  match a with
  | ⟨0, _⟩ => show win1_4.index _ (0 : Fin 3) * 1 ≤ (i 0).val ∧ (i 0).val < win1_4.index _ (0 : Fin 3) * 1 + 1; rw [g0, hv]; omega
  | ⟨1, _⟩ => show win1_4.index _ (1 : Fin 3) * 512 ≤ (i 1).val ∧ (i 1).val < win1_4.index _ (1 : Fin 3) * 512 + 512; rw [g1, hv]; omega
  | ⟨2, _⟩ => show win1_4.index _ (2 : Fin 3) * 512 ≤ (i 2).val ∧ (i 2).val < win1_4.index _ (2 : Fin 3) * 512 + 512; rw [g2, hv]; omega

end Cert.KernelIdeal.Sched1

end
-- ==== Proof.LibIdealBits.lean ====
/-
  Two readings on the extended reals of what a kernel spells with one-bit words:
   * an order test `a < b` taken as a bit, widened to 32 bits, read as a signed integer and converted to a float is the number
     1 when `a < b` and 0 otherwise;
   * a select on the test `0 < d` between `1 / max d 1` and `0` is the guarded reciprocal `Cert.Hyper.norm d`.
  There is nothing unordered on the extended reals, so an ordered comparison is the comparison of the linear order.
-/
import proofs.«155549_j32615981646424_2_alg».proof.Proof.Spec
import Idealize.ShloMosaic.PureOps.Ideal.Laws
import Idealize.ShloMosaic.Lib.ValueIdx

noncomputable section

namespace Cert.HyperLib

open Idealize.ShloMosaic

/-- The bit of `a < b`. -/
theorem cmp_olt (a b : EReal) : Ideal.cmp .olt a b = if a < b then 1#1 else 0#1 := by
  unfold Ideal.cmp
  by_cases h : a < b <;> simp [h]

/-- The bit of `a > b`. -/
theorem cmp_ogt (a b : EReal) : Ideal.cmp .ogt a b = if b < a then 1#1 else 0#1 := by
  unfold Ideal.cmp
  by_cases h : b < a <;> simp [h]

/-- A bit widened to 32 bits and read as a signed integer is 1 or 0. -/
theorem toInt_setWidth_bit (c : BitVec 1) : ((c.setWidth 32).toInt : ℝ) = if c = 1#1 then (1 : ℝ) else 0 := by
  rcases BitVec.eq_zero_or_eq_one c with h | h <;> subst h <;> simp

/-- The 0/1 number of an order test: the test's bit, widened, read signed, converted. -/
theorem sitofp_extui_olt (a b : EReal) :
    (((Ideal.cmp .olt a b).setWidth 32).toInt : ℝ) = if a < b then (1 : ℝ) else 0 := by
  rw [toInt_setWidth_bit, cmp_olt]
  by_cases h : a < b <;> simp [h]

/-- The same as an extended real. -/
theorem sitofp_extui_olt_ereal (a b : EReal) :
    ((((Ideal.cmp .olt a b).setWidth 32).toInt : ℝ) : EReal) = if a < b then (1 : EReal) else 0 := by
  rw [sitofp_extui_olt]
  by_cases h : a < b <;> simp [h]

/-- The guarded reciprocal as a kernel spells it: a select on the bit of `0 < d`. -/
theorem select_ogt_norm (d : EReal) :
    Scalar.select (Ideal.cmp .ogt d (Ideal.ofBits .f32 0x00000000#32))
        (Ideal.div (Ideal.ofBits .f32 0x3F800000#32) (max d (Ideal.ofBits .f32 0x3F800000#32))) (Ideal.ofBits .f32 0x00000000#32)
      = Cert.Hyper.norm d := by
  unfold Cert.Hyper.norm
  rw [cmp_ogt, Ideal.ofBits_zero_f32]
  by_cases h : (0 : EReal) < d
  · rw [if_pos h, if_pos h]; exact ValueIdx.select_one _ _
  · rw [if_neg h, if_neg h]; exact ValueIdx.select_zero _ _

end Cert.HyperLib

end
-- ==== Proof.KI.Val1Pay.lean ====
/-
  The second region's stored values over the extended reals, each read at an index given by its coordinates, as
  functions of the blocks the body loads.

  With `f` the block of node queries (rows p) and `g` the block of hyperedge queries (rows q) of a grid point:
    * the incidence tile at (p, q) is 1 when (‖f_p‖² + ‖g_q‖²) − 2⟨f_p, g_q⟩ is below 529 and 0 otherwise — the two squared norms are
      lane sums spread along a row and along a column, the inner product a contraction over the feature axis, and the
      order test's bit, widened and converted, is the number 0 or 1;
    * the tile's product with a block of projected node features contracts the node axis of both: at (q, d) it is the sum
      over the nodes p of the incidence at (p, q) times the feature at (p, d);
    * the two running sums add this product, and the tile's column sums, to what they held; they start from 0;
    * the finished hyperedge feature at (q, d) is the running sum times the guarded reciprocal of the running count,
      plus the hyperedge's query.
  A format change is the identity on the extended reals and a cast that adds or drops a unit axis keeps the other
  coordinates, so the stored incidence tile in the narrower format, with its leading unit axis, is the same function.
-/
import proofs.«155549_j32615981646424_2_alg».proof.Proof.Gen.KernelIdeal.Skeleton
import proofs.«155549_j32615981646424_2_alg».proof.Proof.Spec
import proofs.«155549_j32615981646424_2_alg».proof.Proof.LibIdealBits
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen
open Idealize.ShloMosaic Idealize.ShloMosaic.ValueIdx
open scoped BigOperators

/-! ## Layout: a vector kept as a column, and a column spread along the rows -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane sums -/

/-- A sum over the feature axis of a 512 × 256 tile, at row `p`. -/
theorem lanesum_at (src : FVec Ideal S512x256 .f32) (h : S512x256.Reduces [1] S512) (hφ : FKind.Formats .f32)
    (hacc : (0x00000000#32 : BitVec 32) = FKind.add.neutral .f32 hφ) (p : Fin 512) :
    multiReduction .add [1] S512 src 0x00000000#32 h hφ hacc (ix1 p) = ∑ k : Fin 256, src (ix2 p k) :=
  (Ideal.multiReduction_add_single src 0x00000000#32 h hφ hacc (ix1 p)).trans
    (Finset.sum_congr rfl fun k _ => congrArg src
      (funext fun a => Fin.ext (by match a with | ⟨0, _⟩ => rfl | ⟨1, _⟩ => rfl)))

/-- A sum over the row axis of a 512 × 512 tile, at column `q`. -/
theorem colsum_at (src : FVec Ideal S512x512 .f32) (h : S512x512.Reduces [0] S512) (hφ : FKind.Formats .f32)
    (hacc : (0x00000000#32 : BitVec 32) = FKind.add.neutral .f32 hφ) (q : Fin 512) :
    multiReduction .add [0] S512 src 0x00000000#32 h hφ hacc (ix1 q) = ∑ p : Fin 512, src (ix2 p q) :=
  (Ideal.multiReduction_add_single src 0x00000000#32 h hφ hacc (ix1 q)).trans
    (Finset.sum_congr rfl fun k _ => congrArg src
      (funext fun a => Fin.ext (by match a with | ⟨0, _⟩ => rfl | ⟨1, _⟩ => rfl)))

/-! ## The two matrix products -/

/-- Rows × features times rows × features, contracted on the feature axis: the inner products of the rows. -/
abbrev D1 : DotDims S512x256 S512x256 S512x512 := dot_S512x256_S512x256_S512x512_1_1_0_0_n_n

theorem d1_lhs_row (j : S512x512.Idx) (c : D1.contr.Idx) : (D1.lhsIdx j c 0).val = (j 0).val := by
  unfold DotDims.lhsIdx
  rw [dif_neg (show ¬(0 : Fin S512x256.rank) ∈ D1.lhsBatch by decide), dif_pos (show (0 : Fin S512x256.rank) ∈ D1.lhsNonContracting by decide)]
  rfl
theorem d1_lhs_k (j : S512x512.Idx) (c : D1.contr.Idx) : (D1.lhsIdx j c 1).val = (c ⟨0, by decide⟩).val :=
  D1.lhsIdx_val_of_single rfl j c
theorem d1_rhs_row (j : S512x512.Idx) (c : D1.contr.Idx) : (D1.rhsIdx j c 0).val = (j 1).val := by
  unfold DotDims.rhsIdx
  rw [dif_neg (show ¬(0 : Fin S512x256.rank) ∈ D1.rhsBatch by decide), dif_pos (show (0 : Fin S512x256.rank) ∈ D1.rhsNonContracting by decide)]
  rfl
theorem d1_rhs_k (j : S512x512.Idx) (c : D1.contr.Idx) : (D1.rhsIdx j c 1).val = (c ⟨0, by decide⟩).val :=
  D1.rhsIdx_val_of_single rfl j c

/-- Into a zero accumulator the product at (p, q) is the inner product of row p of the left with row q of the right. -/
theorem matmul1_at {φ₁ φ₂ : FTy} (prec : Option ContractPrecision) (l : FVec Ideal S512x256 φ₁) (r : FVec Ideal S512x256 φ₂)
    (p q : Fin 512) :
    FloatOps.matmul D1 prec l r (constant S512x512 .f32 0x00000000#32) (ix2 p q) = ∑ k : Fin 256, l (ix2 p k) * r (ix2 q k) := by
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p q) ((contrEquiv1 D1 256 rfl rfl).symm k) = ix2 p k := funext fun a => Fin.ext (by
    match a with
    | ⟨0, _⟩ => exact d1_lhs_row _ _
    | ⟨1, _⟩ => exact (d1_lhs_k _ _).trans hk)
  have er : D1.rhsIdx (ix2 p q) ((contrEquiv1 D1 256 rfl rfl).symm k) = ix2 q k := funext fun a => Fin.ext (by
    match a with
    | ⟨0, _⟩ => exact d1_rhs_row _ _
    | ⟨1, _⟩ => exact (d1_rhs_k _ _).trans hk)
  rw [el, er]

/-- Nodes × hyperedges times nodes × features, contracted on the node axis of both. -/
abbrev D2 : DotDims S512x512 S512x256 S512x256 := dot_S512x512_S512x256_S512x256_0_0_1_1_n_n

theorem d2_lhs_col (j : S512x256.Idx) (c : D2.contr.Idx) : (D2.lhsIdx j c 1).val = (j 0).val := by
  unfold DotDims.lhsIdx
  rw [dif_neg (show ¬(1 : Fin S512x512.rank) ∈ D2.lhsBatch by decide), dif_pos (show (1 : Fin S512x512.rank) ∈ D2.lhsNonContracting by decide)]
  rfl
theorem d2_lhs_k (j : S512x256.Idx) (c : D2.contr.Idx) : (D2.lhsIdx j c 0).val = (c ⟨0, by decide⟩).val :=
  D2.lhsIdx_val_of_single rfl j c
theorem d2_rhs_col (j : S512x256.Idx) (c : D2.contr.Idx) : (D2.rhsIdx j c 1).val = (j 1).val := by
  unfold DotDims.rhsIdx
  rw [dif_neg (show ¬(1 : Fin S512x256.rank) ∈ D2.rhsBatch by decide), dif_pos (show (1 : Fin S512x256.rank) ∈ D2.rhsNonContracting by decide)]
  rfl
theorem d2_rhs_k (j : S512x256.Idx) (c : D2.contr.Idx) : (D2.rhsIdx j c 0).val = (c ⟨0, by decide⟩).val :=
  D2.rhsIdx_val_of_single rfl j c

/-- Into a zero accumulator the product at (q, d) is the sum over the nodes p of the left at (p, q) times the right at
    (p, d). -/
theorem matmul2_at {φ₁ φ₂ : FTy} (prec : Option ContractPrecision) (l : FVec Ideal S512x512 φ₁) (r : FVec Ideal S512x256 φ₂)
    (q : Fin 512) (d : Fin 256) :
    FloatOps.matmul D2 prec l r (constant S512x256 .f32 0x00000000#32) (ix2 q d) = ∑ p : Fin 512, l (ix2 p q) * r (ix2 p d) := by
  rw [Ideal.matmul_constant_zero_apply, ← Equiv.sum_comp (contrEquiv1 D2 512 rfl rfl).symm]
  refine Finset.sum_congr rfl fun k _ => ?_
  have hk := contrEquiv1_symm_val D2 512 rfl rfl k
  have el : D2.lhsIdx (ix2 q d) ((contrEquiv1 D2 512 rfl rfl).symm k) = ix2 k q := funext fun a => Fin.ext (by
    match a with
    | ⟨0, _⟩ => exact (d2_lhs_k _ _).trans hk
    | ⟨1, _⟩ => exact d2_lhs_col _ _)
  have er : D2.rhsIdx (ix2 q d) ((contrEquiv1 D2 512 rfl rfl).symm k) = ix2 k d := funext fun a => Fin.ext (by
    match a with
    | ⟨0, _⟩ => exact (d2_rhs_k _ _).trans hk
    | ⟨1, _⟩ => exact d2_rhs_col _ _)
  rw [el, er]

/-! ## The stored values at an index -/

/-- The hyperedge queries' block with its unit axis dropped. -/
theorem pay6_at (x5 : Vec Ideal S1x512x256 .f32) (q : Fin 512) (k : Fin 256) :
    k1_pay6 (F := Ideal) x5 (ix2 q k) = x5 (ix3 (0 : Fin 1) q k) := by
  unfold k1_pay6
  exact shapeCast_1ab_ab_apply x5 _ q k

/-- The incidence tile: 1 where the squared distance of node row p and hyperedge row q is below 529, else 0. -/
theorem pay7_at (x3 x5 : Vec Ideal S1x512x256 .f32) (p q : Fin 512) :
    k1_pay7 (F := Ideal) x3 x5 (ix2 p q)
      = if ((∑ k : Fin 256, x3 (ix3 (0 : Fin 1) p k) * x3 (ix3 (0 : Fin 1) p k))
              + (∑ k : Fin 256, x5 (ix3 (0 : Fin 1) q k) * x5 (ix3 (0 : Fin 1) q k)))
            - Cert.Hyper.c2 * (∑ k : Fin 256, x3 (ix3 (0 : Fin 1) p k) * x5 (ix3 (0 : Fin 1) q k)) < Cert.Hyper.c529
        then (1 : EReal) else 0 := by
  unfold k1_pay7
  refine (Cert.HyperLib.sitofp_extui_olt_ereal _ _).trans ?_
  refine if_congr (Iff.of_eq (congrArg (fun x : EReal => x < Cert.Hyper.c529) ?_)) rfl rfl
  refine congrArg₂ (fun x y : EReal => x - y) (congrArg₂ (fun x y : EReal => x + y) ?_ ?_)
    (congrArg (fun y : EReal => Cert.Hyper.c2 * y) ?_)
  · refine (broadcastTo_a1_ab_apply _ _ p q).trans ?_
    refine (shapeCast_a_a1_apply _ _ p (0 : Fin 1)).trans ?_
    refine (lanesum_at _ _ _ _ p).trans (Finset.sum_congr rfl fun k _ => ?_)
    exact congrArg₂ (fun x y : EReal => x * y) (shapeCast_1ab_ab_apply x3 _ p k) (shapeCast_1ab_ab_apply x3 _ p k)
  · refine (broadcastTo_1b_ab_apply _ _ p q).trans ?_
    refine (transpose_ix2_apply _ _ (0 : Fin 1) q).trans ?_
    refine (shapeCast_a_a1_apply _ _ q (0 : Fin 1)).trans ?_
    refine (lanesum_at _ _ _ _ q).trans (Finset.sum_congr rfl fun k _ => ?_)
    exact congrArg₂ (fun x y : EReal => x * y) (pay6_at x5 q k) (pay6_at x5 q k)
  · refine (matmul1_at (some .fp32) _ _ p q).trans (Finset.sum_congr rfl fun k _ => ?_)
    exact congrArg₂ (fun x y : EReal => x * y) (shapeCast_1ab_ab_apply x3 _ p k) (pay6_at x5 q k)

/-- The tile in the narrower format is the same function. -/
theorem pay8_at (x3 x5 : Vec Ideal S1x512x256 .f32) (p q : Fin 512) :
    k1_pay8 (F := Ideal) x3 x5 (ix2 p q) = k1_pay7 (F := Ideal) x3 x5 (ix2 p q) := by
  unfold k1_pay8
  rfl

/-- The stored tile, with its leading unit axis. -/
theorem pay9_at (x3 x5 : Vec Ideal S1x512x256 .f32) (z : Fin 1) (p q : Fin 512) :
    k1_pay9 (F := Ideal) x3 x5 (ix3 z p q) = k1_pay7 (F := Ideal) x3 x5 (ix2 p q) := by
  unfold k1_pay9
  exact (shapeCast_ab_1ab_apply _ _ z p q).trans (pay8_at x3 x5 p q)

/-- The tile's product with a block of projected node features, contracted over the nodes. -/
theorem pay10_at (x3 x5 x29 : Vec Ideal S1x512x256 .f32) (q : Fin 512) (d : Fin 256) :
    k1_pay10 (F := Ideal) x3 x5 x29 (ix2 q d)
      = ∑ p : Fin 512, k1_pay7 (F := Ideal) x3 x5 (ix2 p q) * x29 (ix3 (0 : Fin 1) p d) := by
  unfold k1_pay10
  refine (matmul2_at none _ _ q d).trans (Finset.sum_congr rfl fun p _ => ?_)
  exact congrArg₂ (fun x y : EReal => x * y) (pay8_at x3 x5 p q) (shapeCast_1ab_ab_apply x29 _ p d)

/-- The running feature sum after a point: what it held plus the point's product. -/
theorem pay1_at (v32 : FVec Ideal S512x256 .f32) (v33 : Vec Ideal S512x256 .f32) (q : Fin 512) (d : Fin 256) :
    k1_pay1 (F := Ideal) v32 v33 (ix2 q d) = v33 (ix2 q d) + v32 (ix2 q d) := by
  unfold k1_pay1
  exact congrFun (shapeCast_self _ _) (ix2 q d)

/-- The running feature sum starts from 0. -/
theorem pay4_at (q : Fin 512) (d : Fin 256) : k1_pay4 (F := Ideal) (ix2 q d) = 0 := by
  unfold k1_pay4
  exact (congrFun (shapeCast_self _ _) (ix2 q d)).trans Ideal.ofBits_zero_f32

/-- The running count starts from 0. -/
theorem pay5_at (z : Fin 1) (q : Fin 512) : k1_pay5 (F := Ideal) (ix2 z q) = 0 := by
  unfold k1_pay5
  exact (congrFun (shapeCast_self _ _) (ix2 z q)).trans Ideal.ofBits_zero_f32

/-- The running count after a point: what it held plus the tile's column sum. -/
theorem pay2_at (v24 : FVec Ideal S512x512 .f32) (v38 : Vec Ideal S1x512 .f32) (z : Fin 1) (q : Fin 512) :
    k1_pay2 (F := Ideal) v24 v38 (ix2 z q) = v38 (ix2 z q) + ∑ p : Fin 512, v24 (ix2 p q) := by
  unfold k1_pay2
  refine (congrFun (shapeCast_self _ _) (ix2 z q)).trans ?_
  refine congrArg (fun y : EReal => v38 (ix2 z q) + y) ?_
  refine (shapeCast_a_1a_apply _ _ z q).trans ?_
  exact colsum_at _ _ _ _ q

/-- The finished hyperedge feature: the running sum times the guarded reciprocal of the running count, plus the query. -/
theorem pay3_at (v6 : FVec Ideal S512x256 .f32) (v49 : Vec Ideal S1x512 .f32) (v59 : Vec Ideal S512x256 .f32)
    (z : Fin 1) (q : Fin 512) (d : Fin 256) :
    k1_pay3 (F := Ideal) v6 v49 v59 (ix3 z q d)
      = v59 (ix2 q d) * Cert.Hyper.norm (v49 (ix2 (0 : Fin 1) q)) + v6 (ix2 q d) := by
  unfold k1_pay3
  refine (shapeCast_ab_1ab_apply _ _ z q d).trans ?_
  refine congrArg (fun y : EReal => v59 (ix2 q d) * y + v6 (ix2 q d)) ?_
  refine (broadcastTo_a1_ab_apply _ _ q d).trans ?_
  refine (Cert.HyperLib.select_ogt_norm _).trans ?_
  exact congrArg Cert.Hyper.norm (transpose_ix2_apply v49 _ q (0 : Fin 1))

end Cert.KernelIdeal.Val1

end
-- ==== Proof.KI.Val1Hg.lean ====
/-
  The second region's first output over the extended reals: the array it leaves in the incidence window is the incidence,
  hg b v e = 1 when the squared distance of node v and hyperedge e of batch b is below 529, else 0. A grid point (batch b,
  hyperedge tile, node tile) writes back the 512 × 512 block of its node rows against its hyperedge rows, each entry the
  stored tile's value of the point's two query blocks; the 512 points' blocks tile the array.
-/
import proofs.«155549_j32615981646424_2_alg».proof.Proof.KI.Reg1Defs
import proofs.«155549_j32615981646424_2_alg».proof.Proof.KI.Sched1
import proofs.«155549_j32615981646424_2_alg».proof.Proof.KI.Val1Pay
import proofs.«155549_j32615981646424_2_alg».proof.Proof.Spec
import Idealize.ShloMosaic.Lib.Pipeline.Value
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The incidence as one function of the arrays the region finds. -/
def Ghg (c : Dev nD) : S8x4096x4096.Idx → Ideal .bf16 := fun i =>
  Cert.Hyper.mask (fun b n k => V c main_arg1 (ix3 b n k)) (fun b n k => V c main_arg0 (ix3 b n k)) (i 0) (i 1) (i 2)

/-- What point t writes back into the incidence window is block t of the incidence. -/
theorem flushed_hg (c : Dev nD) (t : Fin cfg1.N) :
    (Reg1.dat (F := Ideal) V c).flushed 4 t = ((cfg1.win 4).blk t).view.read (Elt Ideal) (Ghg V c) := by
  show (cfg1.win 4).cut (grid1.coords t) ((Reg1.dat (F := Ideal) V c).after 4 t) = _
  rw [Reg1.after4]
  unfold Reg1.hgPay
  obtain ⟨f0, f1, f2, g0, g1, g2, -, -, -, -, -, -, h0, h1, h2⟩ := Sched1.idx_facts t
  funext j
  obtain ⟨z, p, q, rfl⟩ : ∃ (z : Fin 1) (p q : Fin 512), j = ix3 z p q := ⟨j 0, j 1, j 2, eq_ix3 j⟩
  refine (pay9_at _ _ z p q).trans ?_
  refine (pay7_at _ _ p q).trans ?_
  have hz0 : z.val = 0 := by omega
  have ef : ∀ k : Fin 256, ((cfg1.win 0).blk t).view.emb (ix3 (0 : Fin 1) p k)
      = ix3 ((((cfg1.win 4).blk t).view.emb (ix3 z p q)) 0) ((((cfg1.win 4).blk t).view.emb (ix3 z p q)) 1) k := fun k => by
    funext a; apply Fin.ext
    match a with
    | ⟨0, _⟩ => show win1_0.index t (0 : Fin 3) * 1 + 1 * 0 = win1_4.index t (0 : Fin 3) * 1 + 1 * z.val; omega
    | ⟨1, _⟩ => show win1_0.index t (1 : Fin 3) * 512 + 1 * p.val = win1_4.index t (1 : Fin 3) * 512 + 1 * p.val; omega
    | ⟨2, _⟩ => show win1_0.index t (2 : Fin 3) * 256 + 1 * k.val = k.val; omega
  have eg : ∀ k : Fin 256, ((cfg1.win 1).blk t).view.emb (ix3 (0 : Fin 1) q k)
      = ix3 ((((cfg1.win 4).blk t).view.emb (ix3 z p q)) 0) ((((cfg1.win 4).blk t).view.emb (ix3 z p q)) 2) k := fun k => by
    funext a; apply Fin.ext
    match a with
    | ⟨0, _⟩ => show win1_1.index t (0 : Fin 3) * 1 + 1 * 0 = win1_4.index t (0 : Fin 3) * 1 + 1 * z.val; omega
    | ⟨1, _⟩ => show win1_1.index t (1 : Fin 3) * 512 + 1 * q.val = win1_4.index t (2 : Fin 3) * 512 + 1 * q.val; omega
    | ⟨2, _⟩ => show win1_1.index t (2 : Fin 3) * 256 + 1 * k.val = k.val; omega
  have hf : ∀ k : Fin 256, Reg1.iblk V c 0 t (ix3 (0 : Fin 1) p k)
      = V c main_arg1 (ix3 ((((cfg1.win 4).blk t).view.emb (ix3 z p q)) 0) ((((cfg1.win 4).blk t).view.emb (ix3 z p q)) 1) k) := fun k => by
    show V c main_arg1 (((cfg1.win 0).blk t).view.emb (ix3 (0 : Fin 1) p k)) = _
    exact congrArg (V c main_arg1) (ef k)
  have hg : ∀ k : Fin 256, Reg1.iblk V c 1 t (ix3 (0 : Fin 1) q k)
      = V c main_arg0 (ix3 ((((cfg1.win 4).blk t).view.emb (ix3 z p q)) 0) ((((cfg1.win 4).blk t).view.emb (ix3 z p q)) 2) k) := fun k => by
    show V c main_arg0 (((cfg1.win 1).blk t).view.emb (ix3 (0 : Fin 1) q k)) = _
    exact congrArg (V c main_arg0) (eg k)
  unfold Ghg Cert.Hyper.mask Cert.Hyper.sqd
  refine if_congr (Iff.of_eq (congrArg (fun x : EReal => x < Cert.Hyper.c529) ?_)) rfl rfl
  exact congrArg₂ (fun x y : EReal => x - y)
    (congrArg₂ (fun x y : EReal => x + y)
      (Finset.sum_congr rfl fun k _ => congrArg₂ (fun x y : EReal => x * y) (hf k) (hf k))
      (Finset.sum_congr rfl fun k _ => congrArg₂ (fun x y : EReal => x * y) (hg k) (hg k)))
    (congrArg (fun y : EReal => Cert.Hyper.c2 * y)
      (Finset.sum_congr rfl fun k _ => congrArg₂ (fun x y : EReal => x * y) (hf k) (hg k)))

/-- The incidence array after the region. -/
theorem final_hg_fun (c : Dev nD) : (Reg1.dat (F := Ideal) V c).arrAt 4 cfg1.N = Ghg V c :=
  (Reg1.dat (F := Ideal) V c).arrAt_eq_of_cover 4 (Ghg V c) (fun t _ => flushed_hg V c t) Sched1.cover4

/-- The same, read at an index. -/
theorem final_hg (c : Dev nD) (b : Fin 8) (v e : Fin 4096) :
    (Reg1.dat (F := Ideal) V c).arrAt 4 cfg1.N (ix3 b v e)
      = Cert.Hyper.mask (fun b n k => V c main_arg1 (ix3 b n k)) (fun b n k => V c main_arg0 (ix3 b n k)) b v e := by
  rw [final_hg_fun]; rfl

end Cert.KernelIdeal.Val1

end
-- ==== Proof.KI.Val1Acc.lean ====
/-
  The two running sums of the hyperedge-aggregation region over the extended reals, in closed form.

  Within a sweep of the eight node tiles (points 8q … 8q + 7) the weighted feature sum restarts from the zero fill at the
  first point and at every point the block's contribution is added to what the point before left; so after the last
  point of the sweep it holds zero plus the eight contributions, that is their sum — the extended reals are an additive
  commutative monoid, which is all this uses. The column counts likewise.
-/
import proofs.«155549_j32615981646424_2_alg».proof.Proof.KI.Reg1Defs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1E

open Cert.KernelIdeal Cert.KernelIdeal.Gen Cert.KernelIdeal.Reg1
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## One step, at an index -/

/-- The zero fill of the weighted sum is zero everywhere. -/
theorem accZero_apply (i : S512x256.Idx) : k1_pay4 (F := Ideal) i = 0 := by
  show shapeCast S512x256 (broadcast S512x256 (Scalar.ofBits (F := Ideal) .f32 0x00000000#32)) shapeCasts_S512x256_S512x256 i = 0
  rw [shapeCast_self]; exact Ideal.ofBits_zero_f32

/-- The zero fill of the column counts is zero everywhere. -/
theorem degZero_apply (i : S1x512.Idx) : k1_pay5 (F := Ideal) i = 0 := by
  show shapeCast S1x512 (broadcast S1x512 (Scalar.ofBits (F := Ideal) .f32 0x00000000#32)) shapeCasts_S1x512_S1x512 i = 0
  rw [shapeCast_self]; exact Ideal.ofBits_zero_f32

/-- One step of the weighted sum adds the block's contribution, entry by entry. -/
theorem accStep_apply (x0 x1 x2 : Vec Ideal S1x512x256 .f32) (a : Vec Ideal S512x256 .f32) (i : S512x256.Idx) :
    accStep (F := Ideal) x0 x1 x2 a i = a i + k1_pay10 (F := Ideal) x0 x1 x2 i := by
  show shapeCast S512x256 (addf (F := Ideal) (φ := .f32) a (k1_pay10 (F := Ideal) x0 x1 x2)) shapeCasts_S512x256_S512x256 i = _
  rw [shapeCast_self]; rfl

/-- The block's column sums, as the body forms them: the incidence block summed over its rows, as a one-row array. -/
def colS (x0 x1 : Vec Ideal S1x512x256 .f32) : FVec Ideal S1x512 .f32 :=
  shapeCast S1x512 (multiReduction .add [0] S512 (k1_pay7 (F := Ideal) x0 x1) 0x00000000#32 reduces_S512x512_S512 (.inl rfl) rfl) shapeCasts_S512_S1x512

/-- One step of the column counts adds the block's column sums, entry by entry. -/
theorem degStep_apply (x0 x1 : Vec Ideal S1x512x256 .f32) (d : Vec Ideal S1x512 .f32) (i : S1x512.Idx) :
    degStep (F := Ideal) x0 x1 d i = d i + colS x0 x1 i := by
  show shapeCast S1x512 (addf (F := Ideal) (φ := .f32) d (colS x0 x1)) shapeCasts_S1x512_S1x512 i = _
  rw [shapeCast_self]; rfl

/-! ## The sweep's fold -/

/-- Point `n`'s contribution to the weighted sum (zero past the grid, where it is never read). -/
def Macc (c : Dev nD) (n : ℕ) (i : S512x256.Idx) : Ideal .f32 :=
  if h : n < cfg1.N then k1_pay10 (F := Ideal) (iblk V c 0 ⟨n, h⟩) (iblk V c 1 ⟨n, h⟩) (iblk V c 2 ⟨n, h⟩) i else 0

/-- Point `n`'s contribution to the column counts. -/
def Mdeg (c : Dev nD) (n : ℕ) (i : S1x512.Idx) : Ideal .f32 :=
  if h : n < cfg1.N then colS (iblk V c 0 ⟨n, h⟩) (iblk V c 1 ⟨n, h⟩) i else 0

/-- The weighted sum's restart value and step at point `n`. -/
def aAcc (c : Dev nD) (n : ℕ) (h : n < cfg1.N) : S512x256.Idx → Ideal .f32 :=
  accStep (F := Ideal) (iblk V c 0 ⟨n, h⟩) (iblk V c 1 ⟨n, h⟩) (iblk V c 2 ⟨n, h⟩) (k1_pay4 (F := Ideal))
def gAcc (c : Dev nD) (n : ℕ) (h : n < cfg1.N) (a : S512x256.Idx → Ideal .f32) : S512x256.Idx → Ideal .f32 :=
  accStep (F := Ideal) (iblk V c 0 ⟨n, h⟩) (iblk V c 1 ⟨n, h⟩) (iblk V c 2 ⟨n, h⟩) a
/-- The column counts' restart value and step at point `n`. -/
def aDeg (c : Dev nD) (n : ℕ) (h : n < cfg1.N) : S1x512.Idx → Ideal .f32 :=
  degStep (F := Ideal) (iblk V c 0 ⟨n, h⟩) (iblk V c 1 ⟨n, h⟩) (k1_pay5 (F := Ideal))
def gDeg (c : Dev nD) (n : ℕ) (h : n < cfg1.N) (d : S1x512.Idx → Ideal .f32) : S1x512.Idx → Ideal .f32 :=
  degStep (F := Ideal) (iblk V c 0 ⟨n, h⟩) (iblk V c 1 ⟨n, h⟩) d

/-- After the last node tile of a sweep the weighted sum is the sum of the sweep's eight contributions. -/
theorem acc_last (c : Dev nD) (t : Fin cfg1.N) (h7 : t.val % 8 = 7) (i : S512x256.Idx) :
    (scrAt V c t.val t.isLt).1 i = ∑ s ∈ Finset.range 8, Macc V c (8 * (t.val / 8) + s) i := by
  have h' : 8 * (t.val / 8) + t.val % 8 < cfg1.N := by rw [Nat.div_add_mod]; exact t.isLt
  have e1 := Pipeline.eq_accAt_of_mod (N := cfg1.N) (fun n h => (scrAt V c n h).1) 8 (aAcc V c) (gAcc V c)
    (fun n h e => congrArg Prod.fst (scrAt_first V c ⟨n, h⟩ e))
    (fun n h e => congrArg Prod.fst (scrAt_next V c ⟨n + 1, h⟩ e)) (by decide) t.val t.isLt h'
  have e2 := Pipeline.accAt_add_apply (aAcc V c) (gAcc V c) (fun _ => 0) (Macc V c) (8 * (t.val / 8)) 7
    (fun h i => by
      show accStep (F := Ideal) _ _ _ (k1_pay4 (F := Ideal)) i = 0 + Macc V c (8 * (t.val / 8)) i
      rw [accStep_apply, accZero_apply]; unfold Macc; rw [dif_pos h])
    (fun n h a i _ _ => by
      show accStep (F := Ideal) _ _ _ a i = a i + Macc V c n i
      rw [accStep_apply]; unfold Macc; rw [dif_pos h])
    (t.val % 8) (by omega) h' i
  refine (congrFun e1 i).trans (e2.trans ?_)
  rw [h7]; exact zero_add _

/-- After the last node tile of a sweep the column counts are the sum of the sweep's eight blocks' column sums. -/
theorem deg_last (c : Dev nD) (t : Fin cfg1.N) (h7 : t.val % 8 = 7) (i : S1x512.Idx) :
    (scrAt V c t.val t.isLt).2 i = ∑ s ∈ Finset.range 8, Mdeg V c (8 * (t.val / 8) + s) i := by
  have h' : 8 * (t.val / 8) + t.val % 8 < cfg1.N := by rw [Nat.div_add_mod]; exact t.isLt
  have e1 := Pipeline.eq_accAt_of_mod (N := cfg1.N) (fun n h => (scrAt V c n h).2) 8 (aDeg V c) (gDeg V c)
    (fun n h e => congrArg Prod.snd (scrAt_first V c ⟨n, h⟩ e))
    (fun n h e => congrArg Prod.snd (scrAt_next V c ⟨n + 1, h⟩ e)) (by decide) t.val t.isLt h'
  have e2 := Pipeline.accAt_add_apply (aDeg V c) (gDeg V c) (fun _ => 0) (Mdeg V c) (8 * (t.val / 8)) 7
    (fun h i => by
      show degStep (F := Ideal) _ _ (k1_pay5 (F := Ideal)) i = 0 + Mdeg V c (8 * (t.val / 8)) i
      rw [degStep_apply, degZero_apply]; unfold Mdeg; rw [dif_pos h])
    (fun n h d i _ _ => by
      show degStep (F := Ideal) _ _ d i = d i + Mdeg V c n i
      rw [degStep_apply]; unfold Mdeg; rw [dif_pos h])
    (t.val % 8) (by omega) h' i
  refine (congrFun e1 i).trans (e2.trans ?_)
  rw [h7]; exact zero_add _

end Cert.KernelIdeal.Val1E

end
-- ==== Proof.LibTileSum.lean ====
/-
  A finite sum over `Fin (T * B)` regrouped as `T` tiles of `B` consecutive indices, in any additive commutative monoid
  (in particular the extended reals, where addition is commutative and associative although it is not cancellative):
  only the order and grouping of the terms change, so no finiteness of the terms is needed.
-/
import Mathlib.Algebra.BigOperators.Fin
import Mathlib.Logic.Equiv.Fin.Basic
import Mathlib.Algebra.BigOperators.Group.Finset.Basic

open scoped BigOperators

namespace Cert.HyperLib

/-- The sum over `Fin (T * B)` is the sum over the tiles of the sums inside each tile; tile `t`, offset `r` is the index
    `r + B * t` (`finProdFinEquiv`). -/
theorem sum_tiles (T B : ℕ) {M : Type} [AddCommMonoid M] (f : Fin (T * B) → M) :
    ∑ n : Fin (T * B), f n = ∑ t : Fin T, ∑ r : Fin B, f (finProdFinEquiv (t, r)) := by
  rw [← Equiv.sum_comp finProdFinEquiv f, Fintype.sum_prod_type]

/-- The index of tile `t`, offset `r`. -/
theorem tile_index_val (T B : ℕ) (t : Fin T) (r : Fin B) : (finProdFinEquiv (t, r) : Fin (T * B)).val = r.val + B * t.val := rfl

/-- 4096 indices as 8 tiles of 512: index `512 · t + r`. -/
theorem sum_fin4096_tiles {M : Type} [AddCommMonoid M] (f : Fin 4096 → M) :
    ∑ n : Fin 4096, f n
      = ∑ t : Fin 8, ∑ r : Fin 512, f ⟨t.val * 512 + r.val, by have := t.isLt; have := r.isLt; omega⟩ := by
  have h := sum_tiles 8 512 (M := M) f
  refine h.trans (Finset.sum_congr rfl fun t _ => Finset.sum_congr rfl fun r _ => congrArg f (Fin.ext ?_))
  show r.val + 512 * t.val = t.val * 512 + r.val
  omega

/-- The tiles taken one after the other: the sum over the first `n + 1` tiles is the sum over the first `n` plus tile `n`
    (the step of an accumulator that adds one tile's partial sum per grid point). -/
theorem sum_tiles_succ {M : Type} [AddCommMonoid M] (g : ℕ → M) (n : ℕ) :
    ∑ t ∈ Finset.range (n + 1), g t = (∑ t ∈ Finset.range n, g t) + g n := Finset.sum_range_succ g n

/-- All eight tiles, as a sum over a range (what the accumulator holds after the last point of a sweep). -/
theorem sum_fin8_eq_range {M : Type} [AddCommMonoid M] (g : ℕ → M) : ∑ t : Fin 8, g t.val = ∑ t ∈ Finset.range 8, g t :=
  Fin.sum_univ_eq_sum_range g 8

end Cert.HyperLib
-- ==== Proof.KI.Val1.lean ====
/-
  The hyperedge features the second region leaves, over the extended reals:
    E b e d = (∑ᵥ mask b v e · X b v d) · norm (∑ᵥ mask b v e) + g b e d,
  with mask the incidence of node v in hyperedge e, X the projected node features, g the hyperedge queries.

  A block of an array at a grid point is the array at block index × 512 + the coordinate inside the block. The block of
  hyperedge features for (batch b, hyperedge tile e) is written back once, at the last node tile of its sweep; what is
  stored there is the weighted running sum times the guarded reciprocal of the running count, plus the query. After the
  sweep the running sums hold the sums of the eight node tiles' contributions, and a sum over the 4096 nodes is the sum
  over the 8 tiles of the sums over the 512 nodes of a tile (addition on the extended reals is commutative and
  associative: nothing else is used). The blocks written back tile the array.
-/
import proofs.«155549_j32615981646424_2_alg».proof.Proof.KI.Val1Acc
import proofs.«155549_j32615981646424_2_alg».proof.Proof.KI.Val1Pay
import proofs.«155549_j32615981646424_2_alg».proof.Proof.KI.Sched1
import proofs.«155549_j32615981646424_2_alg».proof.Proof.LibTileSum
import proofs.«155549_j32615981646424_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1E

open Cert.KernelIdeal Cert.KernelIdeal.Gen Cert.KernelIdeal.Reg1
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

open Cert.KernelIdeal.Val1

/-- The node queries, the hyperedge queries and the projected node features as the region finds them, curried. -/
abbrev fq (c : Dev nD) : Cert.Hyper.A3 256 := fun b n k => V c main_arg1 (ix3 b n k)
abbrev gq (c : Dev nD) : Cert.Hyper.A3 256 := fun b n k => V c main_arg0 (ix3 b n k)
abbrev xq (c : Dev nD) : Cert.Hyper.A3 256 := fun b n k => V c main_v0 (ix3 b n k)

/-! ## The input blocks at an index -/

/-- The node queries' tile at point `t`: batch t / 64, rows (t mod 8) · 512 + p. -/
theorem blk0_at (c : Dev nD) (t : Fin cfg1.N) (z : Fin 1) (p : Fin 512) (k : Fin 256) (bb : Fin 8) (vv : Fin 4096)
    (hb : bb.val = t.val / 64) (hv : vv.val = t.val % 8 * 512 + p.val) :
    iblk V c 0 t (ix3 z p k) = V c main_arg1 (ix3 bb vv k) := by
  obtain ⟨f0, f1, f2, -⟩ := Sched1.idx_facts t
  have hz : z.val = 0 := by omega
  have e : ((cfg1.win 0).blk t).view.emb (ix3 z p k) = ix3 bb vv k := by
    funext a; apply Fin.ext
    match a with
    | ⟨0, _⟩ => show win1_0.index t (0 : Fin 3) * 1 + 1 * z.val = bb.val; omega
    | ⟨1, _⟩ => show win1_0.index t (1 : Fin 3) * 512 + 1 * p.val = vv.val; omega
    | ⟨2, _⟩ => show win1_0.index t (2 : Fin 3) * 256 + 1 * k.val = k.val; omega
  show V c main_arg1 (((cfg1.win 0).blk t).view.emb (ix3 z p k)) = _
  rw [e]

/-- The hyperedge queries' tile at point `t`: batch t / 64, rows ((t / 8) mod 8) · 512 + q. -/
theorem blk1_at (c : Dev nD) (t : Fin cfg1.N) (z : Fin 1) (q : Fin 512) (k : Fin 256) (bb : Fin 8) (ee : Fin 4096)
    (hb : bb.val = t.val / 64) (he : ee.val = t.val / 8 % 8 * 512 + q.val) :
    iblk V c 1 t (ix3 z q k) = V c main_arg0 (ix3 bb ee k) := by
  obtain ⟨-, -, -, f0, f1, f2, -⟩ := Sched1.idx_facts t
  have hz : z.val = 0 := by omega
  have e : ((cfg1.win 1).blk t).view.emb (ix3 z q k) = ix3 bb ee k := by
    funext a; apply Fin.ext
    match a with
    | ⟨0, _⟩ => show win1_1.index t (0 : Fin 3) * 1 + 1 * z.val = bb.val; omega
    | ⟨1, _⟩ => show win1_1.index t (1 : Fin 3) * 512 + 1 * q.val = ee.val; omega
    | ⟨2, _⟩ => show win1_1.index t (2 : Fin 3) * 256 + 1 * k.val = k.val; omega
  show V c main_arg0 (((cfg1.win 1).blk t).view.emb (ix3 z q k)) = _
  rw [e]

/-- The projected node features' tile at point `t`: batch t / 64, rows (t mod 8) · 512 + p. -/
theorem blk2_at (c : Dev nD) (t : Fin cfg1.N) (z : Fin 1) (p : Fin 512) (k : Fin 256) (bb : Fin 8) (vv : Fin 4096)
    (hb : bb.val = t.val / 64) (hv : vv.val = t.val % 8 * 512 + p.val) :
    iblk V c 2 t (ix3 z p k) = V c main_v0 (ix3 bb vv k) := by
  obtain ⟨-, -, -, -, -, -, f0, f1, f2, -⟩ := Sched1.idx_facts t
  have hz : z.val = 0 := by omega
  have e : ((cfg1.win 2).blk t).view.emb (ix3 z p k) = ix3 bb vv k := by
    funext a; apply Fin.ext
    match a with
    | ⟨0, _⟩ => show win1_2.index t (0 : Fin 3) * 1 + 1 * z.val = bb.val; omega
    | ⟨1, _⟩ => show win1_2.index t (1 : Fin 3) * 512 + 1 * p.val = vv.val; omega
    | ⟨2, _⟩ => show win1_2.index t (2 : Fin 3) * 256 + 1 * k.val = k.val; omega
  show V c main_v0 (((cfg1.win 2).blk t).view.emb (ix3 z p k)) = _
  rw [e]

/-! ## A point's incidence block is the incidence at its rows and columns -/

theorem mask_pt (c : Dev nD) (t : Fin cfg1.N) (p q : Fin 512) (bb : Fin 8) (vv ee : Fin 4096)
    (hb : bb.val = t.val / 64) (hv : vv.val = t.val % 8 * 512 + p.val) (he : ee.val = t.val / 8 % 8 * 512 + q.val) :
    k1_pay7 (F := Ideal) (iblk V c 0 t) (iblk V c 1 t) (ix2 p q) = Cert.Hyper.mask (fq V c) (gq V c) bb vv ee := by
  refine (pay7_at (iblk V c 0 t) (iblk V c 1 t) p q).trans ?_
  unfold Cert.Hyper.mask Cert.Hyper.sqd
  refine if_congr (Iff.of_eq (congrArg (fun x : EReal => x < Cert.Hyper.c529) ?_)) rfl rfl
  refine congrArg₂ (fun x y : EReal => x - y) (congrArg₂ (fun x y : EReal => x + y) ?_ ?_)
    (congrArg (fun y : EReal => Cert.Hyper.c2 * y) ?_)
  · exact Finset.sum_congr rfl fun k _ => congrArg₂ (fun x y : EReal => x * y)
      (blk0_at V c t (0 : Fin 1) p k bb vv hb hv) (blk0_at V c t (0 : Fin 1) p k bb vv hb hv)
  · exact Finset.sum_congr rfl fun k _ => congrArg₂ (fun x y : EReal => x * y)
      (blk1_at V c t (0 : Fin 1) q k bb ee hb he) (blk1_at V c t (0 : Fin 1) q k bb ee hb he)
  · exact Finset.sum_congr rfl fun k _ => congrArg₂ (fun x y : EReal => x * y)
      (blk0_at V c t (0 : Fin 1) p k bb vv hb hv) (blk1_at V c t (0 : Fin 1) q k bb ee hb he)

/-- The block's column sums at a column. -/
theorem colS_at (x0 x1 : Vec Ideal S1x512x256 .f32) (z : Fin 1) (q : Fin 512) :
    colS x0 x1 (ix2 z q) = ∑ p : Fin 512, k1_pay7 (F := Ideal) x0 x1 (ix2 p q) := by
  unfold colS
  exact (shapeCast_a_1a_apply _ _ z q).trans (colsum_at _ _ _ _ q)

/-! ## One node tile's contributions -/

/-- Node tile `s` of the sweep that ends at point `t` contributes, to the weighted sum at (q, d), the sum over its 512
    nodes of incidence times feature. -/
theorem Macc_at (c : Dev nD) (t : Fin cfg1.N) (s : Fin 8) (q : Fin 512) (d : Fin 256) (bb : Fin 8) (ee : Fin 4096)
    (hb : bb.val = t.val / 64) (he : ee.val = t.val / 8 % 8 * 512 + q.val) :
    Macc V c (8 * (t.val / 8) + s.val) (ix2 q d)
      = ∑ p : Fin 512, Cert.Hyper.mask (fq V c) (gq V c) bb ⟨s.val * 512 + p.val, by have := s.isLt; have := p.isLt; omega⟩ ee
          * xq V c bb ⟨s.val * 512 + p.val, by have := s.isLt; have := p.isLt; omega⟩ d := by
  have hN : cfg1.N = 512 := N_1
  have htl := t.isLt
  have hsl := s.isLt
  have hn : 8 * (t.val / 8) + s.val < cfg1.N := by omega
  unfold Macc; rw [dif_pos hn]
  refine (pay10_at (iblk V c 0 ⟨_, hn⟩) (iblk V c 1 ⟨_, hn⟩) (iblk V c 2 ⟨_, hn⟩) q d).trans (Finset.sum_congr rfl fun p _ => ?_)
  have hpl := p.isLt
  refine congrArg₂ (fun x y : EReal => x * y)
    (mask_pt V c ⟨_, hn⟩ p q bb ⟨s.val * 512 + p.val, by omega⟩ ee ?_ ?_ ?_)
    (blk2_at V c ⟨_, hn⟩ (0 : Fin 1) p d bb ⟨s.val * 512 + p.val, by omega⟩ ?_ ?_)
  all_goals (simp only []; omega)

/-- And to the column counts at column q, the sum over its 512 nodes of the incidence. -/
theorem Mdeg_at (c : Dev nD) (t : Fin cfg1.N) (s : Fin 8) (z : Fin 1) (q : Fin 512) (bb : Fin 8) (ee : Fin 4096)
    (hb : bb.val = t.val / 64) (he : ee.val = t.val / 8 % 8 * 512 + q.val) :
    Mdeg V c (8 * (t.val / 8) + s.val) (ix2 z q)
      = ∑ p : Fin 512, Cert.Hyper.mask (fq V c) (gq V c) bb ⟨s.val * 512 + p.val, by have := s.isLt; have := p.isLt; omega⟩ ee := by
  have hN : cfg1.N = 512 := N_1
  have htl := t.isLt
  have hsl := s.isLt
  have hn : 8 * (t.val / 8) + s.val < cfg1.N := by omega
  unfold Mdeg; rw [dif_pos hn]
  refine (colS_at (iblk V c 0 ⟨_, hn⟩) (iblk V c 1 ⟨_, hn⟩) z q).trans (Finset.sum_congr rfl fun p _ => ?_)
  have hpl := p.isLt
  refine mask_pt V c ⟨_, hn⟩ p q bb ⟨s.val * 512 + p.val, by omega⟩ ee ?_ ?_ ?_
  all_goals (simp only []; omega)

/-! ## The running sums after a sweep -/

/-- The weighted sum after the last node tile: the sum over all 4096 nodes. -/
theorem acc_sum (c : Dev nD) (t : Fin cfg1.N) (h7 : t.val % 8 = 7) (q : Fin 512) (d : Fin 256) (bb : Fin 8) (ee : Fin 4096)
    (hb : bb.val = t.val / 64) (he : ee.val = t.val / 8 % 8 * 512 + q.val) :
    (scrAt V c t.val t.isLt).1 (ix2 q d) = ∑ v : Fin 4096, Cert.Hyper.mask (fq V c) (gq V c) bb v ee * xq V c bb v d := by
  refine (acc_last V c t h7 (ix2 q d)).trans ?_
  refine (Cert.HyperLib.sum_fin8_eq_range (fun s => Macc V c (8 * (t.val / 8) + s) (ix2 q d))).symm.trans ?_
  refine Eq.trans ?_ (Cert.HyperLib.sum_fin4096_tiles (fun v => Cert.Hyper.mask (fq V c) (gq V c) bb v ee * xq V c bb v d)).symm
  exact Finset.sum_congr rfl fun s _ => Macc_at V c t s q d bb ee hb he

/-- The column counts after the last node tile: the sum over all 4096 nodes. -/
theorem deg_sum (c : Dev nD) (t : Fin cfg1.N) (h7 : t.val % 8 = 7) (z : Fin 1) (q : Fin 512) (bb : Fin 8) (ee : Fin 4096)
    (hb : bb.val = t.val / 64) (he : ee.val = t.val / 8 % 8 * 512 + q.val) :
    (scrAt V c t.val t.isLt).2 (ix2 z q) = ∑ v : Fin 4096, Cert.Hyper.mask (fq V c) (gq V c) bb v ee := by
  refine (deg_last V c t h7 (ix2 z q)).trans ?_
  refine (Cert.HyperLib.sum_fin8_eq_range (fun s => Mdeg V c (8 * (t.val / 8) + s) (ix2 z q))).symm.trans ?_
  refine Eq.trans ?_ (Cert.HyperLib.sum_fin4096_tiles (fun v => Cert.Hyper.mask (fq V c) (gq V c) bb v ee)).symm
  exact Finset.sum_congr rfl fun s _ => Mdeg_at V c t s z q bb ee hb he

/-! ## From the blocks to the array -/

/-- The hyperedge features as one function of the arrays the region finds. -/
def G (c : Dev nD) : S8x4096x256.Idx → Ideal .f32 := fun i =>
  Cert.Hyper.edgeAgg (Cert.Hyper.mask (fq V c) (gq V c)) (xq V c) (gq V c) (i 0) (i 1) (i 2)

/-- What a point that writes the block back writes is its block of `G`. -/
theorem flushed_eq (c : Dev nD) (t : Fin cfg1.N) (hf : (cfg1.win 3).flush t = true) :
    (Reg1.dat V c).flushed 3 t = ((cfg1.win 3).blk t).view.read (Elt Ideal) (G V c) := by
  have h7 : t.val % 8 = 7 := (flush1_3 t).mp hf
  obtain ⟨-, -, -, -, -, -, -, -, -, g0, g1, g2, -⟩ := Sched1.idx_facts t
  have hN : cfg1.N = 512 := N_1
  have htl := t.isLt
  show (cfg1.win 3).cut (grid1.coords t) ((Reg1.dat V c).after 3 t) = _
  rw [Reg1.after3]
  funext j
  obtain ⟨z, q, d, rfl⟩ : ∃ (z : Fin 1) (q : Fin 512) (d : Fin 256), j = ix3 z q d := ⟨j 0, j 1, j 2, eq_ix3 j⟩
  have hql := q.isLt
  have hz : z.val = 0 := by omega
  obtain ⟨bb, hb⟩ : ∃ bb : Fin 8, bb.val = t.val / 64 := ⟨⟨t.val / 64, by omega⟩, rfl⟩
  obtain ⟨ee, he⟩ : ∃ ee : Fin 4096, ee.val = t.val / 8 % 8 * 512 + q.val := ⟨⟨t.val / 8 % 8 * 512 + q.val, by omega⟩, rfl⟩
  have eidx : ((cfg1.win 3).blk t).view.emb (ix3 z q d) = ix3 bb ee d := by
    funext a; apply Fin.ext
    match a with
    | ⟨0, _⟩ => show win1_3.index t (0 : Fin 3) * 1 + 1 * z.val = bb.val; omega
    | ⟨1, _⟩ => show win1_3.index t (1 : Fin 3) * 512 + 1 * q.val = ee.val; omega
    | ⟨2, _⟩ => show win1_3.index t (2 : Fin 3) * 256 + 1 * d.val = d.val; omega
  show edgeOut (F := Ideal) (iblk V c 1 t) (scrAt V c t.val t.isLt).2 (scrAt V c t.val t.isLt).1 (ix3 z q d)
      = G V c (((cfg1.win 3).blk t).view.emb (ix3 z q d))
  rw [eidx]
  refine (pay3_at (k1_pay6 (F := Ideal) (iblk V c 1 t)) (scrAt V c t.val t.isLt).2 (scrAt V c t.val t.isLt).1 z q d).trans ?_
  show _ = Cert.Hyper.edgeAgg (Cert.Hyper.mask (fq V c) (gq V c)) (xq V c) (gq V c) bb ee d
  unfold Cert.Hyper.edgeAgg
  refine congrArg₂ (fun x y : EReal => x + y) (congrArg₂ (fun x y : EReal => x * y) ?_ (congrArg Cert.Hyper.norm ?_)) ?_
  · exact acc_sum V c t h7 q d bb ee hb he
  · exact deg_sum V c t h7 (0 : Fin 1) q bb ee hb he
  · exact (pay6_at (iblk V c 1 t) q d).trans (blk1_at V c t (0 : Fin 1) q d bb ee hb he)

/-- The array after the region. -/
theorem final (c : Dev nD) : (Reg1.dat V c).arrAt 3 cfg1.N = G V c :=
  (Reg1.dat V c).arrAt_eq_of_cover 3 (G V c) (fun t hf => flushed_eq V c t hf) Sched1.cover3

end Cert.KernelIdeal.Val1E

namespace Cert.KernelIdeal.Val1

open Cert.KernelIdeal Cert.KernelIdeal.Gen
open Idealize.ShloMosaic Idealize.ShloMosaic.TcCoe Idealize.ShloMosaic.ValueIdx Idealize.SL.Sem

/-- The hyperedge features the region leaves, at an index. -/
theorem final_E (V : (c : Dev nD) → (b : Ref sig .tc) → Buf (Elt Ideal) ((c : Thread nD τ).loc b)) (c : Dev nD)
    (b : Fin 8) (e : Fin 4096) (d : Fin 256) :
    (Reg1.dat (F := Ideal) V c).arrAt 3 cfg1.N (ix3 b e d)
      = Cert.Hyper.edgeAgg (Cert.Hyper.mask (fun b n k => V c main_arg1 (ix3 b n k)) (fun b n k => V c main_arg0 (ix3 b n k)))
          (fun b n k => V c main_v0 (ix3 b n k)) (fun b n k => V c main_arg0 (ix3 b n k)) b e d := by
  rw [Val1E.final]; rfl

end Cert.KernelIdeal.Val1

end
-- ==== Proof.KI.Val2Lib.lean ====
/-
  Index-by-index readings of the layout operations and the three matrix products the third stage's body uses, over
  the extended reals: a column [a] ↔ [a,1], a column broadcast along its rows, and each product into a zero
  accumulator as a plain sum over its contracted index.
-/
import proofs.«155549_j32615981646424_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal.Gen
open Idealize.ShloMosaic Idealize.ShloMosaic.TcCoe Idealize.ShloMosaic.ValueIdx Idealize.SL.Sem
open Idealize.ShloMosaic.Pipeline (Dat)
open scoped BigOperators

variable {α : Type}

/-! ## Columns -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Lane sums -/

/-- The sum along the lanes of a 512 × 512 block, at row `r`. -/
theorem rowsum512 (src : FVec Ideal S512x512 .f32) (hφ : FKind.Formats .f32) (hacc : (0x00000000#32 : BitVec (FTy.bits .f32)) = FKind.add.neutral .f32 hφ)
    (r : Fin 512) :
    multiReduction .add [1] S512 src 0x00000000#32 reduces_S512x512_S512_2 hφ hacc (ix1 r) = ∑ k : Fin 512, src (ix2 r k) := by
  refine (Ideal.multiReduction_add_single src 0x00000000#32 reduces_S512x512_S512_2 hφ hacc (ix1 r)).trans ?_
  refine Finset.sum_congr rfl fun k _ => congrArg src (funext fun a => ?_)
  match a with
  | ⟨0, _⟩ => rfl
  | ⟨1, _⟩ => rfl

/-- The sum along the lanes of a 512 × 256 block, at row `r`. -/
theorem rowsum256 (src : FVec Ideal S512x256 .f32) (hφ : FKind.Formats .f32) (hacc : (0x00000000#32 : BitVec (FTy.bits .f32)) = FKind.add.neutral .f32 hφ)
    (r : Fin 512) :
    multiReduction .add [1] S512 src 0x00000000#32 reduces_S512x256_S512 hφ hacc (ix1 r) = ∑ k : Fin 256, src (ix2 r k) := by
  refine (Ideal.multiReduction_add_single src 0x00000000#32 reduces_S512x256_S512 hφ hacc (ix1 r)).trans ?_
  refine Finset.sum_congr rfl fun k _ => congrArg src (funext fun a => ?_)
  match a with
  | ⟨0, _⟩ => rfl
  | ⟨1, _⟩ => rfl

/-! ## The three matrix products -/

/-- The product's dimension record. -/
abbrev DA : DotDims S512x512 S512x256 S512x256 := dot_S512x512_S512x256_S512x256_1_0_0_1_n_n

theorem DA_lhs_nc (j : S512x256.Idx) (q : DA.contr.Idx) : (DA.lhsIdx j q 0).val = (j 0).val := by
  unfold DotDims.lhsIdx
  rw [dif_neg (show ¬(0 : Fin S512x512.rank) ∈ DA.lhsBatch by decide), dif_pos (show (0 : Fin S512x512.rank) ∈ DA.lhsNonContracting by decide)]
  rfl
theorem DA_lhs_c (j : S512x256.Idx) (q : DA.contr.Idx) : (DA.lhsIdx j q 1).val = (q ⟨0, by decide⟩).val :=
  DA.lhsIdx_val_of_single rfl j q
theorem DA_rhs_nc (j : S512x256.Idx) (q : DA.contr.Idx) : (DA.rhsIdx j q 1).val = (j 1).val := by
  unfold DotDims.rhsIdx
  rw [dif_neg (show ¬(1 : Fin S512x256.rank) ∈ DA.rhsBatch by decide), dif_pos (show (1 : Fin S512x256.rank) ∈ DA.rhsNonContracting by decide)]
  rfl
theorem DA_rhs_c (j : S512x256.Idx) (q : DA.contr.Idx) : (DA.rhsIdx j q 0).val = (q ⟨0, by decide⟩).val :=
  DA.rhsIdx_val_of_single rfl j q

/-- Into a zero accumulator the product at (p, e) is the plain sum over the contracted index. -/
theorem DA_at {φ₁ φ₂ : FTy} (l : FVec Ideal S512x512 φ₁) (r : FVec Ideal S512x256 φ₂) (p : Fin 512) (e : Fin 256) :
    FloatOps.matmul DA none l r (constant S512x256 .f32 0x00000000#32) (ix2 p e) = ∑ k : Fin 512, l (ix2 p k) * r (ix2 k e) := by
  rw [Ideal.matmul_constant_zero_apply, ← Equiv.sum_comp (contrEquiv1 DA 512 rfl rfl).symm]
  refine Finset.sum_congr rfl fun k _ => ?_
  have hk := contrEquiv1_symm_val DA 512 rfl rfl k
  have el : DA.lhsIdx (ix2 p e) ((contrEquiv1 DA 512 rfl rfl).symm k) = ix2 p k := funext fun a => Fin.ext (by
    match a with
    | ⟨0, _⟩ => exact DA_lhs_nc _ _
    | ⟨1, _⟩ => exact (DA_lhs_c _ _).trans hk)
  have er : DA.rhsIdx (ix2 p e) ((contrEquiv1 DA 512 rfl rfl).symm k) = ix2 k e := funext fun a => Fin.ext (by
    match a with
    | ⟨1, _⟩ => exact DA_rhs_nc _ _
    | ⟨0, _⟩ => exact (DA_rhs_c _ _).trans hk)
  rw [el, er]

/-- The product's dimension record. -/
abbrev D1 : DotDims S512x256 S1024x256 S512x1024 := dot_S512x256_S1024x256_S512x1024_1_1_0_0_n_n

theorem D1_lhs_nc (j : S512x1024.Idx) (q : D1.contr.Idx) : (D1.lhsIdx j q 0).val = (j 0).val := by
  unfold DotDims.lhsIdx
  rw [dif_neg (show ¬(0 : Fin S512x256.rank) ∈ D1.lhsBatch by decide), dif_pos (show (0 : Fin S512x256.rank) ∈ D1.lhsNonContracting by decide)]
  rfl
theorem D1_lhs_c (j : S512x1024.Idx) (q : D1.contr.Idx) : (D1.lhsIdx j q 1).val = (q ⟨0, by decide⟩).val :=
  D1.lhsIdx_val_of_single rfl j q
theorem D1_rhs_nc (j : S512x1024.Idx) (q : D1.contr.Idx) : (D1.rhsIdx j q 0).val = (j 1).val := by
  unfold DotDims.rhsIdx
  rw [dif_neg (show ¬(0 : Fin S1024x256.rank) ∈ D1.rhsBatch by decide), dif_pos (show (0 : Fin S1024x256.rank) ∈ D1.rhsNonContracting by decide)]
  rfl
theorem D1_rhs_c (j : S512x1024.Idx) (q : D1.contr.Idx) : (D1.rhsIdx j q 1).val = (q ⟨0, by decide⟩).val :=
  D1.rhsIdx_val_of_single rfl j q

/-- Into a zero accumulator the product at (p, e) is the plain sum over the contracted index. -/
theorem D1_at {φ₁ φ₂ : FTy} (l : FVec Ideal S512x256 φ₁) (r : FVec Ideal S1024x256 φ₂) (p : Fin 512) (e : Fin 1024) :
    FloatOps.matmul D1 none l r (constant S512x1024 .f32 0x00000000#32) (ix2 p e) = ∑ k : Fin 256, l (ix2 p k) * r (ix2 e k) := by
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p e) ((contrEquiv1 D1 256 rfl rfl).symm k) = ix2 p k := funext fun a => Fin.ext (by
    match a with
    | ⟨0, _⟩ => exact D1_lhs_nc _ _
    | ⟨1, _⟩ => exact (D1_lhs_c _ _).trans hk)
  have er : D1.rhsIdx (ix2 p e) ((contrEquiv1 D1 256 rfl rfl).symm k) = ix2 e k := funext fun a => Fin.ext (by
    match a with
    | ⟨0, _⟩ => exact D1_rhs_nc _ _
    | ⟨1, _⟩ => exact (D1_rhs_c _ _).trans hk)
  rw [el, er]

/-- The product's dimension record. -/
abbrev D2 : DotDims S512x1024 S256x1024 S512x256 := dot_S512x1024_S256x1024_S512x256_1_1_0_0_n_n

theorem D2_lhs_nc (j : S512x256.Idx) (q : D2.contr.Idx) : (D2.lhsIdx j q 0).val = (j 0).val := by
  unfold DotDims.lhsIdx
  rw [dif_neg (show ¬(0 : Fin S512x1024.rank) ∈ D2.lhsBatch by decide), dif_pos (show (0 : Fin S512x1024.rank) ∈ D2.lhsNonContracting by decide)]
  rfl
theorem D2_lhs_c (j : S512x256.Idx) (q : D2.contr.Idx) : (D2.lhsIdx j q 1).val = (q ⟨0, by decide⟩).val :=
  D2.lhsIdx_val_of_single rfl j q
theorem D2_rhs_nc (j : S512x256.Idx) (q : D2.contr.Idx) : (D2.rhsIdx j q 0).val = (j 1).val := by
  unfold DotDims.rhsIdx
  rw [dif_neg (show ¬(0 : Fin S256x1024.rank) ∈ D2.rhsBatch by decide), dif_pos (show (0 : Fin S256x1024.rank) ∈ D2.rhsNonContracting by decide)]
  rfl
theorem D2_rhs_c (j : S512x256.Idx) (q : D2.contr.Idx) : (D2.rhsIdx j q 1).val = (q ⟨0, by decide⟩).val :=
  D2.rhsIdx_val_of_single rfl j q

/-- Into a zero accumulator the product at (p, e) is the plain sum over the contracted index. -/
theorem D2_at {φ₁ φ₂ : FTy} (l : FVec Ideal S512x1024 φ₁) (r : FVec Ideal S256x1024 φ₂) (p : Fin 512) (e : Fin 256) :
    FloatOps.matmul D2 none l r (constant S512x256 .f32 0x00000000#32) (ix2 p e) = ∑ k : Fin 1024, l (ix2 p k) * r (ix2 e k) := by
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 p e) ((contrEquiv1 D2 1024 rfl rfl).symm k) = ix2 p k := funext fun a => Fin.ext (by
    match a with
    | ⟨0, _⟩ => exact D2_lhs_nc _ _
    | ⟨1, _⟩ => exact (D2_lhs_c _ _).trans hk)
  have er : D2.rhsIdx (ix2 p e) ((contrEquiv1 D2 1024 rfl rfl).symm k) = ix2 e k := funext fun a => Fin.ext (by
    match a with
    | ⟨0, _⟩ => exact D2_rhs_nc _ _
    | ⟨1, _⟩ => exact (D2_rhs_c _ _).trans hk)
  rw [el, er]

end Cert.KernelIdeal.Val2

end
-- ==== Proof.KI.Val2Pay.lean ====
/-
  What the third stage's body stores, read index by index over the extended reals. The two resets are zero. A grid
  point adds to the sum accumulator the product of its incidence block with its hyperedge-feature tile, and to the
  count accumulator the incidence block's row sums. The epilogue takes the accumulators, forms the enhanced
  features acc · norm(count) + f, the feed-forward block with its residual, the row's mean and centred values, and
  the normalised, scaled and shifted result.
-/
import proofs.«155549_j32615981646424_2_alg».proof.Proof.KI.Val2Lib
import proofs.«155549_j32615981646424_2_alg».proof.Proof.Gen.KernelIdeal.Skeleton
import proofs.«155549_j32615981646424_2_alg».proof.Proof.Spec
import proofs.«155549_j32615981646424_2_alg».proof.Proof.LibIdealBits

set_option maxRecDepth 16384

noncomputable section

namespace Cert.KernelIdeal.Val2

open Cert.KernelIdeal.Gen
open Idealize.ShloMosaic Idealize.ShloMosaic.TcCoe Idealize.ShloMosaic.ValueIdx Idealize.SL.Sem
open Idealize.ShloMosaic.Pipeline (Dat)
open scoped BigOperators

open Cert.Hyper (norm c256 ceps)

/-! ## The resets and the two accumulations -/

theorem pay1_apply (r : Fin 512) (d : Fin 256) : k2_pay1 (F := Ideal) (ix2 r d) = 0 := by
  unfold k2_pay1
  exact (congrFun (shapeCast_self _ _) _).trans Ideal.ofBits_zero_f32

theorem pay2_apply (r : Fin 512) (u : Fin 1) : k2_pay2 (F := Ideal) (ix2 r u) = 0 := by
  unfold k2_pay2
  exact (congrFun (shapeCast_self _ _) _).trans Ideal.ofBits_zero_f32

theorem pay3_apply (v3 : Vec Ideal S1x512x256 .f32) (r : Fin 512) (d : Fin 256) :
    k2_pay3 (F := Ideal) v3 (ix2 r d) = v3 (ix3 (0 : Fin 1) r d) := by
  unfold k2_pay3
  exact shapeCast_1ab_ab_apply v3 _ r d

/-- The sum accumulator after a point: what it held plus the incidence block times the hyperedge-feature tile. -/
theorem pay5_apply (v5 : Vec Ideal S1x512x512 .bf16) (v7 : Vec Ideal S1x512x256 .f32) (v11 : Vec Ideal S512x256 .f32)
    (r : Fin 512) (d : Fin 256) :
    k2_pay5 (F := Ideal) v5 v7 v11 (ix2 r d)
      = v11 (ix2 r d) + ∑ k : Fin 512, v5 (ix3 (0 : Fin 1) r k) * v7 (ix3 (0 : Fin 1) k d) := by
  unfold k2_pay5 k2_pay4
  refine (congrFun (shapeCast_self _ _) _).trans ?_
  refine congrArg (v11 (ix2 r d) + ·) ?_
  refine (DA_at _ _ r d).trans (Finset.sum_congr rfl fun k _ => ?_)
  exact congrArg₂ (· * ·) (shapeCast_1ab_ab_apply v5 _ r k) (shapeCast_1ab_ab_apply v7 _ k d)

/-- The count accumulator after a point: what it held plus the incidence block's row sum. -/
theorem pay6_apply (v5 : Vec Ideal S1x512x512 .bf16) (v16 : Vec Ideal S512x1 .f32) (r : Fin 512) (u : Fin 1) :
    k2_pay6 (F := Ideal) v5 v16 (ix2 r u) = v16 (ix2 r u) + ∑ k : Fin 512, v5 (ix3 (0 : Fin 1) r k) := by
  unfold k2_pay6 k2_pay4
  refine (congrFun (shapeCast_self _ _) _).trans ?_
  refine congrArg (v16 (ix2 r u) + ·) ?_
  refine (shapeCast_a_a1_apply _ _ r u).trans ?_
  refine (rowsum512 _ _ _ r).trans (Finset.sum_congr rfl fun k _ => ?_)
  exact shapeCast_1ab_ab_apply v5 _ r k

/-! ## The epilogue -/

/-- The enhanced features' tile: the sum accumulator times the guarded reciprocal of the count, plus the node queries. -/
def enh (v4 : FVec Ideal S512x256 .f32) (vd : Vec Ideal S512x1 .f32) (v37 : Vec Ideal S512x256 .f32) (r : Fin 512) (d : Fin 256) : EReal :=
  v37 (ix2 r d) * norm (vd (ix2 r (0 : Fin 1))) + v4 (ix2 r d)

/-- The same as the body spells it, a vector. -/
def enhV (v4 : FVec Ideal S512x256 .f32) (vd : Vec Ideal S512x1 .f32) (v37 : Vec Ideal S512x256 .f32) : FVec Ideal S512x256 .f32 :=
  addf (mulf v37 (broadcastTo S512x256
    (select (cmpf .ogt vd (broadcast S512x1 (Scalar.ofBits .f32 0x00000000#32 : Ideal .f32)))
      (divf (broadcast S512x1 (Scalar.ofBits .f32 0x3F800000#32 : Ideal .f32)) (maximumf vd (broadcast S512x1 (Scalar.ofBits .f32 0x3F800000#32 : Ideal .f32))))
      (broadcast S512x1 (Scalar.ofBits .f32 0x00000000#32 : Ideal .f32)))
    broadcasts_S512x1_S512x256)) v4

theorem enhV_apply (v4 : FVec Ideal S512x256 .f32) (vd : Vec Ideal S512x1 .f32) (v37 : Vec Ideal S512x256 .f32) (r : Fin 512) (d : Fin 256) :
    enhV v4 vd v37 (ix2 r d) = enh v4 vd v37 r d := by
  unfold enhV enh
  refine congrArg₂ (· + ·) (congrArg₂ (· * ·) rfl ?_) rfl
  refine (broadcastTo_a1_ab_apply _ _ r d).trans ?_
  exact Cert.HyperLib.select_ogt_norm (vd (ix2 r (0 : Fin 1)))

/-- The feed-forward block with its residual over a tile `y`. -/
def ffnq (y : Fin 512 → Fin 256 → EReal) (v42 : Vec Ideal S1024x256 .f32) (v45 : Vec Ideal S1024 .f32) (v52 : Vec Ideal S256x1024 .f32)
    (v55 : Vec Ideal S256 .f32) (r : Fin 512) (d : Fin 256) : EReal :=
  y r d + ((∑ j : Fin 1024, max ((∑ k : Fin 256, y r k * v42 (ix2 j k)) + v45 (ix1 j)) 0 * v52 (ix2 d j)) + v55 (ix1 d))

theorem pay8_apply (v4 : FVec Ideal S512x256 .f32) (vd : Vec Ideal S512x1 .f32) (v37 : Vec Ideal S512x256 .f32) (v42 : Vec Ideal S1024x256 .f32) (v45 : Vec Ideal S1024 .f32) (v52 : Vec Ideal S256x1024 .f32) (v55 : Vec Ideal S256 .f32) (r : Fin 512) (d : Fin 256) :
    k2_pay8 (F := Ideal) v4 vd vd v37 v42 v45 v52 v55 (ix2 r d) = ffnq (enh v4 vd v37) v42 v45 v52 v55 r d := by
  unfold k2_pay8 ffnq
  refine congrArg₂ (· + ·) (enhV_apply v4 vd v37 r d) ?_
  refine congrArg₂ (· + ·) ?_ ((broadcastTo_1b_ab_apply _ _ r d).trans (shapeCast_a_1a_apply v55 _ (0 : Fin 1) d))
  refine (D2_at _ _ r d).trans (Finset.sum_congr rfl fun j _ => ?_)
  refine congrArg₂ (· * ·) ?_ rfl
  refine congrArg₂ max ?_ Ideal.ofBits_zero_f32
  refine congrArg₂ (· + ·) ?_ ((broadcastTo_1b_ab_apply _ _ r j).trans (shapeCast_a_1a_apply v45 _ (0 : Fin 1) j))
  exact (D1_at _ _ r j).trans (Finset.sum_congr rfl fun k _ => congrArg₂ (· * ·) (enhV_apply v4 vd v37 r k) rfl)

/-- The row's mean. -/
theorem pay9_apply (v4 : FVec Ideal S512x256 .f32) (vd : Vec Ideal S512x1 .f32) (v37 : Vec Ideal S512x256 .f32) (v42 : Vec Ideal S1024x256 .f32) (v45 : Vec Ideal S1024 .f32) (v52 : Vec Ideal S256x1024 .f32) (v55 : Vec Ideal S256 .f32) (r : Fin 512) (u : Fin 1) :
    k2_pay9 (F := Ideal) v4 vd vd v37 v42 v45 v52 v55 (ix2 r u) = Ideal.div (∑ k : Fin 256, k2_pay8 (F := Ideal) v4 vd vd v37 v42 v45 v52 v55 (ix2 r k)) c256 := by
  unfold k2_pay9
  refine congrArg (Ideal.div · c256) ?_
  exact (shapeCast_a_a1_apply _ _ r u).trans (rowsum256 _ _ _ r)

/-- The row's centred values. -/
theorem pay10_apply (v4 : FVec Ideal S512x256 .f32) (vd : Vec Ideal S512x1 .f32) (v37 : Vec Ideal S512x256 .f32) (v42 : Vec Ideal S1024x256 .f32) (v45 : Vec Ideal S1024 .f32) (v52 : Vec Ideal S256x1024 .f32) (v55 : Vec Ideal S256 .f32) (r : Fin 512) (d : Fin 256) :
    k2_pay10 (F := Ideal) v4 vd vd v37 v42 v45 v52 v55 (ix2 r d)
      = k2_pay8 (F := Ideal) v4 vd vd v37 v42 v45 v52 v55 (ix2 r d) - k2_pay9 (F := Ideal) v4 vd vd v37 v42 v45 v52 v55 (ix2 r (0 : Fin 1)) := by
  unfold k2_pay10
  exact congrArg (k2_pay8 (F := Ideal) v4 vd vd v37 v42 v45 v52 v55 (ix2 r d) - ·) (broadcastTo_a1_ab_apply _ _ r d)

/-- The normalisation, from the block `v59`, its row means `v63`, its centred values `v65`, the gain and the bias. -/
theorem pay7_apply (v59 : FVec Ideal S512x256 .f32) (v63 : FVec Ideal S512x1 .f32) (v65 : FVec Ideal S512x256 .f32)
    (v78 v82 : Vec Ideal S256 .f32) (z : Fin 1) (r : Fin 512) (d : Fin 256) :
    k2_pay7 (F := Ideal) v59 v63 v65 v78 v82 (ix3 z r d)
      = (v59 (ix2 r d) - v63 (ix2 r (0 : Fin 1)))
          * Ideal.rsqrt (Ideal.div (∑ k : Fin 256, v65 (ix2 r k) * v65 (ix2 r k)) c256 + ceps)
          * v78 (ix1 d) + v82 (ix1 d) := by
  unfold k2_pay7
  refine (shapeCast_ab_1ab_apply _ _ z r d).trans ?_
  refine congrArg₂ (· + ·) ?_ ((broadcastTo_1b_ab_apply _ _ r d).trans (shapeCast_a_1a_apply v82 _ (0 : Fin 1) d))
  refine congrArg₂ (· * ·) ?_ ((broadcastTo_1b_ab_apply _ _ r d).trans (shapeCast_a_1a_apply v78 _ (0 : Fin 1) d))
  refine congrArg₂ (· * ·) (congrArg (v59 (ix2 r d) - ·) (broadcastTo_a1_ab_apply v63 _ r d)) ?_
  refine (broadcastTo_a1_ab_apply _ _ r d).trans ?_
  exact congrArg (fun s => Ideal.rsqrt (Ideal.div s c256 + ceps)) ((shapeCast_a_a1_apply _ _ r (0 : Fin 1)).trans (rowsum256 _ _ _ r))

/-- The layer normalisation of a tile `q` at row `r`. -/
def lnq (q : Fin 512 → Fin 256 → EReal) (g β : Vec Ideal S256 .f32) (r : Fin 512) (d : Fin 256) : EReal :=
  (q r d - Ideal.div (∑ k : Fin 256, q r k) c256)
    * Ideal.rsqrt (Ideal.div (∑ k : Fin 256, (q r k - Ideal.div (∑ k : Fin 256, q r k) c256) * (q r k - Ideal.div (∑ k : Fin 256, q r k) c256)) c256 + ceps)
    * g (ix1 d) + β (ix1 d)

/-- The whole epilogue at an index: the normalisation of the feed-forward block of the enhanced features. -/
theorem out_apply (v4 : FVec Ideal S512x256 .f32) (vd : Vec Ideal S512x1 .f32) (v37 : Vec Ideal S512x256 .f32) (v42 : Vec Ideal S1024x256 .f32) (v45 : Vec Ideal S1024 .f32) (v52 : Vec Ideal S256x1024 .f32) (v55 : Vec Ideal S256 .f32) (v78 v82 : Vec Ideal S256 .f32) (z : Fin 1) (r : Fin 512) (d : Fin 256) :
    k2_pay7 (F := Ideal) (k2_pay8 v4 vd vd v37 v42 v45 v52 v55) (k2_pay9 v4 vd vd v37 v42 v45 v52 v55) (k2_pay10 v4 vd vd v37 v42 v45 v52 v55) v78 v82 (ix3 z r d)
      = lnq (ffnq (enh v4 vd v37) v42 v45 v52 v55) v78 v82 r d := by
  have h8 : ∀ k : Fin 256, k2_pay8 (F := Ideal) v4 vd vd v37 v42 v45 v52 v55 (ix2 r k) = ffnq (enh v4 vd v37) v42 v45 v52 v55 r k :=
    fun k => pay8_apply v4 vd v37 v42 v45 v52 v55 r k
  have h9 : k2_pay9 (F := Ideal) v4 vd vd v37 v42 v45 v52 v55 (ix2 r (0 : Fin 1)) = Ideal.div (∑ k : Fin 256, ffnq (enh v4 vd v37) v42 v45 v52 v55 r k) c256 :=
    (pay9_apply v4 vd v37 v42 v45 v52 v55 r 0).trans (congrArg (Ideal.div · c256) (Finset.sum_congr rfl fun k _ => h8 k))
  have h10 : ∀ k : Fin 256, k2_pay10 (F := Ideal) v4 vd vd v37 v42 v45 v52 v55 (ix2 r k)
      = ffnq (enh v4 vd v37) v42 v45 v52 v55 r k - Ideal.div (∑ k : Fin 256, ffnq (enh v4 vd v37) v42 v45 v52 v55 r k) c256 :=
    fun k => (pay10_apply v4 vd v37 v42 v45 v52 v55 r k).trans (congrArg₂ (· - ·) (h8 k) h9)
  refine (pay7_apply _ _ _ v78 v82 z r d).trans ?_
  unfold lnq
  rw [h8 d, h9]
  simp only [h10]

end Cert.KernelIdeal.Val2

end
-- ==== Proof.KI.Sched2.lean ====
/-
  The schedule of the third region, read arithmetically. Its grid has 512 points; point t is (batch t / 64, middle tile
  (t / 8) % 8, inner tile t % 8). Each window's block index at a point is a closed form of t; an index of an output array is in
  a point's block iff each coordinate is in the block's range; and every index of each output array lies in the block of a
  point that writes it back.
-/
import proofs.«155549_j32615981646424_2_alg».proof.Proof.Gen.KernelIdeal.Launch
import proofs.«155549_j32615981646424_2_alg».proof.Proof.Gen.KernelIdeal.Points
import Idealize.ShloMosaic.Lib.Pipeline.Value

set_option maxRecDepth 16384

noncomputable section

namespace Cert.KernelIdeal.Sched2

open Cert.KernelIdeal Cert.KernelIdeal.Gen
open Idealize.ShloMosaic Idealize.ShloMosaic.TcCoe Idealize.SL.Sem

/-- The index maps over the grid (point t = (b·8 + v)·8 + e): the row tile of f and of the result is (b, v); the incidence
    block is (b, v, e); the row tile of the hyperedge features is (b, e); the six whole operands stay at block 0. -/
theorem idx_facts : ∀ t : Fin cfg2.N,
    win2_0.index t (0 : Fin 3) = t.val / 64 ∧ win2_0.index t (1 : Fin 3) = (t.val / 8) % 8 ∧ win2_0.index t (2 : Fin 3) = 0
    ∧ win2_1.index t (0 : Fin 3) = t.val / 64 ∧ win2_1.index t (1 : Fin 3) = (t.val / 8) % 8 ∧ win2_1.index t (2 : Fin 3) = t.val % 8
    ∧ win2_2.index t (0 : Fin 3) = t.val / 64 ∧ win2_2.index t (1 : Fin 3) = t.val % 8 ∧ win2_2.index t (2 : Fin 3) = 0
    ∧ win2_9.index t (0 : Fin 3) = t.val / 64 ∧ win2_9.index t (1 : Fin 3) = (t.val / 8) % 8 ∧ win2_9.index t (2 : Fin 3) = 0 :=
  (by decide +kernel : ∀ t : Fin grid2.N, _)

/-- The six operands taken whole sit at block 0 at every point. -/
theorem idx_whole : ∀ t : Fin cfg2.N,
    win2_3.index t (0 : Fin 2) = 0 ∧ win2_3.index t (1 : Fin 2) = 0 ∧ win2_4.index t (0 : Fin 1) = 0
    ∧ win2_5.index t (0 : Fin 2) = 0 ∧ win2_5.index t (1 : Fin 2) = 0 ∧ win2_6.index t (0 : Fin 1) = 0
    ∧ win2_7.index t (0 : Fin 1) = 0 ∧ win2_8.index t (0 : Fin 1) = 0 :=
  (by decide +kernel : ∀ t : Fin grid2.N, _)

/-- Membership in a block of the result array (window 9). -/
theorem mem_blk9 (t : Fin cfg2.N) (i : S8x4096x256.Idx) :
    i ∈ ((cfg2.win 9).blk t).view.set ↔ ∀ a : Fin 3, win2_9.index t a * S1x512x256.size a ≤ (i a).val ∧ (i a).val < win2_9.index t a * S1x512x256.size a + S1x512x256.size a := by
  show i ∈ ((View.whole main_v2).slice (win2_9.rect t)).set ↔ _
  rw [View.set_slice_whole, Rect.mem_set_unit]
  exact Iff.rfl

/-- The point that writes back the block of the result holding index i: the last column tile (e = 7) of its (batch, row tile). -/
def pt9 (i : S8x4096x256.Idx) : Fin cfg2.N :=
  ⟨((i 0).val * 8 + (i 1).val / 512) * 8 + 7, by
    have h0 : (i 0).val < 8 := (i 0).isLt
    have h1 : (i 1).val < 4096 := (i 1).isLt
    rw [show cfg2.N = 512 from N_2]; omega⟩

theorem cover9 (i : S8x4096x256.Idx) : ∃ t : Fin cfg2.N, (cfg2.win 9).flush t = true ∧ i ∈ ((cfg2.win 9).blk t).view.set := by
  have h0 : (i 0).val < 8 := (i 0).isLt
  have h1 : (i 1).val < 4096 := (i 1).isLt
  have h2 : (i 2).val < 256 := (i 2).isLt
  refine ⟨pt9 i, (flush2_9 _).mpr (by show (((i 0).val * 8 + (i 1).val / 512) * 8 + 7) % 8 = 7; omega), ?_⟩
  rw [mem_blk9]
  obtain ⟨-, -, -, -, -, -, -, -, -, g0, g1, g2⟩ := idx_facts (pt9 i)
  have hv : (pt9 i).val = ((i 0).val * 8 + (i 1).val / 512) * 8 + 7 := rfl
  intro a
  match a with
  | ⟨0, _⟩ => show win2_9.index _ (0 : Fin 3) * 1 ≤ (i 0).val ∧ (i 0).val < win2_9.index _ (0 : Fin 3) * 1 + 1; rw [g0, hv]; omega
  | ⟨1, _⟩ => show win2_9.index _ (1 : Fin 3) * 512 ≤ (i 1).val ∧ (i 1).val < win2_9.index _ (1 : Fin 3) * 512 + 512; rw [g1, hv]; omega
  | ⟨2, _⟩ => show win2_9.index _ (2 : Fin 3) * 256 ≤ (i 2).val ∧ (i 2).val < win2_9.index _ (2 : Fin 3) * 256 + 256; rw [g2]; omega

end Cert.KernelIdeal.Sched2

end
-- ==== Proof.KI.Val2Blk.lean ====
/-
  The third stage's windows read index by index. Grid point t = 64·b + 8·v + e is (batch b, node tile v, hyperedge
  tile e). There the node queries' block is rows 512·v … of batch b; the incidence block is rows 512·v …, columns
  512·e … of batch b; the hyperedge features' block is rows 512·e … of batch b; the six parameter arrays are whole.
-/
import proofs.«155549_j32615981646424_2_alg».proof.Proof.KI.Reg2Defs
import proofs.«155549_j32615981646424_2_alg».proof.Proof.KI.Sched2
import Idealize.ShloMosaic.Lib.Pipeline.Value
import Idealize.ShloMosaic.Lib.ValueIdx

set_option maxRecDepth 16384

noncomputable section

namespace Cert.KernelIdeal.Val2

open Cert.KernelIdeal.Gen
open Idealize.ShloMosaic Idealize.ShloMosaic.TcCoe Idealize.ShloMosaic.ValueIdx Idealize.SL.Sem
open Idealize.ShloMosaic.Pipeline (Dat)
open scoped BigOperators

open Cert.KernelIdeal.Reg2 (b0 b1 b2 b3 b4 b5 b6 b7 b8 iblk)

/-- Row `r` of tile `j`: index 512·j + r. -/
def tile (j : Fin 8) (r : Fin 512) : Fin 4096 := ⟨j.val * 512 + r.val, by have := j.isLt; have := r.isLt; omega⟩

theorem tile_val (j : Fin 8) (r : Fin 512) : (tile j r).val = j.val * 512 + r.val := rfl

variable (V : (c : Dev nD) → (b : Ref sig .tc) → Buf (Elt Ideal) ((c : Thread nD τ).loc b))

section Blocks
variable (c : Dev nD) (t : Fin cfg2.N) (bq vt et : Fin 8) (ht : t.val = bq.val * 64 + vt.val * 8 + et.val)
include ht

/-- The node queries' block. -/
theorem b0_apply (r : Fin 512) (k : Fin 256) : b0 V c t (ix3 (0 : Fin 1) r k) = V c main_arg1 (ix3 bq (tile vt r) k) := by
  obtain ⟨h0, h1, h2, -⟩ := Sched2.idx_facts t
  have := bq.isLt; have := vt.isLt; have := et.isLt
  show V c main_arg1 (((cfg2.win 0).blk t).view.emb (ix3 (0 : Fin 1) r k)) = _
  refine congrArg (V c main_arg1) (funext fun a => Fin.ext ?_)
  match a with
  | ⟨0, _⟩ => show win2_0.index t (0 : Fin 3) * 1 + 1 * 0 = bq.val; omega
  | ⟨1, _⟩ => show win2_0.index t (1 : Fin 3) * 512 + 1 * r.val = vt.val * 512 + r.val; omega
  | ⟨2, _⟩ => show win2_0.index t (2 : Fin 3) * 256 + 1 * k.val = k.val; omega

/-- The incidence block. -/
theorem b1_apply (r k : Fin 512) : b1 V c t (ix3 (0 : Fin 1) r k) = V c main_v1_1 (ix3 bq (tile vt r) (tile et k)) := by
  obtain ⟨-, -, -, h0, h1, h2, -⟩ := Sched2.idx_facts t
  have := bq.isLt; have := vt.isLt; have := et.isLt
  show V c main_v1_1 (((cfg2.win 1).blk t).view.emb (ix3 (0 : Fin 1) r k)) = _
  refine congrArg (V c main_v1_1) (funext fun a => Fin.ext ?_)
  match a with
  | ⟨0, _⟩ => show win2_1.index t (0 : Fin 3) * 1 + 1 * 0 = bq.val; omega
  | ⟨1, _⟩ => show win2_1.index t (1 : Fin 3) * 512 + 1 * r.val = vt.val * 512 + r.val; omega
  | ⟨2, _⟩ => show win2_1.index t (2 : Fin 3) * 512 + 1 * k.val = et.val * 512 + k.val; omega

/-- The hyperedge features' block. -/
theorem b2_apply (k : Fin 512) (d : Fin 256) : b2 V c t (ix3 (0 : Fin 1) k d) = V c main_v1_0 (ix3 bq (tile et k) d) := by
  obtain ⟨-, -, -, -, -, -, h0, h1, h2, -⟩ := Sched2.idx_facts t
  have := bq.isLt; have := vt.isLt; have := et.isLt
  show V c main_v1_0 (((cfg2.win 2).blk t).view.emb (ix3 (0 : Fin 1) k d)) = _
  refine congrArg (V c main_v1_0) (funext fun a => Fin.ext ?_)
  match a with
  | ⟨0, _⟩ => show win2_2.index t (0 : Fin 3) * 1 + 1 * 0 = bq.val; omega
  | ⟨1, _⟩ => show win2_2.index t (1 : Fin 3) * 512 + 1 * k.val = et.val * 512 + k.val; omega
  | ⟨2, _⟩ => show win2_2.index t (2 : Fin 3) * 256 + 1 * d.val = d.val; omega

end Blocks

section Whole
variable (c : Dev nD) (t : Fin cfg2.N)

/-- The parameter arrays' blocks are the arrays. -/
theorem b3_apply (j : Fin 1024) (k : Fin 256) : b3 V c t (ix2 j k) = V c main_arg4 (ix2 j k) := by
  obtain ⟨h0, h1, -⟩ := Sched2.idx_whole t
  show V c main_arg4 (((cfg2.win 3).blk t).view.emb (ix2 j k)) = _
  refine congrArg (V c main_arg4) (funext fun a => Fin.ext ?_)
  match a with
  | ⟨0, _⟩ => show win2_3.index t (0 : Fin 2) * 1024 + 1 * j.val = j.val; omega
  | ⟨1, _⟩ => show win2_3.index t (1 : Fin 2) * 256 + 1 * k.val = k.val; omega

theorem b4_apply (j : Fin 1024) : b4 V c t (ix1 j) = V c main_arg5 (ix1 j) := by
  obtain ⟨-, -, h0, -⟩ := Sched2.idx_whole t
  show V c main_arg5 (((cfg2.win 4).blk t).view.emb (ix1 j)) = _
  refine congrArg (V c main_arg5) (funext fun a => Fin.ext ?_)
  match a with
  | ⟨0, _⟩ => show win2_4.index t (0 : Fin 1) * 1024 + 1 * j.val = j.val; omega

theorem b5_apply (d : Fin 256) (j : Fin 1024) : b5 V c t (ix2 d j) = V c main_arg6 (ix2 d j) := by
  obtain ⟨-, -, -, h0, h1, -⟩ := Sched2.idx_whole t
  show V c main_arg6 (((cfg2.win 5).blk t).view.emb (ix2 d j)) = _
  refine congrArg (V c main_arg6) (funext fun a => Fin.ext ?_)
  match a with
  | ⟨0, _⟩ => show win2_5.index t (0 : Fin 2) * 256 + 1 * d.val = d.val; omega
  | ⟨1, _⟩ => show win2_5.index t (1 : Fin 2) * 1024 + 1 * j.val = j.val; omega

theorem b6_apply (d : Fin 256) : b6 V c t (ix1 d) = V c main_arg7 (ix1 d) := by
  obtain ⟨-, -, -, -, -, h0, -⟩ := Sched2.idx_whole t
  show V c main_arg7 (((cfg2.win 6).blk t).view.emb (ix1 d)) = _
  refine congrArg (V c main_arg7) (funext fun a => Fin.ext ?_)
  match a with
  | ⟨0, _⟩ => show win2_6.index t (0 : Fin 1) * 256 + 1 * d.val = d.val; omega

theorem b7_apply (d : Fin 256) : b7 V c t (ix1 d) = V c main_arg8 (ix1 d) := by
  obtain ⟨-, -, -, -, -, -, h0, -⟩ := Sched2.idx_whole t
  show V c main_arg8 (((cfg2.win 7).blk t).view.emb (ix1 d)) = _
  refine congrArg (V c main_arg8) (funext fun a => Fin.ext ?_)
  match a with
  | ⟨0, _⟩ => show win2_7.index t (0 : Fin 1) * 256 + 1 * d.val = d.val; omega

theorem b8_apply (d : Fin 256) : b8 V c t (ix1 d) = V c main_arg9 (ix1 d) := by
  obtain ⟨-, -, -, -, -, -, -, h0⟩ := Sched2.idx_whole t
  show V c main_arg9 (((cfg2.win 8).blk t).view.emb (ix1 d)) = _
  refine congrArg (V c main_arg9) (funext fun a => Fin.ext ?_)
  match a with
  | ⟨0, _⟩ => show win2_8.index t (0 : Fin 1) * 256 + 1 * d.val = d.val; omega

end Whole

end Cert.KernelIdeal.Val2

end
-- ==== Proof.KI.Val2Acc.lean ====
/-
  The two accumulators over a sweep of the eight hyperedge tiles. At the sweep's first point both are reset, so after
  the point of tile e the sum accumulator holds, at node row r and feature d, the sum over tiles 0 … e of
  ∑ₖ incidence(row, 512·j + k) · E(512·j + k, d), and the count accumulator the sum over the same tiles of the
  incidence's row sums. After the last tile these are the sums over all 4096 hyperedges: a sum over 4096 indices
  regrouped as eight tiles of 512, which only uses that addition on the extended reals is commutative and associative.
-/
import proofs.«155549_j32615981646424_2_alg».proof.Proof.KI.Val2Pay
import proofs.«155549_j32615981646424_2_alg».proof.Proof.KI.Val2Blk
import proofs.«155549_j32615981646424_2_alg».proof.Proof.LibTileSum

set_option maxRecDepth 16384

noncomputable section

namespace Cert.KernelIdeal.Val2

open Cert.KernelIdeal.Gen
open Idealize.ShloMosaic Idealize.ShloMosaic.TcCoe Idealize.ShloMosaic.ValueIdx Idealize.SL.Sem
open Idealize.ShloMosaic.Pipeline (Dat)
open scoped BigOperators

open Cert.KernelIdeal.Reg2 (accAt b1 b2 accAt_reset accAt_step)

variable (V : (c : Dev nD) → (b : Ref sig .tc) → Buf (Elt Ideal) ((c : Thread nD τ).loc b))

/-- The incidence and the hyperedge features as the region finds them, curried. -/
abbrev hgA (c : Dev nD) : Cert.Hyper.A3 4096 := fun b n k => V c main_v1_1 (ix3 b n k)
abbrev EA (c : Dev nD) : Cert.Hyper.A3 256 := fun b n k => V c main_v1_0 (ix3 b n k)

/-- Tile `j`'s contribution to the sum at node row (vt, r), feature d; -/
def P (c : Dev nD) (bq vt : Fin 8) (j : ℕ) (r : Fin 512) (d : Fin 256) : EReal :=
  if h : j < 8 then ∑ k : Fin 512, hgA V c bq (tile vt r) (tile ⟨j, h⟩ k) * EA V c bq (tile ⟨j, h⟩ k) d else 0

/-- and to the count. -/
def Q (c : Dev nD) (bq vt : Fin 8) (j : ℕ) (r : Fin 512) : EReal :=
  if h : j < 8 then ∑ k : Fin 512, hgA V c bq (tile vt r) (tile ⟨j, h⟩ k) else 0

theorem lt_N (bq vt : Fin 8) (e : ℕ) (he : e < 8) : bq.val * 64 + vt.val * 8 + e < cfg2.N := by
  have := bq.isLt; have := vt.isLt; rw [show cfg2.N = 512 from N_2]; omega

theorem contrib_acc (c : Dev nD) (bq vt : Fin 8) (e : ℕ) (he : e < 8) (r : Fin 512) (d : Fin 256) :
    ∑ k : Fin 512, b1 V c ⟨bq.val * 64 + vt.val * 8 + e, lt_N bq vt e he⟩ (ix3 (0 : Fin 1) r k)
        * b2 V c ⟨bq.val * 64 + vt.val * 8 + e, lt_N bq vt e he⟩ (ix3 (0 : Fin 1) k d) = P V c bq vt e r d := by
  unfold P; rw [dif_pos he]
  exact Finset.sum_congr rfl fun k _ =>
    congrArg₂ (· * ·) (b1_apply V c _ bq vt ⟨e, he⟩ rfl r k) (b2_apply V c _ bq vt ⟨e, he⟩ rfl k d)

theorem contrib_deg (c : Dev nD) (bq vt : Fin 8) (e : ℕ) (he : e < 8) (r : Fin 512) :
    ∑ k : Fin 512, b1 V c ⟨bq.val * 64 + vt.val * 8 + e, lt_N bq vt e he⟩ (ix3 (0 : Fin 1) r k) = Q V c bq vt e r := by
  unfold Q; rw [dif_pos he]
  exact Finset.sum_congr rfl fun k _ => b1_apply V c _ bq vt ⟨e, he⟩ rfl r k

/-- The sum accumulator after the point of tile `e` of the sweep at (batch, node tile). -/
theorem acc_sweep (c : Dev nD) (bq vt : Fin 8) : ∀ (e : ℕ) (he : e < 8) (r : Fin 512) (d : Fin 256),
    (accAt V c (bq.val * 64 + vt.val * 8 + e) (lt_N bq vt e he)).1 (ix2 r d) = ∑ j ∈ Finset.range (e + 1), P V c bq vt j r d
  | 0, he, r, d => by
    have hr := accAt_reset V c ⟨bq.val * 64 + vt.val * 8 + 0, lt_N bq vt 0 he⟩ (by show (bq.val * 64 + vt.val * 8 + 0) % 8 = 0; omega)
    rw [show accAt V c (bq.val * 64 + vt.val * 8 + 0) (lt_N bq vt 0 he) = _ from hr]
    show k2_pay5 (F := Ideal) _ _ _ (ix2 r d) = _
    rw [pay5_apply, pay1_apply, zero_add, Finset.sum_range_one]
    exact contrib_acc V c bq vt 0 he r d
  | e + 1, he, r, d => by
    have hs := accAt_step V c ⟨bq.val * 64 + vt.val * 8 + (e + 1), lt_N bq vt (e + 1) he⟩
      (by show ¬ (bq.val * 64 + vt.val * 8 + (e + 1)) % 8 = 0; omega)
    rw [show accAt V c (bq.val * 64 + vt.val * 8 + (e + 1)) (lt_N bq vt (e + 1) he) = _ from hs]
    show k2_pay5 (F := Ideal) _ _ _ (ix2 r d) = _
    rw [pay5_apply, Finset.sum_range_succ]
    refine congrArg₂ (· + ·) ?_ (contrib_acc V c bq vt (e + 1) he r d)
    exact acc_sweep c bq vt e (by omega) r d

/-- The count accumulator after the point of tile `e`. -/
theorem deg_sweep (c : Dev nD) (bq vt : Fin 8) : ∀ (e : ℕ) (he : e < 8) (r : Fin 512) (u : Fin 1),
    (accAt V c (bq.val * 64 + vt.val * 8 + e) (lt_N bq vt e he)).2 (ix2 r u) = ∑ j ∈ Finset.range (e + 1), Q V c bq vt j r
  | 0, he, r, u => by
    have hr := accAt_reset V c ⟨bq.val * 64 + vt.val * 8 + 0, lt_N bq vt 0 he⟩ (by show (bq.val * 64 + vt.val * 8 + 0) % 8 = 0; omega)
    rw [show accAt V c (bq.val * 64 + vt.val * 8 + 0) (lt_N bq vt 0 he) = _ from hr]
    show k2_pay6 (F := Ideal) _ _ (ix2 r u) = _
    rw [pay6_apply, pay2_apply, zero_add, Finset.sum_range_one]
    exact contrib_deg V c bq vt 0 he r
  | e + 1, he, r, u => by
    have hs := accAt_step V c ⟨bq.val * 64 + vt.val * 8 + (e + 1), lt_N bq vt (e + 1) he⟩
      (by show ¬ (bq.val * 64 + vt.val * 8 + (e + 1)) % 8 = 0; omega)
    rw [show accAt V c (bq.val * 64 + vt.val * 8 + (e + 1)) (lt_N bq vt (e + 1) he) = _ from hs]
    show k2_pay6 (F := Ideal) _ _ (ix2 r u) = _
    rw [pay6_apply, Finset.sum_range_succ]
    refine congrArg₂ (· + ·) ?_ (contrib_deg V c bq vt (e + 1) he r)
    exact deg_sweep c bq vt e (by omega) r u

/-- After the last tile: the sum over all hyperedges of incidence · hyperedge features, -/
theorem acc_total (c : Dev nD) (bq vt : Fin 8) (r : Fin 512) (d : Fin 256) :
    (accAt V c (bq.val * 64 + vt.val * 8 + 7) (lt_N bq vt 7 (by decide))).1 (ix2 r d)
      = ∑ e : Fin 4096, hgA V c bq (tile vt r) e * EA V c bq e d := by
  refine (acc_sweep V c bq vt 7 (by decide) r d).trans ?_
  refine (Cert.HyperLib.sum_fin8_eq_range (fun j => P V c bq vt j r d)).symm.trans ?_
  refine Eq.trans ?_ (Cert.HyperLib.sum_fin4096_tiles (fun e => hgA V c bq (tile vt r) e * EA V c bq e d)).symm
  refine Finset.sum_congr rfl fun j _ => ?_
  unfold P; rw [dif_pos j.isLt]; rfl

/-- and the row's count of incident hyperedges. -/
theorem deg_total (c : Dev nD) (bq vt : Fin 8) (r : Fin 512) (u : Fin 1) :
    (accAt V c (bq.val * 64 + vt.val * 8 + 7) (lt_N bq vt 7 (by decide))).2 (ix2 r u)
      = ∑ e : Fin 4096, hgA V c bq (tile vt r) e := by
  refine (deg_sweep V c bq vt 7 (by decide) r u).trans ?_
  refine (Cert.HyperLib.sum_fin8_eq_range (fun j => Q V c bq vt j r)).symm.trans ?_
  refine Eq.trans ?_ (Cert.HyperLib.sum_fin4096_tiles (fun e => hgA V c bq (tile vt r) e)).symm
  refine Finset.sum_congr rfl fun j _ => ?_
  unfold Q; rw [dif_pos j.isLt]; rfl

end Cert.KernelIdeal.Val2

end
-- ==== Proof.KI.Val2.lean ====
/-
  The third region's value over the extended reals: the array it leaves is the third stage of the layer — the layer
  normalisation of the feed-forward block of the enhanced node features — as one function of the arrays the region
  finds. A grid point whose hyperedge tile is the last writes back rows 512·v … of batch b, each entry the epilogue's
  value of the two accumulators as the sweep leaves them; those points' blocks tile the array.
-/
import proofs.«155549_j32615981646424_2_alg».proof.Proof.KI.Reg2
import proofs.«155549_j32615981646424_2_alg».proof.Proof.KI.Val2Acc
import proofs.«155549_j32615981646424_2_alg».proof.Proof.KI.Sched2
import proofs.«155549_j32615981646424_2_alg».proof.Proof.Spec

set_option maxRecDepth 16384

noncomputable section

namespace Cert.KernelIdeal.Val2

open Cert.KernelIdeal.Gen
open Idealize.ShloMosaic Idealize.ShloMosaic.TcCoe Idealize.ShloMosaic.ValueIdx Idealize.SL.Sem
open Idealize.ShloMosaic.Pipeline (Dat)
open scoped BigOperators

open Cert.KernelIdeal.Reg2 (accAt b0 b1 b2 b3 b4 b5 b6 b7 b8)
open Cert.Hyper (norm c256 ceps)

variable (V : (c : Dev nD) → (b : Ref sig .tc) → Buf (Elt Ideal) ((c : Thread nD τ).loc b))

/-- The arrays the region finds, curried. -/
abbrev fA (c : Dev nD) : Cert.Hyper.A3 256 := fun b n k => V c main_arg1 (ix3 b n k)
abbrev w1A (c : Dev nD) : Fin 1024 → Fin 256 → EReal := fun j k => V c main_arg4 (ix2 j k)
abbrev b1A (c : Dev nD) : Fin 1024 → EReal := fun j => V c main_arg5 (ix1 j)
abbrev w2A (c : Dev nD) : Fin 256 → Fin 1024 → EReal := fun d j => V c main_arg6 (ix2 d j)
abbrev b2A (c : Dev nD) : Fin 256 → EReal := fun d => V c main_arg7 (ix1 d)
abbrev gA (c : Dev nD) : Fin 256 → EReal := fun d => V c main_arg8 (ix1 d)
abbrev βA (c : Dev nD) : Fin 256 → EReal := fun d => V c main_arg9 (ix1 d)

/-- The third stage as one function of the result array's index. -/
def G (c : Dev nD) : S8x4096x256.Idx → Ideal .f32 := fun i =>
  Cert.Hyper.stage3 (hgA V c) (EA V c) (fA V c) (w1A V c) (b1A V c) (w2A V c) (b2A V c) (gA V c) (βA V c) (i 0) (i 1) (i 2)

/-- The accumulators at the last point of a sweep, the point given as a grid point. -/
theorem acc_total' (c : Dev nD) (t : Fin cfg2.N) (bq vt : Fin 8) (ht : t.val = bq.val * 64 + vt.val * 8 + 7) (r : Fin 512) (d : Fin 256) :
    (accAt V c t.val t.isLt).1 (ix2 r d) = ∑ e : Fin 4096, hgA V c bq (tile vt r) e * EA V c bq e d := by
  obtain ⟨n, hn⟩ := t
  dsimp only at ht
  subst ht
  exact acc_total V c bq vt r d

theorem deg_total' (c : Dev nD) (t : Fin cfg2.N) (bq vt : Fin 8) (ht : t.val = bq.val * 64 + vt.val * 8 + 7) (r : Fin 512) (u : Fin 1) :
    (accAt V c t.val t.isLt).2 (ix2 r u) = ∑ e : Fin 4096, hgA V c bq (tile vt r) e := by
  obtain ⟨n, hn⟩ := t
  dsimp only at ht
  subst ht
  exact deg_total V c bq vt r u

/-- The epilogue's value at the last point of the sweep at (batch, node tile) is the third stage at the node. -/
theorem epi_eq (c : Dev nD) (t : Fin cfg2.N) (bq vt : Fin 8) (ht : t.val = bq.val * 64 + vt.val * 8 + 7) (r : Fin 512) (d : Fin 256) :
    lnq (ffnq (enh (k2_pay3 (b0 V c t)) (accAt V c t.val t.isLt).2 (accAt V c t.val t.isLt).1) (b3 V c t) (b4 V c t) (b5 V c t) (b6 V c t)) (b7 V c t) (b8 V c t) r d
      = Cert.Hyper.stage3 (hgA V c) (EA V c) (fA V c) (w1A V c) (b1A V c) (w2A V c) (b2A V c) (gA V c) (βA V c) bq (tile vt r) d := by
  have hy : ∀ k : Fin 256, (enh (k2_pay3 (b0 V c t)) (accAt V c t.val t.isLt).2 (accAt V c t.val t.isLt).1) r k = Cert.Hyper.nodeAgg (hgA V c) (EA V c) (fA V c) bq (tile vt r) k := fun k => by
    unfold enh Cert.Hyper.nodeAgg
    rw [acc_total' V c t bq vt ht r k, deg_total' V c t bq vt ht r 0, pay3_apply, b0_apply V c t bq vt 7 ht r k]
  have hq : ∀ k : Fin 256, ffnq (enh (k2_pay3 (b0 V c t)) (accAt V c t.val t.isLt).2 (accAt V c t.val t.isLt).1) (b3 V c t) (b4 V c t) (b5 V c t) (b6 V c t) r k
      = Cert.Hyper.ffn (Cert.Hyper.nodeAgg (hgA V c) (EA V c) (fA V c)) (w1A V c) (b1A V c) (w2A V c) (b2A V c) bq (tile vt r) k := fun k => by
    unfold ffnq Cert.Hyper.ffn
    simp only [hy, b3_apply, b4_apply, b5_apply, b6_apply]
  unfold lnq Cert.Hyper.stage3 Cert.Hyper.layerNorm Cert.Hyper.rowMean
  simp only [hq, b7_apply, b8_apply]

/-- What a point that finishes a row block writes back is its block of `G`. -/
theorem flushed_eq (c : Dev nD) (t : Fin cfg2.N) (hf : (cfg2.win 9).flush t = true) :
    (Reg2.dat V c).flushed 9 t = ((cfg2.win 9).blk t).view.read (Elt Ideal) (G V c) := by
  have h7 : t.val % 8 = 7 := (flush2_9 t).mp hf
  have hN : t.val < 512 := lt_of_lt_of_eq t.isLt (show cfg2.N = 512 from N_2)
  obtain ⟨bq, vt, ht⟩ : ∃ (bq vt : Fin 8), t.val = bq.val * 64 + vt.val * 8 + 7 :=
    ⟨⟨t.val / 64, by omega⟩, ⟨t.val / 8 % 8, by omega⟩, by show t.val = t.val / 64 * 64 + t.val / 8 % 8 * 8 + 7; omega⟩
  show (cfg2.win 9).cut (grid2.coords t) ((Reg2.dat V c).after 9 t) = _
  rw [Reg2.after_9]
  unfold Reg2.outAt
  funext j
  obtain ⟨z, r, d, rfl⟩ : ∃ (z : Fin 1) (r : Fin 512) (d : Fin 256), j = ix3 z r d := ⟨j 0, j 1, j 2, eq_ix3 j⟩
  refine (out_apply _ _ _ _ _ _ _ _ _ z r d).trans ?_
  have hemb : ((cfg2.win 9).blk t).view.emb (ix3 z r d) = ix3 bq (tile vt r) d := funext fun a => Fin.ext (by
    obtain ⟨-, -, -, -, -, -, -, -, -, g0, g1, g2⟩ := Sched2.idx_facts t
    have := bq.isLt; have := vt.isLt; have hz : z.val = 0 := by omega
    match a with
    | ⟨0, _⟩ => show win2_9.index t (0 : Fin 3) * 1 + 1 * z.val = bq.val; omega
    | ⟨1, _⟩ => show win2_9.index t (1 : Fin 3) * 512 + 1 * r.val = vt.val * 512 + r.val; omega
    | ⟨2, _⟩ => show win2_9.index t (2 : Fin 3) * 256 + 1 * d.val = d.val; omega)
  show _ = G V c (((cfg2.win 9).blk t).view.emb (ix3 z r d))
  rw [hemb]
  exact epi_eq V c t bq vt ht r d

/-- The array after the region: `G`. -/
theorem final (c : Dev nD) : (Reg2.dat V c).arrAt 9 cfg2.N = G V c :=
  (Reg2.dat V c).arrAt_eq_of_cover 9 (G V c) (fun t hf => flushed_eq V c t hf) Sched2.cover9

/-- The same, read at an index. -/
theorem final_out (V : (c : Dev nD) → (b : Ref sig .tc) → Buf (Elt Ideal) ((c : Thread nD τ).loc b)) (c : Dev nD) (b : Fin 8) (v : Fin 4096) (d : Fin 256) :
    (Reg2.dat (F := Ideal) V c).arrAt 9 cfg2.N (ix3 b v d)
      = Cert.Hyper.stage3 (fun b n k => V c main_v1_1 (ix3 b n k)) (fun b n k => V c main_v1_0 (ix3 b n k)) (fun b n k => V c main_arg1 (ix3 b n k))
          (fun j k => V c main_arg4 (ix2 j k)) (fun j => V c main_arg5 (ix1 j)) (fun d j => V c main_arg6 (ix2 d j)) (fun d => V c main_arg7 (ix1 d))
          (fun d => V c main_arg8 (ix1 d)) (fun d => V c main_arg9 (ix1 d)) b v d := by
  rw [final]; rfl

end Cert.KernelIdeal.Val2

end
-- ==== Proof.KI.Whole.lean ====
/-
  The three regions composed, over the extended reals: the result array the third region leaves is the whole layer of the
  ten launch arguments. The third region's operands are read off the boundary it is entered from: the incidence and the
  hyperedge features are what the second region left (the incidence of the node and hyperedge queries; the normalised
  aggregation of what the first region left, the projected node features), and every argument is as launched.
-/
import proofs.«155549_j32615981646424_2_alg».proof.Proof.KI.Walk
import proofs.«155549_j32615981646424_2_alg».proof.Proof.KI.Val0
import proofs.«155549_j32615981646424_2_alg».proof.Proof.KI.Val1Hg
import proofs.«155549_j32615981646424_2_alg».proof.Proof.KI.Val1
import proofs.«155549_j32615981646424_2_alg».proof.Proof.KI.Val2

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The launch arguments, curried. -/
abbrev aG (c : Dev nD) : Cert.Hyper.A3 256 := fun b n k => m ((c : Thread nD τ).loc main_arg0) (ix3 b n k)
abbrev aF (c : Dev nD) : Cert.Hyper.A3 256 := fun b n k => m ((c : Thread nD τ).loc main_arg1) (ix3 b n k)
abbrev aWfc (c : Dev nD) : Fin 256 → Fin 256 → EReal := fun e k => m ((c : Thread nD τ).loc main_arg2) (ix2 e k)
abbrev aBfc (c : Dev nD) : Fin 256 → EReal := fun e => m ((c : Thread nD τ).loc main_arg3) (ix1 e)
abbrev aW1 (c : Dev nD) : Fin 1024 → Fin 256 → EReal := fun j k => m ((c : Thread nD τ).loc main_arg4) (ix2 j k)
abbrev aB1 (c : Dev nD) : Fin 1024 → EReal := fun j => m ((c : Thread nD τ).loc main_arg5) (ix1 j)
abbrev aW2 (c : Dev nD) : Fin 256 → Fin 1024 → EReal := fun d j => m ((c : Thread nD τ).loc main_arg6) (ix2 d j)
abbrev aB2 (c : Dev nD) : Fin 256 → EReal := fun d => m ((c : Thread nD τ).loc main_arg7) (ix1 d)
abbrev aGain (c : Dev nD) : Fin 256 → EReal := fun d => m ((c : Thread nD τ).loc main_arg8) (ix1 d)
abbrev aBias (c : Dev nD) : Fin 256 → EReal := fun d => m ((c : Thread nD τ).loc main_arg9) (ix1 d)

/-- The projected node features the second region finds. -/
theorem x_eq (c : Dev nD) : (fun b n k => Run.Vb m ρ c main_v0 (ix3 b n k)) = Cert.Hyper.xlin (aF m c) (aWfc m c) (aBfc m c) := by
  funext b n k
  refine (congrFun (Run.Wb_main_v0 m ρ c) _).trans ?_
  exact Val0.final_X (Run.Va m ρ) c b n k

/-- The incidence the third region finds. -/
theorem hg_eq (c : Dev nD) : (fun b n k => Run.Vc m ρ c main_v1_1 (ix3 b n k)) = Cert.Hyper.mask (aF m c) (aG m c) := by
  funext b n k
  refine (congrFun (Run.Wc_main_v1_1 m ρ c) _).trans ?_
  refine (Val1.final_hg (Run.Vb m ρ) c b n k).trans ?_
  rw [show Run.Vb m ρ c main_arg1 = m ((c : Thread nD τ).loc main_arg1) from Run.Wb_main_arg1 m ρ c,
    show Run.Vb m ρ c main_arg0 = m ((c : Thread nD τ).loc main_arg0) from Run.Wb_main_arg0 m ρ c]

/-- The hyperedge features the third region finds. -/
theorem e_eq (c : Dev nD) : (fun b n k => Run.Vc m ρ c main_v1_0 (ix3 b n k))
    = Cert.Hyper.edgeAgg (Cert.Hyper.mask (aF m c) (aG m c)) (Cert.Hyper.xlin (aF m c) (aWfc m c) (aBfc m c)) (aG m c) := by
  funext b n k
  refine (congrFun (Run.Wc_main_v1_0 m ρ c) _).trans ?_
  refine (Val1.final_E (Run.Vb m ρ) c b n k).trans ?_
  rw [x_eq m ρ c, show Run.Vb m ρ c main_arg1 = m ((c : Thread nD τ).loc main_arg1) from Run.Wb_main_arg1 m ρ c,
    show Run.Vb m ρ c main_arg0 = m ((c : Thread nD τ).loc main_arg0) from Run.Wb_main_arg0 m ρ c]

/-- The result array at the end, read at an index, is the layer of the launch arguments. -/
theorem result_eq (c : Dev nD) (b : Fin 8) (v : Fin 4096) (d : Fin 256) :
    Run.Wd m ρ c (Proc.devRef .tc main_v2) (ix3 b v d)
      = Cert.Hyper.layer (aG m c) (aF m c) (aWfc m c) (aBfc m c) (aW1 m c) (aB1 m c) (aW2 m c) (aB2 m c) (aGain m c) (aBias m c) b v d := by
  refine (congrFun (Run.Wd_main_v2 m ρ c) _).trans ?_
  refine (Val2.final_out (Run.Vc m ρ) c b v d).trans ?_
  rw [hg_eq m ρ c, e_eq m ρ c,
    show Run.Vc m ρ c main_arg1 = m ((c : Thread nD τ).loc main_arg1) from Run.Wc_main_arg1 m ρ c,
    show Run.Vc m ρ c main_arg4 = m ((c : Thread nD τ).loc main_arg4) from Run.Wc_main_arg4 m ρ c,
    show Run.Vc m ρ c main_arg5 = m ((c : Thread nD τ).loc main_arg5) from Run.Wc_main_arg5 m ρ c,
    show Run.Vc m ρ c main_arg6 = m ((c : Thread nD τ).loc main_arg6) from Run.Wc_main_arg6 m ρ c,
    show Run.Vc m ρ c main_arg7 = m ((c : Thread nD τ).loc main_arg7) from Run.Wc_main_arg7 m ρ c,
    show Run.Vc m ρ c main_arg8 = m ((c : Thread nD τ).loc main_arg8) from Run.Wc_main_arg8 m ρ c,
    show Run.Vc m ρ c main_arg9 = m ((c : Thread nD τ).loc main_arg9) from Run.Wc_main_arg9 m ρ c]
  rfl

end Cert.KernelIdeal.Whole

end
-- ==== Proof.RefIdx.lean ====
/-
  The reference's index maps at coordinates. Every layout operation, sum and contraction of the reference reads its
  operand at an index computed from the result's index; at an index given by its coordinates each of these is again
  an index given by coordinates:
    * a sum over the last axis reads (b, v, k) for the result's (b, v);
    * a keep-dimension column [8, 4096, 1] reads (b, v), and a row [8, 1, 4096] reads (b, e);
    * a contraction reads its left operand at the result's row and its right operand at the result's column;
    * the transpose of the incidence swaps the node and the hyperedge;
    * a bias [n] spread over [8, 4096, n] reads its last coordinate.
  Also the arrays read curried, as the specification takes them.
-/
import proofs.«155549_j32615981646424_2_alg».proof.Proof.RefReadP
import Idealize.ShloMosaic.Lib.ValueIdx

noncomputable section

namespace Cert.RefSide

open Cert.ReferenceIdeal Cert.ReferenceIdeal.ReadP Idealize.ShloMosaic Idealize.ShloMosaic.ValueIdx

/-- A rank-3 array read by its three coordinates. -/
abbrev cur3 {n0 n1 n2 : Nat} (x : (⟨3, ![n0, n1, n2]⟩ : Shape).Idx → EReal) : Fin n0 → Fin n1 → Fin n2 → EReal :=
  fun a b c => x (ix3 a b c)
/-- A matrix read by its two coordinates. -/
abbrev cur2 {n0 n1 : Nat} (x : (⟨2, ![n0, n1]⟩ : Shape).Idx → EReal) : Fin n0 → Fin n1 → EReal :=
  fun a b => x (ix2 a b)
/-- A vector read by its coordinate. -/
abbrev cur1 {n0 : Nat} (x : (⟨1, ![n0]⟩ : Shape).Idx → EReal) : Fin n0 → EReal :=
  fun a => x (ix1 a)

theorem idx_v1_at (b : Fin 8) (v : Fin 4096) (k : Fin 256) : idx_main_v1 (ix2 b v) k = ix3 b v k :=
  funext fun a => Fin.ext (by match a with | ⟨0, _⟩ => rfl | ⟨1, _⟩ => rfl | ⟨2, _⟩ => rfl)

theorem idx_v4_at (b : Fin 8) (v : Fin 4096) (k : Fin 256) : idx_main_v4 (ix2 b v) k = ix3 b v k :=
  funext fun a => Fin.ext (by match a with | ⟨0, _⟩ => rfl | ⟨1, _⟩ => rfl | ⟨2, _⟩ => rfl)

theorem idx_v56_at (b : Fin 8) (v : Fin 4096) (k : Fin 256) : idx_main_v56 (ix2 b v) k = ix3 b v k :=
  funext fun a => Fin.ext (by match a with | ⟨0, _⟩ => rfl | ⟨1, _⟩ => rfl | ⟨2, _⟩ => rfl)

theorem idx_v63_at (b : Fin 8) (v : Fin 4096) (k : Fin 256) : idx_main_v63 (ix2 b v) k = ix3 b v k :=
  funext fun a => Fin.ext (by match a with | ⟨0, _⟩ => rfl | ⟨1, _⟩ => rfl | ⟨2, _⟩ => rfl)

theorem idx_v25_at (b : Fin 8) (v : Fin 4096) (k : Fin 4096) : idx_main_v25 (ix2 b v) k = ix3 b v k :=
  funext fun a => Fin.ext (by match a with | ⟨0, _⟩ => rfl | ⟨1, _⟩ => rfl | ⟨2, _⟩ => rfl)

theorem idx_v36_at (b : Fin 8) (v : Fin 4096) (k : Fin 4096) : idx_main_v36 (ix2 b v) k = ix3 b v k :=
  funext fun a => Fin.ext (by match a with | ⟨0, _⟩ => rfl | ⟨1, _⟩ => rfl | ⟨2, _⟩ => rfl)

theorem idx_v2_at (b : Fin 8) (v : Fin 4096) (z : Fin 1) : idx_main_v2 (ix3 b v z) = ix2 b v :=
  funext fun a => Fin.ext (by match a with | ⟨0, _⟩ => rfl | ⟨1, _⟩ => rfl)

theorem idx_v26_at (b : Fin 8) (v : Fin 4096) (z : Fin 1) : idx_main_v26 (ix3 b v z) = ix2 b v :=
  funext fun a => Fin.ext (by match a with | ⟨0, _⟩ => rfl | ⟨1, _⟩ => rfl)

theorem idx_v37_at (b : Fin 8) (v : Fin 4096) (z : Fin 1) : idx_main_v37 (ix3 b v z) = ix2 b v :=
  funext fun a => Fin.ext (by match a with | ⟨0, _⟩ => rfl | ⟨1, _⟩ => rfl)

theorem idx_v57_at (b : Fin 8) (v : Fin 4096) (z : Fin 1) : idx_main_v57 (ix3 b v z) = ix2 b v :=
  funext fun a => Fin.ext (by match a with | ⟨0, _⟩ => rfl | ⟨1, _⟩ => rfl)

theorem idx_v64_at (b : Fin 8) (v : Fin 4096) (z : Fin 1) : idx_main_v64 (ix3 b v z) = ix2 b v :=
  funext fun a => Fin.ext (by match a with | ⟨0, _⟩ => rfl | ⟨1, _⟩ => rfl)

theorem idx_v5_at (b : Fin 8) (z : Fin 1) (e : Fin 4096) : idx_main_v5 (ix3 b z e) = ix2 b e :=
  funext fun a => Fin.ext (by match a with | ⟨0, _⟩ => rfl | ⟨1, _⟩ => rfl)

theorem idx_v6_at (b : Fin 8) (v e : Fin 4096) : idx_main_v6 (ix3 b v e) = ix3 b v (0 : Fin 1) :=
  funext fun a => Fin.ext (by match a with | ⟨0, _⟩ => rfl | ⟨1, _⟩ => rfl | ⟨2, _⟩ => rfl)

theorem idx_v7_at (b : Fin 8) (v e : Fin 4096) : idx_main_v7 (ix3 b v e) = ix3 b (0 : Fin 1) e :=
  funext fun a => Fin.ext (by match a with | ⟨0, _⟩ => rfl | ⟨1, _⟩ => rfl | ⟨2, _⟩ => rfl)

theorem lidx_v9_at (b : Fin 8) (v e : Fin 4096) (k : Fin 256) : lidx_main_v9 (ix3 b v e) k = ix3 b v k :=
  funext fun a => Fin.ext (by match a with | ⟨0, _⟩ => rfl | ⟨1, _⟩ => rfl | ⟨2, _⟩ => rfl)

theorem ridx_v9_at (b : Fin 8) (v e : Fin 4096) (k : Fin 256) : ridx_main_v9 (ix3 b v e) k = ix3 b e k :=
  funext fun a => Fin.ext (by match a with | ⟨0, _⟩ => rfl | ⟨1, _⟩ => rfl | ⟨2, _⟩ => rfl)

theorem lidx_v19_at (b : Fin 8) (n : Fin 4096) (e k : Fin 256) : lidx_main_v19 (ix3 b n e) k = ix3 b n k :=
  funext fun a => Fin.ext (by match a with | ⟨0, _⟩ => rfl | ⟨1, _⟩ => rfl | ⟨2, _⟩ => rfl)

theorem ridx_v19_at (b : Fin 8) (n : Fin 4096) (e k : Fin 256) : ridx_main_v19 (ix3 b n e) k = ix2 e k :=
  funext fun a => Fin.ext (by match a with | ⟨0, _⟩ => rfl | ⟨1, _⟩ => rfl)

theorem idx_v20_at (y z : Fin 1) (e : Fin 256) : idx_main_v20 (ix3 y z e) = ix1 e :=
  funext fun a => Fin.ext (by match a with | ⟨0, _⟩ => rfl)

theorem idx_v21_at (b : Fin 8) (n : Fin 4096) (e : Fin 256) : idx_main_v21 (ix3 b n e) = ix3 (0 : Fin 1) (0 : Fin 1) e :=
  funext fun a => Fin.ext (by match a with | ⟨0, _⟩ => rfl | ⟨1, _⟩ => rfl | ⟨2, _⟩ => rfl)

theorem idx_v47_at (y z : Fin 1) (e : Fin 1024) : idx_main_v47 (ix3 y z e) = ix1 e :=
  funext fun a => Fin.ext (by match a with | ⟨0, _⟩ => rfl)

theorem idx_v48_at (b : Fin 8) (n : Fin 4096) (e : Fin 1024) : idx_main_v48 (ix3 b n e) = ix3 (0 : Fin 1) (0 : Fin 1) e :=
  funext fun a => Fin.ext (by match a with | ⟨0, _⟩ => rfl | ⟨1, _⟩ => rfl | ⟨2, _⟩ => rfl)

theorem idx_v52_at (y z : Fin 1) (e : Fin 256) : idx_main_v52 (ix3 y z e) = ix1 e :=
  funext fun a => Fin.ext (by match a with | ⟨0, _⟩ => rfl)

theorem idx_v53_at (b : Fin 8) (n : Fin 4096) (e : Fin 256) : idx_main_v53 (ix3 b n e) = ix3 (0 : Fin 1) (0 : Fin 1) e :=
  funext fun a => Fin.ext (by match a with | ⟨0, _⟩ => rfl | ⟨1, _⟩ => rfl | ⟨2, _⟩ => rfl)

theorem idx_v74_at (y z : Fin 1) (e : Fin 256) : idx_main_v74 (ix3 y z e) = ix1 e :=
  funext fun a => Fin.ext (by match a with | ⟨0, _⟩ => rfl)

theorem idx_v75_at (b : Fin 8) (n : Fin 4096) (e : Fin 256) : idx_main_v75 (ix3 b n e) = ix3 (0 : Fin 1) (0 : Fin 1) e :=
  funext fun a => Fin.ext (by match a with | ⟨0, _⟩ => rfl | ⟨1, _⟩ => rfl | ⟨2, _⟩ => rfl)

theorem idx_v77_at (y z : Fin 1) (e : Fin 256) : idx_main_v77 (ix3 y z e) = ix1 e :=
  funext fun a => Fin.ext (by match a with | ⟨0, _⟩ => rfl)

theorem idx_v78_at (b : Fin 8) (n : Fin 4096) (e : Fin 256) : idx_main_v78 (ix3 b n e) = ix3 (0 : Fin 1) (0 : Fin 1) e :=
  funext fun a => Fin.ext (by match a with | ⟨0, _⟩ => rfl | ⟨1, _⟩ => rfl | ⟨2, _⟩ => rfl)

theorem idx_v23_at (b : Fin 8) (e v : Fin 4096) : idx_main_v23 (ix3 b e v) = ix3 b v e :=
  funext fun a => Fin.ext (by match a with | ⟨0, _⟩ => rfl | ⟨1, _⟩ => rfl | ⟨2, _⟩ => rfl)

theorem lidx_v24_at (b : Fin 8) (r : Fin 4096) (d : Fin 256) (k : Fin 4096) : lidx_main_v24 (ix3 b r d) k = ix3 b r k :=
  funext fun a => Fin.ext (by match a with | ⟨0, _⟩ => rfl | ⟨1, _⟩ => rfl | ⟨2, _⟩ => rfl)

theorem ridx_v24_at (b : Fin 8) (r : Fin 4096) (d : Fin 256) (k : Fin 4096) : ridx_main_v24 (ix3 b r d) k = ix3 b k d :=
  funext fun a => Fin.ext (by match a with | ⟨0, _⟩ => rfl | ⟨1, _⟩ => rfl | ⟨2, _⟩ => rfl)

theorem lidx_v35_at (b : Fin 8) (r : Fin 4096) (d : Fin 256) (k : Fin 4096) : lidx_main_v35 (ix3 b r d) k = ix3 b r k :=
  funext fun a => Fin.ext (by match a with | ⟨0, _⟩ => rfl | ⟨1, _⟩ => rfl | ⟨2, _⟩ => rfl)

theorem ridx_v35_at (b : Fin 8) (r : Fin 4096) (d : Fin 256) (k : Fin 4096) : ridx_main_v35 (ix3 b r d) k = ix3 b k d :=
  funext fun a => Fin.ext (by match a with | ⟨0, _⟩ => rfl | ⟨1, _⟩ => rfl | ⟨2, _⟩ => rfl)

theorem idx_v32_at (b : Fin 8) (r : Fin 4096) (d : Fin 256) : idx_main_v32 (ix3 b r d) = ix3 b r (0 : Fin 1) :=
  funext fun a => Fin.ext (by match a with | ⟨0, _⟩ => rfl | ⟨1, _⟩ => rfl | ⟨2, _⟩ => rfl)

theorem idx_v43_at (b : Fin 8) (r : Fin 4096) (d : Fin 256) : idx_main_v43 (ix3 b r d) = ix3 b r (0 : Fin 1) :=
  funext fun a => Fin.ext (by match a with | ⟨0, _⟩ => rfl | ⟨1, _⟩ => rfl | ⟨2, _⟩ => rfl)

theorem idx_v60_at (b : Fin 8) (r : Fin 4096) (d : Fin 256) : idx_main_v60 (ix3 b r d) = ix3 b r (0 : Fin 1) :=
  funext fun a => Fin.ext (by match a with | ⟨0, _⟩ => rfl | ⟨1, _⟩ => rfl | ⟨2, _⟩ => rfl)

theorem idx_v67_at (b : Fin 8) (r : Fin 4096) (d : Fin 256) : idx_main_v67 (ix3 b r d) = ix3 b r (0 : Fin 1) :=
  funext fun a => Fin.ext (by match a with | ⟨0, _⟩ => rfl | ⟨1, _⟩ => rfl | ⟨2, _⟩ => rfl)

theorem idx_v72_at (b : Fin 8) (r : Fin 4096) (d : Fin 256) : idx_main_v72 (ix3 b r d) = ix3 b r (0 : Fin 1) :=
  funext fun a => Fin.ext (by match a with | ⟨0, _⟩ => rfl | ⟨1, _⟩ => rfl | ⟨2, _⟩ => rfl)

theorem lidx_v46_at (b : Fin 8) (v : Fin 4096) (j : Fin 1024) (k : Fin 256) : lidx_main_v46 (ix3 b v j) k = ix3 b v k :=
  funext fun a => Fin.ext (by match a with | ⟨0, _⟩ => rfl | ⟨1, _⟩ => rfl | ⟨2, _⟩ => rfl)

theorem ridx_v46_at (b : Fin 8) (v : Fin 4096) (j : Fin 1024) (k : Fin 256) : ridx_main_v46 (ix3 b v j) k = ix2 j k :=
  funext fun a => Fin.ext (by match a with | ⟨0, _⟩ => rfl | ⟨1, _⟩ => rfl)

theorem lidx_v51_at (b : Fin 8) (v : Fin 4096) (d : Fin 256) (j : Fin 1024) : lidx_main_v51 (ix3 b v d) j = ix3 b v j :=
  funext fun a => Fin.ext (by match a with | ⟨0, _⟩ => rfl | ⟨1, _⟩ => rfl | ⟨2, _⟩ => rfl)

theorem ridx_v51_at (b : Fin 8) (v : Fin 4096) (d : Fin 256) (j : Fin 1024) : ridx_main_v51 (ix3 b v d) j = ix2 d j :=
  funext fun a => Fin.ext (by match a with | ⟨0, _⟩ => rfl | ⟨1, _⟩ => rfl)

end Cert.RefSide

end
-- ==== Proof.RefLaws.lean ====
/-
  The laws on the extended reals by which the reference's spelling of the incidence and of the guarded reciprocal
  of a count agrees with the specification's.

    * The incidence. The reference thresholds the distance, the square root of the squared distance clamped at zero,
      against 23; the specification thresholds the squared distance itself against 529 = 23². For every extended
      real `s`: √(max s 0) < 23 ↔ s < 529. At -∞ the clamp gives 0 and both sides hold; at +∞ the root is +∞ and
      both fail; on the reals the root is strictly monotone on the non-negatives.
    * A comparison's bit read as a float is the indicator of the comparison.
    * The reciprocal of a count. The reference has `1 / d` where `0 < d` and `0` elsewhere; the specification
      divides by `max d 1`. A count is a natural number, so `0 < d` gives `1 ≤ d` and `max d 1 = d`.
      A finite sum of indicators is a natural number.
-/
import Idealize.ShloMosaic.PureOps.Ideal.Laws
import proofs.«155549_j32615981646424_2_alg».proof.Proof.Spec

noncomputable section

open scoped BigOperators

namespace Cert.RefSide

open Idealize.ShloMosaic

/-! ## The three literals -/

/-- The word of `23.0` denotes the real 23. -/
theorem ofBits_23 : Ideal.ofBits .f32 0x41B80000#32 = ((23 : ℝ) : EReal) := by
  simp [Ideal.ofBits, Ideal.ieee, -EReal.coe_mul]; norm_num

/-- The word of `529.0` denotes the real 529. -/
theorem ofBits_529 : Ideal.ofBits .f32 0x44044000#32 = ((529 : ℝ) : EReal) := by
  simp [Ideal.ofBits, Ideal.ieee, -EReal.coe_mul]; norm_num

/-- The word of `1.0` denotes 1. -/
theorem ofBits_one : Ideal.ofBits .f32 0x3F800000#32 = 1 := by
  simp [Ideal.ofBits, Ideal.ieee, -EReal.coe_mul]; norm_num

/-! ## The incidence -/

/-- Thresholding the clamped root against 23 is thresholding the squared distance against 529. -/
theorem sqrt_max_lt_iff (s : EReal) :
    Ideal.sqrt (max s 0) < Ideal.ofBits .f32 0x41B80000#32 ↔ s < Ideal.ofBits .f32 0x44044000#32 := by
  rw [ofBits_23, ofBits_529]
  induction s using EReal.rec with
  | bot =>
    have h0 : max (⊥ : EReal) 0 = ((0 : ℝ) : EReal) := by rw [max_eq_right bot_le]; rfl
    rw [h0, Ideal.sqrt_coe, if_neg (lt_irrefl _), Real.sqrt_zero]
    exact ⟨fun _ => EReal.bot_lt_coe _, fun _ => EReal.coe_lt_coe_iff.mpr (by norm_num)⟩
  | top =>
    rw [max_eq_left le_top, Ideal.sqrt_top]
    exact ⟨fun h => absurd h (not_top_lt), fun h => absurd h (not_top_lt)⟩
  | coe r =>
    have h0 : max ((r : ℝ) : EReal) 0 = ((max r 0 : ℝ) : EReal) := by
      rw [← EReal.coe_zero]; exact (EReal.coe_strictMono.monotone.map_max).symm
    rw [h0, Ideal.sqrt_coe, if_neg (not_lt.mpr (le_max_right r 0)), EReal.coe_lt_coe_iff, EReal.coe_lt_coe_iff,
      Real.sqrt_lt' (by norm_num : (0 : ℝ) < 23), max_lt_iff]
    constructor
    · intro h; have := h.1; norm_num at this; exact this
    · intro h; exact ⟨by norm_num; exact h, by norm_num⟩

/-- A comparison's bit, read as a float, is the comparison's indicator. -/
theorem uitofp_cmp_olt (x y : EReal) :
    FloatOps.uitofp (F := Ideal) .f32 (Ideal.cmp .olt x y) = if x < y then 1 else 0 := by
  by_cases h : x < y
  · rw [if_pos h]; show (((BitVec.ofBool (decide (x < y))).toNat : ℝ) : EReal) = 1
    rw [decide_eq_true h]; simp
  · rw [if_neg h]; show (((BitVec.ofBool (decide (x < y))).toNat : ℝ) : EReal) = 0
    rw [decide_eq_false h]; simp

/-! ## The reciprocal of a count -/

/-- An extended real that is a natural number. -/
def IsCount (x : EReal) : Prop := ∃ n : ℕ, x = ((n : ℝ) : EReal)

theorem isCount_zero : IsCount 0 := ⟨0, by simp⟩

theorem isCount_add {x y : EReal} (hx : IsCount x) (hy : IsCount y) : IsCount (x + y) := by
  obtain ⟨n, rfl⟩ := hx
  obtain ⟨k, rfl⟩ := hy
  exact ⟨n + k, by rw [Nat.cast_add, EReal.coe_add]⟩

/-- An indicator is a count. -/
theorem isCount_ite (p : Prop) [Decidable p] : IsCount (if p then 1 else 0) := by
  split
  · exact ⟨1, by simp⟩
  · exact isCount_zero

/-- A finite sum of counts is a count. -/
theorem isCount_sum {ι : Type*} (s : Finset ι) (f : ι → EReal) (h : ∀ i, IsCount (f i)) : IsCount (∑ i ∈ s, f i) :=
  Finset.sum_induction f IsCount (fun _ _ => isCount_add) isCount_zero (fun i _ => h i)

/-- The incidence's entries are indicators, so its row and column sums are counts. -/
theorem isCount_mask_col (f g : Cert.Hyper.A3 256) (b : Fin 8) (e : Fin 4096) :
    IsCount (∑ v : Fin 4096, Cert.Hyper.mask f g b v e) :=
  isCount_sum _ _ fun _ => isCount_ite _

theorem isCount_mask_row (f g : Cert.Hyper.A3 256) (b : Fin 8) (v : Fin 4096) :
    IsCount (∑ e : Fin 4096, Cert.Hyper.mask f g b v e) :=
  isCount_sum _ _ fun _ => isCount_ite _

/-- On a count the reference's guarded reciprocal, `1 / d` where `0 < d` and `0` elsewhere, is the specification's
    `Cert.Hyper.norm`: a positive count is at least 1, so `max d 1 = d`. -/
theorem select_div_eq_norm {d : EReal} (hd : IsCount d) :
    Scalar.select (Ideal.cmp .ogt d 0) (Ideal.div (Ideal.ofBits .f32 0x3F800000#32) d) 0 = Cert.Hyper.norm d := by
  obtain ⟨n, rfl⟩ := hd
  unfold Cert.Hyper.norm Scalar.select
  by_cases h : (0 : EReal) < ((n : ℝ) : EReal)
  · have hc : Ideal.cmp .ogt ((n : ℝ) : EReal) 0 = 1 := by
      show BitVec.ofBool (decide ((0 : EReal) < ((n : ℝ) : EReal))) = 1
      rw [decide_eq_true h]; rfl
    have h1 : (1 : ℝ) ≤ (n : ℝ) := by
      have : (0 : ℝ) < (n : ℝ) := by rwa [← EReal.coe_zero, EReal.coe_lt_coe_iff] at h
      exact_mod_cast Nat.one_le_cast.mpr (Nat.pos_of_ne_zero (by rintro rfl; simp at this))
    have hm : max ((n : ℝ) : EReal) (Ideal.ofBits .f32 0x3F800000#32) = ((n : ℝ) : EReal) := by
      rw [ofBits_one, ← EReal.coe_one]; exact max_eq_left (EReal.coe_le_coe_iff.mpr h1)
    rw [hc, if_pos rfl, if_pos h, hm]
  · have hc : Ideal.cmp .ogt ((n : ℝ) : EReal) 0 = 0 := by
      show BitVec.ofBool (decide ((0 : EReal) < ((n : ℝ) : EReal))) = 0
      rw [decide_eq_false h]; rfl
    rw [hc, if_neg (by decide), if_neg h]

end Cert.RefSide

end
-- ==== Proof.RefMask.lean ====
/-
  The reference's incidence is the specification's. With `f` the node queries (the second argument) and `g` the
  hyperedge queries (the first), the reference forms ‖f_v‖² and ‖g_e‖² as sums of squares over the feature axis, spreads
  them over the (node, hyperedge) grid, subtracts twice the inner product ⟨f_v, g_e⟩ — the specification's squared
  distance, term for term, once a sum's initial value 0 is dropped — and then thresholds the clamped root against 23,
  where the specification thresholds the squared distance against 529.
-/
import proofs.«155549_j32615981646424_2_alg».proof.Proof.RefIdx
import proofs.«155549_j32615981646424_2_alg».proof.Proof.RefLaws

noncomputable section

open scoped BigOperators

namespace Cert.RefSide

open Cert.ReferenceIdeal Cert.ReferenceIdeal.ReadP Idealize.ShloMosaic Idealize.ShloMosaic.ValueIdx

variable (x0 x1 : (⟨S8x4096x256, .f32⟩ : BufTy).Contents (Elt Ideal))

/-- ‖f_v‖²: the node queries' squares summed over the features. -/
theorem sumsq_node_at (b : Fin 8) (v : Fin 4096) :
    val_main_v1 (F := Ideal) x1 (ix2 b v) = ∑ k : Fin 256, x1 (ix3 b v k) * x1 (ix3 b v k) := by
  rw [val_main_v1_apply, val_main_cst_apply, Ideal.ofBits_def, Ideal.ofBits_zero_f32, zero_add]
  exact Finset.sum_congr rfl fun k _ => by rw [idx_v1_at, val_main_v0_apply, Ideal.mulf_def]

/-- ‖g_e‖²: the hyperedge queries' squares summed over the features. -/
theorem sumsq_edge_at (b : Fin 8) (e : Fin 4096) :
    val_main_v4 (F := Ideal) x0 (ix2 b e) = ∑ k : Fin 256, x0 (ix3 b e k) * x0 (ix3 b e k) := by
  rw [val_main_v4_apply, val_main_cst_0_apply, Ideal.ofBits_def, Ideal.ofBits_zero_f32, zero_add]
  exact Finset.sum_congr rfl fun k _ => by rw [idx_v4_at, val_main_v3_apply, Ideal.mulf_def]

/-- ‖f_v‖² spread along the hyperedges. -/
theorem sumsq_node_grid_at (b : Fin 8) (v e : Fin 4096) :
    val_main_v6 (F := Ideal) x1 (ix3 b v e) = ∑ k : Fin 256, x1 (ix3 b v k) * x1 (ix3 b v k) := by
  rw [val_main_v6_apply, idx_v6_at, val_main_v2_apply, idx_v2_at, sumsq_node_at]

/-- ‖g_e‖² spread along the nodes. -/
theorem sumsq_edge_grid_at (b : Fin 8) (v e : Fin 4096) :
    val_main_v7 (F := Ideal) x0 (ix3 b v e) = ∑ k : Fin 256, x0 (ix3 b e k) * x0 (ix3 b e k) := by
  rw [val_main_v7_apply, idx_v7_at, val_main_v5_apply, idx_v5_at, sumsq_edge_at]

/-- ⟨f_v, g_e⟩: the contraction over the features, node on the left. -/
theorem inner_at (b : Fin 8) (v e : Fin 4096) :
    val_main_v9 (F := Ideal) x0 x1 (ix3 b v e) = ∑ k : Fin 256, x1 (ix3 b v k) * x0 (ix3 b e k) := by
  rw [val_main_v9_apply]
  exact Finset.sum_congr rfl fun k _ => by rw [lidx_v9_at, ridx_v9_at]

/-- The reference's squared distance is the specification's. -/
theorem sqd_at (b : Fin 8) (v e : Fin 4096) :
    val_main_v12 (F := Ideal) x0 x1 (ix3 b v e) = Cert.Hyper.sqd (cur3 x1) (cur3 x0) b v e := by
  rw [val_main_v12_apply, val_main_v8_apply, val_main_v11_apply, sumsq_node_grid_at, sumsq_edge_grid_at, inner_at,
    val_main_v10_apply, val_main_cst_1_apply]
  rfl

/-- The reference's incidence — the clamped root of the squared distance below 23, as a float — is the
    specification's: the squared distance below 529. -/
theorem mask_at (b : Fin 8) (v e : Fin 4096) :
    val_main_v18 (F := Ideal) x0 x1 (ix3 b v e) = Cert.Hyper.mask (cur3 x1) (cur3 x0) b v e := by
  rw [val_main_v18_apply, val_main_v17_apply, val_main_v15_apply, val_main_v14_apply, sqd_at, val_main_v13_apply,
    val_main_cst_2_apply, val_main_v16_apply, val_main_cst_3_apply]
  show FloatOps.uitofp (F := Ideal) .f32 (Ideal.cmp .olt
      (Ideal.sqrt (max (Cert.Hyper.sqd (cur3 x1) (cur3 x0) b v e) (Ideal.ofBits .f32 0x00000000#32)))
      (Ideal.ofBits .f32 0x41B80000#32)) = _
  rw [Ideal.ofBits_zero_f32, uitofp_cmp_olt]
  exact if_congr (sqrt_max_lt_iff _) rfl rfl

/-- The transposed incidence swaps the node and the hyperedge. -/
theorem mask_t_at (b : Fin 8) (e v : Fin 4096) :
    val_main_v23 (F := Ideal) x0 x1 (ix3 b e v) = Cert.Hyper.mask (cur3 x1) (cur3 x0) b v e := by
  rw [val_main_v23_apply, idx_v23_at, mask_at]

end Cert.RefSide

end
-- ==== Proof.RefLin.lean ====
/-
  The reference's projected node features are the specification's: the contraction of the node queries with the
  projection's rows over the features, plus the bias spread over batch and nodes.
-/
import proofs.«155549_j32615981646424_2_alg».proof.Proof.RefIdx
import proofs.«155549_j32615981646424_2_alg».proof.Proof.Spec

noncomputable section

open scoped BigOperators

namespace Cert.RefSide

open Cert.ReferenceIdeal Cert.ReferenceIdeal.ReadP Idealize.ShloMosaic Idealize.ShloMosaic.ValueIdx

variable (x1 : (⟨S8x4096x256, .f32⟩ : BufTy).Contents (Elt Ideal)) (x2 : (⟨S256x256, .f32⟩ : BufTy).Contents (Elt Ideal)) (x3 : (⟨S256, .f32⟩ : BufTy).Contents (Elt Ideal))

/-- `f · W_fcᵀ + b_fc` at (b, n, e). -/
theorem xlin_at (b : Fin 8) (n : Fin 4096) (e : Fin 256) :
    val_main_v22 (F := Ideal) x1 x2 x3 (ix3 b n e) = Cert.Hyper.xlin (cur3 x1) (cur2 x2) (cur1 x3) b n e := by
  rw [val_main_v22_apply, val_main_v19_apply, val_main_v21_apply, idx_v21_at, val_main_v20_apply, idx_v20_at]
  show (∑ k : Fin 256, x1 (lidx_main_v19 (ix3 b n e) k) * x2 (ridx_main_v19 (ix3 b n e) k)) + x3 (ix1 e) = _
  exact congrArg (· + x3 (ix1 e)) (Finset.sum_congr rfl fun k _ => by rw [lidx_v19_at, ridx_v19_at])

end Cert.RefSide

end
-- ==== Proof.RefAgg.lean ====
/-
  The reference's two mean aggregations are the specification's.

  A hyperedge's feature: the reference contracts the TRANSPOSED incidence with the projected node features over the
  nodes, counts the hyperedge's nodes by summing the transposed incidence's row, takes `1 / count` where the count is
  positive and `0` elsewhere, multiplies (reciprocal on the left) and adds the hyperedge's query. The specification sums
  over the node index with the hyperedge fixed, has the reciprocal on the right (commutativity of the product) and
  divides by `max count 1`: the count is a sum of indicators, a natural number, so the two reciprocals agree.
  A node's enhanced feature: the same with the incidence itself, over the hyperedges, from the hyperedge features.
-/
import proofs.«155549_j32615981646424_2_alg».proof.Proof.RefMask
import proofs.«155549_j32615981646424_2_alg».proof.Proof.RefLin

noncomputable section

open scoped BigOperators

namespace Cert.RefSide

open Cert.ReferenceIdeal Cert.ReferenceIdeal.ReadP Idealize.ShloMosaic Idealize.ShloMosaic.ValueIdx

variable (x0 x1 : (⟨S8x4096x256, .f32⟩ : BufTy).Contents (Elt Ideal)) (x2 : (⟨S256x256, .f32⟩ : BufTy).Contents (Elt Ideal)) (x3 : (⟨S256, .f32⟩ : BufTy).Contents (Elt Ideal))

/-- The incidence, as the specification has it from the two query arrays. -/
abbrev inc : Cert.Hyper.A3 4096 := Cert.Hyper.mask (cur3 x1) (cur3 x0)
/-- The hyperedge features, as the specification has them. -/
abbrev edgeFeat : Cert.Hyper.A3 256 :=
  Cert.Hyper.edgeAgg (inc x0 x1) (Cert.Hyper.xlin (cur3 x1) (cur2 x2) (cur1 x3)) (cur3 x0)

/-! ## Hyperedges from nodes -/

/-- A hyperedge's node count. -/
theorem edge_count_at (b : Fin 8) (e : Fin 4096) :
    val_main_v25 (F := Ideal) x0 x1 (ix2 b e) = ∑ v : Fin 4096, inc x0 x1 b v e := by
  rw [val_main_v25_apply, val_main_cst_4_apply, Ideal.ofBits_def, Ideal.ofBits_zero_f32, zero_add]
  exact Finset.sum_congr rfl fun k _ => by rw [idx_v25_at, mask_t_at]

/-- The sum over a hyperedge's nodes of the projected node features. -/
theorem edge_sum_at (b : Fin 8) (e : Fin 4096) (d : Fin 256) :
    val_main_v24 (F := Ideal) x0 x1 x2 x3 (ix3 b e d)
      = ∑ v : Fin 4096, inc x0 x1 b v e * Cert.Hyper.xlin (cur3 x1) (cur2 x2) (cur1 x3) b v d := by
  rw [val_main_v24_apply]
  exact Finset.sum_congr rfl fun k _ => by rw [lidx_v24_at, ridx_v24_at, mask_t_at, xlin_at]

/-- The guarded reciprocal of a hyperedge's node count, spread over the features. -/
theorem edge_norm_at (b : Fin 8) (e : Fin 4096) (d : Fin 256) :
    val_main_v32 (F := Ideal) x0 x1 (ix3 b e d) = Cert.Hyper.norm (∑ v : Fin 4096, inc x0 x1 b v e) := by
  rw [val_main_v32_apply, idx_v32_at, val_main_v31_apply, val_main_v28_apply, val_main_v30_apply, val_main_v26_apply,
    idx_v26_at, edge_count_at, val_main_v27_apply, val_main_cst_5_apply, val_main_v29_apply, val_main_cst_6_apply,
    val_main_call0_v1_apply, val_main_call0_v0_apply, val_main_cst_7_apply]
  show Scalar.select (Ideal.cmp .ogt (∑ v : Fin 4096, inc x0 x1 b v e) (Ideal.ofBits .f32 0x00000000#32))
      (Ideal.div (Ideal.ofBits .f32 0x3F800000#32) (∑ v : Fin 4096, inc x0 x1 b v e))
      (Ideal.ofBits .f32 0x00000000#32) = _
  rw [Ideal.ofBits_zero_f32]
  exact select_div_eq_norm (isCount_mask_col _ _ b e)

/-- The reference's hyperedge features are the specification's. -/
theorem edge_feat_at (b : Fin 8) (e : Fin 4096) (d : Fin 256) :
    val_main_v34 (F := Ideal) x0 x1 x2 x3 (ix3 b e d) = edgeFeat x0 x1 x2 x3 b e d := by
  rw [val_main_v34_apply, val_main_v33_apply, edge_norm_at, edge_sum_at, Ideal.addf_def, Ideal.mulf_def,
    mul_comm (Cert.Hyper.norm _) _]
  rfl

/-! ## Nodes from hyperedges -/

/-- A node's hyperedge count. -/
theorem node_count_at (b : Fin 8) (v : Fin 4096) :
    val_main_v36 (F := Ideal) x0 x1 (ix2 b v) = ∑ e : Fin 4096, inc x0 x1 b v e := by
  rw [val_main_v36_apply, val_main_cst_8_apply, Ideal.ofBits_def, Ideal.ofBits_zero_f32, zero_add]
  exact Finset.sum_congr rfl fun k _ => by rw [idx_v36_at, mask_at]

/-- The sum over a node's hyperedges of the hyperedge features. -/
theorem node_sum_at (b : Fin 8) (v : Fin 4096) (d : Fin 256) :
    val_main_v35 (F := Ideal) x0 x1 x2 x3 (ix3 b v d)
      = ∑ e : Fin 4096, inc x0 x1 b v e * edgeFeat x0 x1 x2 x3 b e d := by
  rw [val_main_v35_apply]
  exact Finset.sum_congr rfl fun k _ => by rw [lidx_v35_at, ridx_v35_at, mask_at, edge_feat_at]

/-- The guarded reciprocal of a node's hyperedge count, spread over the features. -/
theorem node_norm_at (b : Fin 8) (v : Fin 4096) (d : Fin 256) :
    val_main_v43 (F := Ideal) x0 x1 (ix3 b v d) = Cert.Hyper.norm (∑ e : Fin 4096, inc x0 x1 b v e) := by
  rw [val_main_v43_apply, idx_v43_at, val_main_v42_apply, val_main_v39_apply, val_main_v41_apply, val_main_v37_apply,
    idx_v37_at, node_count_at, val_main_v38_apply, val_main_cst_9_apply, val_main_v40_apply, val_main_cst_10_apply,
    val_main_call1_v1_apply, val_main_call1_v0_apply, val_main_cst_11_apply]
  show Scalar.select (Ideal.cmp .ogt (∑ e : Fin 4096, inc x0 x1 b v e) (Ideal.ofBits .f32 0x00000000#32))
      (Ideal.div (Ideal.ofBits .f32 0x3F800000#32) (∑ e : Fin 4096, inc x0 x1 b v e))
      (Ideal.ofBits .f32 0x00000000#32) = _
  rw [Ideal.ofBits_zero_f32]
  exact select_div_eq_norm (isCount_mask_row _ _ b v)

/-- The reference's enhanced node features are the specification's. -/
theorem node_feat_at (b : Fin 8) (v : Fin 4096) (d : Fin 256) :
    val_main_v45 (F := Ideal) x0 x1 x2 x3 (ix3 b v d)
      = Cert.Hyper.nodeAgg (inc x0 x1) (edgeFeat x0 x1 x2 x3) (cur3 x1) b v d := by
  rw [val_main_v45_apply, val_main_v44_apply, node_norm_at, node_sum_at, Ideal.addf_def, Ideal.mulf_def,
    mul_comm (Cert.Hyper.norm _) _]
  rfl

end Cert.RefSide

end
-- ==== Proof.RefFfn.lean ====
/-
  The reference's feed-forward block with its residual is the specification's, as a function of the enhanced node
  features `Y` it is applied to: the hidden layer is the contraction of `Y` with the first weight's rows over the
  features plus the first bias, clamped below at 0; the block's result is the contraction of the hidden layer with the
  second weight's rows plus the second bias; the residual adds `Y` on the left.
-/
import proofs.«155549_j32615981646424_2_alg».proof.Proof.RefIdx
import proofs.«155549_j32615981646424_2_alg».proof.Proof.Spec

noncomputable section

open scoped BigOperators

namespace Cert.RefSide

open Cert.ReferenceIdeal Cert.ReferenceIdeal.ReadP Idealize.ShloMosaic Idealize.ShloMosaic.ValueIdx

variable (x0 x1 : (⟨S8x4096x256, .f32⟩ : BufTy).Contents (Elt Ideal)) (x2 : (⟨S256x256, .f32⟩ : BufTy).Contents (Elt Ideal)) (x3 : (⟨S256, .f32⟩ : BufTy).Contents (Elt Ideal))
  (x4 : (⟨S1024x256, .f32⟩ : BufTy).Contents (Elt Ideal)) (x5 : (⟨S1024, .f32⟩ : BufTy).Contents (Elt Ideal)) (x6 : (⟨S256x1024, .f32⟩ : BufTy).Contents (Elt Ideal)) (x7 : (⟨S256, .f32⟩ : BufTy).Contents (Elt Ideal))
variable (Y : Cert.Hyper.A3 256)

/-- The hidden layer: `relu (Y · W1ᵀ + b1)` at (b, v, j). -/
theorem hidden_at (hY : ∀ (b : Fin 8) (v : Fin 4096) (d : Fin 256), val_main_v45 (F := Ideal) x0 x1 x2 x3 (ix3 b v d) = Y b v d)
    (b : Fin 8) (v : Fin 4096) (j : Fin 1024) :
    val_main_v50 (F := Ideal) x0 x1 x2 x3 x4 x5 (ix3 b v j)
      = max ((∑ k : Fin 256, Y b v k * cur2 x4 j k) + cur1 x5 j) 0 := by
  rw [val_main_v50_apply, val_main_v49_apply, val_main_v46_apply, val_main_v48_apply, idx_v48_at, val_main_v47_apply,
    idx_v47_at, val_main_call2_v0_apply, val_main_call2_cst_apply]
  show max ((∑ k : Fin 256, val_main_v45 (F := Ideal) x0 x1 x2 x3 (lidx_main_v46 (ix3 b v j) k)
      * x4 (ridx_main_v46 (ix3 b v j) k)) + x5 (ix1 j)) (Ideal.ofBits .f32 0x00000000#32) = _
  rw [Ideal.ofBits_zero_f32]
  exact congrArg (fun t => max (t + x5 (ix1 j)) 0)
    (Finset.sum_congr rfl fun k _ => by rw [lidx_v46_at, ridx_v46_at, hY])

/-- The block with its residual: `Y + (relu (Y · W1ᵀ + b1) · W2ᵀ + b2)` at (b, v, d). -/
theorem ffn_at (hY : ∀ (b : Fin 8) (v : Fin 4096) (d : Fin 256), val_main_v45 (F := Ideal) x0 x1 x2 x3 (ix3 b v d) = Y b v d)
    (b : Fin 8) (v : Fin 4096) (d : Fin 256) :
    val_main_v55 (F := Ideal) x0 x1 x2 x3 x4 x5 x6 x7 (ix3 b v d)
      = Cert.Hyper.ffn Y (cur2 x4) (cur1 x5) (cur2 x6) (cur1 x7) b v d := by
  rw [val_main_v55_apply, hY, val_main_v54_apply, val_main_v51_apply, val_main_v53_apply, idx_v53_at, val_main_v52_apply,
    idx_v52_at]
  show Y b v d + ((∑ j : Fin 1024, val_main_v50 (F := Ideal) x0 x1 x2 x3 x4 x5 (lidx_main_v51 (ix3 b v d) j)
      * x6 (ridx_main_v51 (ix3 b v d) j)) + x7 (ix1 d)) = _
  exact congrArg (fun t => Y b v d + (t + x7 (ix1 d)))
    (Finset.sum_congr rfl fun j _ => by rw [lidx_v51_at, ridx_v51_at, hidden_at x0 x1 x2 x3 x4 x5 Y hY])

end Cert.RefSide

end
-- ==== Proof.RefNorm.lean ====
/-
  The reference's layer normalisation is the specification's, as a function of the rows `Q` it normalises: the row
  mean is the sum over the features divided by 256; the variance is the mean of the squared centred entries; the result is the
  centred entry times the reciprocal root of the variance plus ε, times the gain, plus the bias. The reference centres
  twice (once under the variance, once for the result) with the same mean.
-/
import proofs.«155549_j32615981646424_2_alg».proof.Proof.RefIdx
import proofs.«155549_j32615981646424_2_alg».proof.Proof.Spec

noncomputable section

open scoped BigOperators

namespace Cert.RefSide

open Cert.ReferenceIdeal Cert.ReferenceIdeal.ReadP Idealize.ShloMosaic Idealize.ShloMosaic.ValueIdx

variable (x0 x1 : (⟨S8x4096x256, .f32⟩ : BufTy).Contents (Elt Ideal)) (x2 : (⟨S256x256, .f32⟩ : BufTy).Contents (Elt Ideal)) (x3 : (⟨S256, .f32⟩ : BufTy).Contents (Elt Ideal))
  (x4 : (⟨S1024x256, .f32⟩ : BufTy).Contents (Elt Ideal)) (x5 : (⟨S1024, .f32⟩ : BufTy).Contents (Elt Ideal)) (x6 : (⟨S256x1024, .f32⟩ : BufTy).Contents (Elt Ideal)) (x7 : (⟨S256, .f32⟩ : BufTy).Contents (Elt Ideal))
  (x8 x9 : (⟨S256, .f32⟩ : BufTy).Contents (Elt Ideal))
variable (Q : Cert.Hyper.A3 256)

/-- The row mean, kept as a column. -/
theorem mean_at (hQ : ∀ (b : Fin 8) (v : Fin 4096) (d : Fin 256),
      val_main_v55 (F := Ideal) x0 x1 x2 x3 x4 x5 x6 x7 (ix3 b v d) = Q b v d)
    (b : Fin 8) (v : Fin 4096) (z : Fin 1) :
    val_main_v59 (F := Ideal) x0 x1 x2 x3 x4 x5 x6 x7 (ix3 b v z) = Cert.Hyper.rowMean Q b v := by
  rw [val_main_v59_apply, val_main_v57_apply, idx_v57_at, val_main_v56_apply, val_main_cst_12_apply, val_main_v58_apply,
    val_main_cst_13_apply]
  show Ideal.div (Ideal.ofBits .f32 0x00000000#32
      + ∑ k : Fin 256, val_main_v55 (F := Ideal) x0 x1 x2 x3 x4 x5 x6 x7 (idx_main_v56 (ix2 b v) k))
      (Ideal.ofBits .f32 0x43800000#32) = _
  rw [Ideal.ofBits_zero_f32, zero_add]
  exact congrArg (fun t => Ideal.div t (Ideal.ofBits .f32 0x43800000#32))
    (Finset.sum_congr rfl fun k _ => by rw [idx_v56_at, hQ])

/-- The centred entry under the variance. -/
theorem centred_at (hQ : ∀ (b : Fin 8) (v : Fin 4096) (d : Fin 256),
      val_main_v55 (F := Ideal) x0 x1 x2 x3 x4 x5 x6 x7 (ix3 b v d) = Q b v d)
    (b : Fin 8) (v : Fin 4096) (d : Fin 256) :
    val_main_v61 (F := Ideal) x0 x1 x2 x3 x4 x5 x6 x7 (ix3 b v d) = Q b v d - Cert.Hyper.rowMean Q b v := by
  rw [val_main_v61_apply, hQ, val_main_v60_apply, idx_v60_at, mean_at x0 x1 x2 x3 x4 x5 x6 x7 Q hQ, Ideal.subf_def]

/-- The centred entry of the result: the same. -/
theorem centred_out_at (hQ : ∀ (b : Fin 8) (v : Fin 4096) (d : Fin 256),
      val_main_v55 (F := Ideal) x0 x1 x2 x3 x4 x5 x6 x7 (ix3 b v d) = Q b v d)
    (b : Fin 8) (v : Fin 4096) (d : Fin 256) :
    val_main_v68 (F := Ideal) x0 x1 x2 x3 x4 x5 x6 x7 (ix3 b v d) = Q b v d - Cert.Hyper.rowMean Q b v := by
  rw [val_main_v68_apply, hQ, val_main_v67_apply, idx_v67_at, mean_at x0 x1 x2 x3 x4 x5 x6 x7 Q hQ, Ideal.subf_def]

/-- The variance, kept as a column. -/
theorem var_at (hQ : ∀ (b : Fin 8) (v : Fin 4096) (d : Fin 256),
      val_main_v55 (F := Ideal) x0 x1 x2 x3 x4 x5 x6 x7 (ix3 b v d) = Q b v d)
    (b : Fin 8) (v : Fin 4096) (z : Fin 1) :
    val_main_v66 (F := Ideal) x0 x1 x2 x3 x4 x5 x6 x7 (ix3 b v z)
      = Ideal.div (∑ k : Fin 256, (Q b v k - Cert.Hyper.rowMean Q b v) * (Q b v k - Cert.Hyper.rowMean Q b v))
          (Ideal.ofBits .f32 0x43800000#32) := by
  rw [val_main_v66_apply, val_main_v64_apply, idx_v64_at, val_main_v63_apply, val_main_cst_14_apply, val_main_v65_apply,
    val_main_cst_15_apply]
  show Ideal.div (Ideal.ofBits .f32 0x00000000#32
      + ∑ k : Fin 256, val_main_v62 (F := Ideal) x0 x1 x2 x3 x4 x5 x6 x7 (idx_main_v63 (ix2 b v) k))
      (Ideal.ofBits .f32 0x43800000#32) = _
  rw [Ideal.ofBits_zero_f32, zero_add]
  exact congrArg (fun t => Ideal.div t (Ideal.ofBits .f32 0x43800000#32))
    (Finset.sum_congr rfl fun k _ => by
      rw [idx_v63_at, val_main_v62_apply, centred_at x0 x1 x2 x3 x4 x5 x6 x7 Q hQ, Ideal.mulf_def])

/-- The reference's normalised rows are the specification's. -/
theorem layerNorm_at (hQ : ∀ (b : Fin 8) (v : Fin 4096) (d : Fin 256),
      val_main_v55 (F := Ideal) x0 x1 x2 x3 x4 x5 x6 x7 (ix3 b v d) = Q b v d)
    (b : Fin 8) (v : Fin 4096) (d : Fin 256) :
    val_main_v79 (F := Ideal) x0 x1 x2 x3 x4 x5 x6 x7 x8 x9 (ix3 b v d)
      = Cert.Hyper.layerNorm Q (cur1 x8) (cur1 x9) b v d := by
  rw [val_main_v79_apply, val_main_v76_apply, val_main_v73_apply, centred_out_at x0 x1 x2 x3 x4 x5 x6 x7 Q hQ,
    val_main_v72_apply, idx_v72_at, val_main_v71_apply, val_main_v70_apply, var_at x0 x1 x2 x3 x4 x5 x6 x7 Q hQ,
    val_main_v69_apply, val_main_cst_16_apply, val_main_v75_apply, idx_v75_at, val_main_v74_apply, idx_v74_at,
    val_main_v78_apply, idx_v78_at, val_main_v77_apply, idx_v77_at]
  rfl

end Cert.RefSide

end
-- ==== Proof.Ref.lean ====
/-
  The reference computes the specification. Read at the index (b, v, d), the reference's result is the hypergraph
  layer `Cert.Hyper.layer` of the ten argument arrays read curried: the incidence, the projected node features, the two
  mean aggregations, the feed-forward block with its residual and the layer normalisation each agree with the
  specification's, and they compose as the specification composes them.
-/
import proofs.«155549_j32615981646424_2_alg».proof.Proof.RefAgg
import proofs.«155549_j32615981646424_2_alg».proof.Proof.RefFfn
import proofs.«155549_j32615981646424_2_alg».proof.Proof.RefNorm

noncomputable section

open scoped BigOperators

namespace Cert.RefSide

open Cert.ReferenceIdeal Cert.ReferenceIdeal.ReadP Idealize.ShloMosaic Idealize.ShloMosaic.ValueIdx

/-- The reference's last stage, as a function of the ten arguments, is the layer. -/
theorem layer_at (x0 x1 : (⟨S8x4096x256, .f32⟩ : BufTy).Contents (Elt Ideal)) (x2 : (⟨S256x256, .f32⟩ : BufTy).Contents (Elt Ideal)) (x3 : (⟨S256, .f32⟩ : BufTy).Contents (Elt Ideal))
  (x4 : (⟨S1024x256, .f32⟩ : BufTy).Contents (Elt Ideal)) (x5 : (⟨S1024, .f32⟩ : BufTy).Contents (Elt Ideal)) (x6 : (⟨S256x1024, .f32⟩ : BufTy).Contents (Elt Ideal)) (x7 : (⟨S256, .f32⟩ : BufTy).Contents (Elt Ideal))
    (x8 x9 : (⟨S256, .f32⟩ : BufTy).Contents (Elt Ideal)) (b : Fin 8) (v : Fin 4096) (d : Fin 256) :
    val_main_v79 (F := Ideal) x0 x1 x2 x3 x4 x5 x6 x7 x8 x9 (ix3 b v d)
      = Cert.Hyper.layer (cur3 x0) (cur3 x1) (cur2 x2) (cur1 x3) (cur2 x4) (cur1 x5) (cur2 x6) (cur1 x7) (cur1 x8)
          (cur1 x9) b v d :=
  layerNorm_at x0 x1 x2 x3 x4 x5 x6 x7 x8 x9
    (Cert.Hyper.ffn (Cert.Hyper.nodeAgg (inc x0 x1) (edgeFeat x0 x1 x2 x3) (cur3 x1)) (cur2 x4) (cur1 x5) (cur2 x6)
      (cur1 x7))
    (fun b v d => ffn_at x0 x1 x2 x3 x4 x5 x6 x7
      (Cert.Hyper.nodeAgg (inc x0 x1) (edgeFeat x0 x1 x2 x3) (cur3 x1))
      (fun b v d => node_feat_at x0 x1 x2 x3 b v d) b v d)
    b v d

/-- The reference run's result, read at (b, v, d), is the layer of the launch contents of the ten arguments. -/
theorem result_eq
    (m : (ℓ : Loc Cert.ReferenceIdeal.nD Cert.ReferenceIdeal.τ Cert.ReferenceIdeal.sig) → Buf (Elt Ideal) ℓ)
    (c : Dev Cert.ReferenceIdeal.nD) (b : Fin 8) (v : Fin 4096) (d : Fin 256) :
    Cert.ReferenceIdeal.ValueP.res_out0 (F := Ideal) m c (ix3 b v d)
      = Cert.Hyper.layer
          (fun b n k => m ((c.tc : Thread _ Cert.ReferenceIdeal.τ).loc Cert.ReferenceIdeal.main_arg0) (ix3 b n k))
          (fun b n k => m ((c.tc : Thread _ Cert.ReferenceIdeal.τ).loc Cert.ReferenceIdeal.main_arg1) (ix3 b n k))
          (fun e k => m ((c.tc : Thread _ Cert.ReferenceIdeal.τ).loc Cert.ReferenceIdeal.main_arg2) (ix2 e k))
          (fun e => m ((c.tc : Thread _ Cert.ReferenceIdeal.τ).loc Cert.ReferenceIdeal.main_arg3) (ix1 e))
          (fun j k => m ((c.tc : Thread _ Cert.ReferenceIdeal.τ).loc Cert.ReferenceIdeal.main_arg4) (ix2 j k))
          (fun j => m ((c.tc : Thread _ Cert.ReferenceIdeal.τ).loc Cert.ReferenceIdeal.main_arg5) (ix1 j))
          (fun d j => m ((c.tc : Thread _ Cert.ReferenceIdeal.τ).loc Cert.ReferenceIdeal.main_arg6) (ix2 d j))
          (fun d => m ((c.tc : Thread _ Cert.ReferenceIdeal.τ).loc Cert.ReferenceIdeal.main_arg7) (ix1 d))
          (fun d => m ((c.tc : Thread _ Cert.ReferenceIdeal.τ).loc Cert.ReferenceIdeal.main_arg8) (ix1 d))
          (fun d => m ((c.tc : Thread _ Cert.ReferenceIdeal.τ).loc Cert.ReferenceIdeal.main_arg9) (ix1 d)) b v d :=
  (congrFun (val_main_v79_eq (F := Ideal) m c) (ix3 b v d)).trans
    (layer_at (m ((c.tc : Thread _ Cert.ReferenceIdeal.τ).loc Cert.ReferenceIdeal.main_arg0)) (m ((c.tc : Thread _ Cert.ReferenceIdeal.τ).loc Cert.ReferenceIdeal.main_arg1)) (m ((c.tc : Thread _ Cert.ReferenceIdeal.τ).loc Cert.ReferenceIdeal.main_arg2)) (m ((c.tc : Thread _ Cert.ReferenceIdeal.τ).loc Cert.ReferenceIdeal.main_arg3)) (m ((c.tc : Thread _ Cert.ReferenceIdeal.τ).loc Cert.ReferenceIdeal.main_arg4))
      (m ((c.tc : Thread _ Cert.ReferenceIdeal.τ).loc Cert.ReferenceIdeal.main_arg5)) (m ((c.tc : Thread _ Cert.ReferenceIdeal.τ).loc Cert.ReferenceIdeal.main_arg6)) (m ((c.tc : Thread _ Cert.ReferenceIdeal.τ).loc Cert.ReferenceIdeal.main_arg7)) (m ((c.tc : Thread _ Cert.ReferenceIdeal.τ).loc Cert.ReferenceIdeal.main_arg8)) (m ((c.tc : Thread _ Cert.ReferenceIdeal.τ).loc Cert.ReferenceIdeal.main_arg9)) b v d)

end Cert.RefSide

end
-- ==== Proof.lean ====
/-
  The certificate of the hypergraph message-passing layer: a three-kernel pipeline (the projection of the node features; the
  incidence mask with the hyperedge aggregation, accumulated over row tiles; the node aggregation accumulated over column
  tiles, then a feed-forward block, a residual and a layer normalisation) against the plain array program.

  * The three frames. Each kernel program is three regions in a row; every region is run point by point with the contents of
    its staging buffers and of the two accumulators it carries between grid points named, so every execution terminates
    without a fault and no region writes an argument array. The reference is a straight line of host operations.
  * The one rewritten round trip (a 0/1 mask narrowed to bf16 and widened again) is the identity on the extended reals.
  * Over the extended reals both programs compute ONE function of the ten arguments (`Cert.Hyper.layer`): tile by tile
    accumulation is a regrouping of a finite sum; the kernel's test "squared distance below 529" is the reference's
    "distance below 23" because the square root is monotone and 23² = 529; and 1 / max(count, 1) is 1 / count when the
    count, a sum of zeros and ones, is positive.
-/
import proofs.«155549_j32615981646424_2_alg».proof.Defs
import proofs.«155549_j32615981646424_2_alg».proof.Proof.Gen.Kernel
import proofs.«155549_j32615981646424_2_alg».proof.Proof.Gen.KernelIdeal
import proofs.«155549_j32615981646424_2_alg».proof.Proof.Gen.ReferenceIdeal
import proofs.«155549_j32615981646424_2_alg».proof.Proof.Gen.Pre_finite_inputs
import proofs.«155549_j32615981646424_2_alg».proof.Proof.K.Walk
import proofs.«155549_j32615981646424_2_alg».proof.Proof.KI.Whole
import proofs.«155549_j32615981646424_2_alg».proof.Proof.Ref
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

/-- Narrowing a value to bf16 and widening it back is the identity on the extended reals. -/
theorem preserves : Cert.preserves_Kernel_KernelIdeal := IdealRules.truncf_extf.statement _ .f32 .bf16

/-- Both idealized programs end with the layer of the (agreeing) arguments. -/
theorem algebraic : Cert.algebraic_KernelIdeal_ReferenceIdeal := by
  intro m ρ m' ρ' _ hagree
  refine ⟨fun c => Cert.KernelIdeal.Run.Wd m ρ c (Proc.devRef .tc Cert.KernelIdeal.main_v2), ?_, ?_⟩
  · exact (θ_run Cert.KernelIdeal.defs _ _).mono (fun r h c => ⟨h c _ (Cert.KernelIdeal.Run.mem_uc Cert.KernelIdeal.main_v2 (by decide)),
      (h c _ (Cert.KernelIdeal.Run.mem_uc Cert.KernelIdeal.main_arg0 (by decide))).trans (Cert.KernelIdeal.Run.Wd_main_arg0 m ρ c),
      (h c _ (Cert.KernelIdeal.Run.mem_uc Cert.KernelIdeal.main_arg1 (by decide))).trans (Cert.KernelIdeal.Run.Wd_main_arg1 m ρ c),
      (h c _ (Cert.KernelIdeal.Run.mem_uc Cert.KernelIdeal.main_arg2 (by decide))).trans (Cert.KernelIdeal.Run.Wd_main_arg2 m ρ c),
      (h c _ (Cert.KernelIdeal.Run.mem_uc Cert.KernelIdeal.main_arg3 (by decide))).trans (Cert.KernelIdeal.Run.Wd_main_arg3 m ρ c),
      (h c _ (Cert.KernelIdeal.Run.mem_uc Cert.KernelIdeal.main_arg4 (by decide))).trans (Cert.KernelIdeal.Run.Wd_main_arg4 m ρ c),
      (h c _ (Cert.KernelIdeal.Run.mem_uc Cert.KernelIdeal.main_arg5 (by decide))).trans (Cert.KernelIdeal.Run.Wd_main_arg5 m ρ c),
      (h c _ (Cert.KernelIdeal.Run.mem_uc Cert.KernelIdeal.main_arg6 (by decide))).trans (Cert.KernelIdeal.Run.Wd_main_arg6 m ρ c),
      (h c _ (Cert.KernelIdeal.Run.mem_uc Cert.KernelIdeal.main_arg7 (by decide))).trans (Cert.KernelIdeal.Run.Wd_main_arg7 m ρ c),
      (h c _ (Cert.KernelIdeal.Run.mem_uc Cert.KernelIdeal.main_arg8 (by decide))).trans (Cert.KernelIdeal.Run.Wd_main_arg8 m ρ c),
      (h c _ (Cert.KernelIdeal.Run.mem_uc Cert.KernelIdeal.main_arg9 (by decide))).trans (Cert.KernelIdeal.Run.Wd_main_arg9 m ρ c)⟩)
      (Cert.KernelIdeal.Run.run_all (F := Ideal) m ρ)
  · refine (θ_run Cert.ReferenceIdeal.defs _ _).mono (fun _ h c => ⟨(h c).1.trans ?_, (h c).2⟩)
      (Cert.ReferenceIdeal.ValueP.run (F := Ideal) m' ρ')
    funext i
    obtain ⟨b, v, d, rfl⟩ : ∃ (b : Fin 8) (v : Fin 4096) (d : Fin 256), i = ix3 b v d := ⟨i 0, i 1, i 2, eq_ix3 i⟩
    refine (Cert.RefSide.result_eq m' c b v d).trans ?_
    refine Eq.trans ?_ (Cert.KernelIdeal.Whole.result_eq m ρ c b v d).symm
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
